-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x200 : Shape := ⟨2, ![1024, 200]⟩
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1024x200 : S_.BroadcastsInDim S1024x200 (![] : Fin 0 → Fin S1024x200.rank)
  reducesTo_S1024x200_S_d0_1 : S1024x200.ReducesTo [0, 1] S_

variable [Facts]

def fn {F : FTy → Type} [FloatOps F] (main_arg0 : IVec S1024x200 32) (main_arg1 : FVec F S100000x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S1024x200 32 := broadcastInDim S1024x200 ![] bcast_S_S1024x200 main_c_0
  let main_v5 : IVec S1024x200 1 := cmpi .sge main_arg0 main_v4
  let main_c_1 : IVec S_ 32 := constantI S_ 32 99999#32
  let main_v6 : IVec S1024x200 32 := broadcastInDim S1024x200 ![] bcast_S_S1024x200 main_c_1
  let main_v7 : IVec S1024x200 1 := cmpi .sle main_arg0 main_v6
  let main_v8 : IVec S1024x200 1 := andi main_v5 main_v7
  let main_c_2 : IVec S_ 1 := constantI S_ 1 1#1
  let main_v9 : IVec S_ 1 := (fun x v => Host.reduce IntOp.andi x v reducesTo_S1024x200_S_d0_1 h_S_) main_v8 main_c_2
  let main_v10 : IVec S_ 1 := andi main_v3 main_v9
  main_v10
-- ==== Kernel.lean ====
abbrev S1024x200 : Shape := ⟨2, ![1024, 200]⟩
abbrev S100000x128 : Shape := ⟨2, ![100000, 128]⟩
abbrev S32x100x64 : Shape := ⟨3, ![32, 100, 64]⟩
abbrev S32x100x64x128 : Shape := ⟨4, ![32, 100, 64, 128]⟩
abbrev S100x64 : Shape := ⟨2, ![100, 64]⟩
abbrev S10x64x128 : Shape := ⟨3, ![10, 64, 128]⟩
abbrev S10 : Shape := ⟨1, ![10]⟩
abbrev S_ : Shape := ⟨0, ![]⟩
abbrev S1x100x64 : Shape := ⟨3, ![1, 100, 64]⟩
abbrev S1x64x128 : Shape := ⟨3, ![1, 64, 128]⟩
abbrev S64x128 : Shape := ⟨2, ![64, 128]⟩
abbrev S1x64 : Shape := ⟨2, ![1, 64]⟩
abbrev S64 : Shape := ⟨1, ![64]⟩
abbrev S1 : Shape := ⟨1, ![1]⟩
abbrev S1x1x64x128 : Shape := ⟨4, ![1, 1, 64, 128]⟩
abbrev S1024x200x128 : Shape := ⟨3, ![1024, 200, 128]⟩
abbrev S1024 : Shape := ⟨1, ![1024]⟩

abbrev nBuf : Table → Nat
  | .hbm => 7
  | .local .scVector .vmem => 2
  | _ => 0

abbrev bufTy : (tb : Table) → Fin (nBuf tb) → BufTy
  | .hbm, ⟨0, _⟩ => ⟨S1024x200, .i32⟩
  | .hbm, ⟨1, _⟩ => ⟨S100000x128, .f32⟩
  | .hbm, ⟨2, _⟩ => ⟨S32x100x64, .i32⟩
  | .hbm, ⟨3, _⟩ => ⟨S32x100x64x128, .f32⟩
  | .hbm, ⟨4, _⟩ => ⟨S1024x200x128, .f32⟩
  | .hbm, ⟨5, _⟩ => ⟨S_, .i32⟩
  | .hbm, ⟨6, _⟩ => ⟨S1024, .i32⟩
  | .local .scVector .vmem, ⟨0, _⟩ => ⟨S100x64, .i32⟩
  | .local .scVector .vmem, ⟨1, _⟩ => ⟨S10x64x128, .f32⟩
  | _, _ => ⟨S1024x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_185_r0 : BitVec 32 := 0#32
  let c0_i32_186_r0 : BitVec 32 := 0#32
  ![v1.toNat, 0, 0]
@[reducible] def k0_t1_loop : Scf.Loop 32 :=
  let c0_i32_72 : BitVec 32 := 0#32
  let c10_i32 : BitVec 32 := 10#32
  let v72 : BitVec 32 := Scalar.addi c0_i32_72 c10_i32
  let c1_i32_73 : BitVec 32 := 1#32
  ⟨c0_i32_72, v72, c1_i32_73⟩
def k0_off2 (i : grid0.Coords) (k0_t1 : Fin k0_t1_loop.trips) (c0_i32_186 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_72 : BitVec 32 := 0#32
  let c1_i32_73 : BitVec 32 := 1#32
  let arg9 : BitVec 32 := Scf.iv c0_i32_72 c1_i32_73 k0_t1
  let c10_i32_185 : BitVec 32 := 10#32
  let v174 : BitVec 32 := Scalar.muli arg9 c10_i32_185
  let v175 : BitVec 32 := Scalar.addi v174 c0_i32_186
  let c0_i32_199 : BitVec 32 := 0#32
  let c0_i32_200 : BitVec 32 := 0#32
  ![v1.toNat, v175.toNat, 0, 0]
def k0_cond1 (k0_t1 : Fin k0_t1_loop.trips) : BitVec 1 :=
  let c0_i32_72 : BitVec 32 := 0#32
  let c1_i32_73 : BitVec 32 := 1#32
  let arg9 : BitVec 32 := Scf.iv c0_i32_72 c1_i32_73 k0_t1
  let c10_i32_185 : BitVec 32 := 10#32
  let v174 : BitVec 32 := Scalar.muli arg9 c10_i32_185
  let c0_i32_186 : BitVec 32 := 0#32
  let v175 : BitVec 32 := Scalar.addi v174 c0_i32_186
  let c1_i32_205 : BitVec 32 := 1#32
  let v193 : BitVec 1 := Scalar.cmpi .sge v175 c1_i32_205
  let c10_i32_206 : BitVec 32 := 10#32
  let v194 : BitVec 32 := Scalar.addi v175 c10_i32_206
  let c1_i32_207 : BitVec 32 := 1#32
  let v195 : BitVec 32 := Scalar.subi v194 c1_i32_207
  let c100_i32 : BitVec 32 := 100#32
  let v196 : BitVec 1 := Scalar.cmpi .slt v195 c100_i32
  let v197 : BitVec 1 := Scalar.andi v193 v196
  let v198 : BitVec 32 := Scalar.extui v197
  let c0_i32_208 : BitVec 32 := 0#32
  let v199 : BitVec 1 := Scalar.cmpi .ne v198 c0_i32_208
  v199

def k0_off3 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_436 : BitVec 32 := 0#32
  let c0_i32_440 : BitVec 32 := 0#32
  let c0_i32_441 : BitVec 32 := 0#32
  ![v1.toNat, 0, 0, 0]
def k0_off4 (k0_t1 : Fin k0_t1_loop.trips) : Fin 2 → Nat :=
  let c0_i32_72 : BitVec 32 := 0#32
  let c1_i32_73 : BitVec 32 := 1#32
  let arg9 : BitVec 32 := Scf.iv c0_i32_72 c1_i32_73 k0_t1
  let c10_i32_185 : BitVec 32 := 10#32
  let v174 : BitVec 32 := Scalar.muli arg9 c10_i32_185
  let c0_i32_186 : BitVec 32 := 0#32
  let v175 : BitVec 32 := Scalar.addi v174 c0_i32_186
  let c10_i32_446 : BitVec 32 := 10#32
  let v444 : BitVec 32 := Scalar.addi v175 c10_i32_446
  let c1_i32_447 : BitVec 32 := 1#32
  let v445 : BitVec 32 := Scalar.subi v444 c1_i32_447
  let c0_i32_452 : BitVec 32 := 0#32
  ![v445.toNat, 0]
def k0_cond2 (k0_t1 : Fin k0_t1_loop.trips) : BitVec 1 :=
  let c0_i32_72 : BitVec 32 := 0#32
  let c1_i32_73 : BitVec 32 := 1#32
  let arg9 : BitVec 32 := Scf.iv c0_i32_72 c1_i32_73 k0_t1
  let c10_i32_209 : BitVec 32 := 10#32
  let v200 : BitVec 32 := Scalar.muli arg9 c10_i32_209
  let c1_i32_210 : BitVec 32 := 1#32
  let v201 : BitVec 32 := Scalar.addi v200 c1_i32_210
  let c1_i32_229 : BitVec 32 := 1#32
  let v219 : BitVec 1 := Scalar.cmpi .sge v201 c1_i32_229
  let c10_i32_230 : BitVec 32 := 10#32
  let v220 : BitVec 32 := Scalar.addi v201 c10_i32_230
  let c1_i32_231 : BitVec 32 := 1#32
  let v221 : BitVec 32 := Scalar.subi v220 c1_i32_231
  let c100_i32_232 : BitVec 32 := 100#32
  let v222 : BitVec 1 := Scalar.cmpi .slt v221 c100_i32_232
  let v223 : BitVec 1 := Scalar.andi v219 v222
  let v224 : BitVec 32 := Scalar.extui v223
  let c0_i32_233 : BitVec 32 := 0#32
  let v225 : BitVec 1 := Scalar.cmpi .ne v224 c0_i32_233
  v225

def k0_off5 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_436 : BitVec 32 := 0#32
  let c0_i32_440 : BitVec 32 := 0#32
  let c0_i32_441 : BitVec 32 := 0#32
  ![v1.toNat, 0, 0, 0]
def k0_off6 (k0_t1 : Fin k0_t1_loop.trips) : Fin 2 → Nat :=
  let c0_i32_72 : BitVec 32 := 0#32
  let c1_i32_73 : BitVec 32 := 1#32
  let arg9 : BitVec 32 := Scf.iv c0_i32_72 c1_i32_73 k0_t1
  let c10_i32_209 : BitVec 32 := 10#32
  let v200 : BitVec 32 := Scalar.muli arg9 c10_i32_209
  let c1_i32_210 : BitVec 32 := 1#32
  let v201 : BitVec 32 := Scalar.addi v200 c1_i32_210
  let c10_i32_446 : BitVec 32 := 10#32
  let v444 : BitVec 32 := Scalar.addi v201 c10_i32_446
  let c1_i32_447 : BitVec 32 := 1#32
  let v445 : BitVec 32 := Scalar.subi v444 c1_i32_447
  let c0_i32_452 : BitVec 32 := 0#32
  ![v445.toNat, 0]
def k0_cond3 (k0_t1 : Fin k0_t1_loop.trips) : BitVec 1 :=
  let c0_i32_72 : BitVec 32 := 0#32
  let c1_i32_73 : BitVec 32 := 1#32
  let arg9 : BitVec 32 := Scf.iv c0_i32_72 c1_i32_73 k0_t1
  let c10_i32_234 : BitVec 32 := 10#32
  let v226 : BitVec 32 := Scalar.muli arg9 c10_i32_234
  let c2_i32_235 : BitVec 32 := 2#32
  let v227 : BitVec 32 := Scalar.addi v226 c2_i32_235
  let c1_i32_254 : BitVec 32 := 1#32
  let v245 : BitVec 1 := Scalar.cmpi .sge v227 c1_i32_254
  let c10_i32_255 : BitVec 32 := 10#32
  let v246 : BitVec 32 := Scalar.addi v227 c10_i32_255
  let c1_i32_256 : BitVec 32 := 1#32
  let v247 : BitVec 32 := Scalar.subi v246 c1_i32_256
  let c100_i32_257 : BitVec 32 := 100#32
  let v248 : BitVec 1 := Scalar.cmpi .slt v247 c100_i32_257
  let v249 : BitVec 1 := Scalar.andi v245 v248
  let v250 : BitVec 32 := Scalar.extui v249
  let c0_i32_258 : BitVec 32 := 0#32
  let v251 : BitVec 1 := Scalar.cmpi .ne v250 c0_i32_258
  v251

def k0_off7 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_436 : BitVec 32 := 0#32
  let c0_i32_440 : BitVec 32 := 0#32
  let c0_i32_441 : BitVec 32 := 0#32
  ![v1.toNat, 0, 0, 0]
def k0_off8 (k0_t1 : Fin k0_t1_loop.trips) : Fin 2 → Nat :=
  let c0_i32_72 : BitVec 32 := 0#32
  let c1_i32_73 : BitVec 32 := 1#32
  let arg9 : BitVec 32 := Scf.iv c0_i32_72 c1_i32_73 k0_t1
  let c10_i32_234 : BitVec 32 := 10#32
  let v226 : BitVec 32 := Scalar.muli arg9 c10_i32_234
  let c2_i32_235 : BitVec 32 := 2#32
  let v227 : BitVec 32 := Scalar.addi v226 c2_i32_235
  let c10_i32_446 : BitVec 32 := 10#32
  let v444 : BitVec 32 := Scalar.addi v227 c10_i32_446
  let c1_i32_447 : BitVec 32 := 1#32
  let v445 : BitVec 32 := Scalar.subi v444 c1_i32_447
  let c0_i32_452 : BitVec 32 := 0#32
  ![v445.toNat, 0]
def k0_cond4 (k0_t1 : Fin k0_t1_loop.trips) : BitVec 1 :=
  let c0_i32_72 : BitVec 32 := 0#32
  let c1_i32_73 : BitVec 32 := 1#32
  let arg9 : BitVec 32 := Scf.iv c0_i32_72 c1_i32_73 k0_t1
  let c10_i32_259 : BitVec 32 := 10#32
  let v252 : BitVec 32 := Scalar.muli arg9 c10_i32_259
  let c3_i32_260 : BitVec 32 := 3#32
  let v253 : BitVec 32 := Scalar.addi v252 c3_i32_260
  let c1_i32_279 : BitVec 32 := 1#32
  let v271 : BitVec 1 := Scalar.cmpi .sge v253 c1_i32_279
  let c10_i32_280 : BitVec 32 := 10#32
  let v272 : BitVec 32 := Scalar.addi v253 c10_i32_280
  let c1_i32_281 : BitVec 32 := 1#32
  let v273 : BitVec 32 := Scalar.subi v272 c1_i32_281
  let c100_i32_282 : BitVec 32 := 100#32
  let v274 : BitVec 1 := Scalar.cmpi .slt v273 c100_i32_282
  let v275 : BitVec 1 := Scalar.andi v271 v274
  let v276 : BitVec 32 := Scalar.extui v275
  let c0_i32_283 : BitVec 32 := 0#32
  let v277 : BitVec 1 := Scalar.cmpi .ne v276 c0_i32_283
  v277

def k0_off9 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_436 : BitVec 32 := 0#32
  let c0_i32_440 : BitVec 32 := 0#32
  let c0_i32_441 : BitVec 32 := 0#32
  ![v1.toNat, 0, 0, 0]
def k0_off10 (k0_t1 : Fin k0_t1_loop.trips) : Fin 2 → Nat :=
  let c0_i32_72 : BitVec 32 := 0#32
  let c1_i32_73 : BitVec 32 := 1#32
  let arg9 : BitVec 32 := Scf.iv c0_i32_72 c1_i32_73 k0_t1
  let c10_i32_259 : BitVec 32 := 10#32
  let v252 : BitVec 32 := Scalar.muli arg9 c10_i32_259
  let c3_i32_260 : BitVec 32 := 3#32
  let v253 : BitVec 32 := Scalar.addi v252 c3_i32_260
  let c10_i32_446 : BitVec 32 := 10#32
  let v444 : BitVec 32 := Scalar.addi v253 c10_i32_446
  let c1_i32_447 : BitVec 32 := 1#32
  let v445 : BitVec 32 := Scalar.subi v444 c1_i32_447
  let c0_i32_452 : BitVec 32 := 0#32
  ![v445.toNat, 0]
def k0_cond5 (k0_t1 : Fin k0_t1_loop.trips) : BitVec 1 :=
  let c0_i32_72 : BitVec 32 := 0#32
  let c1_i32_73 : BitVec 32 := 1#32
  let arg9 : BitVec 32 := Scf.iv c0_i32_72 c1_i32_73 k0_t1
  let c10_i32_284 : BitVec 32 := 10#32
  let v278 : BitVec 32 := Scalar.muli arg9 c10_i32_284
  let c4_i32_285 : BitVec 32 := 4#32
  let v279 : BitVec 32 := Scalar.addi v278 c4_i32_285
  let c1_i32_304 : BitVec 32 := 1#32
  let v297 : BitVec 1 := Scalar.cmpi .sge v279 c1_i32_304
  let c10_i32_305 : BitVec 32 := 10#32
  let v298 : BitVec 32 := Scalar.addi v279 c10_i32_305
  let c1_i32_306 : BitVec 32 := 1#32
  let v299 : BitVec 32 := Scalar.subi v298 c1_i32_306
  let c100_i32_307 : BitVec 32 := 100#32
  let v300 : BitVec 1 := Scalar.cmpi .slt v299 c100_i32_307
  let v301 : BitVec 1 := Scalar.andi v297 v300
  let v302 : BitVec 32 := Scalar.extui v301
  let c0_i32_308 : BitVec 32 := 0#32
  let v303 : BitVec 1 := Scalar.cmpi .ne v302 c0_i32_308
  v303

def k0_off11 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_436 : BitVec 32 := 0#32
  let c0_i32_440 : BitVec 32 := 0#32
  let c0_i32_441 : BitVec 32 := 0#32
  ![v1.toNat, 0, 0, 0]
def k0_off12 (k0_t1 : Fin k0_t1_loop.trips) : Fin 2 → Nat :=
  let c0_i32_72 : BitVec 32 := 0#32
  let c1_i32_73 : BitVec 32 := 1#32
  let arg9 : BitVec 32 := Scf.iv c0_i32_72 c1_i32_73 k0_t1
  let c10_i32_284 : BitVec 32 := 10#32
  let v278 : BitVec 32 := Scalar.muli arg9 c10_i32_284
  let c4_i32_285 : BitVec 32 := 4#32
  let v279 : BitVec 32 := Scalar.addi v278 c4_i32_285
  let c10_i32_446 : BitVec 32 := 10#32
  let v444 : BitVec 32 := Scalar.addi v279 c10_i32_446
  let c1_i32_447 : BitVec 32 := 1#32
  let v445 : BitVec 32 := Scalar.subi v444 c1_i32_447
  let c0_i32_452 : BitVec 32 := 0#32
  ![v445.toNat, 0]
def k0_cond6 (k0_t1 : Fin k0_t1_loop.trips) : BitVec 1 :=
  let c0_i32_72 : BitVec 32 := 0#32
  let c1_i32_73 : BitVec 32 := 1#32
  let arg9 : BitVec 32 := Scf.iv c0_i32_72 c1_i32_73 k0_t1
  let c10_i32_309 : BitVec 32 := 10#32
  let v304 : BitVec 32 := Scalar.muli arg9 c10_i32_309
  let c5_i32_310 : BitVec 32 := 5#32
  let v305 : BitVec 32 := Scalar.addi v304 c5_i32_310
  let c1_i32_329 : BitVec 32 := 1#32
  let v323 : BitVec 1 := Scalar.cmpi .sge v305 c1_i32_329
  let c10_i32_330 : BitVec 32 := 10#32
  let v324 : BitVec 32 := Scalar.addi v305 c10_i32_330
  let c1_i32_331 : BitVec 32 := 1#32
  let v325 : BitVec 32 := Scalar.subi v324 c1_i32_331
  let c100_i32_332 : BitVec 32 := 100#32
  let v326 : BitVec 1 := Scalar.cmpi .slt v325 c100_i32_332
  let v327 : BitVec 1 := Scalar.andi v323 v326
  let v328 : BitVec 32 := Scalar.extui v327
  let c0_i32_333 : BitVec 32 := 0#32
  let v329 : BitVec 1 := Scalar.cmpi .ne v328 c0_i32_333
  v329

def k0_off13 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_436 : BitVec 32 := 0#32
  let c0_i32_440 : BitVec 32 := 0#32
  let c0_i32_441 : BitVec 32 := 0#32
  ![v1.toNat, 0, 0, 0]
def k0_off14 (k0_t1 : Fin k0_t1_loop.trips) : Fin 2 → Nat :=
  let c0_i32_72 : BitVec 32 := 0#32
  let c1_i32_73 : BitVec 32 := 1#32
  let arg9 : BitVec 32 := Scf.iv c0_i32_72 c1_i32_73 k0_t1
  let c10_i32_309 : BitVec 32 := 10#32
  let v304 : BitVec 32 := Scalar.muli arg9 c10_i32_309
  let c5_i32_310 : BitVec 32 := 5#32
  let v305 : BitVec 32 := Scalar.addi v304 c5_i32_310
  let c10_i32_446 : BitVec 32 := 10#32
  let v444 : BitVec 32 := Scalar.addi v305 c10_i32_446
  let c1_i32_447 : BitVec 32 := 1#32
  let v445 : BitVec 32 := Scalar.subi v444 c1_i32_447
  let c0_i32_452 : BitVec 32 := 0#32
  ![v445.toNat, 0]
def k0_cond7 (k0_t1 : Fin k0_t1_loop.trips) : BitVec 1 :=
  let c0_i32_72 : BitVec 32 := 0#32
  let c1_i32_73 : BitVec 32 := 1#32
  let arg9 : BitVec 32 := Scf.iv c0_i32_72 c1_i32_73 k0_t1
  let c10_i32_334 : BitVec 32 := 10#32
  let v330 : BitVec 32 := Scalar.muli arg9 c10_i32_334
  let c6_i32_335 : BitVec 32 := 6#32
  let v331 : BitVec 32 := Scalar.addi v330 c6_i32_335
  let c1_i32_354 : BitVec 32 := 1#32
  let v349 : BitVec 1 := Scalar.cmpi .sge v331 c1_i32_354
  let c10_i32_355 : BitVec 32 := 10#32
  let v350 : BitVec 32 := Scalar.addi v331 c10_i32_355
  let c1_i32_356 : BitVec 32 := 1#32
  let v351 : BitVec 32 := Scalar.subi v350 c1_i32_356
  let c100_i32_357 : BitVec 32 := 100#32
  let v352 : BitVec 1 := Scalar.cmpi .slt v351 c100_i32_357
  let v353 : BitVec 1 := Scalar.andi v349 v352
  let v354 : BitVec 32 := Scalar.extui v353
  let c0_i32_358 : BitVec 32 := 0#32
  let v355 : BitVec 1 := Scalar.cmpi .ne v354 c0_i32_358
  v355

def k0_off15 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_436 : BitVec 32 := 0#32
  let c0_i32_440 : BitVec 32 := 0#32
  let c0_i32_441 : BitVec 32 := 0#32
  ![v1.toNat, 0, 0, 0]
def k0_off16 (k0_t1 : Fin k0_t1_loop.trips) : Fin 2 → Nat :=
  let c0_i32_72 : BitVec 32 := 0#32
  let c1_i32_73 : BitVec 32 := 1#32
  let arg9 : BitVec 32 := Scf.iv c0_i32_72 c1_i32_73 k0_t1
  let c10_i32_334 : BitVec 32 := 10#32
  let v330 : BitVec 32 := Scalar.muli arg9 c10_i32_334
  let c6_i32_335 : BitVec 32 := 6#32
  let v331 : BitVec 32 := Scalar.addi v330 c6_i32_335
  let c10_i32_446 : BitVec 32 := 10#32
  let v444 : BitVec 32 := Scalar.addi v331 c10_i32_446
  let c1_i32_447 : BitVec 32 := 1#32
  let v445 : BitVec 32 := Scalar.subi v444 c1_i32_447
  let c0_i32_452 : BitVec 32 := 0#32
  ![v445.toNat, 0]
def k0_cond8 (k0_t1 : Fin k0_t1_loop.trips) : BitVec 1 :=
  let c0_i32_72 : BitVec 32 := 0#32
  let c1_i32_73 : BitVec 32 := 1#32
  let arg9 : BitVec 32 := Scf.iv c0_i32_72 c1_i32_73 k0_t1
  let c10_i32_359 : BitVec 32 := 10#32
  let v356 : BitVec 32 := Scalar.muli arg9 c10_i32_359
  let c7_i32_360 : BitVec 32 := 7#32
  let v357 : BitVec 32 := Scalar.addi v356 c7_i32_360
  let c1_i32_379 : BitVec 32 := 1#32
  let v375 : BitVec 1 := Scalar.cmpi .sge v357 c1_i32_379
  let c10_i32_380 : BitVec 32 := 10#32
  let v376 : BitVec 32 := Scalar.addi v357 c10_i32_380
  let c1_i32_381 : BitVec 32 := 1#32
  let v377 : BitVec 32 := Scalar.subi v376 c1_i32_381
  let c100_i32_382 : BitVec 32 := 100#32
  let v378 : BitVec 1 := Scalar.cmpi .slt v377 c100_i32_382
  let v379 : BitVec 1 := Scalar.andi v375 v378
  let v380 : BitVec 32 := Scalar.extui v379
  let c0_i32_383 : BitVec 32 := 0#32
  let v381 : BitVec 1 := Scalar.cmpi .ne v380 c0_i32_383
  v381

def k0_off17 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_436 : BitVec 32 := 0#32
  let c0_i32_440 : BitVec 32 := 0#32
  let c0_i32_441 : BitVec 32 := 0#32
  ![v1.toNat, 0, 0, 0]
def k0_off18 (k0_t1 : Fin k0_t1_loop.trips) : Fin 2 → Nat :=
  let c0_i32_72 : BitVec 32 := 0#32
  let c1_i32_73 : BitVec 32 := 1#32
  let arg9 : BitVec 32 := Scf.iv c0_i32_72 c1_i32_73 k0_t1
  let c10_i32_359 : BitVec 32 := 10#32
  let v356 : BitVec 32 := Scalar.muli arg9 c10_i32_359
  let c7_i32_360 : BitVec 32 := 7#32
  let v357 : BitVec 32 := Scalar.addi v356 c7_i32_360
  let c10_i32_446 : BitVec 32 := 10#32
  let v444 : BitVec 32 := Scalar.addi v357 c10_i32_446
  let c1_i32_447 : BitVec 32 := 1#32
  let v445 : BitVec 32 := Scalar.subi v444 c1_i32_447
  let c0_i32_452 : BitVec 32 := 0#32
  ![v445.toNat, 0]
def k0_cond9 (k0_t1 : Fin k0_t1_loop.trips) : BitVec 1 :=
  let c0_i32_72 : BitVec 32 := 0#32
  let c1_i32_73 : BitVec 32 := 1#32
  let arg9 : BitVec 32 := Scf.iv c0_i32_72 c1_i32_73 k0_t1
  let c10_i32_384 : BitVec 32 := 10#32
  let v382 : BitVec 32 := Scalar.muli arg9 c10_i32_384
  let c8_i32_385 : BitVec 32 := 8#32
  let v383 : BitVec 32 := Scalar.addi v382 c8_i32_385
  let c1_i32_404 : BitVec 32 := 1#32
  let v401 : BitVec 1 := Scalar.cmpi .sge v383 c1_i32_404
  let c10_i32_405 : BitVec 32 := 10#32
  let v402 : BitVec 32 := Scalar.addi v383 c10_i32_405
  let c1_i32_406 : BitVec 32 := 1#32
  let v403 : BitVec 32 := Scalar.subi v402 c1_i32_406
  let c100_i32_407 : BitVec 32 := 100#32
  let v404 : BitVec 1 := Scalar.cmpi .slt v403 c100_i32_407
  let v405 : BitVec 1 := Scalar.andi v401 v404
  let v406 : BitVec 32 := Scalar.extui v405
  let c0_i32_408 : BitVec 32 := 0#32
  let v407 : BitVec 1 := Scalar.cmpi .ne v406 c0_i32_408
  v407

def k0_off19 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_436 : BitVec 32 := 0#32
  let c0_i32_440 : BitVec 32 := 0#32
  let c0_i32_441 : BitVec 32 := 0#32
  ![v1.toNat, 0, 0, 0]
def k0_off20 (k0_t1 : Fin k0_t1_loop.trips) : Fin 2 → Nat :=
  let c0_i32_72 : BitVec 32 := 0#32
  let c1_i32_73 : BitVec 32 := 1#32
  let arg9 : BitVec 32 := Scf.iv c0_i32_72 c1_i32_73 k0_t1
  let c10_i32_384 : BitVec 32 := 10#32
  let v382 : BitVec 32 := Scalar.muli arg9 c10_i32_384
  let c8_i32_385 : BitVec 32 := 8#32
  let v383 : BitVec 32 := Scalar.addi v382 c8_i32_385
  let c10_i32_446 : BitVec 32 := 10#32
  let v444 : BitVec 32 := Scalar.addi v383 c10_i32_446
  let c1_i32_447 : BitVec 32 := 1#32
  let v445 : BitVec 32 := Scalar.subi v444 c1_i32_447
  let c0_i32_452 : BitVec 32 := 0#32
  ![v445.toNat, 0]
def k0_cond10 (k0_t1 : Fin k0_t1_loop.trips) : BitVec 1 :=
  let c0_i32_72 : BitVec 32 := 0#32
  let c1_i32_73 : BitVec 32 := 1#32
  let arg9 : BitVec 32 := Scf.iv c0_i32_72 c1_i32_73 k0_t1
  let c10_i32_409 : BitVec 32 := 10#32
  let v408 : BitVec 32 := Scalar.muli arg9 c10_i32_409
  let c9_i32_410 : BitVec 32 := 9#32
  let v409 : BitVec 32 := Scalar.addi v408 c9_i32_410
  let c1_i32_429 : BitVec 32 := 1#32
  let v427 : BitVec 1 := Scalar.cmpi .sge v409 c1_i32_429
  let c10_i32_430 : BitVec 32 := 10#32
  let v428 : BitVec 32 := Scalar.addi v409 c10_i32_430
  let c1_i32_431 : BitVec 32 := 1#32
  let v429 : BitVec 32 := Scalar.subi v428 c1_i32_431
  let c100_i32_432 : BitVec 32 := 100#32
  let v430 : BitVec 1 := Scalar.cmpi .slt v429 c100_i32_432
  let v431 : BitVec 1 := Scalar.andi v427 v430
  let v432 : BitVec 32 := Scalar.extui v431
  let c0_i32_433 : BitVec 32 := 0#32
  let v433 : BitVec 1 := Scalar.cmpi .ne v432 c0_i32_433
  v433

def k0_off21 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_436 : BitVec 32 := 0#32
  let c0_i32_440 : BitVec 32 := 0#32
  let c0_i32_441 : BitVec 32 := 0#32
  ![v1.toNat, 0, 0, 0]
def k0_off22 (k0_t1 : Fin k0_t1_loop.trips) : Fin 2 → Nat :=
  let c0_i32_72 : BitVec 32 := 0#32
  let c1_i32_73 : BitVec 32 := 1#32
  let arg9 : BitVec 32 := Scf.iv c0_i32_72 c1_i32_73 k0_t1
  let c10_i32_409 : BitVec 32 := 10#32
  let v408 : BitVec 32 := Scalar.muli arg9 c10_i32_409
  let c9_i32_410 : BitVec 32 := 9#32
  let v409 : BitVec 32 := Scalar.addi v408 c9_i32_410
  let c10_i32_446 : BitVec 32 := 10#32
  let v444 : BitVec 32 := Scalar.addi v409 c10_i32_446
  let c1_i32_447 : BitVec 32 := 1#32
  let v445 : BitVec 32 := Scalar.subi v444 c1_i32_447
  let c0_i32_452 : BitVec 32 := 0#32
  ![v445.toNat, 0]
def k0_off23 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_76 : BitVec 32 := 0#32
  let c0_i32_80 : BitVec 32 := 0#32
  let c0_i32_81 : BitVec 32 := 0#32
  ![v1.toNat, 0, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1024x200_S32x100x64 : S1024x200.ShapeCasts S32x100x64
  squeezes_S1x100x64_S100x64 : S1x100x64.Squeezes S100x64
  inb_S10x64x128_S1x64x128_0_0_0 : ∀ a, (![0, 0, 0] : Fin 3 → Nat) a + S1x64x128.size a ≤ S10x64x128.size a
  squeezes_S1x64x128_S64x128 : S1x64x128.Squeezes S64x128
  inb_S100x64_S1x64_0_0 : ∀ a, (![0, 0] : Fin 2 → Nat) a + S1x64.size a ≤ S100x64.size a
  squeezes_S1x64_S64 : S1x64.Squeezes S64
  inb_S100000x128_S100000x128_0_0 : ∀ a, (![0, 0] : Fin 2 → Nat) a + S100000x128.size a ≤ S100000x128.size a
  inb_S10_S1_0 : ∀ a, (![0] : Fin 1 → Nat) a + S1.size a ≤ S10.size a
  squeezes_S1_S_ : S1.Squeezes S_
  gathers_S100000x128_S64x128 : S100000x128.Gathers 0 S64x128
  inb_S10x64x128_S1x64x128_1_0_0 : ∀ a, (![1, 0, 0] : Fin 3 → Nat) a + S1x64x128.size a ≤ S10x64x128.size a
  inb_S100x64_S1x64_1_0 : ∀ a, (![1, 0] : Fin 2 → Nat) a + S1x64.size a ≤ S100x64.size a
  inb_S10_S1_1 : ∀ a, (![1] : Fin 1 → Nat) a + S1.size a ≤ S10.size a
  inb_S10x64x128_S1x64x128_2_0_0 : ∀ a, (![2, 0, 0] : Fin 3 → Nat) a + S1x64x128.size a ≤ S10x64x128.size a
  inb_S100x64_S1x64_2_0 : ∀ a, (![2, 0] : Fin 2 → Nat) a + S1x64.size a ≤ S100x64.size a
  inb_S10_S1_2 : ∀ a, (![2] : Fin 1 → Nat) a + S1.size a ≤ S10.size a
  inb_S10x64x128_S1x64x128_3_0_0 : ∀ a, (![3, 0, 0] : Fin 3 → Nat) a + S1x64x128.size a ≤ S10x64x128.size a
  inb_S100x64_S1x64_3_0 : ∀ a, (![3, 0] : Fin 2 → Nat) a + S1x64.size a ≤ S100x64.size a
  inb_S10_S1_3 : ∀ a, (![3] : Fin 1 → Nat) a + S1.size a ≤ S10.size a
  inb_S10x64x128_S1x64x128_4_0_0 : ∀ a, (![4, 0, 0] : Fin 3 → Nat) a + S1x64x128.size a ≤ S10x64x128.size a
  inb_S100x64_S1x64_4_0 : ∀ a, (![4, 0] : Fin 2 → Nat) a + S1x64.size a ≤ S100x64.size a
  inb_S10_S1_4 : ∀ a, (![4] : Fin 1 → Nat) a + S1.size a ≤ S10.size a
  inb_S10x64x128_S1x64x128_5_0_0 : ∀ a, (![5, 0, 0] : Fin 3 → Nat) a + S1x64x128.size a ≤ S10x64x128.size a
  inb_S100x64_S1x64_5_0 : ∀ a, (![5, 0] : Fin 2 → Nat) a + S1x64.size a ≤ S100x64.size a
  inb_S10_S1_5 : ∀ a, (![5] : Fin 1 → Nat) a + S1.size a ≤ S10.size a
  inb_S10x64x128_S1x64x128_6_0_0 : ∀ a, (![6, 0, 0] : Fin 3 → Nat) a + S1x64x128.size a ≤ S10x64x128.size a
  inb_S100x64_S1x64_6_0 : ∀ a, (![6, 0] : Fin 2 → Nat) a + S1x64.size a ≤ S100x64.size a
  inb_S10_S1_6 : ∀ a, (![6] : Fin 1 → Nat) a + S1.size a ≤ S10.size a
  inb_S10x64x128_S1x64x128_7_0_0 : ∀ a, (![7, 0, 0] : Fin 3 → Nat) a + S1x64x128.size a ≤ S10x64x128.size a
  inb_S100x64_S1x64_7_0 : ∀ a, (![7, 0] : Fin 2 → Nat) a + S1x64.size a ≤ S100x64.size a
  inb_S10_S1_7 : ∀ a, (![7] : Fin 1 → Nat) a + S1.size a ≤ S10.size a
  inb_S10x64x128_S1x64x128_8_0_0 : ∀ a, (![8, 0, 0] : Fin 3 → Nat) a + S1x64x128.size a ≤ S10x64x128.size a
  inb_S100x64_S1x64_8_0 : ∀ a, (![8, 0] : Fin 2 → Nat) a + S1x64.size a ≤ S100x64.size a
  inb_S10_S1_8 : ∀ a, (![8] : Fin 1 → Nat) a + S1.size a ≤ S10.size a
  inb_S10x64x128_S1x64x128_9_0_0 : ∀ a, (![9, 0, 0] : Fin 3 → Nat) a + S1x64x128.size a ≤ S10x64x128.size a
  inb_S100x64_S1x64_9_0 : ∀ a, (![9, 0] : Fin 2 → Nat) a + S1x64.size a ≤ S100x64.size a
  inb_S10_S1_9 : ∀ a, (![9] : Fin 1 → Nat) a + S1.size a ≤ S10.size a
  squeezes_S1x1x64x128_S64x128 : S1x1x64x128.Squeezes S64x128
  shapeCasts_S32x100x64x128_S1024x200x128 : S32x100x64x128.ShapeCasts S1024x200x128
  bcast_S_S1024 : S_.BroadcastsInDim S1024 (![] : Fin 0 → Fin S1024.rank)
  hcc0_scratch2 : 0 + S10.numel ≤ 21
  hcc0_scratch3 : 10 + S10.numel ≤ 21
  hcc0_scoped0 : 20 + S_.numel ≤ 21
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x100x64.size a ≤ S32x100x64.size a
  k0_t1_ok : k0_t1_loop.OK
  k0_off2_inb : ∀ (i : grid0.Coords) (k0_t1 : Fin k0_t1_loop.trips), ∀ (r : Fin 10), ∀ a, (k0_off2 i k0_t1 (BitVec.ofNat 32 r.val)) a + S1x1x64x128.size a ≤ S32x100x64x128.size a
  k0_off3_inb : ∀ (i : grid0.Coords) (k0_t1 : Fin k0_t1_loop.trips), ∀ (k0_h1 : k0_cond1 k0_t1 = 1#1), ∀ a, (k0_off3 i) a + S1x1x64x128.size a ≤ S32x100x64x128.size a
  k0_off4_inb : ∀ k0_t1 : Fin k0_t1_loop.trips, ∀ (k0_h1 : k0_cond1 k0_t1 = 1#1), ∀ a, (k0_off4 k0_t1) a + S1x64.size a ≤ S100x64.size a
  k0_off5_inb : ∀ (i : grid0.Coords) (k0_t1 : Fin k0_t1_loop.trips), ∀ (k0_h2 : k0_cond2 k0_t1 = 1#1), ∀ a, (k0_off5 i) a + S1x1x64x128.size a ≤ S32x100x64x128.size a
  k0_off6_inb : ∀ k0_t1 : Fin k0_t1_loop.trips, ∀ (k0_h2 : k0_cond2 k0_t1 = 1#1), ∀ a, (k0_off6 k0_t1) a + S1x64.size a ≤ S100x64.size a
  k0_off7_inb : ∀ (i : grid0.Coords) (k0_t1 : Fin k0_t1_loop.trips), ∀ (k0_h3 : k0_cond3 k0_t1 = 1#1), ∀ a, (k0_off7 i) a + S1x1x64x128.size a ≤ S32x100x64x128.size a
  k0_off8_inb : ∀ k0_t1 : Fin k0_t1_loop.trips, ∀ (k0_h3 : k0_cond3 k0_t1 = 1#1), ∀ a, (k0_off8 k0_t1) a + S1x64.size a ≤ S100x64.size a
  k0_off9_inb : ∀ (i : grid0.Coords) (k0_t1 : Fin k0_t1_loop.trips), ∀ (k0_h4 : k0_cond4 k0_t1 = 1#1), ∀ a, (k0_off9 i) a + S1x1x64x128.size a ≤ S32x100x64x128.size a
  k0_off10_inb : ∀ k0_t1 : Fin k0_t1_loop.trips, ∀ (k0_h4 : k0_cond4 k0_t1 = 1#1), ∀ a, (k0_off10 k0_t1) a + S1x64.size a ≤ S100x64.size a
  k0_off11_inb : ∀ (i : grid0.Coords) (k0_t1 : Fin k0_t1_loop.trips), ∀ (k0_h5 : k0_cond5 k0_t1 = 1#1), ∀ a, (k0_off11 i) a + S1x1x64x128.size a ≤ S32x100x64x128.size a
  k0_off12_inb : ∀ k0_t1 : Fin k0_t1_loop.trips, ∀ (k0_h5 : k0_cond5 k0_t1 = 1#1), ∀ a, (k0_off12 k0_t1) a + S1x64.size a ≤ S100x64.size a
  k0_off13_inb : ∀ (i : grid0.Coords) (k0_t1 : Fin k0_t1_loop.trips), ∀ (k0_h6 : k0_cond6 k0_t1 = 1#1), ∀ a, (k0_off13 i) a + S1x1x64x128.size a ≤ S32x100x64x128.size a
  k0_off14_inb : ∀ k0_t1 : Fin k0_t1_loop.trips, ∀ (k0_h6 : k0_cond6 k0_t1 = 1#1), ∀ a, (k0_off14 k0_t1) a + S1x64.size a ≤ S100x64.size a
  k0_off15_inb : ∀ (i : grid0.Coords) (k0_t1 : Fin k0_t1_loop.trips), ∀ (k0_h7 : k0_cond7 k0_t1 = 1#1), ∀ a, (k0_off15 i) a + S1x1x64x128.size a ≤ S32x100x64x128.size a
  k0_off16_inb : ∀ k0_t1 : Fin k0_t1_loop.trips, ∀ (k0_h7 : k0_cond7 k0_t1 = 1#1), ∀ a, (k0_off16 k0_t1) a + S1x64.size a ≤ S100x64.size a
  k0_off17_inb : ∀ (i : grid0.Coords) (k0_t1 : Fin k0_t1_loop.trips), ∀ (k0_h8 : k0_cond8 k0_t1 = 1#1), ∀ a, (k0_off17 i) a + S1x1x64x128.size a ≤ S32x100x64x128.size a
  k0_off18_inb : ∀ k0_t1 : Fin k0_t1_loop.trips, ∀ (k0_h8 : k0_cond8 k0_t1 = 1#1), ∀ a, (k0_off18 k0_t1) a + S1x64.size a ≤ S100x64.size a
  k0_off19_inb : ∀ (i : grid0.Coords) (k0_t1 : Fin k0_t1_loop.trips), ∀ (k0_h9 : k0_cond9 k0_t1 = 1#1), ∀ a, (k0_off19 i) a + S1x1x64x128.size a ≤ S32x100x64x128.size a
  k0_off20_inb : ∀ k0_t1 : Fin k0_t1_loop.trips, ∀ (k0_h9 : k0_cond9 k0_t1 = 1#1), ∀ a, (k0_off20 k0_t1) a + S1x64.size a ≤ S100x64.size a
  k0_off21_inb : ∀ (i : grid0.Coords) (k0_t1 : Fin k0_t1_loop.trips), ∀ (k0_h10 : k0_cond10 k0_t1 = 1#1), ∀ a, (k0_off21 i) a + S1x1x64x128.size a ≤ S32x100x64x128.size a
  k0_off22_inb : ∀ k0_t1 : Fin k0_t1_loop.trips, ∀ (k0_h10 : k0_cond10 k0_t1 = 1#1), ∀ a, (k0_off22 k0_t1) a + S1x64.size a ≤ S100x64.size a
  k0_off23_inb : ∀ i : grid0.Coords, ∀ a, (k0_off23 i) a + S1x1x64x128.size a ≤ S32x100x64x128.size a

variable [Facts₀]

abbrev cc0_scratch2 : DmaSems sig S10 := SemArray.consecutive 0 S10 hcc0_scratch2
abbrev cc0_scratch3 : DmaSems sig S10 := SemArray.consecutive 10 S10 hcc0_scratch3
abbrev cc0_scoped0 : DmaSems sig S_ := SemArray.consecutive 20 S_ hcc0_scoped0

class Facts : Prop extends Facts₀ where

variable [Facts]
-- ==== ReferenceIdeal.lean ====
abbrev S1024x200 : Shape := ⟨2, ![1024, 200]⟩
abbrev S100000x128 : Shape := ⟨2, ![100000, 128]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩
abbrev S1024 : Shape := ⟨1, ![1024]⟩

abbrev nBuf : Space → Nat
  | .hbm => 27
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S100000x128, .f32⟩
  | .hbm, ⟨2, _⟩ => ⟨S_, .i32⟩
  | .hbm, ⟨3, _⟩ => ⟨S1024x200, .i32⟩
  | .hbm, ⟨4, _⟩ => ⟨S1024x200, .i1⟩
  | .hbm, ⟨5, _⟩ => ⟨S_, .i32⟩
  | .hbm, ⟨6, _⟩ => ⟨S1024x200, .i32⟩
  | .hbm, ⟨7, _⟩ => ⟨S1024x200, .i32⟩
  | .hbm, ⟨8, _⟩ => ⟨S1024x200, .i32⟩
  | .hbm, ⟨9, _⟩ => ⟨S1024x200x1, .i32⟩
  | .hbm, ⟨10, _⟩ => ⟨S1, .i32⟩
  | .hbm, ⟨11, _⟩ => ⟨S_, .i32⟩
  | .hbm, ⟨12, _⟩ => ⟨S1024x200x1, .i32⟩
  | .hbm, ⟨13, _⟩ => ⟨S1024x200x1, .i1⟩
  | .hbm, ⟨14, _⟩ => ⟨S1x1x1, .i32⟩
  | .hbm, ⟨15, _⟩ => ⟨S1024x200x1, .i32⟩
  | .hbm, ⟨16, _⟩ => ⟨S1024x200x1, .i1⟩
  | .hbm, ⟨17, _⟩ => ⟨S1024x200x1, .i1⟩
  | .hbm, ⟨18, _⟩ => ⟨S_, .i1⟩
  | .hbm, ⟨19, _⟩ => ⟨S1024x200, .i1⟩
  | .hbm, ⟨20, _⟩ => ⟨S1024x200x128, .f32⟩
  | .hbm, ⟨21, _⟩ => ⟨S1024x200x128, .i1⟩
  | .hbm, ⟨22, _⟩ => ⟨S_, .f32⟩
  | .hbm, ⟨23, _⟩ => ⟨S1024x200x128, .f32⟩
  | .hbm, ⟨24, _⟩ => ⟨S1024x200x128, .f32⟩
  | .hbm, ⟨25, _⟩ => ⟨S_, .i32⟩
  | .hbm, ⟨26, _⟩ => ⟨S1024, .i32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_c : Ref sig .tc := ⟨.hbm, 25, rfl⟩
abbrev main_v1 : Ref sig .tc := ⟨.hbm, 26, rfl⟩

abbrev nD : Nat := 1
abbrev τ : Topo := Topo.v7x

variable {F : FTy → Type} [FloatOps F]

class Facts₀ : Prop where
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  bcast_S_S1024x200x1 : S_.BroadcastsInDim S1024x200x1 (![] : Fin 0 → Fin S1024x200x1.rank)
  bcast_S1_S1x1x1_2 : S1.BroadcastsInDim S1x1x1 (![2] : Fin 1 → Fin S1x1x1.rank)
  bcast_S1x1x1_S1024x200x1_0_1_2 : S1x1x1.BroadcastsInDim S1024x200x1 (![0, 1, 2] : Fin 3 → Fin S1024x200x1.rank)
  reducesTo_S1024x200x1_S1024x200_d2 : S1024x200x1.ReducesTo [2] S1024x200
  h_S_ : 0 < S_.numel
  bcast_S1024x200_S1024x200x128_0_1 : S1024x200.BroadcastsInDim S1024x200x128 (![0, 1] : Fin 2 → Fin S1024x200x128.rank)
  bcast_S_S1024x200x128 : S_.BroadcastsInDim S1024x200x128 (![] : Fin 0 → Fin S1024x200x128.rank)
  bcast_S_S1024 : S_.BroadcastsInDim S1024 (![] : Fin 0 → Fin S1024.rank)
  gather_S100000x128_S1024x200x1_S1024x200x128_2_0_n_n_0_2_1128_wf : GatherDims.WF S100000x128 S1024x200x1 S1024x200x128 [2] [0] [] [0] [] 2 ![1, 128]

variable [Facts₀]

def gather_S100000x128_S1024x200x1_S1024x200x128_2_0_n_n_0_2_1128 : GatherDims S100000x128 S1024x200x1 S1024x200x128 where
  offsetDims := [2]
  collapsedSliceDims := [0]
  operandBatchingDims := []
  startIndicesBatchingDims := []
  startIndexMap := [0]
  indexVectorDim := 2
  sliceSizes := ![1, 128]
  wf := gather_S100000x128_S1024x200x1_S1024x200x128_2_0_n_n_0_2_1128_wf

class Facts : Prop extends Facts₀ where

variable [Facts]
-- ==== Proof.Spec.lean ====
/-
  The function both programs compute, stated once over the argument arrays, index by index.

  A table of 100000 rows of 128 entries and 1024 x 200 row numbers: entry (b, l, e) of the result is entry e of
  the table row that word (b, l) names. The kernel produces the same rows in a tiled arrangement, 32 workers x 100
  chunks x 64 rows, of the row numbers laid out the same way; the two arrangements hold the same row-major sequence.
  A word names a row when, read signed, it lies in [0, 99999]; `rowOf` clamps so that the function is total, and
  under `InRange` the clamp is the identity.
-/
import Idealize.ShloMosaic.PureOps
import Idealize.ShloMosaic.Lib.ValueIdx

namespace Lookup

open Idealize.ShloMosaic Idealize.ShloMosaic.ValueIdx

abbrev SIdx : Shape := ⟨2, ![1024, 200]⟩
abbrev STab : Shape := ⟨2, ![100000, 128]⟩
abbrev SEmb : Shape := ⟨3, ![1024, 200, 128]⟩
abbrev SIdx3 : Shape := ⟨3, ![32, 100, 64]⟩
abbrev SOut4 : Shape := ⟨4, ![32, 100, 64, 128]⟩
abbrev SLen : Shape := ⟨1, ![1024]⟩

/-- Every row number, read as a signed word, names a row of the table. -/
def InRange {s : Shape} (idx : s.Idx → BitVec 32) : Prop := ∀ y, 0 ≤ (idx y).toInt ∧ (idx y).toInt ≤ 99999

/-- The row a word names, clamped into the table. -/
def rowOf (w : BitVec 32) : Fin 100000 := ⟨min w.toNat 99999, by omega⟩

theorem rowOf_val_of_le {w : BitVec 32} (h : w.toNat ≤ 99999) : (rowOf w).val = w.toNat := by
  show min w.toNat 99999 = w.toNat; omega

/-- A word in range read signed is its own unsigned value, below 100000. -/
theorem toNat_of_inRange {w : BitVec 32} (h : 0 ≤ w.toInt ∧ w.toInt ≤ 99999) : w.toInt.toNat = w.toNat ∧ w.toNat ≤ 99999 := by
  have := h.1; have := h.2
  rw [BitVec.toInt_eq_toNat_cond] at *
  have := w.isLt
  split at * <;> omega

/-- The lookup: entry (b, l, e) is entry e of the row word (b, l) names. -/
def emb {α : Type} (idx : SIdx.Idx → BitVec 32) (tab : STab.Idx → α) : SEmb.Idx → α :=
  fun i => tab (ix2 (rowOf (idx (ix2 (i 0) (i 1)))) (i 2))

/-- The same rows in the workers' arrangement: entry (w, k, r, e) is entry e of the row word (w, k, r) names. -/
def tiled {α : Type} (idx3 : SIdx3.Idx → BitVec 32) (tab : STab.Idx → α) : SOut4.Idx → α :=
  fun j => tab (ix2 (rowOf (idx3 (ix3 (j 0) (j 1) (j 2)))) (j 3))

/-- Every sequence's length, 200, as a word. -/
def lens : SLen.Idx → BitVec 32 := fun _ => 200#32

end Lookup
-- ==== Proof.PreRange.lean ====
/-
  The precondition gives the range of the row numbers.

  The printed precondition is the conjunction of two all-reductions: every table entry is finite, and every row
  number v satisfies (v >= 0) and (v <= 99999), both comparisons signed. The second conjunct being 1 says that every
  element of the compared array is 1, and an element being 1 says 0 <= v.toInt and v.toInt <= 99999.
-/
import proofs.«206297_g77653008712327_cont_9to1c4b_438_14_alg».proof.Pre_input_domain
import proofs.«206297_g77653008712327_cont_9to1c4b_438_14_alg».proof.Proof.Gen.Pre_input_domain
import proofs.«206297_g77653008712327_cont_9to1c4b_438_14_alg».proof.Proof.Spec
import Idealize.ShloMosaic.Lib.ReduceAll

namespace Lookup

open Idealize.ShloMosaic Idealize.ShloMosaic.ValueIdx

/-- A word whose two signed comparisons, with 0 from below and with 99999 from above, are both 1 lies in [0, 99999]. -/
theorem range_of_cmp (v : BitVec 32)
    (e : IntOp.andi (IntOp.cmpi .sge v 0#32) (IntOp.cmpi .sle v 99999#32) = 1#1) :
    0 ≤ v.toInt ∧ v.toInt ≤ 99999 := by
  obtain ⟨h1, h2⟩ := IntOp.andi_eq_one.1 e
  rw [IntOp.cmpi_sge] at h1
  rw [IntOp.cmpi_sle] at h2
  have z : (0#32 : BitVec 32).toInt = 0 := by decide
  have t : (99999#32 : BitVec 32).toInt = 99999 := by decide
  rw [z] at h1
  rw [t] at h2
  exact ⟨h1, h2⟩

/-- The precondition, all ones, puts every row number in [0, 99999] read signed. -/
theorem inRange_of_pre {F : FTy → Type} [FloatOps F] [Cert.Pre_input_domain.Facts]
    (idx : IVec Cert.Pre_input_domain.S1024x200 32) (tab : FVec F Cert.Pre_input_domain.S100000x128 .f32)
    (h : Cert.Pre_input_domain.fn (F := F) idx tab = fun _ => 1#1) : InRange idx := by
  haveI : Subsingleton Cert.Pre_input_domain.S_.Idx := ⟨fun a b => funext fun d => d.elim0⟩
  have e := congrFun h ValueIdx.ix0
  dsimp only [Cert.Pre_input_domain.fn] at e
  have e2 := (IntOp.andi_eq_one.1 e).2
  intro y
  have ey := Host.reduce_andi_all _ _ _ _ _ e2 y
  exact range_of_cmp (idx y) ey

end Lookup
-- ==== Proof.Reshape.lean ====
/-
  The two arrangements hold the same row-major sequence.

  The 1024 x 200 row numbers and the 32 x 100 x 64 row numbers are one sequence of 204800 words: word (b, l) is word
  n = b * 200 + l of the sequence, which is word (n / 6400, n % 6400 / 64, n % 64) of the second arrangement. Likewise
  the 1024 x 200 x 128 result and the 32 x 100 x 64 x 128 result are one sequence of rows of 128 entries: entry
  (b, l, e) of the first is entry (n / 6400, n % 6400 / 64, n % 64, e) of the second. Hence looking the rows up in
  the second arrangement and reading the result in the first is the lookup in the first arrangement.
-/
import proofs.«206297_g77653008712327_cont_9to1c4b_438_14_alg».proof.Proof.Spec
import Idealize.ShloMosaic.Lib.Pipeline.Value

namespace Lookup

open Idealize.ShloMosaic Idealize.ShloMosaic.ValueIdx

/-- Rearranged row numbers are the same words, so they name rows when the original ones do. -/
theorem inRange_shapeCast (idx : SIdx.Idx → BitVec 32) (h : InRange idx) (hc : SIdx.ShapeCasts SIdx3) :
    InRange (shapeCast SIdx3 idx hc) := by
  intro y
  unfold shapeCast
  exact h _

/-- Word (w, k, r) of the rearranged row numbers, where (w, k, r) are the digits of n = b * 200 + l in the
    mixed radix (100, 64), is word (b, l). -/
theorem shapeCast_idx_apply (idx : SIdx.Idx → BitVec 32) (h1 : SIdx.ShapeCasts SIdx3) (b : Fin 1024) (l : Fin 200)
    (hw : (b.val * 200 + l.val) / 6400 < 32) (hk : (b.val * 200 + l.val) % 6400 / 64 < 100)
    (hr : (b.val * 200 + l.val) % 64 < 64) :
    shapeCast SIdx3 idx h1 (ix3 (⟨_, hw⟩ : Fin 32) (⟨_, hk⟩ : Fin 100) (⟨_, hr⟩ : Fin 64)) = idx (ix2 b l) :=
  shapeCast_apply idx h1 _ _ (by
    rw [Shape.rowMajor_val_two, Shape.rowMajor_val_three]
    show b.val * 200 + l.val
      = ((b.val * 200 + l.val) / 6400 * 100 + (b.val * 200 + l.val) % 6400 / 64) * 64 + (b.val * 200 + l.val) % 64
    omega)

/-- The rows looked up in the 32 x 100 x 64 arrangement, read as a 1024 x 200 x 128 array, are the lookup. -/
theorem emb_eq_reshape {α : Type} (idx : SIdx.Idx → BitVec 32) (tab : STab.Idx → α)
    (h1 : SIdx.ShapeCasts SIdx3) (h2 : SOut4.ShapeCasts SEmb) :
    shapeCast SEmb (tiled (shapeCast SIdx3 idx h1) tab) h2 = emb idx tab := by
  funext i
  obtain ⟨b, l, e, rfl⟩ : ∃ (b : Fin 1024) (l : Fin 200) (e : Fin 128), i = ix3 b l e :=
    ⟨i 0, i 1, i 2, eq_ix3 i⟩
  have hb := b.isLt
  have hl := l.isLt
  have hw : (b.val * 200 + l.val) / 6400 < 32 := by omega
  have hk : (b.val * 200 + l.val) % 6400 / 64 < 100 := by omega
  have hr : (b.val * 200 + l.val) % 64 < 64 := by omega
  refine (shapeCast_apply _ h2 (ix3 b l e) (ix4 (⟨_, hw⟩ : Fin 32) (⟨_, hk⟩ : Fin 100) (⟨_, hr⟩ : Fin 64) e) (by
    rw [Shape.rowMajor_val_four, Shape.rowMajor_val_three]
    show (((b.val * 200 + l.val) / 6400 * 100 + (b.val * 200 + l.val) % 6400 / 64) * 64
        + (b.val * 200 + l.val) % 64) * 128 + e.val = (b.val * 200 + l.val) * 128 + e.val
    omega)).trans ?_
  show tab (ix2 (rowOf (shapeCast SIdx3 idx h1 (ix3 (⟨_, hw⟩ : Fin 32) (⟨_, hk⟩ : Fin 100) (⟨_, hr⟩ : Fin 64)))) e)
    = tab (ix2 (rowOf (idx (ix2 b l))) e)
  rw [shapeCast_idx_apply idx h1 b l hw hk hr]

/-- The scalar 200 broadcast over the 1024 sequences is every sequence's length. -/
theorem lens_eq (h : (⟨0, ![]⟩ : Shape).BroadcastsInDim SLen (![] : Fin 0 → Fin SLen.rank)) :
    broadcastInDim SLen ![] h (constantI (⟨0, ![]⟩ : Shape) 32 200#32) = lens := by
  funext j
  rfl

end Lookup
-- ==== Proof.RefOps.lean ====
/-
  The reference program's @main as the list of its twenty-five host operations, the two outlined functions unfolded at
  their call sites over the call's buffer records, and its run: every weakly fair execution terminates with each buffer
  at the fold of the operations' results over the launch contents. Then that fold read at the two result buffers and the
  two arguments: the first result is the composed term `out` of the arguments' contents, the second the constant 200
  broadcast, the arguments what they were.
-/
import proofs.«206297_g77653008712327_cont_9to1c4b_438_14_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded. The lookup function is twenty-three: the wrap of negative row numbers
    (zero and its broadcast, the comparison, 100000 and its broadcast, the sum, and the select, which is the inner
    function's one operation), the row numbers with a unit axis appended, the two bounds and their broadcasts, the two
    comparisons, their conjunction and its reduction over the unit axis, the gather of rows, the mask's broadcast, the fill
    value and its broadcast, the select. Then @main's own two: the constant 200 and its broadcast. -/
abbrev ops : List (HloOp τ sig (Elt F)) :=
  [ TRef.nullary main_call0.c (constantI S_ 32 0#32),
    TRef.unary main_call0.c main_call0.v0 (broadcastInDim S1024x200 ![] bcast_S_S1024x200),
    TRef.binary (.of main_arg0) main_call0.v0 main_call0.v1 (cmpi .slt),
    TRef.nullary main_call0.c_0 (constantI S_ 32 100000#32),
    TRef.unary main_call0.c_0 main_call0.v2 (broadcastInDim S1024x200 ![] bcast_S_S1024x200),
    TRef.binary (.of main_arg0) main_call0.v2 main_call0.v3 addi,
    TRef.ternary main_call0.v1 main_call0.v3 (.of main_arg0) main_call0.call0.v0 select,
    TRef.unary main_call0.call0.v0 main_call0.v5 (broadcastInDim S1024x200x1 ![0, 1] bcast_S1024x200_S1024x200x1_0_1),
    TRef.nullary main_call0.c_1 (constantI S1 32 99999#32),
    TRef.nullary main_call0.c_2 (constantI S_ 32 0#32),
    TRef.unary main_call0.c_2 main_call0.v6 (broadcastInDim S1024x200x1 ![] bcast_S_S1024x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x200x1 ![0, 1, 2] bcast_S1x1x1_S1024x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x200x1_S1024x200_d2 h_S_),
    TRef.binary (.of main_arg1) main_call0.v5 main_call0.v13 (fun x i => Host.gather gather_S100000x128_S1024x200x1_S1024x200x128_2_0_n_n_0_2_1128 x i),
    TRef.unary main_call0.v12 main_call0.v14 (broadcastInDim S1024x200x128 ![0, 1] bcast_S1024x200_S1024x200x128_0_1),
    TRef.nullary main_call0.cst (constant S_ .f32 0x7FC00000#32),
    TRef.unary main_call0.cst main_call0.v15 (broadcastInDim S1024x200x128 ![] bcast_S_S1024x200x128),
    TRef.ternary main_call0.v14 main_call0.v13 main_call0.v15 main_call0.v16 select,
    nullary main_c (constantI S_ 32 200#32),
    unary main_c main_v1 (broadcastInDim S1024 ![] bcast_S_S1024 : (⟨S_, .i32⟩ : BufTy).Contents (Elt F) → (⟨S1024, .i32⟩ : BufTy).Contents (Elt F)) ]

-- twenty-five binds re-associated: the rewrite under the chain recurses once per statement
set_option maxRecDepth 1024 in
/-- @main is that straight line: the two functions' definitions unfolded at their calls, both sides are one chain of
    steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub ..⟩

/-- At the compiled mesh, for any float values, from any memory with zero counters: every weakly fair execution of @main
    terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The composed term -/

/-- The row numbers with a negative one wrapped by the table's length. -/
def wrapped (idx : IVec S1024x200 32) : IVec S1024x200 32 :=
  select (cmpi .slt idx (broadcastInDim S1024x200 ![] bcast_S_S1024x200 (constantI S_ 32 0#32)))
    (addi idx (broadcastInDim S1024x200 ![] bcast_S_S1024x200 (constantI S_ 32 100000#32))) idx

/-- The same with a unit axis appended: the gather's start indices. -/
def starts (idx : IVec S1024x200 32) : IVec S1024x200x1 32 :=
  broadcastInDim S1024x200x1 ![0, 1] bcast_S1024x200_S1024x200x1_0_1 (wrapped idx)

/-- Which words name a row: at least 0 and at most 99999, the conjunction reduced over the unit axis. -/
def mask (idx : IVec S1024x200 32) : IVec S1024x200 1 :=
  Host.reduce IntOp.andi
    (andi (cmpi .sge (starts idx) (broadcastInDim S1024x200x1 ![] bcast_S_S1024x200x1 (constantI S_ 32 0#32)))
      (cmpi .sle (starts idx) (broadcastInDim S1024x200x1 ![0, 1, 2] bcast_S1x1x1_S1024x200x1_0_1_2
        (broadcastInDim S1x1x1 ![2] bcast_S1_S1x1x1_2 (constantI S1 32 99999#32)))))
    (constantI S_ 1 1#1) reducesTo_S1024x200x1_S1024x200_d2 h_S_

/-- What the program computes from the row numbers and the table: the gathered rows where the mask holds, the fill
    value elsewhere. -/
def out (idx : IVec S1024x200 32) (tab : FVec F S100000x128 .f32) : FVec F S1024x200x128 .f32 :=
  select (broadcastInDim S1024x200x128 ![0, 1] bcast_S1024x200_S1024x200x128_0_1 (mask idx))
    (Host.gather gather_S100000x128_S1024x200x1_S1024x200x128_2_0_n_n_0_2_1128 tab (starts idx))
    (broadcastInDim S1024x200x128 ![] bcast_S_S1024x200x128 (constant S_ .f32 0x7FC00000#32))

attribute [local irreducible] Host.reduce Host.gather in
set_option maxRecDepth 8192 in
/-- The fold at the first result buffer is `out` of the two arguments' contents: each operation's result at its own
    buffer is its function's value and at any other buffer what was there, and the typed references' casts are the
    identity at these literal references. The reduction and the gather stay folded meanwhile. -/
theorem out_eq (V : Valuation τ sig (Elt F)) :
    after ops V (main_v0 : DevRef τ sig) = out (V (main_arg0 : DevRef τ sig)) (V (main_arg1 : DevRef τ sig)) := by
  after_results_simp
  rfl

/-- The fold at the second result buffer: the constant 200 broadcast. -/
theorem lens_eq (V : Valuation τ sig (Elt F)) :
    after ops V (main_v1 : DevRef τ sig) = broadcastInDim S1024 ![] bcast_S_S1024 (constantI S_ 32 200#32) := by
  simp only [after_cons, after_nil]
  rfl

/-- No operation writes the first argument. -/
theorem arg0_eq (V : Valuation τ sig (Elt F)) :
    after ops V (main_arg0 : DevRef τ sig) = V (main_arg0 : DevRef τ sig) := by
  simp only [after_cons, after_nil]
  rfl

/-- No operation writes the second argument. -/
theorem arg1_eq (V : Valuation τ sig (Elt F)) :
    after ops V (main_arg1 : DevRef τ sig) = V (main_arg1 : DevRef τ sig) := by
  simp only [after_cons, after_nil]
  rfl

end Cert.ReferenceIdeal.RefValue

end
-- ==== Proof.RefRun.lean ====
/-
  The reference's run with its results named by the specification. The composed term of the operations, read at an index
  with every row number in range: the wrap of negative row numbers keeps the row number, both bounds hold so the mask is 1
  everywhere and the final select takes the gathered value, and the gather at (b, l, e) reads the table at the row word
  (b, l) names, column e. So the first result is the lookup `Lookup.emb`; the second is the constant 200, `Lookup.lens`.
-/
import proofs.«206297_g77653008712327_cont_9to1c4b_438_14_alg».proof.Proof.RefOps
import proofs.«206297_g77653008712327_cont_9to1c4b_438_14_alg».proof.Proof.Spec
import Idealize.ShloMosaic.Lib.ValueIdx
import Idealize.ShloMosaic.Lib.Pipeline.Value
import Idealize.ShloMosaic.Lib.Affine
import Idealize.ShloMosaic.PureOps.Reduce

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-! ## Words -/

/-- A left fold by `and` over one-bit words that starts at 1 and meets only 1s is 1. -/
theorem foldl_andi_of_all_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_of_all_one f l _ (IntOp.andi_eq_one.2 ⟨h, hl a List.mem_cons_self⟩)
      (fun n hn => hl n (List.mem_cons_of_mem _ hn))

/-! ## The term at an index, the row numbers in range -/

section InRange

variable {idx : IVec S1024x200 32}

/-- In range no row number is negative, so the wrap keeps it. -/
theorem wrapped_eq (hr : Lookup.InRange idx) (y : S1024x200.Idx) : wrapped idx y = idx y := by
  have h0 : IntOp.cmpi .slt (idx y) 0#32 = 0#1 :=
    eq_zero_of_ne_one fun h => by
      have h1 : (idx y).toInt < (0#32).toInt := IntOp.cmpi_slt.1 h
      rw [BitVec.toInt_zero] at h1
      have := (hr y).1
      omega
  show Scalar.select (IntOp.cmpi .slt (idx y) 0#32) _ _ = _
  rw [h0, select_zero]

/-- The start index at (b, l, 0) is row number (b, l). -/
theorem starts_eq (hr : Lookup.InRange idx) (n : S1024x200x1.Idx) : starts idx n = idx (ix2 (n 0) (n 1)) := by
  unfold starts
  rw [broadcastInDim_apply ![0, 1] bcast_S1024x200_S1024x200x1_0_1 (wrapped idx) n (ix2 (n 0) (n 1)) (fun a => by
    match a with
    | ⟨0, _⟩ => rfl
    | ⟨1, _⟩ => rfl)]
  exact wrapped_eq hr _

/-- In range the mask holds everywhere: both comparisons hold at every start index. -/
theorem mask_eq (hr : Lookup.InRange idx) (y : S1024x200.Idx) : mask idx y = 1#1 := by
  unfold mask
  rw [Host.reduce_eq_foldl]
  refine foldl_andi_of_all_one _ _ _ rfl fun n _ => ?_
  show IntOp.andi (IntOp.cmpi .sge (starts idx n) 0#32) (IntOp.cmpi .sle (starts idx n) 99999#32) = 1#1
  refine IntOp.andi_eq_one.2 ⟨IntOp.cmpi_sge.2 ?_, IntOp.cmpi_sle.2 ?_⟩
  · rw [starts_eq hr, BitVec.toInt_zero]; exact (hr _).1
  · rw [starts_eq hr, show (99999#32).toInt = 99999 from by decide]; exact (hr _).2

end InRange

section Gather

variable {idx : IVec S1024x200 32}

/-- The operand index the gather reads at (b, l, e): on the row axis the start index (b, l, 0) read signed and clamped into
    the table, which in range is the row the word names, the axis being collapsed; on the column axis no start, the offset
    coordinate e. -/
theorem operandIdx_eq (hr : Lookup.InRange idx) (i : S1024x200x128.Idx) :
    gather_S100000x128_S1024x200x1_S1024x200x128_2_0_n_n_0_2_1128.operandIdx i (starts idx) = ix2 (Lookup.rowOf (idx (ix2 (i 0) (i 1)))) (i 2) := by
  funext a
  refine Fin.ext ?_
  match a with
  | ⟨0, _⟩ =>
    have hb : gather_S100000x128_S1024x200x1_S1024x200x128_2_0_n_n_0_2_1128.batchCoord i 0 = 0 := GatherDims.batchCoord_eq_zero _ _ _ List.not_mem_nil
    have ho : gather_S100000x128_S1024x200x1_S1024x200x128_2_0_n_n_0_2_1128.offCoord i 0 = 0 :=
      GatherDims.offCoord_eq_zero _ _ _ fun h => ((GatherDims.mem_sKept _ _).mp h).1 (List.mem_singleton.mpr rfl)
    have hs : gather_S100000x128_S1024x200x1_S1024x200x128_2_0_n_n_0_2_1128.start i (starts idx) 0 = min (idx (ix2 (i 0) (i 1))).toNat 99999 := by
      unfold GatherDims.start
      rw [dif_pos (show (0 : Fin 2) ∈ gather_S100000x128_S1024x200x1_S1024x200x128_2_0_n_n_0_2_1128.startIndexMap from List.mem_singleton.mpr rfl)]
      have hst : starts idx (gather_S100000x128_S1024x200x1_S1024x200x128_2_0_n_n_0_2_1128.siIdx i ⟨List.idxOf (0 : Fin 2) gather_S100000x128_S1024x200x1_S1024x200x128_2_0_n_n_0_2_1128.startIndexMap,
          List.idxOf_lt_length_iff.2 (List.mem_singleton.mpr rfl)⟩) = idx (ix2 (i 0) (i 1)) := by
        rw [starts_eq hr]
        refine congrArg idx (funext fun b => Fin.ext ?_)
        match b with
        | ⟨0, _⟩ => rfl
        | ⟨1, _⟩ => rfl
      rw [hst, (Lookup.toNat_of_inRange (hr _)).1]
      rfl
    show gather_S100000x128_S1024x200x1_S1024x200x128_2_0_n_n_0_2_1128.start i (starts idx) 0 + gather_S100000x128_S1024x200x1_S1024x200x128_2_0_n_n_0_2_1128.batchCoord i 0 + gather_S100000x128_S1024x200x1_S1024x200x128_2_0_n_n_0_2_1128.offCoord i 0 = min (idx (ix2 (i 0) (i 1))).toNat 99999
    rw [hs, hb, ho]
    simp only [Nat.add_zero]
  | ⟨1, _⟩ =>
    have hb : gather_S100000x128_S1024x200x1_S1024x200x128_2_0_n_n_0_2_1128.batchCoord i 1 = 0 := GatherDims.batchCoord_eq_zero _ _ _ List.not_mem_nil
    have hs : gather_S100000x128_S1024x200x1_S1024x200x128_2_0_n_n_0_2_1128.start i (starts idx) 1 = 0 := by
      unfold GatherDims.start
      rw [dif_neg (show (1 : Fin 2) ∉ gather_S100000x128_S1024x200x1_S1024x200x128_2_0_n_n_0_2_1128.startIndexMap from by decide)]
    have ho : gather_S100000x128_S1024x200x1_S1024x200x128_2_0_n_n_0_2_1128.offCoord i 1 = (i 2).val := by
      unfold GatherDims.offCoord
      rw [dif_pos (show (1 : Fin 2) ∈ gather_S100000x128_S1024x200x1_S1024x200x128_2_0_n_n_0_2_1128.sKept from by decide)]
      rfl
    show gather_S100000x128_S1024x200x1_S1024x200x128_2_0_n_n_0_2_1128.start i (starts idx) 1 + gather_S100000x128_S1024x200x1_S1024x200x128_2_0_n_n_0_2_1128.batchCoord i 1 + gather_S100000x128_S1024x200x1_S1024x200x128_2_0_n_n_0_2_1128.offCoord i 1 = (i 2).val
    rw [hs, hb, ho]
    omega

/-- In range the program's first result is the lookup: the mask is 1 at (b, l), so the select takes the gathered value, the
    table at the row word (b, l) names, column e. The fill value is never read. -/
theorem out_emb (hr : Lookup.InRange idx) (tab : FVec F S100000x128 .f32) : out idx tab = Lookup.emb idx tab := by
  funext i
  have hm : broadcastInDim S1024x200x128 ![0, 1] bcast_S1024x200_S1024x200x128_0_1 (mask idx) i = 1#1 := by
    rw [broadcastInDim_apply ![0, 1] bcast_S1024x200_S1024x200x128_0_1 (mask idx) i (ix2 (i 0) (i 1)) (fun a => by
      match a with
      | ⟨0, _⟩ => rfl
      | ⟨1, _⟩ => rfl)]
    exact mask_eq hr _
  unfold out
  rw [select_apply, hm, select_one]
  unfold Host.gather
  rw [operandIdx_eq hr]
  rfl

end Gather

/-- The constant 200 broadcast is the specification's lengths. -/
theorem lens_val : (broadcastInDim S1024 ![] bcast_S_S1024 (constantI S_ 32 200#32) : IVec S1024 32) = Lookup.lens := rfl

/-- At the compiled mesh, from any memory with zero counters whose row numbers are in range on every device: every weakly
    fair execution of the reference's @main terminates, with its first result the lookup of the two arguments, its second the
    lengths, and the arguments unchanged. -/
theorem run (m : (ℓ : Loc nD τ sig) → Buf (Elt Ideal) ℓ) (ρ : Dev nD → PrngReg)
    (hr : ∀ c : Dev nD, Lookup.InRange (m ((c.tc : Thread nD τ).loc main_arg0))) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v0) = Lookup.emb (m ((c.tc : Thread nD τ).loc main_arg0)) (m ((c.tc : Thread nD τ).loc main_arg1))
        ∧ r.2.mem ((c.tc : Thread nD τ).loc main_v1) = Lookup.lens
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c =>
      ⟨(h c main_v0).trans ((out_eq _).trans (out_emb (hr c) _)),
        (h c main_v1).trans ((lens_eq _).trans lens_val),
        (h c main_arg0).trans (arg0_eq _),
        (h c main_arg1).trans (arg1_eq _)⟩)
    (run_main m ρ)

end Cert.ReferenceIdeal.RefValue

end
-- ==== Proof.KSetup.lean ====
/-
  The launch of the lookup kernel, as the launch theorem sees it: the program's configuration, the ghost state (the
  handshakes' rounds beside the transfers' counters), the arrays and how they are dealt to the 2 x 16 workers.

  Worker (c, s) has number w = 2 s + c. It is handed row w of the reshaped row numbers (100 x 64 words), a share of the
  whole table (every worker reads all of it), and block w of the output (100 x 64 x 128 entries); it hands them back
  with its block holding, entry by entry, the rows its words name: the block is the restriction of ONE function of the
  arguments, `Lookup.tiled`, so that the blocks join to the whole array at that function.
-/
import proofs.«206297_g77653008712327_cont_9to1c4b_438_14_alg».proof.Defs
import proofs.«206297_g77653008712327_cont_9to1c4b_438_14_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206297_g77653008712327_cont_9to1c4b_438_14_alg».proof.Proof.Gen.Kernel
import proofs.«206297_g77653008712327_cont_9to1c4b_438_14_alg».proof.Proof.Gen.Kernel.Skeleton

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

abbrev aLoc (d : Dev nD) : Loc nD τ sig := (SparseCore.T d).loc main_arg0   -- the row numbers, 1024 x 200
abbrev xLoc (d : Dev nD) : Loc nD τ sig := (SparseCore.T d).loc main_arg1   -- the table
abbrev iLoc (d : Dev nD) : Loc nD τ sig := (SparseCore.T d).loc main_v0     -- the row numbers, 32 x 100 x 64
abbrev oLoc (d : Dev nD) : Loc nD τ sig := (SparseCore.T d).loc main_v1     -- the rows, 32 x 100 x 64 x 128
abbrev eLoc (d : Dev nD) : Loc nD τ sig := (SparseCore.T d).loc main_v2     -- the rows, 1024 x 200 x 128
abbrev cLoc (d : Dev nD) : Loc nD τ sig := (SparseCore.T d).loc main_c
abbrev lLoc (d : Dev nD) : Loc nD τ sig := (SparseCore.T d).loc main_v3     -- the lengths

local notation "iV" => (Memref.whole Cert.Kernel.main_v0_scv : Memref Cert.Kernel.sig Kind.scVector Space.hbm Cert.Kernel.S32x100x64 EltTy.i32)
local notation "xV" => (Memref.whole Cert.Kernel.main_arg1_scv : Memref Cert.Kernel.sig Kind.scVector Space.hbm Cert.Kernel.S100000x128 EltTy.f32)
local notation "oV" => (Memref.whole Cert.Kernel.main_v1_scv : Memref Cert.Kernel.sig Kind.scVector Space.hbm Cert.Kernel.S32x100x64x128 EltTy.f32)

/-- The reshaped row numbers, as the host's reshape leaves them before the call. -/
def idx3 (d : Dev nD) : Buf (Elt F) (iLoc d) := shapeCast S32x100x64 (m (aLoc d)) shapeCasts_S1024x200_S32x100x64
/-- What the call leaves in the output: the rows the words name, in the workers' arrangement. -/
def OUT (d : Dev nD) : Buf (Elt F) (oLoc d) := Lookup.tiled (idx3 m d) (m (xLoc d))

theorem idiv : 32 ∣ S32x100x64.size 0 := ⟨1, rfl⟩
theorem odiv : 32 ∣ S32x100x64x128.size 0 := ⟨1, rfl⟩
abbrev irow (w : Fin 32) : Rect S32x100x64 := Rect.part (s := S32x100x64) (a₀ := 0) idiv w
abbrev orow (w : Fin 32) : Rect S32x100x64x128 := Rect.part (s := S32x100x64x128) (a₀ := 0) odiv w
abbrev iRowSet (w : Fin 32) : Finset S32x100x64.Idx := ((iV).view.slice (irow w)).set
abbrev oRowSet (w : Fin 32) : Finset S32x100x64x128.Idx := ((oV).view.slice (orow w)).set

/-- The number of worker (c, s). -/
def wid (c : Fin 2) (s : Fin 16) : Fin 32 := ⟨2 * s.val + c.val, by omega⟩

/-! ## Shares of the table: the full share halved five times -/

def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

def sumEquiv (n : ℕ) : Fin (2 ^ n) ⊕ Fin (2 ^ n) ≃ Fin (2 ^ (n + 1)) := finSumFinEquiv.trans (finCongr (by omega))

omit m ρ in
theorem sumEquiv_inl (n : ℕ) (i : Fin (2 ^ n)) : (sumEquiv n (Sum.inl i)).val = i.val := by simp [sumEquiv]
omit m ρ in
theorem sumEquiv_inr (n : ℕ) (i : Fin (2 ^ n)) : (sumEquiv n (Sum.inr i)).val = 2 ^ n + i.val := by simp [sumEquiv]; omega

omit m ρ in
theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
omit m ρ in
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

omit m ρ in
/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- Worker w's share of the table. -/
abbrev xq (w : Fin 32) : PosShare TreeShare := leaf 5 fullShare w

variable [FloatOps F]

/-! ## What the handshakes carry -/

abbrev iRowPts (d : Dev nD) (w : Fin 32) : sProp 𝕄 := iLoc d ↦[iRowSet w]{fullShare} idx3 m d
abbrev xShPts (d : Dev nD) (w : Fin 32) : sProp 𝕄 := xLoc d ↦{xq w} m (xLoc d)
abbrev oRowPts (d : Dev nD) (w : Fin 32) (f : Buf (Elt F) (oLoc d)) : sProp 𝕄 := oLoc d ↦[oRowSet w]{fullShare} f

/-- What worker w takes, and what it brings back. -/
def goW (d : Dev nD) (w : Fin 32) : sProp 𝕄 := iprop(iRowPts m d w ∗ xShPts m d w ∗ oRowPts d w (m (oLoc d)))
def tdW (d : Dev nD) (w : Fin 32) : sProp 𝕄 := iprop(iRowPts m d w ∗ xShPts m d w ∗ oRowPts d w (OUT m d))

instance goW_storable (d : Dev nD) (w : Fin 32) : BI.Storable (upEmb : UEmb _ 𝕄) (goW m d w) := by unfold goW; infer_instance
instance tdW_storable (d : Dev nD) (w : Fin 32) : BI.Storable (upEmb : UEmb _ 𝕄) (tdW m d w) := by unfold tdW; infer_instance

/-- The one call: each SparseCore takes its sixteen workers' parts and brings them back. -/
def P : (K (F := F)).Pay (nD := nD) (Val := Elt F) (Name := ℕ) (U := UU) where
  st := fun q d c => match q with | 0 => bigSep Finset.univ fun s : Fin 16 => goW m d (wid (Fin.cast nCore_zero c) s)
  dn := fun q d c => match q with | 0 => bigSep Finset.univ fun s : Fin 16 => tdW m d (wid (Fin.cast nCore_zero c) s)
  go := fun q d c i => match q with | 0 => goW m d (wid (Fin.cast nCore_zero c) (Fin.cast nSub_zero i))
  td := fun q d c i => match q with | 0 => tdW m d (wid (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun s : Fin 16 => goW m d (wid (Fin.cast nCore_zero c) s)))
  dn q d c := match q with
    | 0 => (inferInstance : BI.Storable (upEmb : UEmb _ 𝕄) (bigSep Finset.univ fun s : Fin 16 => tdW m d (wid (Fin.cast nCore_zero c) s)))
  go q d c i := match q with
    | 0 => (inferInstance : BI.Storable (upEmb : UEmb _ 𝕄) (goW m d (wid (Fin.cast nCore_zero c) (Fin.cast nSub_zero i))))
  td q d c i := match q with
    | 0 => (inferInstance : BI.Storable (upEmb : UEmb _ 𝕄) (tdW m d (wid (Fin.cast nCore_zero c) (Fin.cast nSub_zero i))))

/-- What the proof asks of the launch memory: every row number names a row of the table. -/
def PreOK : Prop := ∀ d : Dev nD, Lookup.InRange (m (aLoc d))

end Cert.Proof.KernelRun

end
-- ==== Proof.KCells.lean ====
/-
  A vector subcore's scoped semaphores and buffers, in explicit form.

  A processor of this program has 4 regular semaphores, none scoped, and 21 DMA semaphores, all of them scoped on a
  vector subcore. The lookup uses them as three arrays laid side by side: cells 0..9 count the ten gathers in flight,
  cells 10..19 the ten stores, cell 20 the opening copy of the row numbers. So the scoped cells a thread (d, c, i)
  owns are exactly these 21, and "each of them at zero" is the product of three groups: ten, ten and one. Likewise the
  buffers the thread owns contain its two scratch buffers (the row numbers' and the rows'), which are split off the
  product of all of them.
-/
import proofs.«206297_g77653008712327_cont_9to1c4b_438_14_alg».proof.Proof.KSetup

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

abbrev gcell (b : Fin 10) : SemLoc sig := .dma ⟨b.val, by have := b.isLt; show b.val < 21; omega⟩
abbrev scell (b : Fin 10) : SemLoc sig := .dma ⟨10 + b.val, by have := b.isLt; show 10 + b.val < 21; omega⟩
abbrev ccell : SemLoc sig := .dma ⟨20, by show 20 < 21; omega⟩

/-- On a vector subcore every DMA semaphore is scoped, -/
theorem dma_scoped (k : DmaSem sig) : (SemLoc.dma k : SemLoc sig).isScoped .scVector = true :=
  sig.sc_scopedDmaSem .scVector k (by decide)
/-- and no regular semaphore is. -/
theorem reg_unscoped (s : Sem sig) : (SemLoc.reg s : SemLoc sig).isScoped .scVector = false := by
  revert s; decide

/-- The gathers' ten cells of a thread, -/
def gcellEmb (thr : Thread nD τ) : Fin 10 ↪ GSem nD τ sig :=
  ⟨fun b => (thr, gcell b), fun a b h => Fin.ext (by
    have h2 : gcell a = gcell b := congrArg Prod.snd h
    have h3 := Fin.val_eq_of_eq (SemLoc.dma.inj h2)
    exact h3)⟩
/-- and the stores' ten. -/
def scellEmb (thr : Thread nD τ) : Fin 10 ↪ GSem nD τ sig :=
  ⟨fun b => (thr, scell b), fun a b h => Fin.ext (by
    have h2 : scell a = scell b := congrArg Prod.snd h
    have h3 := Fin.val_eq_of_eq (SemLoc.dma.inj h2)
    have h4 : 10 + a.val = 10 + b.val := h3
    omega)⟩

/-- A vector subcore's own scoped cells are its 21 DMA semaphores: ten, ten and one. -/
theorem ownCells_V (d : Dev nD) (c : Fin τ.nSC) (i : Fin τ.nSub) :
    ownCells (V d c i) = Finset.univ.map (gcellEmb (V d c i)) ∪ (Finset.univ.map (scellEmb (V d c i)) ∪ {(V d c i, ccell)}) := by
  ext ⟨t, l⟩
  rw [mem_ownCells, Finset.mem_union, Finset.mem_union, Finset.mem_map, Finset.mem_map, Finset.mem_singleton]
  constructor
  · rintro ⟨ht, hs⟩
    have ht' : t = V d c i := ht
    subst ht'
    cases l with
    | reg s => exact absurd hs (by show ¬((SemLoc.reg s : SemLoc sig).isScoped .scVector = true); rw [reg_unscoped]; decide)
    | dma k =>
      obtain ⟨k, hk⟩ := k
      have hk' : k < 21 := hk
      by_cases h1 : k < 10
      · exact Or.inl ⟨⟨k, h1⟩, Finset.mem_univ _, rfl⟩
      · by_cases h2 : k < 20
        · refine Or.inr (Or.inl ⟨⟨k - 10, by omega⟩, Finset.mem_univ _, ?_⟩)
          have e : (⟨10 + (k - 10), by show _ < 21; omega⟩ : DmaSem sig) = ⟨k, hk⟩ :=
            Fin.ext (by show 10 + (k - 10) = k; omega)
          exact congrArg (fun x => ((V d c i, SemLoc.dma x) : GSem nD τ sig)) e
        · refine Or.inr (Or.inr ?_)
          have : k = 20 := by omega
          subst this
          rfl
  · rintro (⟨b, -, e⟩ | ⟨b, -, e⟩ | e)
    · have e' : (V d c i, gcell b) = (t, l) := e
      obtain ⟨rfl, rfl⟩ := Prod.mk.inj e'
      exact ⟨rfl, dma_scoped _⟩
    · have e' : (V d c i, scell b) = (t, l) := e
      obtain ⟨rfl, rfl⟩ := Prod.mk.inj e'
      exact ⟨rfl, dma_scoped _⟩
    · obtain ⟨rfl, rfl⟩ := Prod.mk.inj e
      exact ⟨rfl, dma_scoped _⟩

theorem disjoint_gcells (thr : Thread nD τ) :
    Disjoint (Finset.univ.map (gcellEmb thr)) (Finset.univ.map (scellEmb thr) ∪ {(thr, ccell)}) := by
  rw [Finset.disjoint_left]
  intro g hg hg'
  obtain ⟨a, -, rfl⟩ := Finset.mem_map.mp hg
  have ha := a.isLt
  rcases Finset.mem_union.mp hg' with h | h
  · obtain ⟨b, -, e⟩ := Finset.mem_map.mp h
    have e2 : scell b = gcell a := congrArg Prod.snd e
    have e3 := Fin.val_eq_of_eq (SemLoc.dma.inj e2)
    have e4 : 10 + b.val = a.val := e3
    omega
  · have e : (thr, gcell a) = (thr, ccell) := Finset.mem_singleton.mp h
    have e2 : gcell a = ccell := congrArg Prod.snd e
    have e3 := Fin.val_eq_of_eq (SemLoc.dma.inj e2)
    have e4 : a.val = 20 := e3
    omega

theorem disjoint_scells (thr : Thread nD τ) : Disjoint (Finset.univ.map (scellEmb thr)) {(thr, ccell)} := by
  rw [Finset.disjoint_singleton_right]
  intro h
  obtain ⟨b, -, e⟩ := Finset.mem_map.mp h
  have hb := b.isLt
  have e2 : scell b = ccell := congrArg Prod.snd e
  have e3 := Fin.val_eq_of_eq (SemLoc.dma.inj e2)
  have e4 : 10 + b.val = 20 := e3
  omega

/-- A vector subcore's scoped semaphores at zero: the gathers' ten, the stores' ten, the opening copy's one. -/
theorem ownSems0_V (d : Dev nD) (c : Fin τ.nSC) (i : Fin τ.nSub) :
    (ownSems0 (V d c i) : sProp 𝕄)
      = iprop((bigSep Finset.univ fun b : Fin 10 => semVal (V d c i, gcell b) 0)
          ∗ (bigSep Finset.univ fun b : Fin 10 => semVal (V d c i, scell b) 0) ∗ semVal (V d c i, ccell) 0) := by
  unfold SparseCore.Cfg.ownSems0
  rw [ownCells_V, SparseCore.bigSep_union' (disjoint_gcells _), SparseCore.bigSep_union' (disjoint_scells _), bigSep_map, bigSep_map,
    bigSep_singleton]
  rfl

/-- The two scratch buffers are among the subcore's own: they are them, at some contents, and the rest. -/
theorem ownBufs_V (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ bigSep (((ownRefs (τ := τ) (.scVector c i)).erase ((Proc.scVector c i).devRef cc0_scratch0)).erase
              ((Proc.scVector c i).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c i) (b := (Proc.scVector c i).devRef cc0_scratch1) rfl⟩)]

end Cert.Proof.KernelRun

end
-- ==== Proof.KBodyDefs.lean ====
/-
  One worker's task, its vocabulary. The worker copies its 100 x 64 row numbers into its index scratch, then keeps a
  ring of ten slots of its row scratch busy: chunk n (64 row numbers) is gathered from the table into slot n mod 10
  and copied out to chunk n of the worker's output block. Each slot has its own two cells, so per cell one transfer
  is in flight at a time.

  Here: the memrefs as the program slices them (slots, list rows, output chunks, at a symbolic trip), the same
  pieces under canonical names (row n of the index scratch, chunk n of the block), what the buffers hold
  (`IDXV`: the index scratch after the copy; `RF n`: a slot after chunk n's gather; `OUT`: the block), and what
  a gather and a copy-out in flight deliver.
-/
import proofs.«206297_g77653008712327_cont_9to1c4b_438_14_alg».proof.Proof.KSetup
import proofs.«206297_g77653008712327_cont_9to1c4b_438_14_alg».proof.Proof.KCells

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x100x64 EltTy.i32)
local notation "xV" => (Memref.whole Cert.Kernel.main_arg1_scv : Memref Cert.Kernel.sig Kind.scVector Space.hbm Cert.Kernel.S100000x128 EltTy.f32)
local notation "oV" => (Memref.whole Cert.Kernel.main_v1_scv : Memref Cert.Kernel.sig Kind.scVector Space.hbm Cert.Kernel.S32x100x64x128 EltTy.f32)
local notation "sV" => (Memref.whole Cert.Kernel.cc0_scratch0 : Memref Cert.Kernel.sig Kind.scVector Space.vmem Cert.Kernel.S100x64 EltTy.i32)
local notation "rV" => (Memref.whole Cert.Kernel.cc0_scratch1 : Memref Cert.Kernel.sig Kind.scVector Space.vmem Cert.Kernel.S10x64x128 EltTy.f32)

variable (m : (ℓ : Loc nD τ sig) → Buf (Elt F) ℓ)
variable (d : Dev nD) (L : grid0.Coords)

abbrev cV (L : grid0.Coords) : Fin τ.nSC := (L 0).castLE hcore0
abbrev jV (L : grid0.Coords) : Fin τ.nSub := (L 1).castLE hsub0
/-- The worker's thread. -/
abbrev thr : Thread nD τ := V d (cV L) (jV L)

theorem widL_lt (L : grid0.Coords) : 2 * (L 1).val + (L 0).val < 32 := by
  have h0 : (L 0).val < 2 := (L 0).isLt
  have h1 : (L 1).val < 16 := (L 1).isLt
  omega
/-- The worker's number. -/
def widL (L : grid0.Coords) : Fin 32 := ⟨2 * (L 1).val + (L 0).val, widL_lt L⟩

/-! ## The memrefs as the program slices them -/

abbrev irowK (L : grid0.Coords) : Rect S32x100x64 := Rect.unit (s := S32x100x64) (k0_off1 L) S1x100x64.size (k0_off1_inb L)
/-- The worker's row of the reshaped row numbers. -/
abbrev iRowK (L : grid0.Coords) : Memref sig .scVector .hbm S100x64 .i32 := ((iV).slice (irowK L) (fun _ => rfl)).squeeze S100x64 squeezes_S1x100x64_S100x64
/-- The whole table, as each gather names it. -/
abbrev xAllM : Memref sig .scVector .hbm S100000x128 .f32 := (xV).slice (Rect.unit (s := S100000x128) ![0, 0] S100000x128.size inb_S100000x128_S100000x128_0_0) (fun _ => rfl)
/-- Slot 0 of the row scratch. -/
abbrev slotM0 : Memref sig .scVector .vmem S64x128 .f32 := ((rV).slice (Rect.unit (s := S10x64x128) ![0, 0, 0] S1x64x128.size inb_S10x64x128_S1x64x128_0_0_0) (fun _ => rfl)).squeeze S64x128 squeezes_S1x64x128_S64x128
/-- Slot 1 of the row scratch. -/
abbrev slotM1 : Memref sig .scVector .vmem S64x128 .f32 := ((rV).slice (Rect.unit (s := S10x64x128) ![1, 0, 0] S1x64x128.size inb_S10x64x128_S1x64x128_1_0_0) (fun _ => rfl)).squeeze S64x128 squeezes_S1x64x128_S64x128
/-- Slot 2 of the row scratch. -/
abbrev slotM2 : Memref sig .scVector .vmem S64x128 .f32 := ((rV).slice (Rect.unit (s := S10x64x128) ![2, 0, 0] S1x64x128.size inb_S10x64x128_S1x64x128_2_0_0) (fun _ => rfl)).squeeze S64x128 squeezes_S1x64x128_S64x128
/-- Slot 3 of the row scratch. -/
abbrev slotM3 : Memref sig .scVector .vmem S64x128 .f32 := ((rV).slice (Rect.unit (s := S10x64x128) ![3, 0, 0] S1x64x128.size inb_S10x64x128_S1x64x128_3_0_0) (fun _ => rfl)).squeeze S64x128 squeezes_S1x64x128_S64x128
/-- Slot 4 of the row scratch. -/
abbrev slotM4 : Memref sig .scVector .vmem S64x128 .f32 := ((rV).slice (Rect.unit (s := S10x64x128) ![4, 0, 0] S1x64x128.size inb_S10x64x128_S1x64x128_4_0_0) (fun _ => rfl)).squeeze S64x128 squeezes_S1x64x128_S64x128
/-- Slot 5 of the row scratch. -/
abbrev slotM5 : Memref sig .scVector .vmem S64x128 .f32 := ((rV).slice (Rect.unit (s := S10x64x128) ![5, 0, 0] S1x64x128.size inb_S10x64x128_S1x64x128_5_0_0) (fun _ => rfl)).squeeze S64x128 squeezes_S1x64x128_S64x128
/-- Slot 6 of the row scratch. -/
abbrev slotM6 : Memref sig .scVector .vmem S64x128 .f32 := ((rV).slice (Rect.unit (s := S10x64x128) ![6, 0, 0] S1x64x128.size inb_S10x64x128_S1x64x128_6_0_0) (fun _ => rfl)).squeeze S64x128 squeezes_S1x64x128_S64x128
/-- Slot 7 of the row scratch. -/
abbrev slotM7 : Memref sig .scVector .vmem S64x128 .f32 := ((rV).slice (Rect.unit (s := S10x64x128) ![7, 0, 0] S1x64x128.size inb_S10x64x128_S1x64x128_7_0_0) (fun _ => rfl)).squeeze S64x128 squeezes_S1x64x128_S64x128
/-- Slot 8 of the row scratch. -/
abbrev slotM8 : Memref sig .scVector .vmem S64x128 .f32 := ((rV).slice (Rect.unit (s := S10x64x128) ![8, 0, 0] S1x64x128.size inb_S10x64x128_S1x64x128_8_0_0) (fun _ => rfl)).squeeze S64x128 squeezes_S1x64x128_S64x128
/-- Slot 9 of the row scratch. -/
abbrev slotM9 : Memref sig .scVector .vmem S64x128 .f32 := ((rV).slice (Rect.unit (s := S10x64x128) ![9, 0, 0] S1x64x128.size inb_S10x64x128_S1x64x128_9_0_0) (fun _ => rfl)).squeeze S64x128 squeezes_S1x64x128_S64x128
/-- Row 0 of the index scratch, as the opening gathers name it. -/
abbrev lstLit0 : Memref sig .scVector .vmem S64 .i32 := ((sV).slice (Rect.unit (s := S100x64) ![0, 0] S1x64.size inb_S100x64_S1x64_0_0) (fun _ => rfl)).squeeze S64 squeezes_S1x64_S64
/-- Row 1 of the index scratch, as the opening gathers name it. -/
abbrev lstLit1 : Memref sig .scVector .vmem S64 .i32 := ((sV).slice (Rect.unit (s := S100x64) ![1, 0] S1x64.size inb_S100x64_S1x64_1_0) (fun _ => rfl)).squeeze S64 squeezes_S1x64_S64
/-- Row 2 of the index scratch, as the opening gathers name it. -/
abbrev lstLit2 : Memref sig .scVector .vmem S64 .i32 := ((sV).slice (Rect.unit (s := S100x64) ![2, 0] S1x64.size inb_S100x64_S1x64_2_0) (fun _ => rfl)).squeeze S64 squeezes_S1x64_S64
/-- Row 3 of the index scratch, as the opening gathers name it. -/
abbrev lstLit3 : Memref sig .scVector .vmem S64 .i32 := ((sV).slice (Rect.unit (s := S100x64) ![3, 0] S1x64.size inb_S100x64_S1x64_3_0) (fun _ => rfl)).squeeze S64 squeezes_S1x64_S64
/-- Row 4 of the index scratch, as the opening gathers name it. -/
abbrev lstLit4 : Memref sig .scVector .vmem S64 .i32 := ((sV).slice (Rect.unit (s := S100x64) ![4, 0] S1x64.size inb_S100x64_S1x64_4_0) (fun _ => rfl)).squeeze S64 squeezes_S1x64_S64
/-- Row 5 of the index scratch, as the opening gathers name it. -/
abbrev lstLit5 : Memref sig .scVector .vmem S64 .i32 := ((sV).slice (Rect.unit (s := S100x64) ![5, 0] S1x64.size inb_S100x64_S1x64_5_0) (fun _ => rfl)).squeeze S64 squeezes_S1x64_S64
/-- Row 6 of the index scratch, as the opening gathers name it. -/
abbrev lstLit6 : Memref sig .scVector .vmem S64 .i32 := ((sV).slice (Rect.unit (s := S100x64) ![6, 0] S1x64.size inb_S100x64_S1x64_6_0) (fun _ => rfl)).squeeze S64 squeezes_S1x64_S64
/-- Row 7 of the index scratch, as the opening gathers name it. -/
abbrev lstLit7 : Memref sig .scVector .vmem S64 .i32 := ((sV).slice (Rect.unit (s := S100x64) ![7, 0] S1x64.size inb_S100x64_S1x64_7_0) (fun _ => rfl)).squeeze S64 squeezes_S1x64_S64
/-- Row 8 of the index scratch, as the opening gathers name it. -/
abbrev lstLit8 : Memref sig .scVector .vmem S64 .i32 := ((sV).slice (Rect.unit (s := S100x64) ![8, 0] S1x64.size inb_S100x64_S1x64_8_0) (fun _ => rfl)).squeeze S64 squeezes_S1x64_S64
/-- Row 9 of the index scratch, as the opening gathers name it. -/
abbrev lstLit9 : Memref sig .scVector .vmem S64 .i32 := ((sV).slice (Rect.unit (s := S100x64) ![9, 0] S1x64.size inb_S100x64_S1x64_9_0) (fun _ => rfl)).squeeze S64 squeezes_S1x64_S64
/-- The index-scratch row step 0 of trip k gathers by (row 10 k + 9). -/
abbrev lstK0 (k : Fin k0_t1_loop.trips) (h : k0_cond1 k = 1#1) : Memref sig .scVector .vmem S64 .i32 := ((sV).slice (Rect.unit (s := S100x64) (k0_off4 k) S1x64.size (k0_off4_inb k h)) (fun _ => rfl)).squeeze S64 squeezes_S1x64_S64
/-- The index-scratch row step 1 of trip k gathers by (row 10 k + 10). -/
abbrev lstK1 (k : Fin k0_t1_loop.trips) (h : k0_cond2 k = 1#1) : Memref sig .scVector .vmem S64 .i32 := ((sV).slice (Rect.unit (s := S100x64) (k0_off6 k) S1x64.size (k0_off6_inb k h)) (fun _ => rfl)).squeeze S64 squeezes_S1x64_S64
/-- The index-scratch row step 2 of trip k gathers by (row 10 k + 11). -/
abbrev lstK2 (k : Fin k0_t1_loop.trips) (h : k0_cond3 k = 1#1) : Memref sig .scVector .vmem S64 .i32 := ((sV).slice (Rect.unit (s := S100x64) (k0_off8 k) S1x64.size (k0_off8_inb k h)) (fun _ => rfl)).squeeze S64 squeezes_S1x64_S64
/-- The index-scratch row step 3 of trip k gathers by (row 10 k + 12). -/
abbrev lstK3 (k : Fin k0_t1_loop.trips) (h : k0_cond4 k = 1#1) : Memref sig .scVector .vmem S64 .i32 := ((sV).slice (Rect.unit (s := S100x64) (k0_off10 k) S1x64.size (k0_off10_inb k h)) (fun _ => rfl)).squeeze S64 squeezes_S1x64_S64
/-- The index-scratch row step 4 of trip k gathers by (row 10 k + 13). -/
abbrev lstK4 (k : Fin k0_t1_loop.trips) (h : k0_cond5 k = 1#1) : Memref sig .scVector .vmem S64 .i32 := ((sV).slice (Rect.unit (s := S100x64) (k0_off12 k) S1x64.size (k0_off12_inb k h)) (fun _ => rfl)).squeeze S64 squeezes_S1x64_S64
/-- The index-scratch row step 5 of trip k gathers by (row 10 k + 14). -/
abbrev lstK5 (k : Fin k0_t1_loop.trips) (h : k0_cond6 k = 1#1) : Memref sig .scVector .vmem S64 .i32 := ((sV).slice (Rect.unit (s := S100x64) (k0_off14 k) S1x64.size (k0_off14_inb k h)) (fun _ => rfl)).squeeze S64 squeezes_S1x64_S64
/-- The index-scratch row step 6 of trip k gathers by (row 10 k + 15). -/
abbrev lstK6 (k : Fin k0_t1_loop.trips) (h : k0_cond7 k = 1#1) : Memref sig .scVector .vmem S64 .i32 := ((sV).slice (Rect.unit (s := S100x64) (k0_off16 k) S1x64.size (k0_off16_inb k h)) (fun _ => rfl)).squeeze S64 squeezes_S1x64_S64
/-- The index-scratch row step 7 of trip k gathers by (row 10 k + 16). -/
abbrev lstK7 (k : Fin k0_t1_loop.trips) (h : k0_cond8 k = 1#1) : Memref sig .scVector .vmem S64 .i32 := ((sV).slice (Rect.unit (s := S100x64) (k0_off18 k) S1x64.size (k0_off18_inb k h)) (fun _ => rfl)).squeeze S64 squeezes_S1x64_S64
/-- The index-scratch row step 8 of trip k gathers by (row 10 k + 17). -/
abbrev lstK8 (k : Fin k0_t1_loop.trips) (h : k0_cond9 k = 1#1) : Memref sig .scVector .vmem S64 .i32 := ((sV).slice (Rect.unit (s := S100x64) (k0_off20 k) S1x64.size (k0_off20_inb k h)) (fun _ => rfl)).squeeze S64 squeezes_S1x64_S64
/-- The index-scratch row step 9 of trip k gathers by (row 10 k + 18). -/
abbrev lstK9 (k : Fin k0_t1_loop.trips) (h : k0_cond10 k = 1#1) : Memref sig .scVector .vmem S64 .i32 := ((sV).slice (Rect.unit (s := S100x64) (k0_off22 k) S1x64.size (k0_off22_inb k h)) (fun _ => rfl)).squeeze S64 squeezes_S1x64_S64
/-- The output chunk step 0 of trip k copies out to (chunk 10 k + 0). -/
abbrev oChK0 (L : grid0.Coords) (k : Fin k0_t1_loop.trips) : Memref sig .scVector .hbm S64x128 .f32 := ((oV).slice (Rect.unit (s := S32x100x64x128) (k0_off2 L k 0#32) S1x1x64x128.size (k0_off2_inb L k 0)) (fun _ => rfl)).squeeze S64x128 squeezes_S1x1x64x128_S64x128
/-- The output chunk step 1 of trip k copies out to (chunk 10 k + 1). -/
abbrev oChK1 (L : grid0.Coords) (k : Fin k0_t1_loop.trips) : Memref sig .scVector .hbm S64x128 .f32 := ((oV).slice (Rect.unit (s := S32x100x64x128) (k0_off2 L k 1#32) S1x1x64x128.size (k0_off2_inb L k 1)) (fun _ => rfl)).squeeze S64x128 squeezes_S1x1x64x128_S64x128
/-- The output chunk step 2 of trip k copies out to (chunk 10 k + 2). -/
abbrev oChK2 (L : grid0.Coords) (k : Fin k0_t1_loop.trips) : Memref sig .scVector .hbm S64x128 .f32 := ((oV).slice (Rect.unit (s := S32x100x64x128) (k0_off2 L k 2#32) S1x1x64x128.size (k0_off2_inb L k 2)) (fun _ => rfl)).squeeze S64x128 squeezes_S1x1x64x128_S64x128
/-- The output chunk step 3 of trip k copies out to (chunk 10 k + 3). -/
abbrev oChK3 (L : grid0.Coords) (k : Fin k0_t1_loop.trips) : Memref sig .scVector .hbm S64x128 .f32 := ((oV).slice (Rect.unit (s := S32x100x64x128) (k0_off2 L k 3#32) S1x1x64x128.size (k0_off2_inb L k 3)) (fun _ => rfl)).squeeze S64x128 squeezes_S1x1x64x128_S64x128
/-- The output chunk step 4 of trip k copies out to (chunk 10 k + 4). -/
abbrev oChK4 (L : grid0.Coords) (k : Fin k0_t1_loop.trips) : Memref sig .scVector .hbm S64x128 .f32 := ((oV).slice (Rect.unit (s := S32x100x64x128) (k0_off2 L k 4#32) S1x1x64x128.size (k0_off2_inb L k 4)) (fun _ => rfl)).squeeze S64x128 squeezes_S1x1x64x128_S64x128
/-- The output chunk step 5 of trip k copies out to (chunk 10 k + 5). -/
abbrev oChK5 (L : grid0.Coords) (k : Fin k0_t1_loop.trips) : Memref sig .scVector .hbm S64x128 .f32 := ((oV).slice (Rect.unit (s := S32x100x64x128) (k0_off2 L k 5#32) S1x1x64x128.size (k0_off2_inb L k 5)) (fun _ => rfl)).squeeze S64x128 squeezes_S1x1x64x128_S64x128
/-- The output chunk step 6 of trip k copies out to (chunk 10 k + 6). -/
abbrev oChK6 (L : grid0.Coords) (k : Fin k0_t1_loop.trips) : Memref sig .scVector .hbm S64x128 .f32 := ((oV).slice (Rect.unit (s := S32x100x64x128) (k0_off2 L k 6#32) S1x1x64x128.size (k0_off2_inb L k 6)) (fun _ => rfl)).squeeze S64x128 squeezes_S1x1x64x128_S64x128
/-- The output chunk step 7 of trip k copies out to (chunk 10 k + 7). -/
abbrev oChK7 (L : grid0.Coords) (k : Fin k0_t1_loop.trips) : Memref sig .scVector .hbm S64x128 .f32 := ((oV).slice (Rect.unit (s := S32x100x64x128) (k0_off2 L k 7#32) S1x1x64x128.size (k0_off2_inb L k 7)) (fun _ => rfl)).squeeze S64x128 squeezes_S1x1x64x128_S64x128
/-- The output chunk step 8 of trip k copies out to (chunk 10 k + 8). -/
abbrev oChK8 (L : grid0.Coords) (k : Fin k0_t1_loop.trips) : Memref sig .scVector .hbm S64x128 .f32 := ((oV).slice (Rect.unit (s := S32x100x64x128) (k0_off2 L k 8#32) S1x1x64x128.size (k0_off2_inb L k 8)) (fun _ => rfl)).squeeze S64x128 squeezes_S1x1x64x128_S64x128
/-- The output chunk step 9 of trip k copies out to (chunk 10 k + 9). -/
abbrev oChK9 (L : grid0.Coords) (k : Fin k0_t1_loop.trips) : Memref sig .scVector .hbm S64x128 .f32 := ((oV).slice (Rect.unit (s := S32x100x64x128) (k0_off2 L k 9#32) S1x1x64x128.size (k0_off2_inb L k 9)) (fun _ => rfl)).squeeze S64x128 squeezes_S1x1x64x128_S64x128

/-! ## The same pieces under canonical names -/

theorem lst_inb (n : ℕ) (h : n < 100) : ∀ a, (![n, 0] : Fin 2 → Nat) a + S1x64.size a ≤ S100x64.size a := by
  intro a; match a with
  | ⟨0, _⟩ => show n + 1 ≤ 100; omega
  | ⟨1, _⟩ => show 0 + 64 ≤ 64; omega
/-- Row n of the index scratch. -/
abbrev lstC (n : ℕ) (h : n < 100) : Memref sig .scVector .vmem S64 .i32 := ((sV).slice (Rect.unit (s := S100x64) ![n, 0] S1x64.size (lst_inb n h)) (fun _ => rfl)).squeeze S64 squeezes_S1x64_S64

theorem och_inb (w : Fin 32) (n : ℕ) (h : n < 100) : ∀ a, (![w.val, n, 0, 0] : Fin 4 → Nat) a + S1x1x64x128.size a ≤ S32x100x64x128.size a := by
  intro a; have := w.isLt; match a with
  | ⟨0, _⟩ => show w.val + 1 ≤ 32; omega
  | ⟨1, _⟩ => show n + 1 ≤ 100; omega
  | ⟨2, _⟩ => show 0 + 64 ≤ 64; omega
  | ⟨3, _⟩ => show 0 + 128 ≤ 128; omega
/-- Chunk n of worker w's output block. -/
abbrev oChC (w : Fin 32) (n : ℕ) (h : n < 100) : Memref sig .scVector .hbm S64x128 .f32 := ((oV).slice (Rect.unit (s := S32x100x64x128) ![w.val, n, 0, 0] S1x1x64x128.size (och_inb w n h)) (fun _ => rfl)).squeeze S64x128 squeezes_S1x1x64x128_S64x128

/-! ## What the buffers hold -/

/-- The index scratch after the opening copy: word (k, r) is word (w, k, r) of the reshaped row numbers. -/
def IDXV : Buf (Elt F) ((thr d L).loc cc0_scratch0) := fun j => idx3 m d (ValueIdx.ix3 (widL L) (j 0) (j 1))
/-- A slot after chunk n's gather: entry (·, r, e) is entry e of the table row that word (w, n, r) names. -/
def RF (n : Fin 100) : Buf (Elt F) ((thr d L).loc cc0_scratch1) :=
  fun i => m (xLoc d) (ValueIdx.ix2 (Lookup.rowOf (idx3 m d (ValueIdx.ix3 (widL L) n (i 1)))) (i 2))

end Cert.Proof.KernelRun

end
-- ==== Proof.KGeom.lean ====
/-
  The geometry of one subcore's pieces.

  The index scratch is 100 rows of 64 words, the row scratch ten slots of 64 x 128 entries, and the subcore's block of
  the output 100 chunks of 64 x 128 entries. The program names a row, a slot or a chunk by an offset it computes from
  the trip counter; in closed form the offsets are (10 k + 9 + r, 0) for the row step r of trip k gathers by and
  (w, 10 k + r, 0, 0) for the chunk it copies out to, so each spelling is one of the canonical pieces "row n" and
  "chunk n of block w". The rows partition the index scratch, the slots the row scratch, and the chunks the block:
  a points-to for the whole is the product of the points-tos for the pieces.
-/
import proofs.«206297_g77653008712327_cont_9to1c4b_438_14_alg».proof.Proof.KBodyDefs

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x100x64 EltTy.i32)
local notation "xV" => (Memref.whole Cert.Kernel.main_arg1_scv : Memref Cert.Kernel.sig Kind.scVector Space.hbm Cert.Kernel.S100000x128 EltTy.f32)
local notation "oV" => (Memref.whole Cert.Kernel.main_v1_scv : Memref Cert.Kernel.sig Kind.scVector Space.hbm Cert.Kernel.S32x100x64x128 EltTy.f32)
local notation "sV" => (Memref.whole Cert.Kernel.cc0_scratch0 : Memref Cert.Kernel.sig Kind.scVector Space.vmem Cert.Kernel.S100x64 EltTy.i32)
local notation "rV" => (Memref.whole Cert.Kernel.cc0_scratch1 : Memref Cert.Kernel.sig Kind.scVector Space.vmem Cert.Kernel.S10x64x128 EltTy.f32)

/-! ## The program's spellings are the canonical pieces -/

/-- A row of the index scratch depends on its offsets only. -/
theorem lst_congr {off off' : Fin 2 → Nat} (e : off = off') (p : ∀ a, off a + S1x64.size a ≤ S100x64.size a)
    (p' : ∀ a, off' a + S1x64.size a ≤ S100x64.size a) :
    (((sV).slice (Rect.unit (s := S100x64) off S1x64.size p) (fun _ => rfl)).squeeze S64 squeezes_S1x64_S64
        : Memref sig .scVector .vmem S64 .i32)
      = ((sV).slice (Rect.unit (s := S100x64) off' S1x64.size p') (fun _ => rfl)).squeeze S64 squeezes_S1x64_S64 := by
  subst e; rfl

/-- A chunk of the output depends on its offsets only. -/
theorem och_congr {off off' : Fin 4 → Nat} (e : off = off') (p : ∀ a, off a + S1x1x64x128.size a ≤ S32x100x64x128.size a)
    (p' : ∀ a, off' a + S1x1x64x128.size a ≤ S32x100x64x128.size a) :
    (((oV).slice (Rect.unit (s := S32x100x64x128) off S1x1x64x128.size p) (fun _ => rfl)).squeeze S64x128 squeezes_S1x1x64x128_S64x128
        : Memref sig .scVector .hbm S64x128 .f32)
      = ((oV).slice (Rect.unit (s := S32x100x64x128) off' S1x1x64x128.size p') (fun _ => rfl)).squeeze S64x128 squeezes_S1x1x64x128_S64x128 := by
  subst e; rfl

theorem lstK0_eq (k : Fin k0_t1_loop.trips) (h : k0_cond1 k = 1#1) (hn : 10 * k.val + 9 < 100) :
    lstK0 k h = lstC (10 * k.val + 9) hn := lst_congr (k0_off4_eq k) _ _
theorem lstK1_eq (k : Fin k0_t1_loop.trips) (h : k0_cond2 k = 1#1) (hn : 10 * k.val + 10 < 100) :
    lstK1 k h = lstC (10 * k.val + 10) hn := lst_congr (k0_off6_eq k) _ _
theorem lstK2_eq (k : Fin k0_t1_loop.trips) (h : k0_cond3 k = 1#1) (hn : 10 * k.val + 11 < 100) :
    lstK2 k h = lstC (10 * k.val + 11) hn := lst_congr (k0_off8_eq k) _ _
theorem lstK3_eq (k : Fin k0_t1_loop.trips) (h : k0_cond4 k = 1#1) (hn : 10 * k.val + 12 < 100) :
    lstK3 k h = lstC (10 * k.val + 12) hn := lst_congr (k0_off10_eq k) _ _
theorem lstK4_eq (k : Fin k0_t1_loop.trips) (h : k0_cond5 k = 1#1) (hn : 10 * k.val + 13 < 100) :
    lstK4 k h = lstC (10 * k.val + 13) hn := lst_congr (k0_off12_eq k) _ _
theorem lstK5_eq (k : Fin k0_t1_loop.trips) (h : k0_cond6 k = 1#1) (hn : 10 * k.val + 14 < 100) :
    lstK5 k h = lstC (10 * k.val + 14) hn := lst_congr (k0_off14_eq k) _ _
theorem lstK6_eq (k : Fin k0_t1_loop.trips) (h : k0_cond7 k = 1#1) (hn : 10 * k.val + 15 < 100) :
    lstK6 k h = lstC (10 * k.val + 15) hn := lst_congr (k0_off16_eq k) _ _
theorem lstK7_eq (k : Fin k0_t1_loop.trips) (h : k0_cond8 k = 1#1) (hn : 10 * k.val + 16 < 100) :
    lstK7 k h = lstC (10 * k.val + 16) hn := lst_congr (k0_off18_eq k) _ _
theorem lstK8_eq (k : Fin k0_t1_loop.trips) (h : k0_cond9 k = 1#1) (hn : 10 * k.val + 17 < 100) :
    lstK8 k h = lstC (10 * k.val + 17) hn := lst_congr (k0_off20_eq k) _ _
theorem lstK9_eq (k : Fin k0_t1_loop.trips) (h : k0_cond10 k = 1#1) (hn : 10 * k.val + 18 < 100) :
    lstK9 k h = lstC (10 * k.val + 18) hn := lst_congr (k0_off22_eq k) _ _

theorem oChK0_eq (L : grid0.Coords) (k : Fin k0_t1_loop.trips) (hn : 10 * k.val + 0 < 100) :
    oChK0 L k = oChC (widL L) (10 * k.val + 0) hn := och_congr (k0_off2_eq L k ⟨0, by decide⟩) _ _
theorem oChK1_eq (L : grid0.Coords) (k : Fin k0_t1_loop.trips) (hn : 10 * k.val + 1 < 100) :
    oChK1 L k = oChC (widL L) (10 * k.val + 1) hn := och_congr (k0_off2_eq L k ⟨1, by decide⟩) _ _
theorem oChK2_eq (L : grid0.Coords) (k : Fin k0_t1_loop.trips) (hn : 10 * k.val + 2 < 100) :
    oChK2 L k = oChC (widL L) (10 * k.val + 2) hn := och_congr (k0_off2_eq L k ⟨2, by decide⟩) _ _
theorem oChK3_eq (L : grid0.Coords) (k : Fin k0_t1_loop.trips) (hn : 10 * k.val + 3 < 100) :
    oChK3 L k = oChC (widL L) (10 * k.val + 3) hn := och_congr (k0_off2_eq L k ⟨3, by decide⟩) _ _
theorem oChK4_eq (L : grid0.Coords) (k : Fin k0_t1_loop.trips) (hn : 10 * k.val + 4 < 100) :
    oChK4 L k = oChC (widL L) (10 * k.val + 4) hn := och_congr (k0_off2_eq L k ⟨4, by decide⟩) _ _
theorem oChK5_eq (L : grid0.Coords) (k : Fin k0_t1_loop.trips) (hn : 10 * k.val + 5 < 100) :
    oChK5 L k = oChC (widL L) (10 * k.val + 5) hn := och_congr (k0_off2_eq L k ⟨5, by decide⟩) _ _
theorem oChK6_eq (L : grid0.Coords) (k : Fin k0_t1_loop.trips) (hn : 10 * k.val + 6 < 100) :
    oChK6 L k = oChC (widL L) (10 * k.val + 6) hn := och_congr (k0_off2_eq L k ⟨6, by decide⟩) _ _
theorem oChK7_eq (L : grid0.Coords) (k : Fin k0_t1_loop.trips) (hn : 10 * k.val + 7 < 100) :
    oChK7 L k = oChC (widL L) (10 * k.val + 7) hn := och_congr (k0_off2_eq L k ⟨7, by decide⟩) _ _
theorem oChK8_eq (L : grid0.Coords) (k : Fin k0_t1_loop.trips) (hn : 10 * k.val + 8 < 100) :
    oChK8 L k = oChC (widL L) (10 * k.val + 8) hn := och_congr (k0_off2_eq L k ⟨8, by decide⟩) _ _
theorem oChK9_eq (L : grid0.Coords) (k : Fin k0_t1_loop.trips) (hn : 10 * k.val + 9 < 100) :
    oChK9 L k = oChC (widL L) (10 * k.val + 9) hn := och_congr (k0_off2_eq L k ⟨9, by decide⟩) _ _

theorem lstLit0_eq : lstLit0 = lstC 0 (by omega) := rfl
theorem lstLit1_eq : lstLit1 = lstC 1 (by omega) := rfl
theorem lstLit2_eq : lstLit2 = lstC 2 (by omega) := rfl
theorem lstLit3_eq : lstLit3 = lstC 3 (by omega) := rfl
theorem lstLit4_eq : lstLit4 = lstC 4 (by omega) := rfl
theorem lstLit5_eq : lstLit5 = lstC 5 (by omega) := rfl
theorem lstLit6_eq : lstLit6 = lstC 6 (by omega) := rfl
theorem lstLit7_eq : lstLit7 = lstC 7 (by omega) := rfl
theorem lstLit8_eq : lstLit8 = lstC 8 (by omega) := rfl
theorem lstLit9_eq : lstLit9 = lstC 9 (by omega) := rfl

/-! ## When a step of a trip runs -/

theorem cond1_iff (k : Fin k0_t1_loop.trips) : k0_cond1 k = 1#1 ↔ 1 ≤ k.val := by revert k; decide +kernel
theorem cond2_iff (k : Fin k0_t1_loop.trips) : k0_cond2 k = 1#1 ↔ k.val ≤ 8 := by revert k; decide +kernel
theorem cond3_iff (k : Fin k0_t1_loop.trips) : k0_cond3 k = 1#1 ↔ k.val ≤ 8 := by revert k; decide +kernel
theorem cond4_iff (k : Fin k0_t1_loop.trips) : k0_cond4 k = 1#1 ↔ k.val ≤ 8 := by revert k; decide +kernel
theorem cond5_iff (k : Fin k0_t1_loop.trips) : k0_cond5 k = 1#1 ↔ k.val ≤ 8 := by revert k; decide +kernel
theorem cond6_iff (k : Fin k0_t1_loop.trips) : k0_cond6 k = 1#1 ↔ k.val ≤ 8 := by revert k; decide +kernel
theorem cond7_iff (k : Fin k0_t1_loop.trips) : k0_cond7 k = 1#1 ↔ k.val ≤ 8 := by revert k; decide +kernel
theorem cond8_iff (k : Fin k0_t1_loop.trips) : k0_cond8 k = 1#1 ↔ k.val ≤ 8 := by revert k; decide +kernel
theorem cond9_iff (k : Fin k0_t1_loop.trips) : k0_cond9 k = 1#1 ↔ k.val ≤ 8 := by revert k; decide +kernel
theorem cond10_iff (k : Fin k0_t1_loop.trips) : k0_cond10 k = 1#1 ↔ k.val ≤ 8 := by revert k; decide +kernel

variable (d : Dev nD) (L : grid0.Coords)

/-! ## The whole table -/

omit d L in
/-- The table as a gather names it is all of it. -/
theorem set_xAll : (xAllM).view.set = Finset.univ := by
  show ((View.whole (main_arg1_scv : Ref sig .scVector)).slice _).set = Finset.univ
  rw [View.set_slice_whole]
  refine Finset.eq_univ_iff_forall.mpr fun y => Rect.mem_set_unit.mpr fun a => ?_
  have h0 : (y 0).val < 100000 := (y 0).isLt
  have h1 : (y 1).val < 128 := (y 1).isLt
  match a with
  | ⟨0, _⟩ => show 0 ≤ (y 0).val ∧ (y 0).val < 0 + 100000; omega
  | ⟨1, _⟩ => show 0 ≤ (y 1).val ∧ (y 1).val < 0 + 128; omega

/-! ## The ten slots partition the row scratch -/

omit d L in
theorem bigSep_fin10 {M : Type} [URA M] (Φ : Fin 10 → sProp M) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} from by decide,
    bigSep_insert (by decide), bigSep_insert (by decide), bigSep_insert (by decide), bigSep_insert (by decide),
    bigSep_insert (by decide), bigSep_insert (by decide), bigSep_insert (by decide), bigSep_insert (by decide),
    bigSep_insert (by decide), bigSep_singleton]
  rfl

omit d L in
theorem slot_inb (b : Fin 10) : ∀ a, (![b.val, 0, 0] : Fin 3 → Nat) a + S1x64x128.size a ≤ S10x64x128.size a := by
  intro a; have := b.isLt; match a with
  | ⟨0, _⟩ => show b.val + 1 ≤ 10; omega
  | ⟨1, _⟩ => show 0 + 64 ≤ 64; omega
  | ⟨2, _⟩ => show 0 + 128 ≤ 128; omega
/-- Slot b of the row scratch, as a rectangle. -/
abbrev slotR (b : Fin 10) : Rect S10x64x128 := Rect.unit (s := S10x64x128) ![b.val, 0, 0] S1x64x128.size (slot_inb b)

omit d L in
/-- An entry lies in slot b when its first coordinate is b. -/
theorem mem_slotR (b : Fin 10) (y : S10x64x128.Idx) : y ∈ (slotR b).set ↔ (y 0).val = b.val := by
  rw [Rect.mem_set_unit]
  have h1 : (y 1).val < 64 := (y 1).isLt
  have h2 : (y 2).val < 128 := (y 2).isLt
  constructor
  · intro h
    have h0 : b.val ≤ (y 0).val ∧ (y 0).val < b.val + 1 := h 0
    omega
  · intro h a
    match a with
    | ⟨0, _⟩ => show b.val ≤ (y 0).val ∧ (y 0).val < b.val + 1; omega
    | ⟨1, _⟩ => show 0 ≤ (y 1).val ∧ (y 1).val < 0 + 64; omega
    | ⟨2, _⟩ => show 0 ≤ (y 2).val ∧ (y 2).val < 0 + 128; omega

omit d L in
theorem slots_disjoint {b b' : Fin 10} (h : b ≠ b') : Disjoint (slotR b).set (slotR b').set := by
  rw [Finset.disjoint_left]
  intro y hy hy'
  exact h (Fin.ext (((mem_slotR b y).mp hy).symm.trans ((mem_slotR b' y).mp hy')))

omit d L in
theorem slots_cover : (Finset.univ : Finset (Fin 10)).biUnion (fun b => (slotR b).set) = Finset.univ := by
  ext y
  simp only [Finset.mem_biUnion, Finset.mem_univ, true_and, iff_true]
  exact ⟨⟨(y 0).val, (y 0).isLt⟩, (mem_slotR _ y).mpr rfl⟩

omit d L in
/-- A slot's elements are its rectangle's. -/
theorem set_slot {off : Fin 3 → Nat} (p : ∀ a, off a + S1x64x128.size a ≤ S10x64x128.size a) :
    (((rV).slice (Rect.unit (s := S10x64x128) off S1x64x128.size p) (fun _ => rfl)).squeeze S64x128 squeezes_S1x64x128_S64x128).view.set
      = (Rect.unit (s := S10x64x128) off S1x64x128.size p).set := by
  show (((View.whole (cc0_scratch1 : Ref sig .scVector)).slice _).reshape _ _).set = _
  rw [View.set_reshape, View.set_slice_whole]

/-- The row scratch is its ten slots. -/
theorem rPts_slots (f : Buf (Elt F) ((thr d L).loc cc0_scratch1)) :
    ((rV).view.loc (thr d L) ↦{fullShare} f : sProp 𝕄)
      = iprop(((slotM0).view.loc (thr d L) ↦[(slotM0).view.set]{fullShare} f)
          ∗ ((slotM1).view.loc (thr d L) ↦[(slotM1).view.set]{fullShare} f)
          ∗ ((slotM2).view.loc (thr d L) ↦[(slotM2).view.set]{fullShare} f)
          ∗ ((slotM3).view.loc (thr d L) ↦[(slotM3).view.set]{fullShare} f)
          ∗ ((slotM4).view.loc (thr d L) ↦[(slotM4).view.set]{fullShare} f)
          ∗ ((slotM5).view.loc (thr d L) ↦[(slotM5).view.set]{fullShare} f)
          ∗ ((slotM6).view.loc (thr d L) ↦[(slotM6).view.set]{fullShare} f)
          ∗ ((slotM7).view.loc (thr d L) ↦[(slotM7).view.set]{fullShare} f)
          ∗ ((slotM8).view.loc (thr d L) ↦[(slotM8).view.set]{fullShare} f)
          ∗ ((slotM9).view.loc (thr d L) ↦[(slotM9).view.set]{fullShare} f)) := by
  have h : ((thr d L).loc cc0_scratch1 ↦[(Finset.univ : Finset (Fin 10)).biUnion fun b => (slotR b).set]{fullShare} f : sProp 𝕄)
      = bigSep Finset.univ fun b : Fin 10 => ((thr d L).loc cc0_scratch1 ↦[(slotR b).set]{fullShare} f : sProp 𝕄) :=
    pointsTo_biUnion Finset.univ _ (fun _ _ _ _ hbb => slots_disjoint hbb)
  rw [slots_cover, bigSep_fin10] at h
  rw [set_slot, set_slot, set_slot, set_slot, set_slot, set_slot, set_slot, set_slot, set_slot, set_slot]
  exact h

/-! ## The hundred rows partition the index scratch -/

/-- Row n of the index scratch, as a rectangle. -/
abbrev lstR (n : ℕ) (h : n < 100) : Rect S100x64 := Rect.unit (s := S100x64) ![n, 0] S1x64.size (lst_inb n h)

omit d L in
/-- A word lies in row n when its first coordinate is n. -/
theorem mem_lstR (n : ℕ) (h : n < 100) (y : S100x64.Idx) : y ∈ (lstR n h).set ↔ (y 0).val = n := by
  rw [Rect.mem_set_unit]
  have h1 : (y 1).val < 64 := (y 1).isLt
  constructor
  · intro hy
    have h0 : n ≤ (y 0).val ∧ (y 0).val < n + 1 := hy 0
    omega
  · intro hy a
    match a with
    | ⟨0, _⟩ => show n ≤ (y 0).val ∧ (y 0).val < n + 1; omega
    | ⟨1, _⟩ => show 0 ≤ (y 1).val ∧ (y 1).val < 0 + 64; omega

omit d L in
/-- A row's elements are its rectangle's. -/
theorem set_lstC (n : ℕ) (h : n < 100) : (lstC n h).view.set = (lstR n h).set := by
  show (((View.whole (cc0_scratch0 : Ref sig .scVector)).slice _).reshape _ _).set = _
  rw [View.set_reshape, View.set_slice_whole]

/-- The elements of row n, none beyond the last row. -/
def lstSet (n : ℕ) : Finset S100x64.Idx := if h : n < 100 then (lstR n h).set else ∅

omit d L in
theorem lstSet_disjoint : ∀ n ∈ Finset.range 100, ∀ n' ∈ Finset.range 100, n ≠ n' → Disjoint (lstSet n) (lstSet n') := by
  intro n hn n' hn' hne
  have h : n < 100 := Finset.mem_range.mp hn
  have h' : n' < 100 := Finset.mem_range.mp hn'
  unfold lstSet
  rw [dif_pos h, dif_pos h', Finset.disjoint_left]
  intro y hy hy'
  exact hne (((mem_lstR n h y).mp hy).symm.trans ((mem_lstR n' h' y).mp hy'))

omit d L in
theorem lstSet_cover : (Finset.range 100).biUnion lstSet = Finset.univ := by
  ext y
  simp only [Finset.mem_biUnion, Finset.mem_range, Finset.mem_univ, iff_true]
  have h0 : (y 0).val < 100 := (y 0).isLt
  refine ⟨(y 0).val, h0, ?_⟩
  unfold lstSet
  rw [dif_pos h0]
  exact (mem_lstR _ h0 y).mpr rfl

/-- Row n of the index scratch at contents f, nothing beyond the last row. -/
def lstP (q : PosShare TreeShare) (f : Buf (Elt F) ((thr d L).loc cc0_scratch0)) (n : ℕ) : sProp 𝕄 :=
  if h : n < 100 then ((lstC n h).view.loc (thr d L) ↦[(lstC n h).view.set]{q} f) else iprop(emp)

/-- The index scratch is its hundred rows. -/
theorem sPts_rows (q : PosShare TreeShare) (f : Buf (Elt F) ((thr d L).loc cc0_scratch0)) :
    ((sV).view.loc (thr d L) ↦{q} f : sProp 𝕄) = bigSep (Finset.range 100) (lstP d L q f) := by
  have h : ((thr d L).loc cc0_scratch0 ↦[(Finset.range 100).biUnion lstSet]{q} f : sProp 𝕄)
      = bigSep (Finset.range 100) fun n => ((thr d L).loc cc0_scratch0 ↦[lstSet n]{q} f : sProp 𝕄) :=
    pointsTo_biUnion (Finset.range 100) _ lstSet_disjoint
  rw [lstSet_cover] at h
  refine h.trans (bigSep_congr fun n hn => ?_)
  have hn' : n < 100 := Finset.mem_range.mp hn
  unfold lstP lstSet
  rw [dif_pos hn', dif_pos hn', set_lstC]

/-! ## The hundred chunks partition a block of the output -/

/-- Chunk n of block w, as a rectangle. -/
abbrev ochR (w : Fin 32) (n : ℕ) (h : n < 100) : Rect S32x100x64x128 :=
  Rect.unit (s := S32x100x64x128) ![w.val, n, 0, 0] S1x1x64x128.size (och_inb w n h)

omit d L in
/-- An entry lies in chunk n of block w when its first two coordinates are (w, n). -/
theorem mem_ochR (w : Fin 32) (n : ℕ) (h : n < 100) (y : S32x100x64x128.Idx) :
    y ∈ (ochR w n h).set ↔ (y 0).val = w.val ∧ (y 1).val = n := by
  rw [Rect.mem_set_unit]
  have h2 : (y 2).val < 64 := (y 2).isLt
  have h3 : (y 3).val < 128 := (y 3).isLt
  constructor
  · intro hy
    have h0 : w.val ≤ (y 0).val ∧ (y 0).val < w.val + 1 := hy 0
    have h1 : n ≤ (y 1).val ∧ (y 1).val < n + 1 := hy 1
    omega
  · intro hy a
    match a with
    | ⟨0, _⟩ => show w.val ≤ (y 0).val ∧ (y 0).val < w.val + 1; omega
    | ⟨1, _⟩ => show n ≤ (y 1).val ∧ (y 1).val < n + 1; omega
    | ⟨2, _⟩ => show 0 ≤ (y 2).val ∧ (y 2).val < 0 + 64; omega
    | ⟨3, _⟩ => show 0 ≤ (y 3).val ∧ (y 3).val < 0 + 128; omega

omit d L in
/-- An entry lies in block w when its first coordinate is w. -/
theorem mem_orow (w : Fin 32) (y : S32x100x64x128.Idx) : y ∈ (orow w).set ↔ (y 0).val = w.val := by
  rw [Rect.mem_set_unit]
  have h1 : (y 1).val < 100 := (y 1).isLt
  have h2 : (y 2).val < 64 := (y 2).isLt
  have h3 : (y 3).val < 128 := (y 3).isLt
  constructor
  · intro hy
    have h0 : w.val * (32 / 32) ≤ (y 0).val ∧ (y 0).val < w.val * (32 / 32) + 32 / 32 := hy 0
    omega
  · intro hy a
    match a with
    | ⟨0, _⟩ => show w.val * (32 / 32) ≤ (y 0).val ∧ (y 0).val < w.val * (32 / 32) + 32 / 32; omega
    | ⟨1, _⟩ => show 0 * 100 ≤ (y 1).val ∧ (y 1).val < 0 * 100 + 100; omega
    | ⟨2, _⟩ => show 0 * 64 ≤ (y 2).val ∧ (y 2).val < 0 * 64 + 64; omega
    | ⟨3, _⟩ => show 0 * 128 ≤ (y 3).val ∧ (y 3).val < 0 * 128 + 128; omega

omit d L in
/-- A chunk's elements are its rectangle's. -/
theorem set_oChC (w : Fin 32) (n : ℕ) (h : n < 100) : (oChC w n h).view.set = (ochR w n h).set := by
  show (((View.whole (main_v1_scv : Ref sig .scVector)).slice _).reshape _ _).set = _
  rw [View.set_reshape, View.set_slice_whole]

omit d L in
/-- A block's elements are its rectangle's. -/
theorem oRowSet_eq_set (w : Fin 32) : oRowSet w = (orow w).set := by
  show ((View.whole (main_v1_scv : Ref sig .scVector)).slice (orow w)).set = _
  rw [View.set_slice_whole]

/-- The elements of chunk n of block w, none beyond the last chunk. -/
def ochSet (w : Fin 32) (n : ℕ) : Finset S32x100x64x128.Idx := if h : n < 100 then (ochR w n h).set else ∅

omit d L in
theorem ochSet_disjoint (w : Fin 32) :
    ∀ n ∈ Finset.range 100, ∀ n' ∈ Finset.range 100, n ≠ n' → Disjoint (ochSet w n) (ochSet w n') := by
  intro n hn n' hn' hne
  have h : n < 100 := Finset.mem_range.mp hn
  have h' : n' < 100 := Finset.mem_range.mp hn'
  unfold ochSet
  rw [dif_pos h, dif_pos h', Finset.disjoint_left]
  intro y hy hy'
  exact hne (((mem_ochR w n h y).mp hy).2.symm.trans ((mem_ochR w n' h' y).mp hy').2)

omit d L in
theorem ochSet_cover (w : Fin 32) : (Finset.range 100).biUnion (ochSet w) = oRowSet w := by
  rw [oRowSet_eq_set]
  ext y
  rw [mem_orow]
  simp only [Finset.mem_biUnion, Finset.mem_range]
  have h1 : (y 1).val < 100 := (y 1).isLt
  constructor
  · rintro ⟨n, hn, hy⟩
    unfold ochSet at hy
    rw [dif_pos hn] at hy
    exact ((mem_ochR w n hn y).mp hy).1
  · intro hy
    refine ⟨(y 1).val, h1, ?_⟩
    unfold ochSet
    rw [dif_pos h1]
    exact (mem_ochR w _ h1 y).mpr ⟨hy, rfl⟩

/-- Chunk n of block w at contents f, nothing beyond the last chunk. -/
def chP (w : Fin 32) (f : Buf (Elt F) (oLoc d)) (n : ℕ) : sProp 𝕄 :=
  if h : n < 100 then ((oChC w n h).view.loc (thr d L) ↦[(oChC w n h).view.set]{fullShare} f) else iprop(emp)

/-- A block of the output is its hundred chunks. -/
theorem oPts_chunks (w : Fin 32) (f : Buf (Elt F) (oLoc d)) :
    (oLoc d ↦[oRowSet w]{fullShare} f : sProp 𝕄) = bigSep (Finset.range 100) (chP d L w f) := by
  have h : (oLoc d ↦[(Finset.range 100).biUnion (ochSet w)]{fullShare} f : sProp 𝕄)
      = bigSep (Finset.range 100) fun n => (oLoc d ↦[ochSet w n]{fullShare} f : sProp 𝕄) :=
    pointsTo_biUnion (Finset.range 100) _ (ochSet_disjoint w)
  rw [ochSet_cover] at h
  refine h.trans (bigSep_congr fun n hn => ?_)
  have hn' : n < 100 := Finset.mem_range.mp hn
  unfold chP ochSet
  rw [dif_pos hn', dif_pos hn', set_oChC]

end Cert.Proof.KernelRun

end
-- ==== Proof.KBig.lean ====
/-
  Iterated separating conjunction over an initial segment or an interval of the naturals, taken apart one term at a time
  and ten at a time: an interval gives up its least element, an initial segment its greatest, and ten steps of either are
  one equation. Also the conjunction over ten indices written out. All are equations between propositions, for any
  resource algebra.
-/
import proofs.«206297_g77653008712327_cont_9to1c4b_438_14_alg».proof.Proof.KSetup

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

section BigSepNat

variable {M : Type} [URA M]

/-- Separating conjunction commutes, as an equation. -/
theorem sep_comm_eq (P Q : sProp M) : iprop(P ∗ Q) = iprop(Q ∗ P) :=
  Std.Commutative.comm (op := (fun a b : sProp M => BI.sep a b)) P Q

/-- Separating conjunction associates, as an equation. -/
theorem sep_assoc_eq (P Q R : sProp M) : iprop((P ∗ Q) ∗ R) = iprop(P ∗ Q ∗ R) :=
  Std.Associative.assoc (op := (fun a b : sProp M => BI.sep a b)) P Q R

/-- An initial segment gives up its greatest element: the conjunction below `k = n + 1` is the one below `n` and the term at `n`. -/
theorem bigSep_range_succ_of_eq (Φ : ℕ → sProp M) (n k : ℕ) (hk : k = n + 1) :
    bigSep (Finset.range k) Φ = iprop(bigSep (Finset.range n) Φ ∗ Φ n) := by
  subst hk
  rw [Finset.range_add_one, SparseCore.bigSep_insert' Finset.notMem_range_self, sep_comm_eq]

theorem bigSep_range_succ (Φ : ℕ → sProp M) (n : ℕ) :
    bigSep (Finset.range (n + 1)) Φ = iprop(bigSep (Finset.range n) Φ ∗ Φ n) :=
  bigSep_range_succ_of_eq Φ n (n + 1) rfl

/-- A nonempty interval gives up its least element: the conjunction over [a, b) is the term at `a` and the one over [c, b), `c = a + 1`. -/
theorem bigSep_Ico_pop_of_eq (Φ : ℕ → sProp M) (a b c : ℕ) (h : a < b) (hc : c = a + 1) :
    bigSep (Finset.Ico a b) Φ = iprop(Φ a ∗ bigSep (Finset.Ico c b) Φ) := by
  subst hc
  have hs : Finset.Ico a b = insert a (Finset.Ico (a + 1) b) := by
    ext x; simp only [Finset.mem_Ico, Finset.mem_insert]; omega
  have hn : a ∉ Finset.Ico (a + 1) b := by simp only [Finset.mem_Ico]; omega
  rw [hs, SparseCore.bigSep_insert' hn]

theorem bigSep_Ico_pop (Φ : ℕ → sProp M) (a b : ℕ) (h : a < b) :
    bigSep (Finset.Ico a b) Φ = iprop(Φ a ∗ bigSep (Finset.Ico (a + 1) b) Φ) :=
  bigSep_Ico_pop_of_eq Φ a b (a + 1) h rfl

/-- The conjunction over an empty interval is `emp`. -/
theorem bigSep_Ico_self (Φ : ℕ → sProp M) (a : ℕ) : bigSep (Finset.Ico a a) Φ = iprop(emp) := by
  rw [Finset.Ico_self]; rfl

/-- An initial segment is the interval from 0. -/
theorem bigSep_range_eq_Ico (Φ : ℕ → sProp M) (n : ℕ) : bigSep (Finset.range n) Φ = bigSep (Finset.Ico 0 n) Φ := by
  have hs : Finset.range n = Finset.Ico 0 n := by
    ext x; simp only [Finset.mem_range, Finset.mem_Ico]; omega
  rw [hs]

/-- Ten steps of `bigSep_Ico_pop` at once. -/
theorem bigSep_Ico_pop10 (Φ : ℕ → sProp M) (a b : ℕ) (h : a + 10 ≤ b) :
    bigSep (Finset.Ico a b) Φ = iprop(Φ a ∗ Φ (a+1) ∗ Φ (a+2) ∗ Φ (a+3) ∗ Φ (a+4) ∗ Φ (a+5) ∗ Φ (a+6) ∗ Φ (a+7) ∗ Φ (a+8)
      ∗ Φ (a+9) ∗ bigSep (Finset.Ico (a + 10) b) Φ) := by
  rw [bigSep_Ico_pop_of_eq Φ a b (a+1) (by omega) rfl, bigSep_Ico_pop_of_eq Φ (a+1) b (a+2) (by omega) rfl,
    bigSep_Ico_pop_of_eq Φ (a+2) b (a+3) (by omega) rfl, bigSep_Ico_pop_of_eq Φ (a+3) b (a+4) (by omega) rfl,
    bigSep_Ico_pop_of_eq Φ (a+4) b (a+5) (by omega) rfl, bigSep_Ico_pop_of_eq Φ (a+5) b (a+6) (by omega) rfl,
    bigSep_Ico_pop_of_eq Φ (a+6) b (a+7) (by omega) rfl, bigSep_Ico_pop_of_eq Φ (a+7) b (a+8) (by omega) rfl,
    bigSep_Ico_pop_of_eq Φ (a+8) b (a+9) (by omega) rfl, bigSep_Ico_pop_of_eq Φ (a+9) b (a+10) (by omega) rfl]

/-- Ten steps of `bigSep_range_succ` at once, reassociated to the right. -/
theorem bigSep_range_push10 (Φ : ℕ → sProp M) (n : ℕ) :
    bigSep (Finset.range (n + 10)) Φ = iprop(bigSep (Finset.range n) Φ ∗ Φ n ∗ Φ (n+1) ∗ Φ (n+2) ∗ Φ (n+3) ∗ Φ (n+4) ∗ Φ (n+5)
      ∗ Φ (n+6) ∗ Φ (n+7) ∗ Φ (n+8) ∗ Φ (n+9)) := by
  rw [bigSep_range_succ_of_eq Φ (n+9) (n+10) rfl, bigSep_range_succ_of_eq Φ (n+8) (n+9) rfl,
    bigSep_range_succ_of_eq Φ (n+7) (n+8) rfl, bigSep_range_succ_of_eq Φ (n+6) (n+7) rfl,
    bigSep_range_succ_of_eq Φ (n+5) (n+6) rfl, bigSep_range_succ_of_eq Φ (n+4) (n+5) rfl,
    bigSep_range_succ_of_eq Φ (n+3) (n+4) rfl, bigSep_range_succ_of_eq Φ (n+2) (n+3) rfl,
    bigSep_range_succ_of_eq Φ (n+1) (n+2) rfl, bigSep_range_succ_of_eq Φ n (n+1) rfl]
  simp only [sep_assoc_eq]

end BigSepNat

end Cert.Proof.KernelRun

end
-- ==== Proof.KInv.lean ====
/-
  The state of one worker's ring between trips of its loop.

  Before trip k (ten chunks per trip) the copies-out of chunks below 10 k have all been issued. Slots 0 to 8 each
  carry the gather of their next chunk, 10 k + b; slot 9's gather of chunk 10 k + 9 is issued only in trip k, so
  between trips slot 9 carries the copy-out of chunk 10 k - 1 (except before trip 0, when the opening gathers fill
  all ten slots, and after trip 9, when all ten slots carry the last ten copies-out). The output block is its chunks:
  those whose copy-out has been waited for hold the function `OUT`, those not yet issued hold what the block held at
  the start; the index scratch is its rows, lent one by one to the gathers and handed back by their waits.
-/
import proofs.«206297_g77653008712327_cont_9to1c4b_438_14_alg».proof.Proof.KGeom
import proofs.«206297_g77653008712327_cont_9to1c4b_438_14_alg».proof.Proof.KBig

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x100x64 EltTy.i32)
local notation "xV" => (Memref.whole Cert.Kernel.main_arg1_scv : Memref Cert.Kernel.sig Kind.scVector Space.hbm Cert.Kernel.S100000x128 EltTy.f32)
local notation "oV" => (Memref.whole Cert.Kernel.main_v1_scv : Memref Cert.Kernel.sig Kind.scVector Space.hbm Cert.Kernel.S32x100x64x128 EltTy.f32)
local notation "sV" => (Memref.whole Cert.Kernel.cc0_scratch0 : Memref Cert.Kernel.sig Kind.scVector Space.vmem Cert.Kernel.S100x64 EltTy.i32)
local notation "rV" => (Memref.whole Cert.Kernel.cc0_scratch1 : Memref Cert.Kernel.sig Kind.scVector Space.vmem Cert.Kernel.S10x64x128 EltTy.f32)

variable (m : (ℓ : Loc nD τ sig) → Buf (Elt F) ℓ) [FloatOps F]
variable (d : Dev nD) (L : grid0.Coords)

/-- The read token of the table that the transfers on gather cell b use. -/
abbrev xtok (b : Fin 10) : PosShare TreeShare := Transfers.shareTok (xq (widL L)) 10 b
/-- The table as a gather on cell b names it, at that cell's token. -/
def tokx (b : Fin 10) : sProp 𝕄 := (xAllM).view.loc (thr d L) ↦[(xAllM).view.set]{xtok L b} m (xLoc d)

/-- What the gather of chunk n into slot 0 delivers: the slot at that chunk's rows, the list row and the table's token back. -/
def GD0 (n : ℕ) (h : n < 100) : sProp 𝕄 :=
  iprop((((slotM0).view.loc (thr d L) ↦[(slotM0).view.set]{fullShare} RF m d L ⟨n, h⟩)
      ∗ ((lstC n h).view.loc (thr d L) ↦[(lstC n h).view.set]{fullShare} IDXV m d L))
    ∗ ((xAllM).view.loc (thr d L) ↦[(xAllM).view.set]{xtok L (0 : Fin 10)} m (xLoc d)))
/-- What the copy-out of chunk n from slot 0 delivers: the chunk at the specified rows, the slot back. -/
def SD0 (n : ℕ) (h : n < 100) : sProp 𝕄 :=
  iprop(((oChC (widL L) n h).view.loc (thr d L) ↦[(oChC (widL L) n h).view.set]{fullShare} OUT m d)
    ∗ ((slotM0).view.loc (thr d L) ↦[(slotM0).view.set]{fullShare} RF m d L ⟨n, h⟩))
def FG0 (n : ℕ) (h : n < 100) : sProp 𝕄 := Transfers.Flight countersEmb (thr d L) (gcell (0 : Fin 10)) (default : HIx 1) 262144 (GD0 m d L n h)
def FS0 (n : ℕ) (h : n < 100) : sProp 𝕄 := Transfers.Flight countersEmb (thr d L) (scell (0 : Fin 10)) (default : HIx 1) 262144 (SD0 m d L n h)
/-- What the gather of chunk n into slot 1 delivers: the slot at that chunk's rows, the list row and the table's token back. -/
def GD1 (n : ℕ) (h : n < 100) : sProp 𝕄 :=
  iprop((((slotM1).view.loc (thr d L) ↦[(slotM1).view.set]{fullShare} RF m d L ⟨n, h⟩)
      ∗ ((lstC n h).view.loc (thr d L) ↦[(lstC n h).view.set]{fullShare} IDXV m d L))
    ∗ ((xAllM).view.loc (thr d L) ↦[(xAllM).view.set]{xtok L (1 : Fin 10)} m (xLoc d)))
/-- What the copy-out of chunk n from slot 1 delivers: the chunk at the specified rows, the slot back. -/
def SD1 (n : ℕ) (h : n < 100) : sProp 𝕄 :=
  iprop(((oChC (widL L) n h).view.loc (thr d L) ↦[(oChC (widL L) n h).view.set]{fullShare} OUT m d)
    ∗ ((slotM1).view.loc (thr d L) ↦[(slotM1).view.set]{fullShare} RF m d L ⟨n, h⟩))
def FG1 (n : ℕ) (h : n < 100) : sProp 𝕄 := Transfers.Flight countersEmb (thr d L) (gcell (1 : Fin 10)) (default : HIx 1) 262144 (GD1 m d L n h)
def FS1 (n : ℕ) (h : n < 100) : sProp 𝕄 := Transfers.Flight countersEmb (thr d L) (scell (1 : Fin 10)) (default : HIx 1) 262144 (SD1 m d L n h)
/-- What the gather of chunk n into slot 2 delivers: the slot at that chunk's rows, the list row and the table's token back. -/
def GD2 (n : ℕ) (h : n < 100) : sProp 𝕄 :=
  iprop((((slotM2).view.loc (thr d L) ↦[(slotM2).view.set]{fullShare} RF m d L ⟨n, h⟩)
      ∗ ((lstC n h).view.loc (thr d L) ↦[(lstC n h).view.set]{fullShare} IDXV m d L))
    ∗ ((xAllM).view.loc (thr d L) ↦[(xAllM).view.set]{xtok L (2 : Fin 10)} m (xLoc d)))
/-- What the copy-out of chunk n from slot 2 delivers: the chunk at the specified rows, the slot back. -/
def SD2 (n : ℕ) (h : n < 100) : sProp 𝕄 :=
  iprop(((oChC (widL L) n h).view.loc (thr d L) ↦[(oChC (widL L) n h).view.set]{fullShare} OUT m d)
    ∗ ((slotM2).view.loc (thr d L) ↦[(slotM2).view.set]{fullShare} RF m d L ⟨n, h⟩))
def FG2 (n : ℕ) (h : n < 100) : sProp 𝕄 := Transfers.Flight countersEmb (thr d L) (gcell (2 : Fin 10)) (default : HIx 1) 262144 (GD2 m d L n h)
def FS2 (n : ℕ) (h : n < 100) : sProp 𝕄 := Transfers.Flight countersEmb (thr d L) (scell (2 : Fin 10)) (default : HIx 1) 262144 (SD2 m d L n h)
/-- What the gather of chunk n into slot 3 delivers: the slot at that chunk's rows, the list row and the table's token back. -/
def GD3 (n : ℕ) (h : n < 100) : sProp 𝕄 :=
  iprop((((slotM3).view.loc (thr d L) ↦[(slotM3).view.set]{fullShare} RF m d L ⟨n, h⟩)
      ∗ ((lstC n h).view.loc (thr d L) ↦[(lstC n h).view.set]{fullShare} IDXV m d L))
    ∗ ((xAllM).view.loc (thr d L) ↦[(xAllM).view.set]{xtok L (3 : Fin 10)} m (xLoc d)))
/-- What the copy-out of chunk n from slot 3 delivers: the chunk at the specified rows, the slot back. -/
def SD3 (n : ℕ) (h : n < 100) : sProp 𝕄 :=
  iprop(((oChC (widL L) n h).view.loc (thr d L) ↦[(oChC (widL L) n h).view.set]{fullShare} OUT m d)
    ∗ ((slotM3).view.loc (thr d L) ↦[(slotM3).view.set]{fullShare} RF m d L ⟨n, h⟩))
def FG3 (n : ℕ) (h : n < 100) : sProp 𝕄 := Transfers.Flight countersEmb (thr d L) (gcell (3 : Fin 10)) (default : HIx 1) 262144 (GD3 m d L n h)
def FS3 (n : ℕ) (h : n < 100) : sProp 𝕄 := Transfers.Flight countersEmb (thr d L) (scell (3 : Fin 10)) (default : HIx 1) 262144 (SD3 m d L n h)
/-- What the gather of chunk n into slot 4 delivers: the slot at that chunk's rows, the list row and the table's token back. -/
def GD4 (n : ℕ) (h : n < 100) : sProp 𝕄 :=
  iprop((((slotM4).view.loc (thr d L) ↦[(slotM4).view.set]{fullShare} RF m d L ⟨n, h⟩)
      ∗ ((lstC n h).view.loc (thr d L) ↦[(lstC n h).view.set]{fullShare} IDXV m d L))
    ∗ ((xAllM).view.loc (thr d L) ↦[(xAllM).view.set]{xtok L (4 : Fin 10)} m (xLoc d)))
/-- What the copy-out of chunk n from slot 4 delivers: the chunk at the specified rows, the slot back. -/
def SD4 (n : ℕ) (h : n < 100) : sProp 𝕄 :=
  iprop(((oChC (widL L) n h).view.loc (thr d L) ↦[(oChC (widL L) n h).view.set]{fullShare} OUT m d)
    ∗ ((slotM4).view.loc (thr d L) ↦[(slotM4).view.set]{fullShare} RF m d L ⟨n, h⟩))
def FG4 (n : ℕ) (h : n < 100) : sProp 𝕄 := Transfers.Flight countersEmb (thr d L) (gcell (4 : Fin 10)) (default : HIx 1) 262144 (GD4 m d L n h)
def FS4 (n : ℕ) (h : n < 100) : sProp 𝕄 := Transfers.Flight countersEmb (thr d L) (scell (4 : Fin 10)) (default : HIx 1) 262144 (SD4 m d L n h)
/-- What the gather of chunk n into slot 5 delivers: the slot at that chunk's rows, the list row and the table's token back. -/
def GD5 (n : ℕ) (h : n < 100) : sProp 𝕄 :=
  iprop((((slotM5).view.loc (thr d L) ↦[(slotM5).view.set]{fullShare} RF m d L ⟨n, h⟩)
      ∗ ((lstC n h).view.loc (thr d L) ↦[(lstC n h).view.set]{fullShare} IDXV m d L))
    ∗ ((xAllM).view.loc (thr d L) ↦[(xAllM).view.set]{xtok L (5 : Fin 10)} m (xLoc d)))
/-- What the copy-out of chunk n from slot 5 delivers: the chunk at the specified rows, the slot back. -/
def SD5 (n : ℕ) (h : n < 100) : sProp 𝕄 :=
  iprop(((oChC (widL L) n h).view.loc (thr d L) ↦[(oChC (widL L) n h).view.set]{fullShare} OUT m d)
    ∗ ((slotM5).view.loc (thr d L) ↦[(slotM5).view.set]{fullShare} RF m d L ⟨n, h⟩))
def FG5 (n : ℕ) (h : n < 100) : sProp 𝕄 := Transfers.Flight countersEmb (thr d L) (gcell (5 : Fin 10)) (default : HIx 1) 262144 (GD5 m d L n h)
def FS5 (n : ℕ) (h : n < 100) : sProp 𝕄 := Transfers.Flight countersEmb (thr d L) (scell (5 : Fin 10)) (default : HIx 1) 262144 (SD5 m d L n h)
/-- What the gather of chunk n into slot 6 delivers: the slot at that chunk's rows, the list row and the table's token back. -/
def GD6 (n : ℕ) (h : n < 100) : sProp 𝕄 :=
  iprop((((slotM6).view.loc (thr d L) ↦[(slotM6).view.set]{fullShare} RF m d L ⟨n, h⟩)
      ∗ ((lstC n h).view.loc (thr d L) ↦[(lstC n h).view.set]{fullShare} IDXV m d L))
    ∗ ((xAllM).view.loc (thr d L) ↦[(xAllM).view.set]{xtok L (6 : Fin 10)} m (xLoc d)))
/-- What the copy-out of chunk n from slot 6 delivers: the chunk at the specified rows, the slot back. -/
def SD6 (n : ℕ) (h : n < 100) : sProp 𝕄 :=
  iprop(((oChC (widL L) n h).view.loc (thr d L) ↦[(oChC (widL L) n h).view.set]{fullShare} OUT m d)
    ∗ ((slotM6).view.loc (thr d L) ↦[(slotM6).view.set]{fullShare} RF m d L ⟨n, h⟩))
def FG6 (n : ℕ) (h : n < 100) : sProp 𝕄 := Transfers.Flight countersEmb (thr d L) (gcell (6 : Fin 10)) (default : HIx 1) 262144 (GD6 m d L n h)
def FS6 (n : ℕ) (h : n < 100) : sProp 𝕄 := Transfers.Flight countersEmb (thr d L) (scell (6 : Fin 10)) (default : HIx 1) 262144 (SD6 m d L n h)
/-- What the gather of chunk n into slot 7 delivers: the slot at that chunk's rows, the list row and the table's token back. -/
def GD7 (n : ℕ) (h : n < 100) : sProp 𝕄 :=
  iprop((((slotM7).view.loc (thr d L) ↦[(slotM7).view.set]{fullShare} RF m d L ⟨n, h⟩)
      ∗ ((lstC n h).view.loc (thr d L) ↦[(lstC n h).view.set]{fullShare} IDXV m d L))
    ∗ ((xAllM).view.loc (thr d L) ↦[(xAllM).view.set]{xtok L (7 : Fin 10)} m (xLoc d)))
/-- What the copy-out of chunk n from slot 7 delivers: the chunk at the specified rows, the slot back. -/
def SD7 (n : ℕ) (h : n < 100) : sProp 𝕄 :=
  iprop(((oChC (widL L) n h).view.loc (thr d L) ↦[(oChC (widL L) n h).view.set]{fullShare} OUT m d)
    ∗ ((slotM7).view.loc (thr d L) ↦[(slotM7).view.set]{fullShare} RF m d L ⟨n, h⟩))
def FG7 (n : ℕ) (h : n < 100) : sProp 𝕄 := Transfers.Flight countersEmb (thr d L) (gcell (7 : Fin 10)) (default : HIx 1) 262144 (GD7 m d L n h)
def FS7 (n : ℕ) (h : n < 100) : sProp 𝕄 := Transfers.Flight countersEmb (thr d L) (scell (7 : Fin 10)) (default : HIx 1) 262144 (SD7 m d L n h)
/-- What the gather of chunk n into slot 8 delivers: the slot at that chunk's rows, the list row and the table's token back. -/
def GD8 (n : ℕ) (h : n < 100) : sProp 𝕄 :=
  iprop((((slotM8).view.loc (thr d L) ↦[(slotM8).view.set]{fullShare} RF m d L ⟨n, h⟩)
      ∗ ((lstC n h).view.loc (thr d L) ↦[(lstC n h).view.set]{fullShare} IDXV m d L))
    ∗ ((xAllM).view.loc (thr d L) ↦[(xAllM).view.set]{xtok L (8 : Fin 10)} m (xLoc d)))
/-- What the copy-out of chunk n from slot 8 delivers: the chunk at the specified rows, the slot back. -/
def SD8 (n : ℕ) (h : n < 100) : sProp 𝕄 :=
  iprop(((oChC (widL L) n h).view.loc (thr d L) ↦[(oChC (widL L) n h).view.set]{fullShare} OUT m d)
    ∗ ((slotM8).view.loc (thr d L) ↦[(slotM8).view.set]{fullShare} RF m d L ⟨n, h⟩))
def FG8 (n : ℕ) (h : n < 100) : sProp 𝕄 := Transfers.Flight countersEmb (thr d L) (gcell (8 : Fin 10)) (default : HIx 1) 262144 (GD8 m d L n h)
def FS8 (n : ℕ) (h : n < 100) : sProp 𝕄 := Transfers.Flight countersEmb (thr d L) (scell (8 : Fin 10)) (default : HIx 1) 262144 (SD8 m d L n h)
/-- What the gather of chunk n into slot 9 delivers: the slot at that chunk's rows, the list row and the table's token back. -/
def GD9 (n : ℕ) (h : n < 100) : sProp 𝕄 :=
  iprop((((slotM9).view.loc (thr d L) ↦[(slotM9).view.set]{fullShare} RF m d L ⟨n, h⟩)
      ∗ ((lstC n h).view.loc (thr d L) ↦[(lstC n h).view.set]{fullShare} IDXV m d L))
    ∗ ((xAllM).view.loc (thr d L) ↦[(xAllM).view.set]{xtok L (9 : Fin 10)} m (xLoc d)))
/-- What the copy-out of chunk n from slot 9 delivers: the chunk at the specified rows, the slot back. -/
def SD9 (n : ℕ) (h : n < 100) : sProp 𝕄 :=
  iprop(((oChC (widL L) n h).view.loc (thr d L) ↦[(oChC (widL L) n h).view.set]{fullShare} OUT m d)
    ∗ ((slotM9).view.loc (thr d L) ↦[(slotM9).view.set]{fullShare} RF m d L ⟨n, h⟩))
def FG9 (n : ℕ) (h : n < 100) : sProp 𝕄 := Transfers.Flight countersEmb (thr d L) (gcell (9 : Fin 10)) (default : HIx 1) 262144 (GD9 m d L n h)
def FS9 (n : ℕ) (h : n < 100) : sProp 𝕄 := Transfers.Flight countersEmb (thr d L) (scell (9 : Fin 10)) (default : HIx 1) 262144 (SD9 m d L n h)

variable (O : CellTallies nD τ sig (HIx 1)) (W : Waits sig (HIx 1)) (f0 : Buf (Elt F) (oLoc d))

/-- What every shape shares: the wait evidence, the chunks done (below nd) and untouched (from 10 k on), the list rows
    handed back (below 10 k) and not yet lent (from li on), and what the worker owes with its waits recorded. -/
def common (k nd li : ℕ) : sProp 𝕄 :=
  iprop((Transfers.MayWaits (thr d L) (default : HIx 1) O : sProp 𝕄)
    ∗ bigSep (Finset.range nd) (chP d L (widL L) (OUT m d))
    ∗ bigSep (Finset.Ico (10 * k) 100) (chP d L (widL L) f0)
    ∗ bigSep (Finset.range (10 * k)) (lstP d L fullShare (IDXV m d L))
    ∗ bigSep (Finset.Ico li 100) (lstP d L fullShare (IDXV m d L))
    ∗ ∃ W', ⌜∀ p ∈ W', p ∈ W ∨ p.2 = none⌝ ∗ owes (thr d L) O W')

/-- Before trip 0: the ten opening gathers in flight. -/
def inv0 : sProp 𝕄 :=
  iprop(common m d L O W f0 0 0 10
    ∗ FG0 m d L 0 (by omega) ∗ FG1 m d L 1 (by omega) ∗ FG2 m d L 2 (by omega) ∗ FG3 m d L 3 (by omega) ∗ FG4 m d L 4 (by omega) ∗ FG5 m d L 5 (by omega) ∗ FG6 m d L 6 (by omega) ∗ FG7 m d L 7 (by omega) ∗ FG8 m d L 8 (by omega) ∗ FG9 m d L 9 (by omega)
    ∗ semVal (thr d L, scell (0 : Fin 10)) 0 ∗ semVal (thr d L, scell (1 : Fin 10)) 0 ∗ semVal (thr d L, scell (2 : Fin 10)) 0 ∗ semVal (thr d L, scell (3 : Fin 10)) 0 ∗ semVal (thr d L, scell (4 : Fin 10)) 0 ∗ semVal (thr d L, scell (5 : Fin 10)) 0 ∗ semVal (thr d L, scell (6 : Fin 10)) 0 ∗ semVal (thr d L, scell (7 : Fin 10)) 0 ∗ semVal (thr d L, scell (8 : Fin 10)) 0 ∗ semVal (thr d L, scell (9 : Fin 10)) 0)

/-- Before trip k, 1 ≤ k ≤ 9. -/
def invM (k : ℕ) (h1 : 1 ≤ k) (h9 : k ≤ 9) : sProp 𝕄 :=
  iprop(common m d L O W f0 k (10 * k - 1) (10 * k + 9)
    ∗ FG0 m d L (10 * k + 0) (by omega) ∗ FG1 m d L (10 * k + 1) (by omega) ∗ FG2 m d L (10 * k + 2) (by omega) ∗ FG3 m d L (10 * k + 3) (by omega) ∗ FG4 m d L (10 * k + 4) (by omega) ∗ FG5 m d L (10 * k + 5) (by omega) ∗ FG6 m d L (10 * k + 6) (by omega) ∗ FG7 m d L (10 * k + 7) (by omega) ∗ FG8 m d L (10 * k + 8) (by omega)
    ∗ FS9 m d L (10 * k - 1) (by omega)
    ∗ semVal (thr d L, scell (0 : Fin 10)) 0 ∗ semVal (thr d L, scell (1 : Fin 10)) 0 ∗ semVal (thr d L, scell (2 : Fin 10)) 0 ∗ semVal (thr d L, scell (3 : Fin 10)) 0 ∗ semVal (thr d L, scell (4 : Fin 10)) 0 ∗ semVal (thr d L, scell (5 : Fin 10)) 0 ∗ semVal (thr d L, scell (6 : Fin 10)) 0 ∗ semVal (thr d L, scell (7 : Fin 10)) 0 ∗ semVal (thr d L, scell (8 : Fin 10)) 0
    ∗ semVal (thr d L, gcell (9 : Fin 10)) 0 ∗ tokx m d L 9)

/-- After trip 9: the last ten copies-out in flight. -/
def invF : sProp 𝕄 :=
  iprop(common m d L O W f0 10 90 100
    ∗ FS0 m d L 90 (by omega) ∗ FS1 m d L 91 (by omega) ∗ FS2 m d L 92 (by omega) ∗ FS3 m d L 93 (by omega) ∗ FS4 m d L 94 (by omega) ∗ FS5 m d L 95 (by omega) ∗ FS6 m d L 96 (by omega) ∗ FS7 m d L 97 (by omega) ∗ FS8 m d L 98 (by omega) ∗ FS9 m d L 99 (by omega)
    ∗ semVal (thr d L, gcell (0 : Fin 10)) 0 ∗ semVal (thr d L, gcell (1 : Fin 10)) 0 ∗ semVal (thr d L, gcell (2 : Fin 10)) 0 ∗ semVal (thr d L, gcell (3 : Fin 10)) 0 ∗ semVal (thr d L, gcell (4 : Fin 10)) 0 ∗ semVal (thr d L, gcell (5 : Fin 10)) 0 ∗ semVal (thr d L, gcell (6 : Fin 10)) 0 ∗ semVal (thr d L, gcell (7 : Fin 10)) 0 ∗ semVal (thr d L, gcell (8 : Fin 10)) 0 ∗ semVal (thr d L, gcell (9 : Fin 10)) 0
    ∗ tokx m d L 0 ∗ tokx m d L 1 ∗ tokx m d L 2 ∗ tokx m d L 3 ∗ tokx m d L 4 ∗ tokx m d L 5 ∗ tokx m d L 6 ∗ tokx m d L 7 ∗ tokx m d L 8 ∗ tokx m d L 9)

/-- The loop's invariant. -/
def inv (k : ℕ) (_ : BitVec 32) : sProp 𝕄 :=
  if h0 : k = 0 then inv0 m d L O W f0 else if h9 : k ≤ 9 then invM m d L O W f0 k (by omega) h9 else invF m d L O W f0

theorem inv_zero (a : BitVec 32) : inv m d L O W f0 0 a = inv0 m d L O W f0 := dif_pos rfl
theorem inv_mid (k : ℕ) (h1 : 1 ≤ k) (h9 : k ≤ 9) (a : BitVec 32) : inv m d L O W f0 k a = invM m d L O W f0 k h1 h9 := by
  unfold inv; rw [dif_neg (by omega), dif_pos h9]
theorem inv_fin (k : ℕ) (h : 10 ≤ k) (a : BitVec 32) : inv m d L O W f0 k a = invF m d L O W f0 := by
  unfold inv; rw [dif_neg (by omega), dif_neg (by omega)]

/-! ## The piece families at the program's names -/

theorem chP_lt (w : Fin 32) (f : Buf (Elt F) (oLoc d)) (n : ℕ) (h : n < 100) :
    chP d L w f n = ((oChC w n h).view.loc (thr d L) ↦[(oChC w n h).view.set]{fullShare} f : sProp 𝕄) := dif_pos h
theorem lstP_lt (q : PosShare TreeShare) (f : Buf (Elt F) ((thr d L).loc cc0_scratch0)) (n : ℕ) (h : n < 100) :
    lstP d L q f n = ((lstC n h).view.loc (thr d L) ↦[(lstC n h).view.set]{q} f : sProp 𝕄) := dif_pos h

end Cert.Proof.KernelRun

end
-- ==== Proof.KLaunch.lean ====
/-
  The launch of the lookup kernel: how the call's three arrays are dealt to the 2 x 16 workers and gathered again, the
  ghost state's launch element, the host program around the call, and the run of the whole program.

  The host program reshapes the 1024 x 200 row numbers to 32 x 100 x 64 before the call, so that worker w = 2 s + c is
  handed row w; the call returns the 32 x 100 x 64 x 128 output with every block at the one function Lookup.tiled of the
  arguments, so the 32 blocks join to the whole array at that function; the host then reshapes it to 1024 x 200 x 128
  and writes the constant lengths. The pair (c, s) ↦ 2 s + c is a bijection of Fin 2 x Fin 16 with Fin 32, along which
  the 32 parts regroup as two families of sixteen.
-/
import proofs.«206297_g77653008712327_cont_9to1c4b_438_14_alg».proof.Proof.KSetup

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The rows of the two dealt arrays split and join; the shares of the table -/

omit m ρ in
theorem iRowSet_eq (w : Fin 32) : iRowSet w = (irow w).set := by
  show ((View.whole (main_v0_scv : Ref sig .scVector)).slice (irow w)).set = _
  rw [View.set_slice]; exact Finset.map_refl
omit m ρ in
theorem oRowSet_eq (w : Fin 32) : oRowSet w = (orow w).set := by
  show ((View.whole (main_v1_scv : Ref sig .scVector)).slice (orow w)).set = _
  rw [View.set_slice]; exact Finset.map_refl
omit m ρ in
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
omit m ρ in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit m ρ in
theorem irows_cover : (Finset.univ : Finset (Fin 32)).biUnion iRowSet = Finset.univ :=
  (Finset.biUnion_congr rfl fun i _ => iRowSet_eq i).trans (Rect.biUnion_part idiv)
omit m ρ in
theorem orows_cover : (Finset.univ : Finset (Fin 32)).biUnion oRowSet = Finset.univ :=
  (Finset.biUnion_congr rfl fun i _ => oRowSet_eq i).trans (Rect.biUnion_part odiv)

omit m ρ in
theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
omit m ρ in
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl
omit m ρ in
theorem xPts_shares (d : Dev nD) (f : Buf (Elt F) (xLoc d)) :
    (xLoc d ↦{fullShare} f : sProp 𝕄) = bigSep Finset.univ fun w : Fin 32 => xLoc d ↦{xq w} f :=
  pointsTo_leaves Finset.univ f 5 fullShare

/-! ## The 32 workers as two families of sixteen -/

/-- (c, s) ↦ 2 s + c is a bijection of the pairs with the 32 numbers: c is the number's parity, s its half. -/
def widEquiv : Fin 2 × Fin 16 ≃ Fin 32 where
  toFun p := wid p.1 p.2
  invFun w := (⟨w.val % 2, by omega⟩, ⟨w.val / 2, by omega⟩)
  left_inv p := by
    rcases p with ⟨c, s⟩
    refine Prod.ext (Fin.ext ?_) (Fin.ext ?_)
    · show (2 * s.val + c.val) % 2 = c.val
      omega
    · show (2 * s.val + c.val) / 2 = s.val
      omega
  right_inv w := by
    apply Fin.ext
    show 2 * (w.val / 2) + w.val % 2 = w.val
    omega

omit m ρ in
theorem bigSep_wid (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]; rfl

omit m ρ in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit m ρ in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable [FloatOps F]

/-! ## What the handshakes carry, field by field -/

theorem P_st (d : Dev nD) (c : Fin ((K (F := F)).nCore 0)) :
    (P m).st 0 d c = bigSep Finset.univ fun s : Fin 16 => goW m d (wid (Fin.cast nCore_zero c) s) := rfl
theorem P_dn (d : Dev nD) (c : Fin ((K (F := F)).nCore 0)) :
    (P m).dn 0 d c = bigSep Finset.univ fun s : Fin 16 => tdW m d (wid (Fin.cast nCore_zero c) s) := rfl
theorem P_go (d : Dev nD) (c : Fin ((K (F := F)).nCore 0)) (i : Fin ((K (F := F)).nSub 0)) :
    (P m).go 0 d c i = goW m d (wid (Fin.cast nCore_zero c) (Fin.cast nSub_zero i)) := rfl
theorem P_td (d : Dev nD) (c : Fin ((K (F := F)).nCore 0)) (i : Fin ((K (F := F)).nSub 0)) :
    (P m).td 0 d c i = tdW m d (wid (Fin.cast nCore_zero c) (Fin.cast nSub_zero i)) := rfl

/-- A SparseCore's operands ARE its sixteen workers' parts, and its results theirs. -/
theorem vecSplit : (K (F := F)).VecSplit' (P m) 0 := by
  intro d c
  rw [P_st, P_dn]
  simp only [P_go, P_td]
  rw [bigSep_tasks (F := F) (fun s => goW m d (wid (Fin.cast nCore_zero c) s)),
    bigSep_tasks (F := F) (fun s => tdW m d (wid (Fin.cast nCore_zero c) s))]
  iintro H; imodintro
  isplitl [H]; · iexact H
  iintro H; iexact H

/-! ## The launch element of the ghost state -/

def u₀ : UU := (initOf (K (F := F)).hsCells (K (F := F)).hsToks, 1)

omit [FloatOps F] m ρ in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The call's operands and results, whole -/

/-- All 32 workers' parts together are the three arrays whole: the reshaped row numbers, the table, the output. -/
theorem goW_all (d : Dev nD) :
    (bigSep Finset.univ fun w : Fin 32 => goW m d w)
      = (iprop((iLoc d ↦{fullShare} idx3 m d) ∗ (xLoc d ↦{fullShare} m (xLoc d)) ∗ oLoc d ↦{fullShare} m (oLoc d)) : sProp 𝕄) := by
  unfold goW
  rw [bigSep_sep', bigSep_sep', ← iPts_rows, ← xPts_shares, ← oPts_rows]
/-- and what they bring back: every block of the output at the one function, so the output whole at it. -/
theorem tdW_all (d : Dev nD) :
    (bigSep Finset.univ fun w : Fin 32 => tdW m d w)
      = (iprop((iLoc d ↦{fullShare} idx3 m d) ∗ (xLoc d ↦{fullShare} m (xLoc d)) ∗ oLoc d ↦{fullShare} OUT m d) : sProp 𝕄) := by
  unfold tdW
  rw [bigSep_sep', bigSep_sep', ← iPts_rows, ← xPts_shares, ← oPts_rows]

theorem st0_eq (d : Dev nD) :
    (bigSep Finset.univ fun c : Fin ((K (F := F)).nCore 0) => (P m).st 0 d c)
      = (iprop((iLoc d ↦{fullShare} idx3 m d) ∗ (xLoc d ↦{fullShare} m (xLoc d)) ∗ oLoc d ↦{fullShare} m (oLoc d)) : sProp 𝕄) := by
  simp only [P_st]
  rw [bigSep_cores (F := F) (fun c => bigSep Finset.univ fun s : Fin 16 => goW m d (wid c s)), ← bigSep_wid (fun w => goW m d w), goW_all]
theorem dn0_eq (d : Dev nD) :
    (bigSep Finset.univ fun c : Fin ((K (F := F)).nCore 0) => (P m).dn 0 d c)
      = (iprop((iLoc d ↦{fullShare} idx3 m d) ∗ (xLoc d ↦{fullShare} m (xLoc d)) ∗ oLoc d ↦{fullShare} OUT m d) : sProp 𝕄) := by
  simp only [P_dn]
  rw [bigSep_cores (F := F) (fun c => bigSep Finset.univ fun s : Fin 16 => tdW m d (wid c s)), ← bigSep_wid (fun w => tdW m d w), tdW_all]

/-! ## The host program's arrays and operations -/

abbrev a' : DevRef τ sig := Proc.devRef .tc (main_arg0 : Ref sig .tc)
abbrev x' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev e' : DevRef τ sig := Proc.devRef .tc (main_v2 : Ref sig .tc)
abbrev c' : DevRef τ sig := Proc.devRef .tc (main_c : Ref sig .tc)
abbrev l' : DevRef τ sig := Proc.devRef .tc (main_v3 : Ref sig .tc)

/-- The host program's seven arrays. -/
abbrev S7 : Finset (DevRef τ sig) := {a', x', i', o', e', c', l'}

/-- The reshape of the row numbers, the reshape of the output, the constant 200 and its broadcast. -/
abbrev opIdx : HloOp τ sig (Elt F) := StableHlo.reshape main_arg0 main_v0 rfl shapeCasts_S1024x200_S32x100x64
abbrev opEmb : HloOp τ sig (Elt F) := StableHlo.reshape main_v1 main_v2 rfl shapeCasts_S32x100x64x128_S1024x200x128
abbrev opCst : HloOp τ sig (Elt F) := StableHlo.nullary main_c (constantI S_ 32 200#32)
abbrev opLen : HloOp τ sig (Elt F) :=
  StableHlo.unary main_c main_v3 (broadcastInDim S1024 ![] bcast_S_S1024 : (⟨S_, .i32⟩ : BufTy).Contents (Elt F) → (⟨S1024, .i32⟩ : BufTy).Contents (Elt F))

/-- The output in the reference's arrangement, and the lengths. -/
abbrev EMB (d : Dev nD) : Buf (Elt F) (eLoc d) := shapeCast S1024x200x128 (OUT m d) shapeCasts_S32x100x64x128_S1024x200x128
abbrev LEN (d : Dev nD) : Buf (Elt F) (lLoc d) := broadcastInDim S1024 ![] bcast_S_S1024 (constantI S_ 32 200#32)

omit [FloatOps F] m ρ in
theorem held_S7 (d : Dev nD) (W : Valuation τ sig (Elt F)) :
    (held (T d) S7 W : sProp 𝕄) = iprop((aLoc d ↦{fullShare} W a') ∗ (xLoc d ↦{fullShare} W x') ∗ (iLoc d ↦{fullShare} W i') ∗ (oLoc d ↦{fullShare} W o')
      ∗ (eLoc d ↦{fullShare} W e') ∗ (cLoc d ↦{fullShare} W c') ∗ lLoc d ↦{fullShare} W l') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] m ρ in
theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_arg1) ∗ (iLoc d ↦{fullShare} W main_v0)
      ∗ (oLoc d ↦{fullShare} W main_v1) ∗ (eLoc d ↦{fullShare} W main_v2) ∗ (cLoc d ↦{fullShare} W main_c) ∗ lLoc d ↦{fullShare} W main_v3) := by
  unfold unscopedBufs
  rw [show (Finset.univ.filter fun b : Ref sig .tc => ¬ b.isScoped) = {main_arg0, main_arg1, main_v0, main_v1, main_v2, main_c, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch contents; after the first reshape; after the call. -/
def V0 (d : Dev nD) : Valuation τ sig (Elt F) := fun b => m (d, b)
abbrev V1 (d : Dev nD) : Valuation τ sig (Elt F) := (opIdx (F := F)).result (V0 m d)
def V2 (d : Dev nD) : Valuation τ sig (Elt F) := Function.update (V1 m d) o' (OUT m d)
/-- after the second reshape, the constant, the broadcast. -/
abbrev V3 (d : Dev nD) : Valuation τ sig (Elt F) := (opEmb (F := F)).result (V2 m d)
abbrev V4 (d : Dev nD) : Valuation τ sig (Elt F) := (opCst (F := F)).result (V3 m d)
abbrev V5 (d : Dev nD) : Valuation τ sig (Elt F) := (opLen (F := F)).result (V4 m d)

theorem unscoped_held (d : Dev nD) : (unscopedBufs d (fun b => m ((SparseCore.T d).loc b)) : sProp 𝕄) = held (T d) S7 (V0 m d) := by
  rw [unscopedBufs_eq, held_S7]; rfl

theorem V1_a (d : Dev nD) : V1 m d a' = m (aLoc d) := StableHlo.reshape_result_ne' _ _ _ _ _ (show (main_arg0 : Ref sig .tc) ≠ main_v0 by decide)
theorem V1_x (d : Dev nD) : V1 m d x' = m (xLoc d) := StableHlo.reshape_result_ne' _ _ _ _ _ (show (main_arg1 : Ref sig .tc) ≠ main_v0 by decide)
theorem V1_i (d : Dev nD) : V1 m d i' = idx3 m d := StableHlo.reshape_result' _ _ _ _ _
theorem V1_o (d : Dev nD) : V1 m d o' = m (oLoc d) := StableHlo.reshape_result_ne' _ _ _ _ _ (show (main_v1 : Ref sig .tc) ≠ main_v0 by decide)

theorem V2_a (d : Dev nD) : V2 m d a' = m (aLoc d) := (Function.update_of_ne (show a' ≠ o' by decide) _ _).trans (V1_a m d)
theorem V2_x (d : Dev nD) : V2 m d x' = m (xLoc d) := (Function.update_of_ne (show x' ≠ o' by decide) _ _).trans (V1_x m d)
theorem V2_i (d : Dev nD) : V2 m d i' = idx3 m d := (Function.update_of_ne (show i' ≠ o' by decide) _ _).trans (V1_i m d)
theorem V2_o (d : Dev nD) : V2 m d o' = OUT m d := Function.update_self _ _ _
theorem V2_rest (d : Dev nD) {b : DevRef τ sig} (h : b ≠ o') : V2 m d b = V1 m d b := Function.update_of_ne h _ _

theorem V5_a (d : Dev nD) : V5 m d a' = m (aLoc d) :=
  (StableHlo.unary_result_ne' _ _ _ _ (show (main_arg0 : Ref sig .tc) ≠ main_v3 by decide)).trans
    ((StableHlo.nullary_result_ne' _ _ _ (show (main_arg0 : Ref sig .tc) ≠ main_c by decide)).trans
      ((StableHlo.reshape_result_ne' _ _ _ _ _ (show (main_arg0 : Ref sig .tc) ≠ main_v2 by decide)).trans (V2_a m d)))
theorem V5_x (d : Dev nD) : V5 m d x' = m (xLoc d) :=
  (StableHlo.unary_result_ne' _ _ _ _ (show (main_arg1 : Ref sig .tc) ≠ main_v3 by decide)).trans
    ((StableHlo.nullary_result_ne' _ _ _ (show (main_arg1 : Ref sig .tc) ≠ main_c by decide)).trans
      ((StableHlo.reshape_result_ne' _ _ _ _ _ (show (main_arg1 : Ref sig .tc) ≠ main_v2 by decide)).trans (V2_x m d)))
theorem V5_e (d : Dev nD) : V5 m d e' = EMB m d :=
  (StableHlo.unary_result_ne' _ _ _ _ (show (main_v2 : Ref sig .tc) ≠ main_v3 by decide)).trans
    ((StableHlo.nullary_result_ne' _ _ _ (show (main_v2 : Ref sig .tc) ≠ main_c by decide)).trans
      ((StableHlo.reshape_result' _ _ _ _ _).trans (by rw [V2_o]; rfl)))
theorem V5_l (d : Dev nD) : V5 m d l' = LEN (F := F) d :=
  (StableHlo.unary_result' _ _ _ _).trans (congrArg _ (StableHlo.nullary_result' _ _ _))

theorem hIdx : (opIdx (F := F)).bufs ⊆ S7 := show ({a', i'} : Finset (DevRef τ sig)) ⊆ S7 by decide
theorem hEmb : (opEmb (F := F)).bufs ⊆ S7 := show ({o', e'} : Finset (DevRef τ sig)) ⊆ S7 by decide
theorem hCst : (opCst (F := F)).bufs ⊆ S7 := show ({c'} : Finset (DevRef τ sig)) ⊆ S7 by decide
theorem hLen : (opLen (F := F)).bufs ⊆ S7 := show ({c', l'} : Finset (DevRef τ sig)) ⊆ S7 by decide

/-! ## @main on the TensorCore -/

/-- What @main leaves the claim: the two arguments as launched, the output in the reference's arrangement, the lengths. -/
abbrev FIN (d : Dev nD) : sProp 𝕄 :=
  iprop((aLoc d ↦{fullShare} m (aLoc d)) ∗ (xLoc d ↦{fullShare} m (xLoc d)) ∗ (eLoc d ↦{fullShare} EMB m d) ∗ lLoc d ↦{fullShare} LEN (F := F) d)

/-- @main on device d's TensorCore: the reshape of the row numbers, the call on the reshaped row numbers, the table and
    the output, the reshape of what came back, the constant and its broadcast. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the reshape of the row numbers
  iapply (wp_hlo_within 𝒱 (SparseCore.T d) none Set.univ (op := opIdx) (S := S7) hIdx (V := V0 m d)) $$ [Hb Hheld]
  · isplitl [Hb]; · iexact Hb
    iexact Hheld
  iintro ⟨Hb, Hheld⟩
  rw [wp_ret]; imodintro
  ihave Hh := (Entails.of_eq (held_S7 (F := F) d (V1 m d))) $$ Hheld
  icases Hh with ⟨Ha, Hx, Hi, Ho, He, Hc, Hl⟩
  rw [V1_x, V1_i, V1_o]
  -- the call: the three arrays to the workers and back
  iapply ((K (F := F)).wp_run (D (F := F)) 𝒱 (EH := EH) (P := P m) κ d 0) $$ [Hst Hi Hx Ho Hb Ha He Hc Hl]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨Hi, Hx, Ho⟩
  -- the reshape of the output
  iapply (wp_hlo_within 𝒱 (SparseCore.T d) none Set.univ (op := opEmb) (S := S7) hEmb (V := V2 m d)) $$ [Hb Ha Hx Hi Ho He Hc Hl]
  · isplitl [Hb]; · iexact Hb
    rw [held_S7, V2_x, V2_i, V2_o, V2_rest m d (show a' ≠ o' by decide), V2_rest m d (show e' ≠ o' by decide),
      V2_rest m d (show c' ≠ o' by decide), V2_rest m d (show l' ≠ o' by decide)]
    isplitl [Ha]; · iexact Ha
    isplitl [Hx]; · iexact Hx
    isplitl [Hi]; · iexact Hi
    isplitl [Ho]; · iexact Ho
    isplitl [He]; · iexact He
    isplitl [Hc]; · iexact Hc
    iexact Hl
  iintro ⟨Hb, Hheld⟩
  rw [wp_ret]; imodintro
  -- the constant
  iapply (wp_hlo_within 𝒱 (SparseCore.T d) none Set.univ (op := opCst) (S := S7) hCst (V := V3 m d)) $$ [Hb Hheld]
  · isplitl [Hb]; · iexact Hb
    iexact Hheld
  iintro ⟨Hb, Hheld⟩
  rw [wp_ret]; imodintro
  -- its broadcast
  iapply (wp_hlo_within 𝒱 (SparseCore.T d) none Set.univ (op := opLen) (S := S7) hLen (V := V4 m d)) $$ [Hb Hheld]
  · isplitl [Hb]; · iexact Hb
    iexact Hheld
  iintro ⟨Hb, Hheld⟩
  rw [wp_ret]; imodintro; imodintro
  ihave Hh := (Entails.of_eq (held_S7 (F := F) d (V5 m d))) $$ Hheld
  icases Hh with ⟨Ha, Hx, -, -, He, -, Hl⟩
  rw [V5_a, V5_x, V5_e, V5_l]
  isplitl [Hst]; · iexact Hst
  isplitl [Ha]; · iexact Ha
  isplitl [Hx]; · iexact Hx
  isplitl [He]; · iexact He
  iexact Hl

/-! ## The final memory -/

def fq (d : Dev nD) (s' : Phys nD τ sig (Elt F)) : Prop :=
  s'.mem.mem (aLoc d) = m (aLoc d) ∧ s'.mem.mem (xLoc d) = m (xLoc d) ∧ s'.mem.mem (eLoc d) = EMB m d ∧ s'.mem.mem (lLoc d) = LEN (F := F) d

set_option maxRecDepth 16384 in
theorem hfin (d : Dev nD) (s' : Phys nD τ sig (Elt F)) : iprop(FIN m d ∗ SI s') ⊢ (⌜fq m d s'⌝ : sProp 𝕄) := by
  iintro ⟨⟨Ha, Hx, He, Hl⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (persistent_entails_right (SI_pointsTo_agree (st := s') (ℓ := eLoc d) (I := Finset.univ) (q := fullShare) (f := EMB m d))) $$ [HSI He]
  · isplitl [HSI] <;> iassumption
  icases H with ⟨%h3, HSI, -⟩
  ihave H := (SI_pointsTo_agree (st := s') (ℓ := lLoc d) (I := Finset.univ) (q := fullShare) (f := LEN (F := F) d)) $$ [HSI Hl]
  · isplitl [HSI] <;> iassumption
  icases H with %h4
  ipureintro
  exact ⟨funext fun i => h1 i (Finset.mem_univ i), funext fun i => h2 i (Finset.mem_univ i),
    funext fun i => h3 i (Finset.mem_univ i), funext fun i => h4 i (Finset.mem_univ i)⟩

/-! ## The program's run -/

/-- Every device ends with the output the lookup of its arguments, rearranged, the lengths all 200, the arguments as
    launched. -/
def QC : PUnit × MemSt nD τ sig (Elt F) → Prop := fun r => ∀ c : Dev nD,
  r.2.mem (eLoc c) = shapeCast S1024x200x128 (OUT m c) shapeCasts_S32x100x64x128_S1024x200x128
  ∧ r.2.mem (lLoc c) = broadcastInDim S1024 ![] bcast_S_S1024 (constantI S_ 32 200#32)
  ∧ r.2.mem (aLoc c) = m (aLoc c) ∧ r.2.mem (xLoc c) = m (xLoc c)

theorem run_main [∀ e, Nonempty (Elt F e)] (hT : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun s' h c => ⟨(h c).2.2.1, (h c).2.2.2, (h c).1, (h c).2.1⟩)

end Cert.Proof.KernelRun

end
-- ==== Proof.KObl.lean ====
/-
  The launch's obligation for a vector subcore, from the task at a grid point.

  The call runs, on vector subcore (c, i) of the grid, the lookup at the grid point (c, i) on the whole arrays and the
  subcore's own scratch. What the launch hands the subcore and takes back are the parts of the subcore numbered
  2 i + c, which is the number of the grid point; so a proof of the task at every grid point, from the subcore's
  parts to its parts with the block filled in, is the obligation for every subcore.
-/
import proofs.«206297_g77653008712327_cont_9to1c4b_438_14_alg».proof.Proof.KInv
import proofs.«206297_g77653008712327_cont_9to1c4b_438_14_alg».proof.Proof.KLaunch

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x100x64 EltTy.i32)
local notation "xV" => (Memref.whole Cert.Kernel.main_arg1_scv : Memref Cert.Kernel.sig Kind.scVector Space.hbm Cert.Kernel.S100000x128 EltTy.f32)
local notation "oV" => (Memref.whole Cert.Kernel.main_v1_scv : Memref Cert.Kernel.sig Kind.scVector Space.hbm Cert.Kernel.S32x100x64x128 EltTy.f32)
local notation "sV" => (Memref.whole Cert.Kernel.cc0_scratch0 : Memref Cert.Kernel.sig Kind.scVector Space.vmem Cert.Kernel.S100x64 EltTy.i32)
local notation "rV" => (Memref.whole Cert.Kernel.cc0_scratch1 : Memref Cert.Kernel.sig Kind.scVector Space.vmem Cert.Kernel.S10x64x128 EltTy.f32)

variable (m : (ℓ : Loc nD τ sig) → Buf (Elt F) ℓ) [FloatOps F]

/-! ## The obligation -/

/-- The grid point of vector subcore (c, s). -/
def coordsV (c : Fin (grid0.bound 0)) (s : Fin (grid0.bound 1)) : grid0.Coords :=
  fun | 0 => c | 1 => s | ⟨_ + 2, h⟩ => absurd h (Nat.not_lt.2 (Nat.le_add_left _ _))

omit m in
/-- What a vector subcore runs for the call: the lookup at its grid point, on the whole arrays and its scratch. -/
theorem defs₀_vector (c : Fin τ.nSC) (s : Fin τ.nSub) :
    defs₀ (F := F) (.scVector c s) 0 ()
      = SparseCore.onTile hcore0 hsub0 (fun c s => cc0_gather_kernel (coordsV c s)
          iV (Memref.isWhole_whole _) xV (Memref.isWhole_whole _) oV (Memref.isWhole_whole _)
          sV (Memref.isWhole_whole _) rV (Memref.isWhole_whole _) cc0_scratch2 cc0_scratch3 cc0_scoped0) ⟨⟩ c s := rfl

omit m [FloatOps F] in
/-- The waits left may also be the call's own. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The task of every vector subcore of the grid, from the task at a grid point. -/
theorem tileObl
    (hbody : ∀ (d : Dev nD) (L : grid0.Coords) (O : CellTallies nD τ sig (HIx 1)) (W : Waits sig (HIx 1)), (∀ g, O g none = 0) →
      iprop(levAts (K (F := F)).L (K (F := F)).lev ∗ emp ∗ goW m d (widL L) ∗ scopedBufs (thr d L) ∗ scopedSems0 (thr d L) ∗ owes (thr d L) O W)
        ⊢ wp frame (wpE (defs₀ (F := F)) 𝒱₀ (thr d L) none) Set.univ
            (cc0_gather_kernel L iV (Memref.isWhole_whole _) xV (Memref.isWhole_whole _) oV (Memref.isWhole_whole _)
              sV (Memref.isWhole_whole _) rV (Memref.isWhole_whole _) cc0_scratch2 cc0_scratch3 cc0_scoped0)
            fun _ => iprop(tdW m d (widL L) ∗ scopedBufs (thr d L) ∗ scopedSems0 (thr d L)
              ∗ ∃ W', ⌜∀ p ∈ W', p ∈ W ∨ p.2 = none⌝ ∗ owes (thr d L) O W')) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hbody d (coordsV ⟨_, hci.1⟩ ⟨_, hci.2⟩) O W hO).trans (wp_mono frame _ _ fun _ => obl_post)

end Cert.Proof.KernelRun

end
-- ==== Proof.KValues.lean ====
/-
  What one worker's buffers hold, as pure facts about reading and writing through the slices the program forms.

  A slice of a whole buffer at unit stride, squeezed, places index x at the slice's offset plus x behind the unit
  coordinates the squeeze dropped. So the worker's row of the reshaped row numbers, read whole, is the index scratch's
  contents; row n of the index scratch reads the worker's words (w, n, ·), each a row number of the table under the
  precondition; a gather by those words into a slot lands, at (·, r, e), entry e of the table row word (w, n, r) names;
  and a slot copied out to chunk n of the worker's block lands the lookup's value at (w, n, r, e).
-/
import proofs.«206297_g77653008712327_cont_9to1c4b_438_14_alg».proof.Proof.KBodyDefs
import Idealize.ShloMosaic.Lib.ValueLayout

noncomputable section

namespace Cert.Proof.KernelRun

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x100x64 EltTy.i32)
local notation "xV" => (Memref.whole Cert.Kernel.main_arg1_scv : Memref Cert.Kernel.sig Kind.scVector Space.hbm Cert.Kernel.S100000x128 EltTy.f32)
local notation "oV" => (Memref.whole Cert.Kernel.main_v1_scv : Memref Cert.Kernel.sig Kind.scVector Space.hbm Cert.Kernel.S32x100x64x128 EltTy.f32)
local notation "sV" => (Memref.whole Cert.Kernel.cc0_scratch0 : Memref Cert.Kernel.sig Kind.scVector Space.vmem Cert.Kernel.S100x64 EltTy.i32)
local notation "rV" => (Memref.whole Cert.Kernel.cc0_scratch1 : Memref Cert.Kernel.sig Kind.scVector Space.vmem Cert.Kernel.S10x64x128 EltTy.f32)

variable (m : (ℓ : Loc nD τ sig) → Buf (Elt F) ℓ)
variable (d : Dev nD) (L : grid0.Coords)

/-! ## Where the slices place their indices -/

omit m d in
/-- Index (k, r) of the worker's row of the reshaped row numbers is element (w, k, r) of the array. -/
theorem emb_iRowK (j : S100x64.Idx) : (iRowK L).view.emb j = ix3 (widL L) (j 0) (j 1) := by
  have hj : Shape.reshapeEquiv squeezes_S1x100x64_S100x64.numel_eq j = ix3 (⟨0, Nat.one_pos⟩ : Fin 1) (j 0) (j 1) :=
    (congrArg (Shape.reshapeEquiv squeezes_S1x100x64_S100x64.numel_eq) (eq_ix2 j)).trans
      (reshapeEquiv_ix2_1ab (a := 100) (b := 64) squeezes_S1x100x64_S100x64.numel_eq (j 0) (j 1))
  funext a; apply Fin.ext
  show (k0_off1 L) a + 1 * ((Shape.reshapeEquiv squeezes_S1x100x64_S100x64.numel_eq j) a).val = _
  rw [hj, k0_off1_eq]
  match a with
  | ⟨0, _⟩ => show 2 * (L 1).val + (L 0).val + 1 * 0 = 2 * (L 1).val + (L 0).val; omega
  | ⟨1, _⟩ => show 0 + 1 * (j 0).val = (j 0).val; omega
  | ⟨2, _⟩ => show 0 + 1 * (j 1).val = (j 1).val; omega

omit m d L in
/-- Index r of row n of the index scratch is element (n, r) of the scratch. -/
theorem emb_lstC (n : ℕ) (h : n < 100) (x : S64.Idx) : (lstC n h).view.emb x = ix2 (⟨n, h⟩ : Fin 100) (x 0) := by
  have hx := Shape.reshapeEquiv_cons_one (n := 1) (d := ![64]) squeezes_S1x64_S64.numel_eq x
  funext a; apply Fin.ext
  show (![n, 0] : Fin 2 → ℕ) a + 1 * ((Shape.reshapeEquiv squeezes_S1x64_S64.numel_eq x) a).val = _
  rw [hx]
  match a with
  | ⟨0, _⟩ => show n + 1 * 0 = n; omega
  | ⟨1, _⟩ => show 0 + 1 * (x 0).val = (x 0).val; omega

/-! ## The index scratch -/

/-- The worker's row of the reshaped row numbers, read whole, is what the index scratch is to hold. -/
theorem read_iRowK : (iRowK L).view.read (Elt F) (idx3 m d) = IDXV m d L := by
  funext j
  rw [View.read_apply, emb_iRowK]
  exact cast_eq _ _

/-- The opening copy fills the index scratch with the worker's row. -/
theorem idxv_of_copy (fs : Buf (Elt F) ((thr d L).loc cc0_scratch0)) (pay : S100x64.Idx → Elt F .i32)
    (hpay : pay = (iRowK L).view.read (Elt F) (idx3 m d)) :
    View.write (Elt F) (sV).view fs pay Finset.univ = IDXV m d L := by
  subst hpay
  rw [View.write_whole_univ]
  exact read_iRowK m d L

/-- Row n of the index scratch reads, at r, the scratch's word (n, r). -/
theorem read_lstC (n : ℕ) (h : n < 100) (f : Buf (Elt F) ((thr d L).loc cc0_scratch0)) (x : S64.Idx) :
    (lstC n h).view.read (Elt F) f x = f (ix2 (⟨n, h⟩ : Fin 100) (x 0)) := by
  rw [View.read_apply, emb_lstC]
  exact cast_eq _ _

/-- which, after the opening copy, is the worker's word (w, n, r) of the reshaped row numbers. -/
theorem read_lstC_IDXV (n : ℕ) (h : n < 100) (x : S64.Idx) :
    (lstC n h).view.read (Elt F) (IDXV m d L) x = idx3 m d (ix3 (widL L) (⟨n, h⟩ : Fin 100) (x 0)) :=
  read_lstC d L n h (IDXV m d L) x

/-- Every word of a list row is a row number of the table, under the precondition. -/
theorem list_inb' (hpre : Lookup.InRange (idx3 m d)) (n : ℕ) (h : n < 100) :
    ∀ x, ((lstC n h).view.read (Elt F) (IDXV m d L) x).toNat < 100000 := by
  intro x
  rw [read_lstC_IDXV]
  have := (Lookup.toNat_of_inRange (hpre (ix3 (widL L) (⟨n, h⟩ : Fin 100) (x 0)))).2
  omega
theorem list_inb (hpre : Lookup.InRange (idx3 m d)) (n : ℕ) (h : n < 100) :
    ∀ x, ((lstC n h).view.read (Elt F) (IDXV m d L) x).toNat < S100000x128.size gathers_S100000x128_S64x128.axis :=
  list_inb' m d L hpre n h

/-! ## The slots, the table, the output chunks -/

omit m d L in
theorem slotC_inb (b : ℕ) (hb : b < 10) : ∀ a, (![b, 0, 0] : Fin 3 → Nat) a + S1x64x128.size a ≤ S10x64x128.size a := by
  intro a; match a with
  | ⟨0, _⟩ => show b + 1 ≤ 10; omega
  | ⟨1, _⟩ => show 0 + 64 ≤ 64; omega
  | ⟨2, _⟩ => show 0 + 128 ≤ 128; omega
/-- Slot b of the row scratch. -/
abbrev slotC (b : ℕ) (hb : b < 10) : Memref sig .scVector .vmem S64x128 .f32 :=
  ((rV).slice (Rect.unit (s := S10x64x128) ![b, 0, 0] S1x64x128.size (slotC_inb b hb)) (fun _ => rfl)).squeeze S64x128 squeezes_S1x64x128_S64x128

omit m d L in
/-- Index (r, e) of slot b is element (b, r, e) of the row scratch. -/
theorem emb_slotC (b : ℕ) (hb : b < 10) (y : S64x128.Idx) : (slotC b hb).view.emb y = ix3 (⟨b, hb⟩ : Fin 10) (y 0) (y 1) := by
  have hy : Shape.reshapeEquiv squeezes_S1x64x128_S64x128.numel_eq y = ix3 (⟨0, Nat.one_pos⟩ : Fin 1) (y 0) (y 1) :=
    (congrArg (Shape.reshapeEquiv squeezes_S1x64x128_S64x128.numel_eq) (eq_ix2 y)).trans
      (reshapeEquiv_ix2_1ab (a := 64) (b := 128) squeezes_S1x64x128_S64x128.numel_eq (y 0) (y 1))
  funext a; apply Fin.ext
  show (![b, 0, 0] : Fin 3 → ℕ) a + 1 * ((Shape.reshapeEquiv squeezes_S1x64x128_S64x128.numel_eq y) a).val = _
  rw [hy]
  match a with
  | ⟨0, _⟩ => show b + 1 * 0 = b; omega
  | ⟨1, _⟩ => show 0 + 1 * (y 0).val = (y 0).val; omega
  | ⟨2, _⟩ => show 0 + 1 * (y 1).val = (y 1).val; omega

omit m d L in
/-- The table as a gather names it places every index at itself. -/
theorem emb_xAllM (z : S100000x128.Idx) : (xAllM).view.emb z = z := by
  funext a; apply Fin.ext
  show (![0, 0] : Fin 2 → ℕ) a + 1 * (z a).val = (z a).val
  match a with
  | ⟨0, _⟩ => show 0 + 1 * (z ⟨0, _⟩).val = (z ⟨0, _⟩).val; omega
  | ⟨1, _⟩ => show 0 + 1 * (z ⟨1, _⟩).val = (z ⟨1, _⟩).val; omega

omit m d L in
/-- Index (r, e) of chunk n of worker w's block is element (w, n, r, e) of the output. -/
theorem emb_oChC (w : Fin 32) (n : ℕ) (h : n < 100) (y : S64x128.Idx) :
    (oChC w n h).view.emb y = ix4 w (⟨n, h⟩ : Fin 100) (y 0) (y 1) := by
  have hy : Shape.reshapeEquiv squeezes_S1x1x64x128_S64x128.numel_eq y = ix4 (⟨0, Nat.one_pos⟩ : Fin 1) (⟨0, Nat.one_pos⟩ : Fin 1) (y 0) (y 1) :=
    (congrArg (Shape.reshapeEquiv squeezes_S1x1x64x128_S64x128.numel_eq) (eq_ix2 y)).trans
      (reshapeEquiv_ix2_11ab (a := 64) (b := 128) squeezes_S1x1x64x128_S64x128.numel_eq (y 0) (y 1))
  funext a; apply Fin.ext
  show (![w.val, n, 0, 0] : Fin 4 → ℕ) a + 1 * ((Shape.reshapeEquiv squeezes_S1x1x64x128_S64x128.numel_eq y) a).val = _
  rw [hy]
  match a with
  | ⟨0, _⟩ => show w.val + 1 * 0 = w.val; omega
  | ⟨1, _⟩ => show n + 1 * 0 = n; omega
  | ⟨2, _⟩ => show 0 + 1 * (y 0).val = (y 0).val; omega
  | ⟨3, _⟩ => show 0 + 1 * (y 1).val = (y 1).val; omega

omit m d L in
/-- The k-th index of a list in row-major order is k. -/
theorem rowMajor_symm_S64 (k : Fin S64.numel) : ((S64.rowMajor.symm k) 0).val = k.val := by
  have e := Shape.rowMajor_val_one (d := ![64]) (S64.rowMajor.symm k)
  rw [Equiv.apply_symm_apply] at e
  exact e.symm

/-! ## A gather's landing -/

/-- A gather by row n of the index scratch into slot b lands, at every element of the slot, what the slot is to hold
    after chunk n: entry e of the table row that word (w, n, r) names. -/
theorem gather_lands (b : ℕ) (hb : b < 10) (hpre : Lookup.InRange (idx3 m d)) (n : ℕ) (h : n < 100)
    (fd : Buf (Elt F) ((thr d L).loc cc0_scratch1))
    (hin : ∀ x, ((lstC n h).view.read (Elt F) (IDXV m d L) x).toNat < S100000x128.size gathers_S100000x128_S64x128.axis) :
    ∀ i ∈ (slotC b hb).view.set, (slotC b hb).view.write (Elt F) fd
        (SparseCore.gatherPayload gathers_S100000x128_S64x128 ((xAllM).view.read (Elt F) (m (xLoc d)))
          (SparseCore.rows ((lstC n h).view.read (Elt F) (IDXV m d L)) rfl hin)) Finset.univ i = RF m d L ⟨n, h⟩ i := by
  intro i hi
  obtain ⟨y, -, rfl⟩ := Finset.mem_map.mp hi
  rw [View.write_emb_of_mem _ _ (Finset.mem_univ y), emb_slotC]
  refine (cast_eq _ _).trans ?_
  unfold SparseCore.gatherPayload
  rw [View.read_apply, emb_xAllM]
  refine (cast_eq _ _).trans ?_
  show m (xLoc d) _ = m (xLoc d) (ix2 (Lookup.rowOf (idx3 m d (ix3 (widL L) (⟨n, h⟩ : Fin 100) (y 0)))) (y 1))
  congr 1
  funext a; apply Fin.ext
  match a with
  | ⟨0, _⟩ =>
    show (gathers_S100000x128_S64x128.idx (SparseCore.rows ((lstC n h).view.read (Elt F) (IDXV m d L)) rfl hin) y
        gathers_S100000x128_S64x128.axis).val = (Lookup.rowOf (idx3 m d (ix3 (widL L) (⟨n, h⟩ : Fin 100) (y 0)))).val
    rw [Shape.Gathers.idx_axis, Lookup.rowOf_val_of_le (Lookup.toNat_of_inRange (hpre _)).2]
    show ((lstC n h).view.read (Elt F) (IDXV m d L) (S64.rowMajor.symm ((y 0).cast rfl))).toNat = _
    rw [read_lstC_IDXV, show (S64.rowMajor.symm ((y 0).cast rfl)) 0 = y 0 from Fin.ext (rowMajor_symm_S64 _)]
  | ⟨1, _⟩ =>
    exact Shape.Gathers.idx_of_ne gathers_S100000x128_S64x128 _ y ⟨1, by decide⟩ (by decide)

/-! ## A copy-out's landing -/

/-- A slot holding chunk n's rows, copied out to chunk n of the worker's block, lands the lookup's value at every element
    of the chunk. -/
theorem store_lands (b : ℕ) (hb : b < 10) (n : ℕ) (h : n < 100) (f0 : Buf (Elt F) (oLoc d)) :
    ∀ i ∈ (oChC (widL L) n h).view.set, (oChC (widL L) n h).view.write (Elt F) f0
        ((ReadAs.same : ReadAs (Elt F) S64x128 .f32 S64x128 .f32).apply ((slotC b hb).view.read (Elt F) (RF m d L ⟨n, h⟩))) Finset.univ i
      = OUT m d i := by
  intro i hi
  obtain ⟨y, -, rfl⟩ := Finset.mem_map.mp hi
  rw [View.write_emb_of_mem _ _ (Finset.mem_univ y), emb_oChC]
  refine (cast_eq _ _).trans ?_
  show (slotC b hb).view.read (Elt F) (RF m d L ⟨n, h⟩) y = _
  rw [View.read_apply, emb_slotC]
  exact cast_eq _ _

/-! ## The same at the slots as the program names them -/

theorem gather_lands0 (hpre : Lookup.InRange (idx3 m d)) (n : ℕ) (h : n < 100) (fd : Buf (Elt F) ((thr d L).loc cc0_scratch1))
    (hin : ∀ x, ((lstC n h).view.read (Elt F) (IDXV m d L) x).toNat < S100000x128.size gathers_S100000x128_S64x128.axis) :
    ∀ i ∈ (slotM0).view.set, (slotM0).view.write (Elt F) fd
        (SparseCore.gatherPayload gathers_S100000x128_S64x128 ((xAllM).view.read (Elt F) (m (xLoc d)))
          (SparseCore.rows ((lstC n h).view.read (Elt F) (IDXV m d L)) rfl hin)) Finset.univ i = RF m d L ⟨n, h⟩ i :=
  gather_lands m d L 0 (by omega) hpre n h fd hin
theorem store_lands0 (n : ℕ) (h : n < 100) (f0 : Buf (Elt F) (oLoc d)) :
    ∀ i ∈ (oChC (widL L) n h).view.set, (oChC (widL L) n h).view.write (Elt F) f0
        ((ReadAs.same : ReadAs (Elt F) S64x128 .f32 S64x128 .f32).apply ((slotM0).view.read (Elt F) (RF m d L ⟨n, h⟩))) Finset.univ i
      = OUT m d i :=
  store_lands m d L 0 (by omega) n h f0

theorem gather_lands1 (hpre : Lookup.InRange (idx3 m d)) (n : ℕ) (h : n < 100) (fd : Buf (Elt F) ((thr d L).loc cc0_scratch1))
    (hin : ∀ x, ((lstC n h).view.read (Elt F) (IDXV m d L) x).toNat < S100000x128.size gathers_S100000x128_S64x128.axis) :
    ∀ i ∈ (slotM1).view.set, (slotM1).view.write (Elt F) fd
        (SparseCore.gatherPayload gathers_S100000x128_S64x128 ((xAllM).view.read (Elt F) (m (xLoc d)))
          (SparseCore.rows ((lstC n h).view.read (Elt F) (IDXV m d L)) rfl hin)) Finset.univ i = RF m d L ⟨n, h⟩ i :=
  gather_lands m d L 1 (by omega) hpre n h fd hin
theorem store_lands1 (n : ℕ) (h : n < 100) (f0 : Buf (Elt F) (oLoc d)) :
    ∀ i ∈ (oChC (widL L) n h).view.set, (oChC (widL L) n h).view.write (Elt F) f0
        ((ReadAs.same : ReadAs (Elt F) S64x128 .f32 S64x128 .f32).apply ((slotM1).view.read (Elt F) (RF m d L ⟨n, h⟩))) Finset.univ i
      = OUT m d i :=
  store_lands m d L 1 (by omega) n h f0

theorem gather_lands2 (hpre : Lookup.InRange (idx3 m d)) (n : ℕ) (h : n < 100) (fd : Buf (Elt F) ((thr d L).loc cc0_scratch1))
    (hin : ∀ x, ((lstC n h).view.read (Elt F) (IDXV m d L) x).toNat < S100000x128.size gathers_S100000x128_S64x128.axis) :
    ∀ i ∈ (slotM2).view.set, (slotM2).view.write (Elt F) fd
        (SparseCore.gatherPayload gathers_S100000x128_S64x128 ((xAllM).view.read (Elt F) (m (xLoc d)))
          (SparseCore.rows ((lstC n h).view.read (Elt F) (IDXV m d L)) rfl hin)) Finset.univ i = RF m d L ⟨n, h⟩ i :=
  gather_lands m d L 2 (by omega) hpre n h fd hin
theorem store_lands2 (n : ℕ) (h : n < 100) (f0 : Buf (Elt F) (oLoc d)) :
    ∀ i ∈ (oChC (widL L) n h).view.set, (oChC (widL L) n h).view.write (Elt F) f0
        ((ReadAs.same : ReadAs (Elt F) S64x128 .f32 S64x128 .f32).apply ((slotM2).view.read (Elt F) (RF m d L ⟨n, h⟩))) Finset.univ i
      = OUT m d i :=
  store_lands m d L 2 (by omega) n h f0

theorem gather_lands3 (hpre : Lookup.InRange (idx3 m d)) (n : ℕ) (h : n < 100) (fd : Buf (Elt F) ((thr d L).loc cc0_scratch1))
    (hin : ∀ x, ((lstC n h).view.read (Elt F) (IDXV m d L) x).toNat < S100000x128.size gathers_S100000x128_S64x128.axis) :
    ∀ i ∈ (slotM3).view.set, (slotM3).view.write (Elt F) fd
        (SparseCore.gatherPayload gathers_S100000x128_S64x128 ((xAllM).view.read (Elt F) (m (xLoc d)))
          (SparseCore.rows ((lstC n h).view.read (Elt F) (IDXV m d L)) rfl hin)) Finset.univ i = RF m d L ⟨n, h⟩ i :=
  gather_lands m d L 3 (by omega) hpre n h fd hin
theorem store_lands3 (n : ℕ) (h : n < 100) (f0 : Buf (Elt F) (oLoc d)) :
    ∀ i ∈ (oChC (widL L) n h).view.set, (oChC (widL L) n h).view.write (Elt F) f0
        ((ReadAs.same : ReadAs (Elt F) S64x128 .f32 S64x128 .f32).apply ((slotM3).view.read (Elt F) (RF m d L ⟨n, h⟩))) Finset.univ i
      = OUT m d i :=
  store_lands m d L 3 (by omega) n h f0

theorem gather_lands4 (hpre : Lookup.InRange (idx3 m d)) (n : ℕ) (h : n < 100) (fd : Buf (Elt F) ((thr d L).loc cc0_scratch1))
    (hin : ∀ x, ((lstC n h).view.read (Elt F) (IDXV m d L) x).toNat < S100000x128.size gathers_S100000x128_S64x128.axis) :
    ∀ i ∈ (slotM4).view.set, (slotM4).view.write (Elt F) fd
        (SparseCore.gatherPayload gathers_S100000x128_S64x128 ((xAllM).view.read (Elt F) (m (xLoc d)))
          (SparseCore.rows ((lstC n h).view.read (Elt F) (IDXV m d L)) rfl hin)) Finset.univ i = RF m d L ⟨n, h⟩ i :=
  gather_lands m d L 4 (by omega) hpre n h fd hin
theorem store_lands4 (n : ℕ) (h : n < 100) (f0 : Buf (Elt F) (oLoc d)) :
    ∀ i ∈ (oChC (widL L) n h).view.set, (oChC (widL L) n h).view.write (Elt F) f0
        ((ReadAs.same : ReadAs (Elt F) S64x128 .f32 S64x128 .f32).apply ((slotM4).view.read (Elt F) (RF m d L ⟨n, h⟩))) Finset.univ i
      = OUT m d i :=
  store_lands m d L 4 (by omega) n h f0

theorem gather_lands5 (hpre : Lookup.InRange (idx3 m d)) (n : ℕ) (h : n < 100) (fd : Buf (Elt F) ((thr d L).loc cc0_scratch1))
    (hin : ∀ x, ((lstC n h).view.read (Elt F) (IDXV m d L) x).toNat < S100000x128.size gathers_S100000x128_S64x128.axis) :
    ∀ i ∈ (slotM5).view.set, (slotM5).view.write (Elt F) fd
        (SparseCore.gatherPayload gathers_S100000x128_S64x128 ((xAllM).view.read (Elt F) (m (xLoc d)))
          (SparseCore.rows ((lstC n h).view.read (Elt F) (IDXV m d L)) rfl hin)) Finset.univ i = RF m d L ⟨n, h⟩ i :=
  gather_lands m d L 5 (by omega) hpre n h fd hin
theorem store_lands5 (n : ℕ) (h : n < 100) (f0 : Buf (Elt F) (oLoc d)) :
    ∀ i ∈ (oChC (widL L) n h).view.set, (oChC (widL L) n h).view.write (Elt F) f0
        ((ReadAs.same : ReadAs (Elt F) S64x128 .f32 S64x128 .f32).apply ((slotM5).view.read (Elt F) (RF m d L ⟨n, h⟩))) Finset.univ i
      = OUT m d i :=
  store_lands m d L 5 (by omega) n h f0

theorem gather_lands6 (hpre : Lookup.InRange (idx3 m d)) (n : ℕ) (h : n < 100) (fd : Buf (Elt F) ((thr d L).loc cc0_scratch1))
    (hin : ∀ x, ((lstC n h).view.read (Elt F) (IDXV m d L) x).toNat < S100000x128.size gathers_S100000x128_S64x128.axis) :
    ∀ i ∈ (slotM6).view.set, (slotM6).view.write (Elt F) fd
        (SparseCore.gatherPayload gathers_S100000x128_S64x128 ((xAllM).view.read (Elt F) (m (xLoc d)))
          (SparseCore.rows ((lstC n h).view.read (Elt F) (IDXV m d L)) rfl hin)) Finset.univ i = RF m d L ⟨n, h⟩ i :=
  gather_lands m d L 6 (by omega) hpre n h fd hin
theorem store_lands6 (n : ℕ) (h : n < 100) (f0 : Buf (Elt F) (oLoc d)) :
    ∀ i ∈ (oChC (widL L) n h).view.set, (oChC (widL L) n h).view.write (Elt F) f0
        ((ReadAs.same : ReadAs (Elt F) S64x128 .f32 S64x128 .f32).apply ((slotM6).view.read (Elt F) (RF m d L ⟨n, h⟩))) Finset.univ i
      = OUT m d i :=
  store_lands m d L 6 (by omega) n h f0

theorem gather_lands7 (hpre : Lookup.InRange (idx3 m d)) (n : ℕ) (h : n < 100) (fd : Buf (Elt F) ((thr d L).loc cc0_scratch1))
    (hin : ∀ x, ((lstC n h).view.read (Elt F) (IDXV m d L) x).toNat < S100000x128.size gathers_S100000x128_S64x128.axis) :
    ∀ i ∈ (slotM7).view.set, (slotM7).view.write (Elt F) fd
        (SparseCore.gatherPayload gathers_S100000x128_S64x128 ((xAllM).view.read (Elt F) (m (xLoc d)))
          (SparseCore.rows ((lstC n h).view.read (Elt F) (IDXV m d L)) rfl hin)) Finset.univ i = RF m d L ⟨n, h⟩ i :=
  gather_lands m d L 7 (by omega) hpre n h fd hin
theorem store_lands7 (n : ℕ) (h : n < 100) (f0 : Buf (Elt F) (oLoc d)) :
    ∀ i ∈ (oChC (widL L) n h).view.set, (oChC (widL L) n h).view.write (Elt F) f0
        ((ReadAs.same : ReadAs (Elt F) S64x128 .f32 S64x128 .f32).apply ((slotM7).view.read (Elt F) (RF m d L ⟨n, h⟩))) Finset.univ i
      = OUT m d i :=
  store_lands m d L 7 (by omega) n h f0

theorem gather_lands8 (hpre : Lookup.InRange (idx3 m d)) (n : ℕ) (h : n < 100) (fd : Buf (Elt F) ((thr d L).loc cc0_scratch1))
    (hin : ∀ x, ((lstC n h).view.read (Elt F) (IDXV m d L) x).toNat < S100000x128.size gathers_S100000x128_S64x128.axis) :
    ∀ i ∈ (slotM8).view.set, (slotM8).view.write (Elt F) fd
        (SparseCore.gatherPayload gathers_S100000x128_S64x128 ((xAllM).view.read (Elt F) (m (xLoc d)))
          (SparseCore.rows ((lstC n h).view.read (Elt F) (IDXV m d L)) rfl hin)) Finset.univ i = RF m d L ⟨n, h⟩ i :=
  gather_lands m d L 8 (by omega) hpre n h fd hin
theorem store_lands8 (n : ℕ) (h : n < 100) (f0 : Buf (Elt F) (oLoc d)) :
    ∀ i ∈ (oChC (widL L) n h).view.set, (oChC (widL L) n h).view.write (Elt F) f0
        ((ReadAs.same : ReadAs (Elt F) S64x128 .f32 S64x128 .f32).apply ((slotM8).view.read (Elt F) (RF m d L ⟨n, h⟩))) Finset.univ i
      = OUT m d i :=
  store_lands m d L 8 (by omega) n h f0

theorem gather_lands9 (hpre : Lookup.InRange (idx3 m d)) (n : ℕ) (h : n < 100) (fd : Buf (Elt F) ((thr d L).loc cc0_scratch1))
    (hin : ∀ x, ((lstC n h).view.read (Elt F) (IDXV m d L) x).toNat < S100000x128.size gathers_S100000x128_S64x128.axis) :
    ∀ i ∈ (slotM9).view.set, (slotM9).view.write (Elt F) fd
        (SparseCore.gatherPayload gathers_S100000x128_S64x128 ((xAllM).view.read (Elt F) (m (xLoc d)))
          (SparseCore.rows ((lstC n h).view.read (Elt F) (IDXV m d L)) rfl hin)) Finset.univ i = RF m d L ⟨n, h⟩ i :=
  gather_lands m d L 9 (by omega) hpre n h fd hin
theorem store_lands9 (n : ℕ) (h : n < 100) (f0 : Buf (Elt F) (oLoc d)) :
    ∀ i ∈ (oChC (widL L) n h).view.set, (oChC (widL L) n h).view.write (Elt F) f0
        ((ReadAs.same : ReadAs (Elt F) S64x128 .f32 S64x128 .f32).apply ((slotM9).view.read (Elt F) (RF m d L ⟨n, h⟩))) Finset.univ i
      = OUT m d i :=
  store_lands m d L 9 (by omega) n h f0

end Cert.Proof.KernelRun

end
-- ==== Proof.KTripLemmas.lean ====
/-
  Small transports used by every trip: a piece or a flight stated at one spelling of a chunk number serves at any
  equal one, and every row of the index scratch holds row numbers of the table.
-/
import proofs.«206297_g77653008712327_cont_9to1c4b_438_14_alg».proof.Proof.KInv
import proofs.«206297_g77653008712327_cont_9to1c4b_438_14_alg».proof.Proof.KValues

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x100x64 EltTy.i32)
local notation "xV" => (Memref.whole Cert.Kernel.main_arg1_scv : Memref Cert.Kernel.sig Kind.scVector Space.hbm Cert.Kernel.S100000x128 EltTy.f32)
local notation "oV" => (Memref.whole Cert.Kernel.main_v1_scv : Memref Cert.Kernel.sig Kind.scVector Space.hbm Cert.Kernel.S32x100x64x128 EltTy.f32)
local notation "sV" => (Memref.whole Cert.Kernel.cc0_scratch0 : Memref Cert.Kernel.sig Kind.scVector Space.vmem Cert.Kernel.S100x64 EltTy.i32)
local notation "rV" => (Memref.whole Cert.Kernel.cc0_scratch1 : Memref Cert.Kernel.sig Kind.scVector Space.vmem Cert.Kernel.S10x64x128 EltTy.f32)

variable (m : (ℓ : Loc nD τ sig) → Buf (Elt F) ℓ) [FloatOps F]
variable (d : Dev nD) (L : grid0.Coords)

theorem FG0_of (N N' : ℕ) (e : N = N') (h : N < 100) (h' : N' < 100) : FG0 m d L N h ⊢ FG0 m d L N' h' := by subst e; exact BI.Entails.refl _
theorem FS0_of (N N' : ℕ) (e : N = N') (h : N < 100) (h' : N' < 100) : FS0 m d L N h ⊢ FS0 m d L N' h' := by subst e; exact BI.Entails.refl _
theorem FG1_of (N N' : ℕ) (e : N = N') (h : N < 100) (h' : N' < 100) : FG1 m d L N h ⊢ FG1 m d L N' h' := by subst e; exact BI.Entails.refl _
theorem FS1_of (N N' : ℕ) (e : N = N') (h : N < 100) (h' : N' < 100) : FS1 m d L N h ⊢ FS1 m d L N' h' := by subst e; exact BI.Entails.refl _
theorem FG2_of (N N' : ℕ) (e : N = N') (h : N < 100) (h' : N' < 100) : FG2 m d L N h ⊢ FG2 m d L N' h' := by subst e; exact BI.Entails.refl _
theorem FS2_of (N N' : ℕ) (e : N = N') (h : N < 100) (h' : N' < 100) : FS2 m d L N h ⊢ FS2 m d L N' h' := by subst e; exact BI.Entails.refl _
theorem FG3_of (N N' : ℕ) (e : N = N') (h : N < 100) (h' : N' < 100) : FG3 m d L N h ⊢ FG3 m d L N' h' := by subst e; exact BI.Entails.refl _
theorem FS3_of (N N' : ℕ) (e : N = N') (h : N < 100) (h' : N' < 100) : FS3 m d L N h ⊢ FS3 m d L N' h' := by subst e; exact BI.Entails.refl _
theorem FG4_of (N N' : ℕ) (e : N = N') (h : N < 100) (h' : N' < 100) : FG4 m d L N h ⊢ FG4 m d L N' h' := by subst e; exact BI.Entails.refl _
theorem FS4_of (N N' : ℕ) (e : N = N') (h : N < 100) (h' : N' < 100) : FS4 m d L N h ⊢ FS4 m d L N' h' := by subst e; exact BI.Entails.refl _
theorem FG5_of (N N' : ℕ) (e : N = N') (h : N < 100) (h' : N' < 100) : FG5 m d L N h ⊢ FG5 m d L N' h' := by subst e; exact BI.Entails.refl _
theorem FS5_of (N N' : ℕ) (e : N = N') (h : N < 100) (h' : N' < 100) : FS5 m d L N h ⊢ FS5 m d L N' h' := by subst e; exact BI.Entails.refl _
theorem FG6_of (N N' : ℕ) (e : N = N') (h : N < 100) (h' : N' < 100) : FG6 m d L N h ⊢ FG6 m d L N' h' := by subst e; exact BI.Entails.refl _
theorem FS6_of (N N' : ℕ) (e : N = N') (h : N < 100) (h' : N' < 100) : FS6 m d L N h ⊢ FS6 m d L N' h' := by subst e; exact BI.Entails.refl _
theorem FG7_of (N N' : ℕ) (e : N = N') (h : N < 100) (h' : N' < 100) : FG7 m d L N h ⊢ FG7 m d L N' h' := by subst e; exact BI.Entails.refl _
theorem FS7_of (N N' : ℕ) (e : N = N') (h : N < 100) (h' : N' < 100) : FS7 m d L N h ⊢ FS7 m d L N' h' := by subst e; exact BI.Entails.refl _
theorem FG8_of (N N' : ℕ) (e : N = N') (h : N < 100) (h' : N' < 100) : FG8 m d L N h ⊢ FG8 m d L N' h' := by subst e; exact BI.Entails.refl _
theorem FS8_of (N N' : ℕ) (e : N = N') (h : N < 100) (h' : N' < 100) : FS8 m d L N h ⊢ FS8 m d L N' h' := by subst e; exact BI.Entails.refl _
theorem FG9_of (N N' : ℕ) (e : N = N') (h : N < 100) (h' : N' < 100) : FG9 m d L N h ⊢ FG9 m d L N' h' := by subst e; exact BI.Entails.refl _
theorem FS9_of (N N' : ℕ) (e : N = N') (h : N < 100) (h' : N' < 100) : FS9 m d L N h ⊢ FS9 m d L N' h' := by subst e; exact BI.Entails.refl _

theorem chP_of (w : Fin 32) (f : Buf (Elt F) (oLoc d)) (N N' : ℕ) (e : N = N') (h : N < 100) :
    ((oChC w N h).view.loc (thr d L) ↦[(oChC w N h).view.set]{fullShare} f : sProp 𝕄) ⊢ chP d L w f N' := by
  subst e; rw [chP_lt d L w f N h]
theorem lstP_of (q : PosShare TreeShare) (f : Buf (Elt F) ((thr d L).loc cc0_scratch0)) (N N' : ℕ) (e : N = N') (h : N < 100) :
    ((lstC N h).view.loc (thr d L) ↦[(lstC N h).view.set]{q} f : sProp 𝕄) ⊢ lstP d L q f N' := by
  subst e; rw [lstP_lt d L q f N h]
theorem chP_to (w : Fin 32) (f : Buf (Elt F) (oLoc d)) (N N' : ℕ) (e : N = N') (h' : N' < 100) :
    chP d L w f N ⊢ ((oChC w N' h').view.loc (thr d L) ↦[(oChC w N' h').view.set]{fullShare} f : sProp 𝕄) := by
  subst e; rw [chP_lt d L w f N h']
theorem lstP_to (q : PosShare TreeShare) (f : Buf (Elt F) ((thr d L).loc cc0_scratch0)) (N N' : ℕ) (e : N = N') (h' : N' < 100) :
    lstP d L q f N ⊢ ((lstC N' h').view.loc (thr d L) ↦[(lstC N' h').view.set]{q} f : sProp 𝕄) := by
  subst e; rw [lstP_lt d L q f N h']

/-- Every row of the index scratch, however the program names it, holds row numbers of the table. -/
theorem hin_all (hpre : Lookup.InRange (idx3 m d)) :
    ∀ (off : Fin 2 → Nat) (hoff : ∀ a, off a + S1x64.size a ≤ S100x64.size a) (hst) (x : S64.Idx),
      ((((sV).slice (Rect.unit (s := S100x64) off S1x64.size hoff) hst).squeeze S64 squeezes_S1x64_S64).view.read (Elt F) (IDXV m d L) x).toNat
        < S100000x128.size gathers_S100000x128_S64x128.axis := by
  intro off hoff hst x
  have h0 : off 0 + 1 ≤ 100 := hoff 0
  have h1 : off 1 + 64 ≤ 64 := hoff 1
  have e : off = ![off 0, 0] := by
    funext a; match a with
    | ⟨0, _⟩ => rfl
    | ⟨1, _⟩ => show off 1 = 0; omega
  obtain ⟨n, hn, rfl⟩ : ∃ n, n < 100 ∧ off = ![n, 0] := ⟨off 0, by omega, e⟩
  exact list_inb m d L hpre n hn x

omit [FloatOps F] in
theorem ins_ok {W : Waits sig (HIx 1)} {x : SemLoc sig × HIx 1} {S : Waits sig (HIx 1)}
    (h : ∀ p ∈ S, p ∈ W ∨ p.2 = none) (hx : x.2 = none := by rfl) : ∀ p ∈ insert x S, p ∈ W ∨ p.2 = none := by
  intro p hp
  rcases Finset.mem_insert.mp hp with hp | hp
  · exact .inr (hp ▸ hx)
  · exact h p hp

/-- A chunk piece named by any offsets equal to (w, n, 0, 0) is the canonical chunk piece. -/
theorem och_piece (w : Fin 32) (off : Fin 4 → Nat) (p : ∀ a, off a + S1x1x64x128.size a ≤ S32x100x64x128.size a) (n : ℕ) (hn : n < 100)
    (e : off = ![w.val, n, 0, 0]) (f : Buf (Elt F) (oLoc d)) :
    (((((oV).slice (Rect.unit (s := S32x100x64x128) off S1x1x64x128.size p) (fun _ => rfl)).squeeze S64x128 squeezes_S1x1x64x128_S64x128).view.loc (thr d L)
        ↦[(((oV).slice (Rect.unit (s := S32x100x64x128) off S1x1x64x128.size p) (fun _ => rfl)).squeeze S64x128 squeezes_S1x1x64x128_S64x128).view.set]{fullShare} f : sProp 𝕄)
      = ((oChC w n hn).view.loc (thr d L) ↦[(oChC w n hn).view.set]{fullShare} f)) := by
  subst e; rfl
/-- An index-scratch row named by any offsets equal to (n, 0) is the canonical row piece. -/
theorem lst_piece (off : Fin 2 → Nat) (p : ∀ a, off a + S1x64.size a ≤ S100x64.size a) (n : ℕ) (hn : n < 100)
    (e : off = ![n, 0]) (q : PosShare TreeShare) (f : Buf (Elt F) ((thr d L).loc cc0_scratch0)) :
    (((((sV).slice (Rect.unit (s := S100x64) off S1x64.size p) (fun _ => rfl)).squeeze S64 squeezes_S1x64_S64).view.loc (thr d L)
        ↦[(((sV).slice (Rect.unit (s := S100x64) off S1x64.size p) (fun _ => rfl)).squeeze S64 squeezes_S1x64_S64).view.set]{q} f : sProp 𝕄)
      = ((lstC n hn).view.loc (thr d L) ↦[(lstC n hn).view.set]{q} f)) := by
  subst e; rfl

theorem chP_K0 (f : Buf (Elt F) (oLoc d)) (k : Fin k0_t1_loop.trips) (hn : 10 * k.val + 0 < 100) :
    chP d L (widL L) f (10 * k.val) = ((oChK0 L k).view.loc (thr d L) ↦[(oChK0 L k).view.set]{fullShare} f : sProp 𝕄) :=
  (chP_lt d L (widL L) f (10 * k.val + 0) hn).trans (och_piece d L (widL L) (k0_off2 L k 0#32) (k0_off2_inb L k 0) (10 * k.val + 0) hn (k0_off2_eq L k 0) f).symm
theorem lstP_K0 (q : PosShare TreeShare) (f : Buf (Elt F) ((thr d L).loc cc0_scratch0)) (k : Fin k0_t1_loop.trips) (h : k0_cond1 k = 1#1) (hn : 10 * k.val + 9 < 100) :
    lstP d L q f (10 * k.val + 9) = ((lstK0 k h).view.loc (thr d L) ↦[(lstK0 k h).view.set]{q} f : sProp 𝕄) :=
  (lstP_lt d L q f (10 * k.val + 9) hn).trans (lst_piece d L (k0_off4 k) (k0_off4_inb k h) (10 * k.val + 9) hn (k0_off4_eq k) q f).symm
theorem chP_K1 (f : Buf (Elt F) (oLoc d)) (k : Fin k0_t1_loop.trips) (hn : 10 * k.val + 1 < 100) :
    chP d L (widL L) f (10 * k.val + 1) = ((oChK1 L k).view.loc (thr d L) ↦[(oChK1 L k).view.set]{fullShare} f : sProp 𝕄) :=
  (chP_lt d L (widL L) f (10 * k.val + 1) hn).trans (och_piece d L (widL L) (k0_off2 L k 1#32) (k0_off2_inb L k 1) (10 * k.val + 1) hn (k0_off2_eq L k 1) f).symm
theorem lstP_K1 (q : PosShare TreeShare) (f : Buf (Elt F) ((thr d L).loc cc0_scratch0)) (k : Fin k0_t1_loop.trips) (h : k0_cond2 k = 1#1) (hn : 10 * k.val + 10 < 100) :
    lstP d L q f (10 * k.val + 9 + 1) = ((lstK1 k h).view.loc (thr d L) ↦[(lstK1 k h).view.set]{q} f : sProp 𝕄) :=
  (lstP_lt d L q f (10 * k.val + 10) hn).trans (lst_piece d L (k0_off6 k) (k0_off6_inb k h) (10 * k.val + 10) hn (k0_off6_eq k) q f).symm
theorem chP_K2 (f : Buf (Elt F) (oLoc d)) (k : Fin k0_t1_loop.trips) (hn : 10 * k.val + 2 < 100) :
    chP d L (widL L) f (10 * k.val + 2) = ((oChK2 L k).view.loc (thr d L) ↦[(oChK2 L k).view.set]{fullShare} f : sProp 𝕄) :=
  (chP_lt d L (widL L) f (10 * k.val + 2) hn).trans (och_piece d L (widL L) (k0_off2 L k 2#32) (k0_off2_inb L k 2) (10 * k.val + 2) hn (k0_off2_eq L k 2) f).symm
theorem lstP_K2 (q : PosShare TreeShare) (f : Buf (Elt F) ((thr d L).loc cc0_scratch0)) (k : Fin k0_t1_loop.trips) (h : k0_cond3 k = 1#1) (hn : 10 * k.val + 11 < 100) :
    lstP d L q f (10 * k.val + 9 + 2) = ((lstK2 k h).view.loc (thr d L) ↦[(lstK2 k h).view.set]{q} f : sProp 𝕄) :=
  (lstP_lt d L q f (10 * k.val + 11) hn).trans (lst_piece d L (k0_off8 k) (k0_off8_inb k h) (10 * k.val + 11) hn (k0_off8_eq k) q f).symm
theorem chP_K3 (f : Buf (Elt F) (oLoc d)) (k : Fin k0_t1_loop.trips) (hn : 10 * k.val + 3 < 100) :
    chP d L (widL L) f (10 * k.val + 3) = ((oChK3 L k).view.loc (thr d L) ↦[(oChK3 L k).view.set]{fullShare} f : sProp 𝕄) :=
  (chP_lt d L (widL L) f (10 * k.val + 3) hn).trans (och_piece d L (widL L) (k0_off2 L k 3#32) (k0_off2_inb L k 3) (10 * k.val + 3) hn (k0_off2_eq L k 3) f).symm
theorem lstP_K3 (q : PosShare TreeShare) (f : Buf (Elt F) ((thr d L).loc cc0_scratch0)) (k : Fin k0_t1_loop.trips) (h : k0_cond4 k = 1#1) (hn : 10 * k.val + 12 < 100) :
    lstP d L q f (10 * k.val + 9 + 3) = ((lstK3 k h).view.loc (thr d L) ↦[(lstK3 k h).view.set]{q} f : sProp 𝕄) :=
  (lstP_lt d L q f (10 * k.val + 12) hn).trans (lst_piece d L (k0_off10 k) (k0_off10_inb k h) (10 * k.val + 12) hn (k0_off10_eq k) q f).symm
theorem chP_K4 (f : Buf (Elt F) (oLoc d)) (k : Fin k0_t1_loop.trips) (hn : 10 * k.val + 4 < 100) :
    chP d L (widL L) f (10 * k.val + 4) = ((oChK4 L k).view.loc (thr d L) ↦[(oChK4 L k).view.set]{fullShare} f : sProp 𝕄) :=
  (chP_lt d L (widL L) f (10 * k.val + 4) hn).trans (och_piece d L (widL L) (k0_off2 L k 4#32) (k0_off2_inb L k 4) (10 * k.val + 4) hn (k0_off2_eq L k 4) f).symm
theorem lstP_K4 (q : PosShare TreeShare) (f : Buf (Elt F) ((thr d L).loc cc0_scratch0)) (k : Fin k0_t1_loop.trips) (h : k0_cond5 k = 1#1) (hn : 10 * k.val + 13 < 100) :
    lstP d L q f (10 * k.val + 9 + 4) = ((lstK4 k h).view.loc (thr d L) ↦[(lstK4 k h).view.set]{q} f : sProp 𝕄) :=
  (lstP_lt d L q f (10 * k.val + 13) hn).trans (lst_piece d L (k0_off12 k) (k0_off12_inb k h) (10 * k.val + 13) hn (k0_off12_eq k) q f).symm
theorem chP_K5 (f : Buf (Elt F) (oLoc d)) (k : Fin k0_t1_loop.trips) (hn : 10 * k.val + 5 < 100) :
    chP d L (widL L) f (10 * k.val + 5) = ((oChK5 L k).view.loc (thr d L) ↦[(oChK5 L k).view.set]{fullShare} f : sProp 𝕄) :=
  (chP_lt d L (widL L) f (10 * k.val + 5) hn).trans (och_piece d L (widL L) (k0_off2 L k 5#32) (k0_off2_inb L k 5) (10 * k.val + 5) hn (k0_off2_eq L k 5) f).symm
theorem lstP_K5 (q : PosShare TreeShare) (f : Buf (Elt F) ((thr d L).loc cc0_scratch0)) (k : Fin k0_t1_loop.trips) (h : k0_cond6 k = 1#1) (hn : 10 * k.val + 14 < 100) :
    lstP d L q f (10 * k.val + 9 + 5) = ((lstK5 k h).view.loc (thr d L) ↦[(lstK5 k h).view.set]{q} f : sProp 𝕄) :=
  (lstP_lt d L q f (10 * k.val + 14) hn).trans (lst_piece d L (k0_off14 k) (k0_off14_inb k h) (10 * k.val + 14) hn (k0_off14_eq k) q f).symm
theorem chP_K6 (f : Buf (Elt F) (oLoc d)) (k : Fin k0_t1_loop.trips) (hn : 10 * k.val + 6 < 100) :
    chP d L (widL L) f (10 * k.val + 6) = ((oChK6 L k).view.loc (thr d L) ↦[(oChK6 L k).view.set]{fullShare} f : sProp 𝕄) :=
  (chP_lt d L (widL L) f (10 * k.val + 6) hn).trans (och_piece d L (widL L) (k0_off2 L k 6#32) (k0_off2_inb L k 6) (10 * k.val + 6) hn (k0_off2_eq L k 6) f).symm
theorem lstP_K6 (q : PosShare TreeShare) (f : Buf (Elt F) ((thr d L).loc cc0_scratch0)) (k : Fin k0_t1_loop.trips) (h : k0_cond7 k = 1#1) (hn : 10 * k.val + 15 < 100) :
    lstP d L q f (10 * k.val + 9 + 6) = ((lstK6 k h).view.loc (thr d L) ↦[(lstK6 k h).view.set]{q} f : sProp 𝕄) :=
  (lstP_lt d L q f (10 * k.val + 15) hn).trans (lst_piece d L (k0_off16 k) (k0_off16_inb k h) (10 * k.val + 15) hn (k0_off16_eq k) q f).symm
theorem chP_K7 (f : Buf (Elt F) (oLoc d)) (k : Fin k0_t1_loop.trips) (hn : 10 * k.val + 7 < 100) :
    chP d L (widL L) f (10 * k.val + 7) = ((oChK7 L k).view.loc (thr d L) ↦[(oChK7 L k).view.set]{fullShare} f : sProp 𝕄) :=
  (chP_lt d L (widL L) f (10 * k.val + 7) hn).trans (och_piece d L (widL L) (k0_off2 L k 7#32) (k0_off2_inb L k 7) (10 * k.val + 7) hn (k0_off2_eq L k 7) f).symm
theorem lstP_K7 (q : PosShare TreeShare) (f : Buf (Elt F) ((thr d L).loc cc0_scratch0)) (k : Fin k0_t1_loop.trips) (h : k0_cond8 k = 1#1) (hn : 10 * k.val + 16 < 100) :
    lstP d L q f (10 * k.val + 9 + 7) = ((lstK7 k h).view.loc (thr d L) ↦[(lstK7 k h).view.set]{q} f : sProp 𝕄) :=
  (lstP_lt d L q f (10 * k.val + 16) hn).trans (lst_piece d L (k0_off18 k) (k0_off18_inb k h) (10 * k.val + 16) hn (k0_off18_eq k) q f).symm
theorem chP_K8 (f : Buf (Elt F) (oLoc d)) (k : Fin k0_t1_loop.trips) (hn : 10 * k.val + 8 < 100) :
    chP d L (widL L) f (10 * k.val + 8) = ((oChK8 L k).view.loc (thr d L) ↦[(oChK8 L k).view.set]{fullShare} f : sProp 𝕄) :=
  (chP_lt d L (widL L) f (10 * k.val + 8) hn).trans (och_piece d L (widL L) (k0_off2 L k 8#32) (k0_off2_inb L k 8) (10 * k.val + 8) hn (k0_off2_eq L k 8) f).symm
theorem lstP_K8 (q : PosShare TreeShare) (f : Buf (Elt F) ((thr d L).loc cc0_scratch0)) (k : Fin k0_t1_loop.trips) (h : k0_cond9 k = 1#1) (hn : 10 * k.val + 17 < 100) :
    lstP d L q f (10 * k.val + 9 + 8) = ((lstK8 k h).view.loc (thr d L) ↦[(lstK8 k h).view.set]{q} f : sProp 𝕄) :=
  (lstP_lt d L q f (10 * k.val + 17) hn).trans (lst_piece d L (k0_off20 k) (k0_off20_inb k h) (10 * k.val + 17) hn (k0_off20_eq k) q f).symm
theorem chP_K9 (f : Buf (Elt F) (oLoc d)) (k : Fin k0_t1_loop.trips) (hn : 10 * k.val + 9 < 100) :
    chP d L (widL L) f (10 * k.val + 9) = ((oChK9 L k).view.loc (thr d L) ↦[(oChK9 L k).view.set]{fullShare} f : sProp 𝕄) :=
  (chP_lt d L (widL L) f (10 * k.val + 9) hn).trans (och_piece d L (widL L) (k0_off2 L k 9#32) (k0_off2_inb L k 9) (10 * k.val + 9) hn (k0_off2_eq L k 9) f).symm
theorem lstP_K9 (q : PosShare TreeShare) (f : Buf (Elt F) ((thr d L).loc cc0_scratch0)) (k : Fin k0_t1_loop.trips) (h : k0_cond10 k = 1#1) (hn : 10 * k.val + 18 < 100) :
    lstP d L q f (10 * k.val + 9 + 9) = ((lstK9 k h).view.loc (thr d L) ↦[(lstK9 k h).view.set]{q} f : sProp 𝕄) :=
  (lstP_lt d L q f (10 * k.val + 18) hn).trans (lst_piece d L (k0_off22 k) (k0_off22_inb k h) (10 * k.val + 18) hn (k0_off22_eq k) q f).symm

end Cert.Proof.KernelRun

end
-- ==== Proof.KConv.lean ====
/-
  From what a run of the worker's transfers leaves to the form the loop's invariant states.

  A transfer's landing is recorded as one listed write through the destination at its whole rectangle, which is the
  plain write of the payload on every index. So a gather's landing in a slot is, on the slot's elements, the rows
  its list names; a copy-out's landing in a chunk of the worker's block is, on the chunk's elements, the lookup's
  value, whatever the slot held elsewhere. A transfer in flight that delivers the one delivers the other.
-/
import proofs.«206297_g77653008712327_cont_9to1c4b_438_14_alg».proof.Proof.KValues
import Idealize.ShloMosaic.Lib.Writes
import Idealize.ShloMosaic.Lib.WordExact
import Idealize.ShloMosaic.Lib.Transfers

noncomputable section

namespace Cert.Proof.KernelRun

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x100x64 EltTy.i32)
local notation "xV" => (Memref.whole Cert.Kernel.main_arg1_scv : Memref Cert.Kernel.sig Kind.scVector Space.hbm Cert.Kernel.S100000x128 EltTy.f32)
local notation "oV" => (Memref.whole Cert.Kernel.main_v1_scv : Memref Cert.Kernel.sig Kind.scVector Space.hbm Cert.Kernel.S32x100x64x128 EltTy.f32)
local notation "sV" => (Memref.whole Cert.Kernel.cc0_scratch0 : Memref Cert.Kernel.sig Kind.scVector Space.vmem Cert.Kernel.S100x64 EltTy.i32)
local notation "rV" => (Memref.whole Cert.Kernel.cc0_scratch1 : Memref Cert.Kernel.sig Kind.scVector Space.vmem Cert.Kernel.S10x64x128 EltTy.f32)

/-! ## One listed write at the whole rectangle is the plain write -/

section Whole

variable {sig₀ : RefSig} {κ : Kind} {sp : Space} {s : Shape} {e : EltTy} {Val : EltTy → Type}

/-- Writing a payload through a view at its whole rectangle writes it on every index of the view. -/
theorem kc_writes_whole_eq_write (v : View sig₀ κ sp s e) (f : v.ty.Contents Val) (pay : s.Idx → Val e) :
    v.writes Val f [⟨Rect.whole s, pay⟩] = v.write Val f pay Finset.univ := by
  rw [View.writes_singleton]
  funext i
  by_cases hi : i ∈ v.setOn Finset.univ
  · obtain ⟨y, -, rfl⟩ := Finset.mem_map.mp hi
    have e1 : v.emb y = (v.slice (Rect.whole s)).emb y := by
      show v.emb y = v.emb ((Rect.whole s).emb y)
      rw [Rect.emb_whole_apply]
    rw [View.write_emb_of_mem _ _ (Finset.mem_univ y)]
    conv_lhs => rw [e1]
    rw [View.write_emb_of_mem _ _ (Finset.mem_univ y)]
  · have hi' : i ∉ (v.slice (Rect.whole s)).setOn Finset.univ := by
      rw [View.setOn_univ, View.set_slice_rectWhole, ← View.setOn_univ]; exact hi
    rw [View.write_of_not_mem _ _ _ hi, View.write_of_not_mem _ _ _ hi']

end Whole

variable (m : (ℓ : Loc nD τ sig) → Buf (Elt F) ℓ)
variable (d : Dev nD) (L : grid0.Coords)

/-! ## A row of the index scratch and a chunk of the output, by their offsets -/

/-- The row of the index scratch at offsets off. -/
abbrev lstAt (off : Fin 2 → ℕ) (inb : ∀ a, off a + S1x64.size a ≤ S100x64.size a) : Memref sig .scVector .vmem S64 .i32 :=
  ((sV).slice (Rect.unit (s := S100x64) off S1x64.size inb) (fun _ => rfl)).squeeze S64 squeezes_S1x64_S64
/-- The chunk of the output at offsets off. -/
abbrev oChAt (off : Fin 4 → ℕ) (inb : ∀ a, off a + S1x1x64x128.size a ≤ S32x100x64x128.size a) : Memref sig .scVector .hbm S64x128 .f32 :=
  ((oV).slice (Rect.unit (s := S32x100x64x128) off S1x1x64x128.size inb) (fun _ => rfl)).squeeze S64x128 squeezes_S1x1x64x128_S64x128

/-! ## A gather's landing in a slot -/

/-- What a gather by row n of the index scratch leaves in slot b, on the slot's elements: the rows its words name. -/
theorem slot_after (b : ℕ) (hb : b < 10) (hpre : Lookup.InRange (idx3 m d)) (n : ℕ) (h : n < 100)
    (off : Fin 2 → ℕ) (inb : ∀ a, off a + S1x64.size a ≤ S100x64.size a) (hoff : off = ![n, 0])
    (fd : Buf (Elt F) ((thr d L).loc cc0_scratch1)) (pay : S64x128.Idx → Elt F .f32)
    (hin : ∀ x, ((lstAt off inb).view.read (Elt F) (IDXV m d L) x).toNat < S100000x128.size gathers_S100000x128_S64x128.axis)
    (hpay : pay = SparseCore.gatherPayload gathers_S100000x128_S64x128 ((xAllM).view.read (Elt F) (m (xLoc d)))
      (SparseCore.rows ((lstAt off inb).view.read (Elt F) (IDXV m d L)) rfl hin)) :
    ∀ i ∈ (slotC b hb).view.set, (slotC b hb).view.writes (Elt F) fd [⟨Rect.whole S64x128, pay⟩] i = RF m d L ⟨n, h⟩ i := by
  subst hoff; subst hpay
  intro i hi
  rw [kc_writes_whole_eq_write]
  exact gather_lands m d L b hb hpre n h fd hin i hi

/-- The slot, held at what the gather left, is held at the rows of chunk n. -/
theorem slot_canon (b : ℕ) (hb : b < 10) (hpre : Lookup.InRange (idx3 m d)) (n : ℕ) (h : n < 100)
    (off : Fin 2 → ℕ) (inb : ∀ a, off a + S1x64.size a ≤ S100x64.size a) (hoff : off = ![n, 0])
    (fd : Buf (Elt F) ((thr d L).loc cc0_scratch1)) (pay : S64x128.Idx → Elt F .f32)
    (hin : ∀ x, ((lstAt off inb).view.read (Elt F) (IDXV m d L) x).toNat < S100000x128.size gathers_S100000x128_S64x128.axis)
    (hpay : pay = SparseCore.gatherPayload gathers_S100000x128_S64x128 ((xAllM).view.read (Elt F) (m (xLoc d)))
      (SparseCore.rows ((lstAt off inb).view.read (Elt F) (IDXV m d L)) rfl hin)) :
    (((slotC b hb).view.loc (thr d L) ↦[(slotC b hb).view.set]{fullShare} (slotC b hb).view.writes (Elt F) fd [⟨Rect.whole S64x128, pay⟩]) : sProp 𝕄)
      = ((slotC b hb).view.loc (thr d L) ↦[(slotC b hb).view.set]{fullShare} RF m d L ⟨n, h⟩) :=
  pointsTo_congr (slot_after m d L b hb hpre n h off inb hoff fd pay hin hpay)

/-- A gather in flight that delivers its landing delivers the slot at the rows of chunk n, the list's row and the share of
    the table back. -/
theorem gather_canon (b : ℕ) (hb : b < 10) (hpre : Lookup.InRange (idx3 m d)) (n : ℕ) (h : n < 100)
    (off : Fin 2 → ℕ) (inb : ∀ a, off a + S1x64.size a ≤ S100x64.size a) (hoff : off = ![n, 0])
    (fd : Buf (Elt F) ((thr d L).loc cc0_scratch1)) (pay : S64x128.Idx → Elt F .f32)
    (hin : ∀ x, ((lstAt off inb).view.read (Elt F) (IDXV m d L) x).toNat < S100000x128.size gathers_S100000x128_S64x128.axis)
    (hpay : pay = SparseCore.gatherPayload gathers_S100000x128_S64x128 ((xAllM).view.read (Elt F) (m (xLoc d)))
      (SparseCore.rows ((lstAt off inb).view.read (Elt F) (IDXV m d L)) rfl hin))
    (q : PosShare TreeShare) (sm : SemLoc sig) (N : ℕ) :
    (Transfers.Flight countersEmb (thr d L) sm (default : HIx 1) N
        iprop((((slotC b hb).view.loc (thr d L) ↦[(slotC b hb).view.set]{fullShare} (slotC b hb).view.writes (Elt F) fd [⟨Rect.whole S64x128, pay⟩])
            ∗ ((lstAt off inb).view.loc (thr d L) ↦[(lstAt off inb).view.set]{fullShare} IDXV m d L))
          ∗ ((xAllM).view.loc (thr d L) ↦[(xAllM).view.set]{q} m (xLoc d))) : sProp 𝕄)
      ⊢ Transfers.Flight countersEmb (thr d L) sm (default : HIx 1) N
        iprop((((slotC b hb).view.loc (thr d L) ↦[(slotC b hb).view.set]{fullShare} RF m d L ⟨n, h⟩)
            ∗ ((lstC n h).view.loc (thr d L) ↦[(lstC n h).view.set]{fullShare} IDXV m d L))
          ∗ ((xAllM).view.loc (thr d L) ↦[(xAllM).view.set]{q} m (xLoc d))) := by
  refine Transfers.Flight_mono countersEmb (thr d L) ?_
  rw [slot_canon m d L b hb hpre n h off inb hoff fd pay hin hpay]
  subst hoff
  exact BI.Entails.refl _

/-! ## A copy-out's landing in a chunk of the block -/

/-- The chunk, held at what the copy-out of a slot left, is held at the lookup's value: the slot need only hold the rows
    of chunk n on its own elements. -/
theorem chunk_canon (b : ℕ) (hb : b < 10) (n : ℕ) (h : n < 100)
    (off : Fin 4 → ℕ) (inb : ∀ a, off a + S1x1x64x128.size a ≤ S32x100x64x128.size a) (hoff : off = ![(widL L).val, n, 0, 0])
    (f0 : Buf (Elt F) (oLoc d)) (fsl : Buf (Elt F) ((thr d L).loc cc0_scratch1))
    (hsl : ∀ i ∈ (slotC b hb).view.set, fsl i = RF m d L ⟨n, h⟩ i) (pay : S64x128.Idx → Elt F .f32)
    (hpay : pay = (ReadAs.same : ReadAs (Elt F) S64x128 .f32 S64x128 .f32).apply ((slotC b hb).view.read (Elt F) fsl)) :
    (((oChAt off inb).view.loc (thr d L) ↦[(oChAt off inb).view.set]{fullShare} (oChAt off inb).view.writes (Elt F) f0 [⟨Rect.whole S64x128, pay⟩]) : sProp 𝕄)
      = ((oChC (widL L) n h).view.loc (thr d L) ↦[(oChC (widL L) n h).view.set]{fullShare} OUT m d) := by
  subst hoff; subst hpay
  refine pointsTo_congr fun i hi => ?_
  rw [kc_writes_whole_eq_write, View.read_congr hsl]
  exact store_lands m d L b hb n h f0 i hi

/-- A copy-out in flight that delivers its landing delivers the chunk at the lookup's value and the slot back at the rows
    of chunk n. -/
theorem store_canon (b : ℕ) (hb : b < 10) (n : ℕ) (h : n < 100)
    (off : Fin 4 → ℕ) (inb : ∀ a, off a + S1x1x64x128.size a ≤ S32x100x64x128.size a) (hoff : off = ![(widL L).val, n, 0, 0])
    (f0 : Buf (Elt F) (oLoc d)) (fsl : Buf (Elt F) ((thr d L).loc cc0_scratch1))
    (hsl : ∀ i ∈ (slotC b hb).view.set, fsl i = RF m d L ⟨n, h⟩ i) (pay : S64x128.Idx → Elt F .f32)
    (hpay : pay = (ReadAs.same : ReadAs (Elt F) S64x128 .f32 S64x128 .f32).apply ((slotC b hb).view.read (Elt F) fsl))
    (sm : SemLoc sig) (N : ℕ) :
    (Transfers.Flight countersEmb (thr d L) sm (default : HIx 1) N
        iprop(((oChAt off inb).view.loc (thr d L) ↦[(oChAt off inb).view.set]{fullShare} (oChAt off inb).view.writes (Elt F) f0 [⟨Rect.whole S64x128, pay⟩])
          ∗ ((slotC b hb).view.loc (thr d L) ↦[(slotC b hb).view.set]{fullShare} fsl)) : sProp 𝕄)
      ⊢ Transfers.Flight countersEmb (thr d L) sm (default : HIx 1) N
        iprop(((oChC (widL L) n h).view.loc (thr d L) ↦[(oChC (widL L) n h).view.set]{fullShare} OUT m d)
          ∗ ((slotC b hb).view.loc (thr d L) ↦[(slotC b hb).view.set]{fullShare} RF m d L ⟨n, h⟩)) := by
  refine Transfers.Flight_mono countersEmb (thr d L) ?_
  rw [chunk_canon m d L b hb n h off inb hoff f0 fsl hsl pay hpay,
    pointsTo_congr (ℓ := (slotC b hb).view.loc (thr d L)) (q := fullShare) hsl]

end Cert.Proof.KernelRun

end
-- ==== Proof.KOpen.lean ====
/-
  A subcore's resources, opened into the pieces its task runs on, and closed again.

  The launch hands subcore w its row of the reshaped row numbers, a share of the whole table, and block w of the
  output; the subcore also owns its two scratch buffers. The task works on finer pieces: the table's share as what
  remains after ten read tokens are split off, one per gather cell; the block as its hundred chunks; the row scratch
  as its ten slots. Each of these is an equation (or a two-way entailment) between points-tos, so the resources open
  into the pieces and, at the end, the pieces close back: the row and the table's share as they were, the block with
  every chunk filled in, and the two scratch buffers at whatever they then hold.
-/
import proofs.«206297_g77653008712327_cont_9to1c4b_438_14_alg».proof.Proof.KInv

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x100x64 EltTy.i32)
local notation "xV" => (Memref.whole Cert.Kernel.main_arg1_scv : Memref Cert.Kernel.sig Kind.scVector Space.hbm Cert.Kernel.S100000x128 EltTy.f32)
local notation "oV" => (Memref.whole Cert.Kernel.main_v1_scv : Memref Cert.Kernel.sig Kind.scVector Space.hbm Cert.Kernel.S32x100x64x128 EltTy.f32)
local notation "sV" => (Memref.whole Cert.Kernel.cc0_scratch0 : Memref Cert.Kernel.sig Kind.scVector Space.vmem Cert.Kernel.S100x64 EltTy.i32)
local notation "rV" => (Memref.whole Cert.Kernel.cc0_scratch1 : Memref Cert.Kernel.sig Kind.scVector Space.vmem Cert.Kernel.S10x64x128 EltTy.f32)

variable (m : (ℓ : Loc nD τ sig) → Buf (Elt F) ℓ) [FloatOps F]

variable (d : Dev nD) (L : grid0.Coords)

/-! ## The subcore's row of the row numbers -/

omit m [FloatOps F] d in
/-- The row the program slices at its computed offset is part widL L of the 32 parts. -/
theorem irowK_eq : irowK L = irow (widL L) := by
  unfold irowK irow Rect.part Rect.block
  congr 1 <;> funext a
  · rw [k0_off1_eq]
    match a with
    | 0 => simp [Shape.partIx, Shape.partSize, widL]
    | 1 => simp [Shape.partIx, Shape.partSize]
    | 2 => simp [Shape.partIx, Shape.partSize]
  · match a with
    | 0 => simp [Shape.partSize]
    | 1 => simp [Shape.partSize]
    | 2 => simp [Shape.partSize]

omit m [FloatOps F] d in
theorem set_iRowK : (iRowK L).view.set = iRowSet (widL L) := by
  show (((iV).view.slice (irowK L)).reshape S100x64 squeezes_S1x100x64_S100x64.numel_eq).set = ((iV).view.slice (irow (widL L))).set
  rw [View.set_reshape]
  exact irowK_eq L ▸ rfl

omit m [FloatOps F] in
theorem pts_iRowK (f : Buf (Elt F) (iLoc d)) :
    ((iRowK L).view.loc (thr d L) ↦[(iRowK L).view.set]{fullShare} f : sProp 𝕄) = iLoc d ↦[iRowSet (widL L)]{fullShare} f := by
  rw [set_iRowK]

/-! ## The table's share: what remains and ten read tokens -/

omit [FloatOps F] in
/-- The table as a gather on cell b names it is the whole table at that cell's token. -/
theorem tokx_eq (b : Fin 10) :
    tokx m d L b = (xLoc d ↦{Transfers.shareTok (xq (widL L)) 10 b} m (xLoc d) : sProp 𝕄) := by
  unfold tokx; rw [set_xAll]

omit [FloatOps F] in
theorem x_open :
    xShPts m d (widL L) ⊢ iprop((xLoc d ↦{Transfers.shareDrop (xq (widL L)) 10} m (xLoc d)) ∗ tokx m d L 0 ∗ tokx m d L 1 ∗ tokx m d L 2 ∗ tokx m d L 3 ∗ tokx m d L 4 ∗ tokx m d L 5 ∗ tokx m d L 6 ∗ tokx m d L 7 ∗ tokx m d L 8 ∗ tokx m d L 9) := by
  simp only [tokx_eq]
  have h : (xLoc d ↦{xq (widL L)} m (xLoc d) : sProp 𝕄)
      ⊢ iprop((xLoc d ↦{Transfers.shareDrop (xq (widL L)) 10} m (xLoc d))
          ∗ bigSep Finset.univ (fun i : Fin 10 => (xLoc d ↦{Transfers.shareTok (xq (widL L)) 10 i} m (xLoc d) : sProp 𝕄))) :=
    Transfers.pointsTo_toks_split (xq (widL L)) 10
  rw [bigSep_fin10] at h
  exact h

omit [FloatOps F] in
theorem x_close :
    iprop((xLoc d ↦{Transfers.shareDrop (xq (widL L)) 10} m (xLoc d)) ∗ tokx m d L 0 ∗ tokx m d L 1 ∗ tokx m d L 2 ∗ tokx m d L 3 ∗ tokx m d L 4 ∗ tokx m d L 5 ∗ tokx m d L 6 ∗ tokx m d L 7 ∗ tokx m d L 8 ∗ tokx m d L 9) ⊢ xShPts m d (widL L) := by
  simp only [tokx_eq]
  have h : iprop((xLoc d ↦{Transfers.shareDrop (xq (widL L)) 10} m (xLoc d))
          ∗ bigSep Finset.univ (fun i : Fin 10 => (xLoc d ↦{Transfers.shareTok (xq (widL L)) 10 i} m (xLoc d) : sProp 𝕄)))
      ⊢ (xLoc d ↦{xq (widL L)} m (xLoc d) : sProp 𝕄) :=
    Transfers.pointsTo_toks_join (xq (widL L)) 10
  rw [bigSep_fin10] at h
  exact h

/-! ## The subcore's resources, opened into the pieces the task runs on, and closed again -/

/-- What the subcore is handed, with its two scratch buffers, is: its row of the row numbers; the table's share as
    what remains and ten read tokens; its block as a hundred chunks; the index scratch; the row scratch as ten slots. -/
theorem open_res (fs : Buf (Elt F) ((thr d L).loc cc0_scratch0)) (fr : Buf (Elt F) ((thr d L).loc cc0_scratch1)) :
    iprop(goW m d (widL L) ∗ ((thr d L).loc cc0_scratch0 ↦{fullShare} fs) ∗ ((thr d L).loc cc0_scratch1 ↦{fullShare} fr))
      ⊢ iprop(((iRowK L).view.loc (thr d L) ↦[(iRowK L).view.set]{fullShare} idx3 m d)
          ∗ (xLoc d ↦{Transfers.shareDrop (xq (widL L)) 10} m (xLoc d))
          ∗ tokx m d L 0 ∗ tokx m d L 1 ∗ tokx m d L 2 ∗ tokx m d L 3 ∗ tokx m d L 4 ∗ tokx m d L 5 ∗ tokx m d L 6 ∗ tokx m d L 7 ∗ tokx m d L 8 ∗ tokx m d L 9
          ∗ bigSep (Finset.Ico 0 100) (chP d L (widL L) (m (oLoc d)))
          ∗ ((sV).view.loc (thr d L) ↦{fullShare} fs)
          ∗ ((slotM0).view.loc (thr d L) ↦[(slotM0).view.set]{fullShare} fr)
          ∗ ((slotM1).view.loc (thr d L) ↦[(slotM1).view.set]{fullShare} fr)
          ∗ ((slotM2).view.loc (thr d L) ↦[(slotM2).view.set]{fullShare} fr)
          ∗ ((slotM3).view.loc (thr d L) ↦[(slotM3).view.set]{fullShare} fr)
          ∗ ((slotM4).view.loc (thr d L) ↦[(slotM4).view.set]{fullShare} fr)
          ∗ ((slotM5).view.loc (thr d L) ↦[(slotM5).view.set]{fullShare} fr)
          ∗ ((slotM6).view.loc (thr d L) ↦[(slotM6).view.set]{fullShare} fr)
          ∗ ((slotM7).view.loc (thr d L) ↦[(slotM7).view.set]{fullShare} fr)
          ∗ ((slotM8).view.loc (thr d L) ↦[(slotM8).view.set]{fullShare} fr)
          ∗ ((slotM9).view.loc (thr d L) ↦[(slotM9).view.set]{fullShare} fr)) := by
  unfold goW
  iintro ⟨⟨Hi, Hx, Ho⟩, Hs, Hr⟩
  ihave Hi' := (Entails.of_eq (pts_iRowK d L (idx3 m d)).symm) $$ Hi
  ihave Hx' := (x_open m d L) $$ Hx
  ihave Ho' := (Entails.of_eq ((oPts_chunks d L (widL L) (m (oLoc d))).trans (bigSep_range_eq_Ico _ _))) $$ Ho
  ihave Hr' := (Entails.of_eq (rPts_slots d L fr)) $$ Hr
  icases Hx' with ⟨Hd, T0, T1, T2, T3, T4, T5, T6, T7, T8, T9⟩
  icases Hr' with ⟨R0, R1, R2, R3, R4, R5, R6, R7, R8, R9⟩
  isplitl [Hi']; · iexact Hi'
  isplitl [Hd]; · iexact Hd
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [T9]; · iexact T9
  isplitl [Ho']; · iexact Ho'
  isplitl [Hs]; · iexact Hs
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact R9

/-- The way back for what the launch handed over: the row, the table's share rejoined, the block's chunks filled in. -/
theorem close_res :
    iprop(((iRowK L).view.loc (thr d L) ↦[(iRowK L).view.set]{fullShare} idx3 m d)
        ∗ (xLoc d ↦{Transfers.shareDrop (xq (widL L)) 10} m (xLoc d))
        ∗ tokx m d L 0 ∗ tokx m d L 1 ∗ tokx m d L 2 ∗ tokx m d L 3 ∗ tokx m d L 4 ∗ tokx m d L 5 ∗ tokx m d L 6 ∗ tokx m d L 7 ∗ tokx m d L 8 ∗ tokx m d L 9
        ∗ bigSep (Finset.range 100) (chP d L (widL L) (OUT m d)))
      ⊢ tdW m d (widL L) := by
  unfold tdW
  iintro ⟨Hi, Hd, T0, T1, T2, T3, T4, T5, T6, T7, T8, T9, Ho⟩
  isplitl [Hi]
  · iapply (Entails.of_eq (pts_iRowK d L (idx3 m d))); iexact Hi
  isplitr [Ho]
  · iapply (x_close m d L)
    isplitl [Hd]; · iexact Hd
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    iexact T9
  · iapply (Entails.of_eq (oPts_chunks d L (widL L) (OUT m d)).symm); iexact Ho

/-- The ten slots, whatever each holds, are the row scratch at some contents. -/
theorem slots_join (g : Fin 10 → Buf (Elt F) ((thr d L).loc cc0_scratch1)) :
    iprop(((slotM0).view.loc (thr d L) ↦[(slotM0).view.set]{fullShare} g 0)
          ∗ ((slotM1).view.loc (thr d L) ↦[(slotM1).view.set]{fullShare} g 1)
          ∗ ((slotM2).view.loc (thr d L) ↦[(slotM2).view.set]{fullShare} g 2)
          ∗ ((slotM3).view.loc (thr d L) ↦[(slotM3).view.set]{fullShare} g 3)
          ∗ ((slotM4).view.loc (thr d L) ↦[(slotM4).view.set]{fullShare} g 4)
          ∗ ((slotM5).view.loc (thr d L) ↦[(slotM5).view.set]{fullShare} g 5)
          ∗ ((slotM6).view.loc (thr d L) ↦[(slotM6).view.set]{fullShare} g 6)
          ∗ ((slotM7).view.loc (thr d L) ↦[(slotM7).view.set]{fullShare} g 7)
          ∗ ((slotM8).view.loc (thr d L) ↦[(slotM8).view.set]{fullShare} g 8)
          ∗ ((slotM9).view.loc (thr d L) ↦[(slotM9).view.set]{fullShare} g 9))
      ⊢ (iprop(∃ f, (thr d L).loc cc0_scratch1 ↦{fullShare} f) : sProp 𝕄) := by
  have hj : (bigSep Finset.univ fun b : Fin 10 => ((thr d L).loc cc0_scratch1 ↦[(slotR b).set]{fullShare} g b : sProp 𝕄)) ⊢ _ :=
    pointsTo_biUnion_join (ℓ := (thr d L).loc cc0_scratch1) Finset.univ _ g (g 0) (fun _ _ _ _ hbb => slots_disjoint hbb)
  rw [slots_cover, bigSep_fin10] at hj
  rw [set_slot, set_slot, set_slot, set_slot, set_slot, set_slot, set_slot, set_slot, set_slot, set_slot]
  refine BIBase.Entails.trans hj ?_
  iintro ⟨%g', -, Hg⟩
  iexists g'; iexact Hg

/-- The way back for the scratch: the index scratch from its rows, the row scratch from its slots at whatever they hold. -/
theorem close_scratch (g : Fin 10 → Buf (Elt F) ((thr d L).loc cc0_scratch1)) (fi : Buf (Elt F) ((thr d L).loc cc0_scratch0)) :
    iprop(bigSep (Finset.range 100) (lstP d L fullShare fi)
        ∗ ((slotM0).view.loc (thr d L) ↦[(slotM0).view.set]{fullShare} g 0)
          ∗ ((slotM1).view.loc (thr d L) ↦[(slotM1).view.set]{fullShare} g 1)
          ∗ ((slotM2).view.loc (thr d L) ↦[(slotM2).view.set]{fullShare} g 2)
          ∗ ((slotM3).view.loc (thr d L) ↦[(slotM3).view.set]{fullShare} g 3)
          ∗ ((slotM4).view.loc (thr d L) ↦[(slotM4).view.set]{fullShare} g 4)
          ∗ ((slotM5).view.loc (thr d L) ↦[(slotM5).view.set]{fullShare} g 5)
          ∗ ((slotM6).view.loc (thr d L) ↦[(slotM6).view.set]{fullShare} g 6)
          ∗ ((slotM7).view.loc (thr d L) ↦[(slotM7).view.set]{fullShare} g 7)
          ∗ ((slotM8).view.loc (thr d L) ↦[(slotM8).view.set]{fullShare} g 8)
          ∗ ((slotM9).view.loc (thr d L) ↦[(slotM9).view.set]{fullShare} g 9))
      ⊢ iprop((∃ f, (thr d L).loc cc0_scratch0 ↦{fullShare} f) ∗ (∃ f, (thr d L).loc cc0_scratch1 ↦{fullShare} f)) := by
  iintro ⟨Hrows, Hslots⟩
  isplitl [Hrows]
  · iexists fi
    iapply (Entails.of_eq (sPts_rows d L fullShare fi).symm); iexact Hrows
  · iapply (slots_join d L g); iexact Hslots

/-- The same with the ten slots' contents given one by one. -/
theorem close_scratch' (g0 g1 g2 g3 g4 g5 g6 g7 g8 g9 : Buf (Elt F) ((thr d L).loc cc0_scratch1))
    (fi : Buf (Elt F) ((thr d L).loc cc0_scratch0)) :
    iprop(bigSep (Finset.range 100) (lstP d L fullShare fi)
        ∗ ((slotM0).view.loc (thr d L) ↦[(slotM0).view.set]{fullShare} g0)
          ∗ ((slotM1).view.loc (thr d L) ↦[(slotM1).view.set]{fullShare} g1)
          ∗ ((slotM2).view.loc (thr d L) ↦[(slotM2).view.set]{fullShare} g2)
          ∗ ((slotM3).view.loc (thr d L) ↦[(slotM3).view.set]{fullShare} g3)
          ∗ ((slotM4).view.loc (thr d L) ↦[(slotM4).view.set]{fullShare} g4)
          ∗ ((slotM5).view.loc (thr d L) ↦[(slotM5).view.set]{fullShare} g5)
          ∗ ((slotM6).view.loc (thr d L) ↦[(slotM6).view.set]{fullShare} g6)
          ∗ ((slotM7).view.loc (thr d L) ↦[(slotM7).view.set]{fullShare} g7)
          ∗ ((slotM8).view.loc (thr d L) ↦[(slotM8).view.set]{fullShare} g8)
          ∗ ((slotM9).view.loc (thr d L) ↦[(slotM9).view.set]{fullShare} g9))
      ⊢ iprop((∃ f, (thr d L).loc cc0_scratch0 ↦{fullShare} f) ∗ (∃ f, (thr d L).loc cc0_scratch1 ↦{fullShare} f)) :=
  close_scratch d L ![g0, g1, g2, g3, g4, g5, g6, g7, g8, g9] fi

end Cert.Proof.KernelRun

end
-- ==== Proof.KTripPieces.lean ====
/-
  The pieces of the index scratch and of the output block that one trip of the worker's loop names, at the program's
  own spelling of them: the chunk step r of trip k copies out to is chunk 10 k + r of the worker's block, and the row
  step r of trip k gathers by is row 10 k + 9 + r of the index scratch. Also: a set of recorded waits stays within
  bounds when a wait of no later call is added.
-/
import proofs.«206297_g77653008712327_cont_9to1c4b_438_14_alg».proof.Proof.KTripLemmas
import proofs.«206297_g77653008712327_cont_9to1c4b_438_14_alg».proof.Proof.KConv

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x100x64 EltTy.i32)
local notation "xV" => (Memref.whole Cert.Kernel.main_arg1_scv : Memref Cert.Kernel.sig Kind.scVector Space.hbm Cert.Kernel.S100000x128 EltTy.f32)
local notation "oV" => (Memref.whole Cert.Kernel.main_v1_scv : Memref Cert.Kernel.sig Kind.scVector Space.hbm Cert.Kernel.S32x100x64x128 EltTy.f32)
local notation "sV" => (Memref.whole Cert.Kernel.cc0_scratch0 : Memref Cert.Kernel.sig Kind.scVector Space.vmem Cert.Kernel.S100x64 EltTy.i32)
local notation "rV" => (Memref.whole Cert.Kernel.cc0_scratch1 : Memref Cert.Kernel.sig Kind.scVector Space.vmem Cert.Kernel.S10x64x128 EltTy.f32)

variable (m : (ℓ : Loc nD τ sig) → Buf (Elt F) ℓ) [FloatOps F]
variable (d : Dev nD) (L : grid0.Coords)

omit [FloatOps F] in
theorem kp_ins_ok {W : Waits sig (HIx 1)} {x : SemLoc sig × HIx 1} {S : Waits sig (HIx 1)}
    (h : ∀ p ∈ S, p ∈ W ∨ p.2 = none) (hx : x.2 = none := by rfl) : ∀ p ∈ insert x S, p ∈ W ∨ p.2 = none := by
  intro p hp
  rcases Finset.mem_insert.mp hp with hp | hp
  · exact .inr (hp ▸ hx)
  · exact h p hp

/-- A chunk piece named by any offsets equal to (w, n, 0, 0) is the canonical chunk piece. -/
theorem kp_och_piece (w : Fin 32) (off : Fin 4 → Nat) (p : ∀ a, off a + S1x1x64x128.size a ≤ S32x100x64x128.size a) (n : ℕ) (hn : n < 100)
    (e : off = ![w.val, n, 0, 0]) (f : Buf (Elt F) (oLoc d)) :
    (((oChAt off p).view.loc (thr d L) ↦[(oChAt off p).view.set]{fullShare} f : sProp 𝕄)
      = ((oChC w n hn).view.loc (thr d L) ↦[(oChC w n hn).view.set]{fullShare} f)) := by
  subst e; rfl
/-- An index-scratch row named by any offsets equal to (n, 0) is the canonical row piece. -/
theorem kp_lst_piece (off : Fin 2 → Nat) (p : ∀ a, off a + S1x64.size a ≤ S100x64.size a) (n : ℕ) (hn : n < 100)
    (e : off = ![n, 0]) (q : PosShare TreeShare) (f : Buf (Elt F) ((thr d L).loc cc0_scratch0)) :
    (((lstAt off p).view.loc (thr d L) ↦[(lstAt off p).view.set]{q} f : sProp 𝕄)
      = ((lstC n hn).view.loc (thr d L) ↦[(lstC n hn).view.set]{q} f)) := by
  subst e; rfl

/-- Chunk n of the block, n = 10 k + 0, is the chunk step 0 of trip k copies out to. -/
theorem kp_chP_K0 (f : Buf (Elt F) (oLoc d)) (k : Fin k0_t1_loop.trips) (n : ℕ) (hn : n < 100) (e : n = 10 * k.val + 0) :
    chP d L (widL L) f n = ((oChK0 L k).view.loc (thr d L) ↦[(oChK0 L k).view.set]{fullShare} f : sProp 𝕄) := by
  subst e
  exact (chP_lt d L (widL L) f (10 * k.val + 0) hn).trans
    (kp_och_piece d L (widL L) (k0_off2 L k 0#32) (k0_off2_inb L k 0) (10 * k.val + 0) hn (k0_off2_eq L k 0) f).symm
/-- Row n of the index scratch, n = 10 k + 9, is the row step 0 of trip k gathers by. -/
theorem kp_lstP_K0 (q : PosShare TreeShare) (f : Buf (Elt F) ((thr d L).loc cc0_scratch0)) (k : Fin k0_t1_loop.trips) (h : k0_cond1 k = 1#1)
    (n : ℕ) (hn : n < 100) (e : n = 10 * k.val + 9) :
    lstP d L q f n = ((lstK0 k h).view.loc (thr d L) ↦[(lstK0 k h).view.set]{q} f : sProp 𝕄) := by
  subst e
  exact (lstP_lt d L q f (10 * k.val + 9) hn).trans
    (kp_lst_piece d L (k0_off4 k) (k0_off4_inb k h) (10 * k.val + 9) hn (k0_off4_eq k) q f).symm

/-- Chunk n of the block, n = 10 k + 1, is the chunk step 1 of trip k copies out to. -/
theorem kp_chP_K1 (f : Buf (Elt F) (oLoc d)) (k : Fin k0_t1_loop.trips) (n : ℕ) (hn : n < 100) (e : n = 10 * k.val + 1) :
    chP d L (widL L) f n = ((oChK1 L k).view.loc (thr d L) ↦[(oChK1 L k).view.set]{fullShare} f : sProp 𝕄) := by
  subst e
  exact (chP_lt d L (widL L) f (10 * k.val + 1) hn).trans
    (kp_och_piece d L (widL L) (k0_off2 L k 1#32) (k0_off2_inb L k 1) (10 * k.val + 1) hn (k0_off2_eq L k 1) f).symm
/-- Row n of the index scratch, n = 10 k + 10, is the row step 1 of trip k gathers by. -/
theorem kp_lstP_K1 (q : PosShare TreeShare) (f : Buf (Elt F) ((thr d L).loc cc0_scratch0)) (k : Fin k0_t1_loop.trips) (h : k0_cond2 k = 1#1)
    (n : ℕ) (hn : n < 100) (e : n = 10 * k.val + 10) :
    lstP d L q f n = ((lstK1 k h).view.loc (thr d L) ↦[(lstK1 k h).view.set]{q} f : sProp 𝕄) := by
  subst e
  exact (lstP_lt d L q f (10 * k.val + 10) hn).trans
    (kp_lst_piece d L (k0_off6 k) (k0_off6_inb k h) (10 * k.val + 10) hn (k0_off6_eq k) q f).symm

/-- Chunk n of the block, n = 10 k + 2, is the chunk step 2 of trip k copies out to. -/
theorem kp_chP_K2 (f : Buf (Elt F) (oLoc d)) (k : Fin k0_t1_loop.trips) (n : ℕ) (hn : n < 100) (e : n = 10 * k.val + 2) :
    chP d L (widL L) f n = ((oChK2 L k).view.loc (thr d L) ↦[(oChK2 L k).view.set]{fullShare} f : sProp 𝕄) := by
  subst e
  exact (chP_lt d L (widL L) f (10 * k.val + 2) hn).trans
    (kp_och_piece d L (widL L) (k0_off2 L k 2#32) (k0_off2_inb L k 2) (10 * k.val + 2) hn (k0_off2_eq L k 2) f).symm
/-- Row n of the index scratch, n = 10 k + 11, is the row step 2 of trip k gathers by. -/
theorem kp_lstP_K2 (q : PosShare TreeShare) (f : Buf (Elt F) ((thr d L).loc cc0_scratch0)) (k : Fin k0_t1_loop.trips) (h : k0_cond3 k = 1#1)
    (n : ℕ) (hn : n < 100) (e : n = 10 * k.val + 11) :
    lstP d L q f n = ((lstK2 k h).view.loc (thr d L) ↦[(lstK2 k h).view.set]{q} f : sProp 𝕄) := by
  subst e
  exact (lstP_lt d L q f (10 * k.val + 11) hn).trans
    (kp_lst_piece d L (k0_off8 k) (k0_off8_inb k h) (10 * k.val + 11) hn (k0_off8_eq k) q f).symm

/-- Chunk n of the block, n = 10 k + 3, is the chunk step 3 of trip k copies out to. -/
theorem kp_chP_K3 (f : Buf (Elt F) (oLoc d)) (k : Fin k0_t1_loop.trips) (n : ℕ) (hn : n < 100) (e : n = 10 * k.val + 3) :
    chP d L (widL L) f n = ((oChK3 L k).view.loc (thr d L) ↦[(oChK3 L k).view.set]{fullShare} f : sProp 𝕄) := by
  subst e
  exact (chP_lt d L (widL L) f (10 * k.val + 3) hn).trans
    (kp_och_piece d L (widL L) (k0_off2 L k 3#32) (k0_off2_inb L k 3) (10 * k.val + 3) hn (k0_off2_eq L k 3) f).symm
/-- Row n of the index scratch, n = 10 k + 12, is the row step 3 of trip k gathers by. -/
theorem kp_lstP_K3 (q : PosShare TreeShare) (f : Buf (Elt F) ((thr d L).loc cc0_scratch0)) (k : Fin k0_t1_loop.trips) (h : k0_cond4 k = 1#1)
    (n : ℕ) (hn : n < 100) (e : n = 10 * k.val + 12) :
    lstP d L q f n = ((lstK3 k h).view.loc (thr d L) ↦[(lstK3 k h).view.set]{q} f : sProp 𝕄) := by
  subst e
  exact (lstP_lt d L q f (10 * k.val + 12) hn).trans
    (kp_lst_piece d L (k0_off10 k) (k0_off10_inb k h) (10 * k.val + 12) hn (k0_off10_eq k) q f).symm

/-- Chunk n of the block, n = 10 k + 4, is the chunk step 4 of trip k copies out to. -/
theorem kp_chP_K4 (f : Buf (Elt F) (oLoc d)) (k : Fin k0_t1_loop.trips) (n : ℕ) (hn : n < 100) (e : n = 10 * k.val + 4) :
    chP d L (widL L) f n = ((oChK4 L k).view.loc (thr d L) ↦[(oChK4 L k).view.set]{fullShare} f : sProp 𝕄) := by
  subst e
  exact (chP_lt d L (widL L) f (10 * k.val + 4) hn).trans
    (kp_och_piece d L (widL L) (k0_off2 L k 4#32) (k0_off2_inb L k 4) (10 * k.val + 4) hn (k0_off2_eq L k 4) f).symm
/-- Row n of the index scratch, n = 10 k + 13, is the row step 4 of trip k gathers by. -/
theorem kp_lstP_K4 (q : PosShare TreeShare) (f : Buf (Elt F) ((thr d L).loc cc0_scratch0)) (k : Fin k0_t1_loop.trips) (h : k0_cond5 k = 1#1)
    (n : ℕ) (hn : n < 100) (e : n = 10 * k.val + 13) :
    lstP d L q f n = ((lstK4 k h).view.loc (thr d L) ↦[(lstK4 k h).view.set]{q} f : sProp 𝕄) := by
  subst e
  exact (lstP_lt d L q f (10 * k.val + 13) hn).trans
    (kp_lst_piece d L (k0_off12 k) (k0_off12_inb k h) (10 * k.val + 13) hn (k0_off12_eq k) q f).symm

/-- Chunk n of the block, n = 10 k + 5, is the chunk step 5 of trip k copies out to. -/
theorem kp_chP_K5 (f : Buf (Elt F) (oLoc d)) (k : Fin k0_t1_loop.trips) (n : ℕ) (hn : n < 100) (e : n = 10 * k.val + 5) :
    chP d L (widL L) f n = ((oChK5 L k).view.loc (thr d L) ↦[(oChK5 L k).view.set]{fullShare} f : sProp 𝕄) := by
  subst e
  exact (chP_lt d L (widL L) f (10 * k.val + 5) hn).trans
    (kp_och_piece d L (widL L) (k0_off2 L k 5#32) (k0_off2_inb L k 5) (10 * k.val + 5) hn (k0_off2_eq L k 5) f).symm
/-- Row n of the index scratch, n = 10 k + 14, is the row step 5 of trip k gathers by. -/
theorem kp_lstP_K5 (q : PosShare TreeShare) (f : Buf (Elt F) ((thr d L).loc cc0_scratch0)) (k : Fin k0_t1_loop.trips) (h : k0_cond6 k = 1#1)
    (n : ℕ) (hn : n < 100) (e : n = 10 * k.val + 14) :
    lstP d L q f n = ((lstK5 k h).view.loc (thr d L) ↦[(lstK5 k h).view.set]{q} f : sProp 𝕄) := by
  subst e
  exact (lstP_lt d L q f (10 * k.val + 14) hn).trans
    (kp_lst_piece d L (k0_off14 k) (k0_off14_inb k h) (10 * k.val + 14) hn (k0_off14_eq k) q f).symm

/-- Chunk n of the block, n = 10 k + 6, is the chunk step 6 of trip k copies out to. -/
theorem kp_chP_K6 (f : Buf (Elt F) (oLoc d)) (k : Fin k0_t1_loop.trips) (n : ℕ) (hn : n < 100) (e : n = 10 * k.val + 6) :
    chP d L (widL L) f n = ((oChK6 L k).view.loc (thr d L) ↦[(oChK6 L k).view.set]{fullShare} f : sProp 𝕄) := by
  subst e
  exact (chP_lt d L (widL L) f (10 * k.val + 6) hn).trans
    (kp_och_piece d L (widL L) (k0_off2 L k 6#32) (k0_off2_inb L k 6) (10 * k.val + 6) hn (k0_off2_eq L k 6) f).symm
/-- Row n of the index scratch, n = 10 k + 15, is the row step 6 of trip k gathers by. -/
theorem kp_lstP_K6 (q : PosShare TreeShare) (f : Buf (Elt F) ((thr d L).loc cc0_scratch0)) (k : Fin k0_t1_loop.trips) (h : k0_cond7 k = 1#1)
    (n : ℕ) (hn : n < 100) (e : n = 10 * k.val + 15) :
    lstP d L q f n = ((lstK6 k h).view.loc (thr d L) ↦[(lstK6 k h).view.set]{q} f : sProp 𝕄) := by
  subst e
  exact (lstP_lt d L q f (10 * k.val + 15) hn).trans
    (kp_lst_piece d L (k0_off16 k) (k0_off16_inb k h) (10 * k.val + 15) hn (k0_off16_eq k) q f).symm

/-- Chunk n of the block, n = 10 k + 7, is the chunk step 7 of trip k copies out to. -/
theorem kp_chP_K7 (f : Buf (Elt F) (oLoc d)) (k : Fin k0_t1_loop.trips) (n : ℕ) (hn : n < 100) (e : n = 10 * k.val + 7) :
    chP d L (widL L) f n = ((oChK7 L k).view.loc (thr d L) ↦[(oChK7 L k).view.set]{fullShare} f : sProp 𝕄) := by
  subst e
  exact (chP_lt d L (widL L) f (10 * k.val + 7) hn).trans
    (kp_och_piece d L (widL L) (k0_off2 L k 7#32) (k0_off2_inb L k 7) (10 * k.val + 7) hn (k0_off2_eq L k 7) f).symm
/-- Row n of the index scratch, n = 10 k + 16, is the row step 7 of trip k gathers by. -/
theorem kp_lstP_K7 (q : PosShare TreeShare) (f : Buf (Elt F) ((thr d L).loc cc0_scratch0)) (k : Fin k0_t1_loop.trips) (h : k0_cond8 k = 1#1)
    (n : ℕ) (hn : n < 100) (e : n = 10 * k.val + 16) :
    lstP d L q f n = ((lstK7 k h).view.loc (thr d L) ↦[(lstK7 k h).view.set]{q} f : sProp 𝕄) := by
  subst e
  exact (lstP_lt d L q f (10 * k.val + 16) hn).trans
    (kp_lst_piece d L (k0_off18 k) (k0_off18_inb k h) (10 * k.val + 16) hn (k0_off18_eq k) q f).symm

/-- Chunk n of the block, n = 10 k + 8, is the chunk step 8 of trip k copies out to. -/
theorem kp_chP_K8 (f : Buf (Elt F) (oLoc d)) (k : Fin k0_t1_loop.trips) (n : ℕ) (hn : n < 100) (e : n = 10 * k.val + 8) :
    chP d L (widL L) f n = ((oChK8 L k).view.loc (thr d L) ↦[(oChK8 L k).view.set]{fullShare} f : sProp 𝕄) := by
  subst e
  exact (chP_lt d L (widL L) f (10 * k.val + 8) hn).trans
    (kp_och_piece d L (widL L) (k0_off2 L k 8#32) (k0_off2_inb L k 8) (10 * k.val + 8) hn (k0_off2_eq L k 8) f).symm
/-- Row n of the index scratch, n = 10 k + 17, is the row step 8 of trip k gathers by. -/
theorem kp_lstP_K8 (q : PosShare TreeShare) (f : Buf (Elt F) ((thr d L).loc cc0_scratch0)) (k : Fin k0_t1_loop.trips) (h : k0_cond9 k = 1#1)
    (n : ℕ) (hn : n < 100) (e : n = 10 * k.val + 17) :
    lstP d L q f n = ((lstK8 k h).view.loc (thr d L) ↦[(lstK8 k h).view.set]{q} f : sProp 𝕄) := by
  subst e
  exact (lstP_lt d L q f (10 * k.val + 17) hn).trans
    (kp_lst_piece d L (k0_off20 k) (k0_off20_inb k h) (10 * k.val + 17) hn (k0_off20_eq k) q f).symm

/-- Chunk n of the block, n = 10 k + 9, is the chunk step 9 of trip k copies out to. -/
theorem kp_chP_K9 (f : Buf (Elt F) (oLoc d)) (k : Fin k0_t1_loop.trips) (n : ℕ) (hn : n < 100) (e : n = 10 * k.val + 9) :
    chP d L (widL L) f n = ((oChK9 L k).view.loc (thr d L) ↦[(oChK9 L k).view.set]{fullShare} f : sProp 𝕄) := by
  subst e
  exact (chP_lt d L (widL L) f (10 * k.val + 9) hn).trans
    (kp_och_piece d L (widL L) (k0_off2 L k 9#32) (k0_off2_inb L k 9) (10 * k.val + 9) hn (k0_off2_eq L k 9) f).symm
/-- Row n of the index scratch, n = 10 k + 18, is the row step 9 of trip k gathers by. -/
theorem kp_lstP_K9 (q : PosShare TreeShare) (f : Buf (Elt F) ((thr d L).loc cc0_scratch0)) (k : Fin k0_t1_loop.trips) (h : k0_cond10 k = 1#1)
    (n : ℕ) (hn : n < 100) (e : n = 10 * k.val + 18) :
    lstP d L q f n = ((lstK9 k h).view.loc (thr d L) ↦[(lstK9 k h).view.set]{q} f : sProp 𝕄) := by
  subst e
  exact (lstP_lt d L q f (10 * k.val + 18) hn).trans
    (kp_lst_piece d L (k0_off22 k) (k0_off22_inb k h) (10 * k.val + 18) hn (k0_off22_eq k) q f).symm

/-- A slot's contents after chunk n's gather depend on n only. -/
theorem kp_RF_of (n n' : ℕ) (e : n = n') (h : n < 100) (h' : n' < 100) : RF m d L ⟨n, h⟩ = RF m d L ⟨n', h'⟩ := by
  subst e; rfl

section Nine
variable {M : Type} [URA M]
/-- Nine steps of an initial segment giving up its greatest element, reassociated to the right. -/
theorem kp_range_push9 (Φ : ℕ → sProp M) (n : ℕ) :
    bigSep (Finset.range (n + 9)) Φ = iprop(bigSep (Finset.range n) Φ ∗ Φ n ∗ Φ (n+1) ∗ Φ (n+2) ∗ Φ (n+3) ∗ Φ (n+4) ∗ Φ (n+5)
      ∗ Φ (n+6) ∗ Φ (n+7) ∗ Φ (n+8)) := by
  rw [bigSep_range_succ_of_eq Φ (n+8) (n+9) rfl,
    bigSep_range_succ_of_eq Φ (n+7) (n+8) rfl, bigSep_range_succ_of_eq Φ (n+6) (n+7) rfl,
    bigSep_range_succ_of_eq Φ (n+5) (n+6) rfl, bigSep_range_succ_of_eq Φ (n+4) (n+5) rfl,
    bigSep_range_succ_of_eq Φ (n+3) (n+4) rfl, bigSep_range_succ_of_eq Φ (n+2) (n+3) rfl,
    bigSep_range_succ_of_eq Φ (n+1) (n+2) rfl, bigSep_range_succ_of_eq Φ n (n+1) rfl]
  simp only [sep_assoc_eq]
end Nine

end Cert.Proof.KernelRun

end
-- ==== Proof.KTripZero.lean ====
/-
  Trip 0 of the worker's loop. Before it the ten opening gathers are in flight, one per slot, and nothing has been
  copied out. Step r waits the gather of chunk r into slot r and copies the slot out to chunk r of the block; from
  step 1 on it then waits the copy-out of slot r - 1 and issues the gather of chunk 9 + r into that slot, by row 9 + r
  of the index scratch. After it chunks 0 to 8 hold the lookup's value, the copy-out of chunk 9 is in flight, slots
  0 to 8 carry the gathers of chunks 10 to 18, rows 0 to 9 of the index scratch are back and rows 10 to 18 are lent:
  the state before trip 1.
-/
import proofs.«206297_g77653008712327_cont_9to1c4b_438_14_alg».proof.Proof.KTripPieces

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x100x64 EltTy.i32)
local notation "xV" => (Memref.whole Cert.Kernel.main_arg1_scv : Memref Cert.Kernel.sig Kind.scVector Space.hbm Cert.Kernel.S100000x128 EltTy.f32)
local notation "oV" => (Memref.whole Cert.Kernel.main_v1_scv : Memref Cert.Kernel.sig Kind.scVector Space.hbm Cert.Kernel.S32x100x64x128 EltTy.f32)
local notation "sV" => (Memref.whole Cert.Kernel.cc0_scratch0 : Memref Cert.Kernel.sig Kind.scVector Space.vmem Cert.Kernel.S100x64 EltTy.i32)
local notation "rV" => (Memref.whole Cert.Kernel.cc0_scratch1 : Memref Cert.Kernel.sig Kind.scVector Space.vmem Cert.Kernel.S10x64x128 EltTy.f32)

variable (m : (ℓ : Loc nD τ sig) → Buf (Elt F) ℓ) [FloatOps F]
variable (d : Dev nD) (L : grid0.Coords)
variable (O : CellTallies nD τ sig (HIx 1)) (W : Waits sig (HIx 1)) (f0 : Buf (Elt F) (oLoc d))

set_option maxHeartbeats 16000000 in
theorem trip_zero (hpre : Lookup.InRange (idx3 m d)) (k : Fin k0_t1_loop.trips) (acc : BitVec 32) (hk0 : k.val = 0) :
    inv m d L O W f0 k.val acc ⊢ wp frame (wpE (defs₀ (F := F)) 𝒱₀ (thr d L) none) Set.univ
      (k0_t1_body L iV (Memref.isWhole_whole _) xV (Memref.isWhole_whole _) oV (Memref.isWhole_whole _) sV (Memref.isWhole_whole _) rV (Memref.isWhole_whole _) cc0_scratch2 cc0_scratch3 cc0_scoped0 k acc) (inv m d L O W f0 (k.val + 1)) := by
  have h1 : ¬ k0_cond1 k = 1#1 := fun h => by have := (cond1_iff k).1 h; omega
  have h2 : k0_cond2 k = 1#1 := (cond2_iff k).2 (by omega)
  have h3 : k0_cond3 k = 1#1 := (cond3_iff k).2 (by omega)
  have h4 : k0_cond4 k = 1#1 := (cond4_iff k).2 (by omega)
  have h5 : k0_cond5 k = 1#1 := (cond5_iff k).2 (by omega)
  have h6 : k0_cond6 k = 1#1 := (cond6_iff k).2 (by omega)
  have h7 : k0_cond7 k = 1#1 := (cond7_iff k).2 (by omega)
  have h8 : k0_cond8 k = 1#1 := (cond8_iff k).2 (by omega)
  have h9 : k0_cond9 k = 1#1 := (cond9_iff k).2 (by omega)
  have h10 : k0_cond10 k = 1#1 := (cond10_iff k).2 (by omega)
  have hin := hin_all m d L hpre
  generalize hQ : inv m d L O W f0 (k.val + 1) = Qpost
  rw [show inv m d L O W f0 k.val acc = inv0 m d L O W f0 from by rw [hk0]; exact inv_zero m d L O W f0 acc]
  unfold inv0 common FG0 FG1 FG2 FG3 FG4 FG5 FG6 FG7 FG8 FG9 GD0 GD1 GD2 GD3 GD4 GD5 GD6 GD7 GD8 GD9
  rw [bigSep_Ico_pop10 (chP d L (widL L) f0) (10 * 0) 100 (by omega),
    bigSep_Ico_pop10 (lstP d L fullShare (IDXV m d L)) 10 100 (by omega),
    kp_chP_K0 d L f0 k (10 * 0) (by omega) (by omega),
    kp_chP_K1 d L f0 k (10 * 0 + 1) (by omega) (by omega),
    kp_chP_K2 d L f0 k (10 * 0 + 2) (by omega) (by omega),
    kp_chP_K3 d L f0 k (10 * 0 + 3) (by omega) (by omega),
    kp_chP_K4 d L f0 k (10 * 0 + 4) (by omega) (by omega),
    kp_chP_K5 d L f0 k (10 * 0 + 5) (by omega) (by omega),
    kp_chP_K6 d L f0 k (10 * 0 + 6) (by omega) (by omega),
    kp_chP_K7 d L f0 k (10 * 0 + 7) (by omega) (by omega),
    kp_chP_K8 d L f0 k (10 * 0 + 8) (by omega) (by omega),
    kp_chP_K9 d L f0 k (10 * 0 + 9) (by omega) (by omega),
    kp_lstP_K1 d L fullShare (IDXV m d L) k h2 10 (by omega) (by omega),
    kp_lstP_K2 d L fullShare (IDXV m d L) k h3 (10 + 1) (by omega) (by omega),
    kp_lstP_K3 d L fullShare (IDXV m d L) k h4 (10 + 2) (by omega) (by omega),
    kp_lstP_K4 d L fullShare (IDXV m d L) k h5 (10 + 3) (by omega) (by omega),
    kp_lstP_K5 d L fullShare (IDXV m d L) k h6 (10 + 4) (by omega) (by omega),
    kp_lstP_K6 d L fullShare (IDXV m d L) k h7 (10 + 5) (by omega) (by omega),
    kp_lstP_K7 d L fullShare (IDXV m d L) k h8 (10 + 6) (by omega) (by omega),
    kp_lstP_K8 d L fullShare (IDXV m d L) k h9 (10 + 7) (by omega) (by omega),
    kp_lstP_K9 d L fullShare (IDXV m d L) k h10 (10 + 8) (by omega) (by omega)]
  iintro ⟨⟨#Hmw, Hdone, ⟨Hc0, Hc1, Hc2, Hc3, Hc4, Hc5, Hc6, Hc7, Hc8, Hc9, Hrest⟩, Hlret, ⟨Hl1, Hl2, Hl3, Hl4, Hl5, Hl6, Hl7, Hl8, Hl9, Hl19, Hlrest⟩, %W', %hW', HO⟩, FG0, FG1, FG2, FG3, FG4, FG5, FG6, FG7, FG8, FG9, Hs0, Hs1, Hs2, Hs3, Hs4, Hs5, Hs6, Hs7, Hs8, Hs9⟩
  unfold k0_t1_body
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  sl_exec
  icases FG0_dst with ⟨HR0, HLr0⟩
  sl_exec
  icases FG1_dst with ⟨HR1, HLr1⟩
  sl_exec
  icases FG2_dst with ⟨HR2, HLr2⟩
  sl_exec
  icases FG3_dst with ⟨HR3, HLr3⟩
  sl_exec
  icases FG4_dst with ⟨HR4, HLr4⟩
  sl_exec
  icases FG5_dst with ⟨HR5, HLr5⟩
  sl_exec
  icases FG6_dst with ⟨HR6, HLr6⟩
  sl_exec
  icases FG7_dst with ⟨HR7, HLr7⟩
  sl_exec
  icases FG8_dst with ⟨HR8, HLr8⟩
  sl_exec
  icases FG9_dst with ⟨HR9, HLr9⟩
  sl_exec
  sl_step
  subst hQ
  rw [inv_mid m d L O W f0 (k.val + 1) (by omega) (by omega)]
  unfold invM common
  have hb0 : (0 : ℕ) < 10 := by omega
  have hb1 : (1 : ℕ) < 10 := by omega
  have hb2 : (2 : ℕ) < 10 := by omega
  have hb3 : (3 : ℕ) < 10 := by omega
  have hb4 : (4 : ℕ) < 10 := by omega
  have hb5 : (5 : ℕ) < 10 := by omega
  have hb6 : (6 : ℕ) < 10 := by omega
  have hb7 : (7 : ℕ) < 10 := by omega
  have hb8 : (8 : ℕ) < 10 := by omega
  have hb9 : (9 : ℕ) < 10 := by omega
  have hl0 : (0 : ℕ) < 100 := by omega
  have hl1 : (1 : ℕ) < 100 := by omega
  have hl2 : (2 : ℕ) < 100 := by omega
  have hl3 : (3 : ℕ) < 100 := by omega
  have hl4 : (4 : ℕ) < 100 := by omega
  have hl5 : (5 : ℕ) < 100 := by omega
  have hl6 : (6 : ℕ) < 100 := by omega
  have hl7 : (7 : ℕ) < 100 := by omega
  have hl8 : (8 : ℕ) < 100 := by omega
  have hl9 : (9 : ℕ) < 100 := by omega
  have hc0 : 10 * k.val + 0 < 100 := by omega
  have hc1 : 10 * k.val + 1 < 100 := by omega
  have hc2 : 10 * k.val + 2 < 100 := by omega
  have hc3 : 10 * k.val + 3 < 100 := by omega
  have hc4 : 10 * k.val + 4 < 100 := by omega
  have hc5 : 10 * k.val + 5 < 100 := by omega
  have hc6 : 10 * k.val + 6 < 100 := by omega
  have hc7 : 10 * k.val + 7 < 100 := by omega
  have hc8 : 10 * k.val + 8 < 100 := by omega
  have hc9 : 10 * k.val + 9 < 100 := by omega
  have hg0 : 10 * k.val + 10 < 100 := by omega
  have hg1 : 10 * k.val + 11 < 100 := by omega
  have hg2 : 10 * k.val + 12 < 100 := by omega
  have hg3 : 10 * k.val + 13 < 100 := by omega
  have hg4 : 10 * k.val + 14 < 100 := by omega
  have hg5 : 10 * k.val + 15 < 100 := by omega
  have hg6 : 10 * k.val + 16 < 100 := by omega
  have hg7 : 10 * k.val + 17 < 100 := by omega
  have hg8 : 10 * k.val + 18 < 100 := by omega
  have hp0 : 10 * (k.val + 1) + 0 < 100 := by omega
  have hp1 : 10 * (k.val + 1) + 1 < 100 := by omega
  have hp2 : 10 * (k.val + 1) + 2 < 100 := by omega
  have hp3 : 10 * (k.val + 1) + 3 < 100 := by omega
  have hp4 : 10 * (k.val + 1) + 4 < 100 := by omega
  have hp5 : 10 * (k.val + 1) + 5 < 100 := by omega
  have hp6 : 10 * (k.val + 1) + 6 < 100 := by omega
  have hp7 : 10 * (k.val + 1) + 7 < 100 := by omega
  have hp8 : 10 * (k.val + 1) + 8 < 100 := by omega
  have hp9 : 10 * (k.val + 1) - 1 < 100 := by omega
  have hd0 : (0 : ℕ) < sig.nDmaSem := by show 0 < 21; omega
  have hd1 : (1 : ℕ) < sig.nDmaSem := by show 1 < 21; omega
  have hd2 : (2 : ℕ) < sig.nDmaSem := by show 2 < 21; omega
  have hd3 : (3 : ℕ) < sig.nDmaSem := by show 3 < 21; omega
  have hd4 : (4 : ℕ) < sig.nDmaSem := by show 4 < 21; omega
  have hd5 : (5 : ℕ) < sig.nDmaSem := by show 5 < 21; omega
  have hd6 : (6 : ℕ) < sig.nDmaSem := by show 6 < 21; omega
  have hd7 : (7 : ℕ) < sig.nDmaSem := by show 7 < 21; omega
  have hd8 : (8 : ℕ) < sig.nDmaSem := by show 8 < 21; omega
  have hd19 : (19 : ℕ) < sig.nDmaSem := by show 19 < 21; omega
  isplitl [Hdone Hc0 Hc1 Hc2 Hc3 Hc4 Hc5 Hc6 Hc7 Hc8 Hrest Hlret HLr0 HLr1 HLr2 HLr3 HLr4 HLr5 HLr6 HLr7 HLr8 HLr9 Hl19 Hlrest HO]
  · isplitr
    · iexact Hmw
    isplitl [Hdone Hc0 Hc1 Hc2 Hc3 Hc4 Hc5 Hc6 Hc7 Hc8]
    · rw [show 10 * (k.val + 1) - 1 = 0 + 9 from by omega, kp_range_push9]
      isplitl [Hdone]
      · iexact Hdone
      isplitl [Hc0]
      · iapply (chP_of d L (widL L) (OUT m d) (10 * k.val + 0) (0) (by omega) hc0)
        iapply (Entails.of_eq (chunk_canon m d L 0 hb0 (10 * k.val + 0) hc0 (k0_off2 L k 0#32) (k0_off2_inb L k 0) (k0_off2_eq L k 0) f0 (RF m d L ⟨0, hl0⟩)
          (fun i _ => congrFun (kp_RF_of m d L 0 (10 * k.val + 0) (by omega) hl0 hc0) i) (trip_zero.sl.dma0 m d L) rfl)) $$ Hc0
      isplitl [Hc1]
      · iapply (chP_of d L (widL L) (OUT m d) (10 * k.val + 1) (0 + 1) (by omega) hc1)
        iapply (Entails.of_eq (chunk_canon m d L 1 hb1 (10 * k.val + 1) hc1 (k0_off2 L k 1#32) (k0_off2_inb L k 1) (k0_off2_eq L k 1) f0 (RF m d L ⟨1, hl1⟩)
          (fun i _ => congrFun (kp_RF_of m d L 1 (10 * k.val + 1) (by omega) hl1 hc1) i) (trip_zero.sl.dma0_1 m d L) rfl)) $$ Hc1
      isplitl [Hc2]
      · iapply (chP_of d L (widL L) (OUT m d) (10 * k.val + 2) (0 + 2) (by omega) hc2)
        iapply (Entails.of_eq (chunk_canon m d L 2 hb2 (10 * k.val + 2) hc2 (k0_off2 L k 2#32) (k0_off2_inb L k 2) (k0_off2_eq L k 2) f0 (RF m d L ⟨2, hl2⟩)
          (fun i _ => congrFun (kp_RF_of m d L 2 (10 * k.val + 2) (by omega) hl2 hc2) i) (trip_zero.sl.dma0_2 m d L) rfl)) $$ Hc2
      isplitl [Hc3]
      · iapply (chP_of d L (widL L) (OUT m d) (10 * k.val + 3) (0 + 3) (by omega) hc3)
        iapply (Entails.of_eq (chunk_canon m d L 3 hb3 (10 * k.val + 3) hc3 (k0_off2 L k 3#32) (k0_off2_inb L k 3) (k0_off2_eq L k 3) f0 (RF m d L ⟨3, hl3⟩)
          (fun i _ => congrFun (kp_RF_of m d L 3 (10 * k.val + 3) (by omega) hl3 hc3) i) (trip_zero.sl.dma0_3 m d L) rfl)) $$ Hc3
      isplitl [Hc4]
      · iapply (chP_of d L (widL L) (OUT m d) (10 * k.val + 4) (0 + 4) (by omega) hc4)
        iapply (Entails.of_eq (chunk_canon m d L 4 hb4 (10 * k.val + 4) hc4 (k0_off2 L k 4#32) (k0_off2_inb L k 4) (k0_off2_eq L k 4) f0 (RF m d L ⟨4, hl4⟩)
          (fun i _ => congrFun (kp_RF_of m d L 4 (10 * k.val + 4) (by omega) hl4 hc4) i) (trip_zero.sl.dma0_4 m d L) rfl)) $$ Hc4
      isplitl [Hc5]
      · iapply (chP_of d L (widL L) (OUT m d) (10 * k.val + 5) (0 + 5) (by omega) hc5)
        iapply (Entails.of_eq (chunk_canon m d L 5 hb5 (10 * k.val + 5) hc5 (k0_off2 L k 5#32) (k0_off2_inb L k 5) (k0_off2_eq L k 5) f0 (RF m d L ⟨5, hl5⟩)
          (fun i _ => congrFun (kp_RF_of m d L 5 (10 * k.val + 5) (by omega) hl5 hc5) i) (trip_zero.sl.dma0_5 m d L) rfl)) $$ Hc5
      isplitl [Hc6]
      · iapply (chP_of d L (widL L) (OUT m d) (10 * k.val + 6) (0 + 6) (by omega) hc6)
        iapply (Entails.of_eq (chunk_canon m d L 6 hb6 (10 * k.val + 6) hc6 (k0_off2 L k 6#32) (k0_off2_inb L k 6) (k0_off2_eq L k 6) f0 (RF m d L ⟨6, hl6⟩)
          (fun i _ => congrFun (kp_RF_of m d L 6 (10 * k.val + 6) (by omega) hl6 hc6) i) (trip_zero.sl.dma0_6 m d L) rfl)) $$ Hc6
      isplitl [Hc7]
      · iapply (chP_of d L (widL L) (OUT m d) (10 * k.val + 7) (0 + 7) (by omega) hc7)
        iapply (Entails.of_eq (chunk_canon m d L 7 hb7 (10 * k.val + 7) hc7 (k0_off2 L k 7#32) (k0_off2_inb L k 7) (k0_off2_eq L k 7) f0 (RF m d L ⟨7, hl7⟩)
          (fun i _ => congrFun (kp_RF_of m d L 7 (10 * k.val + 7) (by omega) hl7 hc7) i) (trip_zero.sl.dma0_7 m d L) rfl)) $$ Hc7
      iapply (chP_of d L (widL L) (OUT m d) (10 * k.val + 8) (0 + 8) (by omega) hc8)
      iapply (Entails.of_eq (chunk_canon m d L 8 hb8 (10 * k.val + 8) hc8 (k0_off2 L k 8#32) (k0_off2_inb L k 8) (k0_off2_eq L k 8) f0 (RF m d L ⟨8, hl8⟩)
        (fun i _ => congrFun (kp_RF_of m d L 8 (10 * k.val + 8) (by omega) hl8 hc8) i) (trip_zero.sl.dma0_8 m d L) rfl)) $$ Hc8
    isplitl [Hrest]
    · rw [show 10 * (k.val + 1) = 10 * 0 + 10 from by omega]; iexact Hrest
    isplitl [Hlret HLr0 HLr1 HLr2 HLr3 HLr4 HLr5 HLr6 HLr7 HLr8 HLr9]
    · rw [show 10 * (k.val + 1) = 10 * 0 + 10 from by omega, bigSep_range_push10]
      isplitl [Hlret]
      · iexact Hlret
      isplitl [HLr0]
      · iapply (lstP_of d L fullShare (IDXV m d L) 0 (10 * 0) (by omega) hl0) $$ HLr0
      isplitl [HLr1]
      · iapply (lstP_of d L fullShare (IDXV m d L) 1 (10 * 0 + 1) (by omega) hl1) $$ HLr1
      isplitl [HLr2]
      · iapply (lstP_of d L fullShare (IDXV m d L) 2 (10 * 0 + 2) (by omega) hl2) $$ HLr2
      isplitl [HLr3]
      · iapply (lstP_of d L fullShare (IDXV m d L) 3 (10 * 0 + 3) (by omega) hl3) $$ HLr3
      isplitl [HLr4]
      · iapply (lstP_of d L fullShare (IDXV m d L) 4 (10 * 0 + 4) (by omega) hl4) $$ HLr4
      isplitl [HLr5]
      · iapply (lstP_of d L fullShare (IDXV m d L) 5 (10 * 0 + 5) (by omega) hl5) $$ HLr5
      isplitl [HLr6]
      · iapply (lstP_of d L fullShare (IDXV m d L) 6 (10 * 0 + 6) (by omega) hl6) $$ HLr6
      isplitl [HLr7]
      · iapply (lstP_of d L fullShare (IDXV m d L) 7 (10 * 0 + 7) (by omega) hl7) $$ HLr7
      isplitl [HLr8]
      · iapply (lstP_of d L fullShare (IDXV m d L) 8 (10 * 0 + 8) (by omega) hl8) $$ HLr8
      iapply (lstP_of d L fullShare (IDXV m d L) 9 (10 * 0 + 9) (by omega) hl9) $$ HLr9
    isplitl [Hl19 Hlrest]
    · rw [show 10 * (k.val + 1) + 9 = 10 + 9 from by omega,
        bigSep_Ico_pop_of_eq (lstP d L fullShare (IDXV m d L)) (10 + 9) 100 (10 + 10) (by omega) (by omega)]
      isplitl [Hl19]
      · iexact Hl19
      iexact Hlrest
    iexists _; isplitr
    swap
    · iexact HO
    ipureintro
    repeat (first | exact hW' | refine kp_ins_ok ?_)
  isplitl [FG0]
  · iapply ((gather_canon m d L 0 hb0 hpre (10 * k.val + 10) hg0 (k0_off6 k) (k0_off6_inb k h2) (k0_off6_eq k) (RF m d L ⟨0, hl0⟩)
        (trip_zero.sl.gather1 m d L k h2 hin) (hin _ _ _) rfl (xtok L (0 : Fin 10)) (SemLoc.dma ⟨0, hd0⟩ : SemLoc sig) 262144).trans
      (FG0_of m d L (10 * k.val + 10) (10 * (k.val + 1) + 0) (by omega) hg0 hp0)) $$ FG0
  isplitl [FG1]
  · iapply ((gather_canon m d L 1 hb1 hpre (10 * k.val + 11) hg1 (k0_off8 k) (k0_off8_inb k h3) (k0_off8_eq k) (RF m d L ⟨1, hl1⟩)
        (trip_zero.sl.gather1_1 m d L k h3 hin) (hin _ _ _) rfl (xtok L (1 : Fin 10)) (SemLoc.dma ⟨1, hd1⟩ : SemLoc sig) 262144).trans
      (FG1_of m d L (10 * k.val + 11) (10 * (k.val + 1) + 1) (by omega) hg1 hp1)) $$ FG1
  isplitl [FG2]
  · iapply ((gather_canon m d L 2 hb2 hpre (10 * k.val + 12) hg2 (k0_off10 k) (k0_off10_inb k h4) (k0_off10_eq k) (RF m d L ⟨2, hl2⟩)
        (trip_zero.sl.gather1_2 m d L k h4 hin) (hin _ _ _) rfl (xtok L (2 : Fin 10)) (SemLoc.dma ⟨2, hd2⟩ : SemLoc sig) 262144).trans
      (FG2_of m d L (10 * k.val + 12) (10 * (k.val + 1) + 2) (by omega) hg2 hp2)) $$ FG2
  isplitl [FG3]
  · iapply ((gather_canon m d L 3 hb3 hpre (10 * k.val + 13) hg3 (k0_off12 k) (k0_off12_inb k h5) (k0_off12_eq k) (RF m d L ⟨3, hl3⟩)
        (trip_zero.sl.gather1_3 m d L k h5 hin) (hin _ _ _) rfl (xtok L (3 : Fin 10)) (SemLoc.dma ⟨3, hd3⟩ : SemLoc sig) 262144).trans
      (FG3_of m d L (10 * k.val + 13) (10 * (k.val + 1) + 3) (by omega) hg3 hp3)) $$ FG3
  isplitl [FG4]
  · iapply ((gather_canon m d L 4 hb4 hpre (10 * k.val + 14) hg4 (k0_off14 k) (k0_off14_inb k h6) (k0_off14_eq k) (RF m d L ⟨4, hl4⟩)
        (trip_zero.sl.gather1_4 m d L k h6 hin) (hin _ _ _) rfl (xtok L (4 : Fin 10)) (SemLoc.dma ⟨4, hd4⟩ : SemLoc sig) 262144).trans
      (FG4_of m d L (10 * k.val + 14) (10 * (k.val + 1) + 4) (by omega) hg4 hp4)) $$ FG4
  isplitl [FG5]
  · iapply ((gather_canon m d L 5 hb5 hpre (10 * k.val + 15) hg5 (k0_off16 k) (k0_off16_inb k h7) (k0_off16_eq k) (RF m d L ⟨5, hl5⟩)
        (trip_zero.sl.gather1_5 m d L k h7 hin) (hin _ _ _) rfl (xtok L (5 : Fin 10)) (SemLoc.dma ⟨5, hd5⟩ : SemLoc sig) 262144).trans
      (FG5_of m d L (10 * k.val + 15) (10 * (k.val + 1) + 5) (by omega) hg5 hp5)) $$ FG5
  isplitl [FG6]
  · iapply ((gather_canon m d L 6 hb6 hpre (10 * k.val + 16) hg6 (k0_off18 k) (k0_off18_inb k h8) (k0_off18_eq k) (RF m d L ⟨6, hl6⟩)
        (trip_zero.sl.gather1_6 m d L k h8 hin) (hin _ _ _) rfl (xtok L (6 : Fin 10)) (SemLoc.dma ⟨6, hd6⟩ : SemLoc sig) 262144).trans
      (FG6_of m d L (10 * k.val + 16) (10 * (k.val + 1) + 6) (by omega) hg6 hp6)) $$ FG6
  isplitl [FG7]
  · iapply ((gather_canon m d L 7 hb7 hpre (10 * k.val + 17) hg7 (k0_off20 k) (k0_off20_inb k h9) (k0_off20_eq k) (RF m d L ⟨7, hl7⟩)
        (trip_zero.sl.gather1_7 m d L k h9 hin) (hin _ _ _) rfl (xtok L (7 : Fin 10)) (SemLoc.dma ⟨7, hd7⟩ : SemLoc sig) 262144).trans
      (FG7_of m d L (10 * k.val + 17) (10 * (k.val + 1) + 7) (by omega) hg7 hp7)) $$ FG7
  isplitl [FG8]
  · iapply ((gather_canon m d L 8 hb8 hpre (10 * k.val + 18) hg8 (k0_off22 k) (k0_off22_inb k h10) (k0_off22_eq k) (RF m d L ⟨8, hl8⟩)
        (trip_zero.sl.gather1_8 m d L k h10 hin) (hin _ _ _) rfl (xtok L (8 : Fin 10)) (SemLoc.dma ⟨8, hd8⟩ : SemLoc sig) 262144).trans
      (FG8_of m d L (10 * k.val + 18) (10 * (k.val + 1) + 8) (by omega) hg8 hp8)) $$ FG8
  isplitl [Hs9]
  · iapply ((store_canon m d L 9 hb9 (10 * k.val + 9) hc9 (k0_off2 L k 9#32) (k0_off2_inb L k 9) (k0_off2_eq L k 9) f0 (RF m d L ⟨9, hl9⟩)
        (fun i _ => congrFun (kp_RF_of m d L 9 (10 * k.val + 9) (by omega) hl9 hc9) i) (trip_zero.sl.dma0_9 m d L) rfl (SemLoc.dma ⟨19, hd19⟩ : SemLoc sig) 262144).trans
      (FS9_of m d L (10 * k.val + 9) (10 * (k.val + 1) - 1) (by omega) hc9 hp9)) $$ Hs9
  isplitl [Hs0]
  · iexact Hs0
  isplitl [Hs1]
  · iexact Hs1
  isplitl [Hs2]
  · iexact Hs2
  isplitl [Hs3]
  · iexact Hs3
  isplitl [Hs4]
  · iexact Hs4
  isplitl [Hs5]
  · iexact Hs5
  isplitl [Hs6]
  · iexact Hs6
  isplitl [Hs7]
  · iexact Hs7
  isplitl [Hs8]
  · iexact Hs8
  isplitl [FG9]
  · iexact FG9
  unfold tokx
  iexact FG9_src

end Cert.Proof.KernelRun

end
-- ==== Proof.KTripMid.lean ====
/-
  One trip of the ring, 1 ≤ k ≤ 8: for each slot b in turn, the gather of chunk 10 k + b is waited for and the slot
  copied out to that chunk; then the copy-out of the previous slot is waited for and that slot is refilled with the
  gather of the chunk ten further on. Slot 9's gather of chunk 10 k + 9 is issued and waited for within the trip; its
  copy-out is what the trip leaves in flight. Every landing is the specified rows: a gather leaves `RF n` in its
  slot, a copy-out leaves `OUT` on its chunk.
-/
import proofs.«206297_g77653008712327_cont_9to1c4b_438_14_alg».proof.Proof.KTripLemmas
import proofs.«206297_g77653008712327_cont_9to1c4b_438_14_alg».proof.Proof.KConv

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x100x64 EltTy.i32)
local notation "xV" => (Memref.whole Cert.Kernel.main_arg1_scv : Memref Cert.Kernel.sig Kind.scVector Space.hbm Cert.Kernel.S100000x128 EltTy.f32)
local notation "oV" => (Memref.whole Cert.Kernel.main_v1_scv : Memref Cert.Kernel.sig Kind.scVector Space.hbm Cert.Kernel.S32x100x64x128 EltTy.f32)
local notation "sV" => (Memref.whole Cert.Kernel.cc0_scratch0 : Memref Cert.Kernel.sig Kind.scVector Space.vmem Cert.Kernel.S100x64 EltTy.i32)
local notation "rV" => (Memref.whole Cert.Kernel.cc0_scratch1 : Memref Cert.Kernel.sig Kind.scVector Space.vmem Cert.Kernel.S10x64x128 EltTy.f32)

variable (m : (ℓ : Loc nD τ sig) → Buf (Elt F) ℓ) [FloatOps F]
variable (d : Dev nD) (L : grid0.Coords)
variable (O : CellTallies nD τ sig (HIx 1)) (W : Waits sig (HIx 1)) (f0 : Buf (Elt F) (oLoc d))

set_option maxHeartbeats 16000000 in
theorem trip_mid (hpre : Lookup.InRange (idx3 m d)) (k : Fin k0_t1_loop.trips) (acc : BitVec 32) (hk1 : 1 ≤ k.val) (hk8 : k.val ≤ 8) :
    inv m d L O W f0 k.val acc ⊢ wp frame (wpE (defs₀ (F := F)) 𝒱₀ (thr d L) none) Set.univ
      (k0_t1_body L iV (Memref.isWhole_whole _) xV (Memref.isWhole_whole _) oV (Memref.isWhole_whole _) sV (Memref.isWhole_whole _) rV (Memref.isWhole_whole _) cc0_scratch2 cc0_scratch3 cc0_scoped0 k acc) (inv m d L O W f0 (k.val + 1)) := by
  have h1 : k0_cond1 k = 1#1 := (cond1_iff k).2 hk1
  have h2 : k0_cond2 k = 1#1 := (cond2_iff k).2 hk8
  have h3 : k0_cond3 k = 1#1 := (cond3_iff k).2 hk8
  have h4 : k0_cond4 k = 1#1 := (cond4_iff k).2 hk8
  have h5 : k0_cond5 k = 1#1 := (cond5_iff k).2 hk8
  have h6 : k0_cond6 k = 1#1 := (cond6_iff k).2 hk8
  have h7 : k0_cond7 k = 1#1 := (cond7_iff k).2 hk8
  have h8 : k0_cond8 k = 1#1 := (cond8_iff k).2 hk8
  have h9 : k0_cond9 k = 1#1 := (cond9_iff k).2 hk8
  have h10 : k0_cond10 k = 1#1 := (cond10_iff k).2 hk8
  have hin := hin_all m d L hpre
  have hb0 : (0 : ℕ) < 10 := by omega
  have hb1 : (1 : ℕ) < 10 := by omega
  have hb2 : (2 : ℕ) < 10 := by omega
  have hb3 : (3 : ℕ) < 10 := by omega
  have hb4 : (4 : ℕ) < 10 := by omega
  have hb5 : (5 : ℕ) < 10 := by omega
  have hb6 : (6 : ℕ) < 10 := by omega
  have hb7 : (7 : ℕ) < 10 := by omega
  have hb8 : (8 : ℕ) < 10 := by omega
  have hb9 : (9 : ℕ) < 10 := by omega
  have hn0 : 10 * k.val + 0 < 100 := by omega
  have hn1 : 10 * k.val + 1 < 100 := by omega
  have hn2 : 10 * k.val + 2 < 100 := by omega
  have hn3 : 10 * k.val + 3 < 100 := by omega
  have hn4 : 10 * k.val + 4 < 100 := by omega
  have hn5 : 10 * k.val + 5 < 100 := by omega
  have hn6 : 10 * k.val + 6 < 100 := by omega
  have hn7 : 10 * k.val + 7 < 100 := by omega
  have hn8 : 10 * k.val + 8 < 100 := by omega
  have hn9 : 10 * k.val + 9 < 100 := by omega
  have hn10 : 10 * k.val + 10 < 100 := by omega
  have hn11 : 10 * k.val + 11 < 100 := by omega
  have hn12 : 10 * k.val + 12 < 100 := by omega
  have hn13 : 10 * k.val + 13 < 100 := by omega
  have hn14 : 10 * k.val + 14 < 100 := by omega
  have hn15 : 10 * k.val + 15 < 100 := by omega
  have hn16 : 10 * k.val + 16 < 100 := by omega
  have hn17 : 10 * k.val + 17 < 100 := by omega
  have hn18 : 10 * k.val + 18 < 100 := by omega
  have hnm : 10 * k.val - 1 < 100 := by omega
  have hd0 : (0 : ℕ) < sig.nDmaSem := by show 0 < 21; omega
  have hd1 : (1 : ℕ) < sig.nDmaSem := by show 1 < 21; omega
  have hd2 : (2 : ℕ) < sig.nDmaSem := by show 2 < 21; omega
  have hd3 : (3 : ℕ) < sig.nDmaSem := by show 3 < 21; omega
  have hd4 : (4 : ℕ) < sig.nDmaSem := by show 4 < 21; omega
  have hd5 : (5 : ℕ) < sig.nDmaSem := by show 5 < 21; omega
  have hd6 : (6 : ℕ) < sig.nDmaSem := by show 6 < 21; omega
  have hd7 : (7 : ℕ) < sig.nDmaSem := by show 7 < 21; omega
  have hd8 : (8 : ℕ) < sig.nDmaSem := by show 8 < 21; omega
  have hd9 : (9 : ℕ) < sig.nDmaSem := by show 9 < 21; omega
  have hd10 : (10 : ℕ) < sig.nDmaSem := by show 10 < 21; omega
  have hd11 : (11 : ℕ) < sig.nDmaSem := by show 11 < 21; omega
  have hd12 : (12 : ℕ) < sig.nDmaSem := by show 12 < 21; omega
  have hd13 : (13 : ℕ) < sig.nDmaSem := by show 13 < 21; omega
  have hd14 : (14 : ℕ) < sig.nDmaSem := by show 14 < 21; omega
  have hd15 : (15 : ℕ) < sig.nDmaSem := by show 15 < 21; omega
  have hd16 : (16 : ℕ) < sig.nDmaSem := by show 16 < 21; omega
  have hd17 : (17 : ℕ) < sig.nDmaSem := by show 17 < 21; omega
  have hd18 : (18 : ℕ) < sig.nDmaSem := by show 18 < 21; omega
  have hd19 : (19 : ℕ) < sig.nDmaSem := by show 19 < 21; omega
  generalize hQ : inv m d L O W f0 (k.val + 1) = Qpost
  rw [inv_mid m d L O W f0 k.val hk1 (by omega)]
  unfold invM common FG0 FG1 FG2 FG3 FG4 FG5 FG6 FG7 FG8 FS9 GD0 GD1 GD2 GD3 GD4 GD5 GD6 GD7 GD8 SD9 tokx
  rw [bigSep_Ico_pop10 (chP d L (widL L) f0) (10 * k.val) 100 (by omega),
    bigSep_Ico_pop10 (lstP d L fullShare (IDXV m d L)) (10 * k.val + 9) 100 (by omega),
    chP_K0 d L f0 k (by omega), chP_K1 d L f0 k (by omega), chP_K2 d L f0 k (by omega), chP_K3 d L f0 k (by omega), chP_K4 d L f0 k (by omega), chP_K5 d L f0 k (by omega), chP_K6 d L f0 k (by omega), chP_K7 d L f0 k (by omega), chP_K8 d L f0 k (by omega), chP_K9 d L f0 k (by omega),
    lstP_K0 d L fullShare (IDXV m d L) k h1 (by omega), lstP_K1 d L fullShare (IDXV m d L) k h2 (by omega), lstP_K2 d L fullShare (IDXV m d L) k h3 (by omega), lstP_K3 d L fullShare (IDXV m d L) k h4 (by omega), lstP_K4 d L fullShare (IDXV m d L) k h5 (by omega), lstP_K5 d L fullShare (IDXV m d L) k h6 (by omega), lstP_K6 d L fullShare (IDXV m d L) k h7 (by omega), lstP_K7 d L fullShare (IDXV m d L) k h8 (by omega), lstP_K8 d L fullShare (IDXV m d L) k h9 (by omega), lstP_K9 d L fullShare (IDXV m d L) k h10 (by omega)]
  iintro ⟨⟨#Hmw, Hdone, ⟨Hc0, Hc1, Hc2, Hc3, Hc4, Hc5, Hc6, Hc7, Hc8, Hc9, Hrest⟩, Hlret, ⟨Hl0, Hl1, Hl2, Hl3, Hl4, Hl5, Hl6, Hl7, Hl8, Hl9, Hlrest⟩, %W', %hW', HO⟩, FG0, FG1, FG2, FG3, FG4, FG5, FG6, FG7, FG8, FS9, Hs0, Hs1, Hs2, Hs3, Hs4, Hs5, Hs6, Hs7, Hs8, Hg9, Hx9⟩
  unfold k0_t1_body
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  sl_exec
  icases FG0_dst with ⟨HR0, HLr0⟩
  sl_exec
  icases FG1_dst with ⟨HR1, HLr1⟩
  sl_exec
  icases FG2_dst with ⟨HR2, HLr2⟩
  sl_exec
  icases FG3_dst with ⟨HR3, HLr3⟩
  sl_exec
  icases FG4_dst with ⟨HR4, HLr4⟩
  sl_exec
  icases FG5_dst with ⟨HR5, HLr5⟩
  sl_exec
  icases FG6_dst with ⟨HR6, HLr6⟩
  sl_exec
  icases FG7_dst with ⟨HR7, HLr7⟩
  sl_exec
  icases FG8_dst with ⟨HR8, HLr8⟩
  sl_exec
  sl_step
  subst hQ
  rw [inv_mid m d L O W f0 (k.val + 1) (by omega) (by omega)]
  unfold invM common

  isplitl [Hdone FS9_dst Hc0 Hc1 Hc2 Hc3 Hc4 Hc5 Hc6 Hc7 Hc8 Hrest Hlret HLr0 HLr1 HLr2 HLr3 HLr4 HLr5 HLr6 HLr7 HLr8 Hl0 Hlrest HO]
  · isplitr
    · iexact Hmw
    isplitl [Hdone FS9_dst Hc0 Hc1 Hc2 Hc3 Hc4 Hc5 Hc6 Hc7 Hc8]
    · rw [show 10 * (k.val + 1) - 1 = (10 * k.val - 1) + 10 from by omega, bigSep_range_push10]
      isplitl [Hdone]
      · iexact Hdone
      isplitl [FS9_dst]
      · iapply (chP_of d L (widL L) (OUT m d) (10 * k.val - 1) (10 * k.val - 1) rfl hnm) $$ FS9_dst
      isplitl [Hc0]
      · iapply (chP_of d L (widL L) (OUT m d) (10 * k.val + 0) (10 * k.val - 1 + 1) (by omega) hn0)
        iapply (Entails.of_eq (chunk_canon m d L 0 hb0 (10 * k.val + 0) hn0 (k0_off2 L k 0#32) (k0_off2_inb L k 0) (k0_off2_eq L k 0) f0 (RF m d L ⟨10 * k.val + 0, hn0⟩) (fun _ _ => rfl) (trip_mid.sl.dma0 m d L k hk1 hk8) rfl)) $$ Hc0
      isplitl [Hc1]
      · iapply (chP_of d L (widL L) (OUT m d) (10 * k.val + 1) (10 * k.val - 1 + 2) (by omega) hn1)
        iapply (Entails.of_eq (chunk_canon m d L 1 hb1 (10 * k.val + 1) hn1 (k0_off2 L k 1#32) (k0_off2_inb L k 1) (k0_off2_eq L k 1) f0 (RF m d L ⟨10 * k.val + 1, hn1⟩) (fun _ _ => rfl) (trip_mid.sl.dma0_1 m d L k hk1 hk8) rfl)) $$ Hc1
      isplitl [Hc2]
      · iapply (chP_of d L (widL L) (OUT m d) (10 * k.val + 2) (10 * k.val - 1 + 3) (by omega) hn2)
        iapply (Entails.of_eq (chunk_canon m d L 2 hb2 (10 * k.val + 2) hn2 (k0_off2 L k 2#32) (k0_off2_inb L k 2) (k0_off2_eq L k 2) f0 (RF m d L ⟨10 * k.val + 2, hn2⟩) (fun _ _ => rfl) (trip_mid.sl.dma0_2 m d L k hk1 hk8) rfl)) $$ Hc2
      isplitl [Hc3]
      · iapply (chP_of d L (widL L) (OUT m d) (10 * k.val + 3) (10 * k.val - 1 + 4) (by omega) hn3)
        iapply (Entails.of_eq (chunk_canon m d L 3 hb3 (10 * k.val + 3) hn3 (k0_off2 L k 3#32) (k0_off2_inb L k 3) (k0_off2_eq L k 3) f0 (RF m d L ⟨10 * k.val + 3, hn3⟩) (fun _ _ => rfl) (trip_mid.sl.dma0_3 m d L k hk1 hk8) rfl)) $$ Hc3
      isplitl [Hc4]
      · iapply (chP_of d L (widL L) (OUT m d) (10 * k.val + 4) (10 * k.val - 1 + 5) (by omega) hn4)
        iapply (Entails.of_eq (chunk_canon m d L 4 hb4 (10 * k.val + 4) hn4 (k0_off2 L k 4#32) (k0_off2_inb L k 4) (k0_off2_eq L k 4) f0 (RF m d L ⟨10 * k.val + 4, hn4⟩) (fun _ _ => rfl) (trip_mid.sl.dma0_4 m d L k hk1 hk8) rfl)) $$ Hc4
      isplitl [Hc5]
      · iapply (chP_of d L (widL L) (OUT m d) (10 * k.val + 5) (10 * k.val - 1 + 6) (by omega) hn5)
        iapply (Entails.of_eq (chunk_canon m d L 5 hb5 (10 * k.val + 5) hn5 (k0_off2 L k 5#32) (k0_off2_inb L k 5) (k0_off2_eq L k 5) f0 (RF m d L ⟨10 * k.val + 5, hn5⟩) (fun _ _ => rfl) (trip_mid.sl.dma0_5 m d L k hk1 hk8) rfl)) $$ Hc5
      isplitl [Hc6]
      · iapply (chP_of d L (widL L) (OUT m d) (10 * k.val + 6) (10 * k.val - 1 + 7) (by omega) hn6)
        iapply (Entails.of_eq (chunk_canon m d L 6 hb6 (10 * k.val + 6) hn6 (k0_off2 L k 6#32) (k0_off2_inb L k 6) (k0_off2_eq L k 6) f0 (RF m d L ⟨10 * k.val + 6, hn6⟩) (fun _ _ => rfl) (trip_mid.sl.dma0_6 m d L k hk1 hk8) rfl)) $$ Hc6
      isplitl [Hc7]
      · iapply (chP_of d L (widL L) (OUT m d) (10 * k.val + 7) (10 * k.val - 1 + 8) (by omega) hn7)
        iapply (Entails.of_eq (chunk_canon m d L 7 hb7 (10 * k.val + 7) hn7 (k0_off2 L k 7#32) (k0_off2_inb L k 7) (k0_off2_eq L k 7) f0 (RF m d L ⟨10 * k.val + 7, hn7⟩) (fun _ _ => rfl) (trip_mid.sl.dma0_7 m d L k hk1 hk8) rfl)) $$ Hc7
      iapply (chP_of d L (widL L) (OUT m d) (10 * k.val + 8) (10 * k.val - 1 + 9) (by omega) hn8)
      iapply (Entails.of_eq (chunk_canon m d L 8 hb8 (10 * k.val + 8) hn8 (k0_off2 L k 8#32) (k0_off2_inb L k 8) (k0_off2_eq L k 8) f0 (RF m d L ⟨10 * k.val + 8, hn8⟩) (fun _ _ => rfl) (trip_mid.sl.dma0_8 m d L k hk1 hk8) rfl)) $$ Hc8
    isplitl [Hrest]
    · rw [show 10 * (k.val + 1) = 10 * k.val + 10 from by omega]; iexact Hrest
    isplitl [Hlret HLr0 HLr1 HLr2 HLr3 HLr4 HLr5 HLr6 HLr7 HLr8 Hl0]
    · rw [show 10 * (k.val + 1) = 10 * k.val + 10 from by omega, bigSep_range_push10]
      isplitl [Hlret]
      · iexact Hlret
      isplitl [HLr0]
      · iapply (lstP_of d L fullShare (IDXV m d L) (10 * k.val + 0) (10 * k.val) (by omega) hn0) $$ HLr0
      isplitl [HLr1]
      · iapply (lstP_of d L fullShare (IDXV m d L) (10 * k.val + 1) (10 * k.val + 1) (by omega) hn1) $$ HLr1
      isplitl [HLr2]
      · iapply (lstP_of d L fullShare (IDXV m d L) (10 * k.val + 2) (10 * k.val + 2) (by omega) hn2) $$ HLr2
      isplitl [HLr3]
      · iapply (lstP_of d L fullShare (IDXV m d L) (10 * k.val + 3) (10 * k.val + 3) (by omega) hn3) $$ HLr3
      isplitl [HLr4]
      · iapply (lstP_of d L fullShare (IDXV m d L) (10 * k.val + 4) (10 * k.val + 4) (by omega) hn4) $$ HLr4
      isplitl [HLr5]
      · iapply (lstP_of d L fullShare (IDXV m d L) (10 * k.val + 5) (10 * k.val + 5) (by omega) hn5) $$ HLr5
      isplitl [HLr6]
      · iapply (lstP_of d L fullShare (IDXV m d L) (10 * k.val + 6) (10 * k.val + 6) (by omega) hn6) $$ HLr6
      isplitl [HLr7]
      · iapply (lstP_of d L fullShare (IDXV m d L) (10 * k.val + 7) (10 * k.val + 7) (by omega) hn7) $$ HLr7
      isplitl [HLr8]
      · iapply (lstP_of d L fullShare (IDXV m d L) (10 * k.val + 8) (10 * k.val + 8) (by omega) hn8) $$ HLr8
      iapply (Entails.of_eq (lstP_K0 d L fullShare (IDXV m d L) k h1 hn9).symm) $$ Hl0
    isplitl [Hlrest]
    · rw [show 10 * (k.val + 1) + 9 = 10 * k.val + 9 + 10 from by omega]; iexact Hlrest
    iexists _; isplitr
    swap
    · iexact HO
    ipureintro
    intro p hp
    simp only [Finset.mem_insert] at hp
    rcases hp with rfl | rfl | rfl | rfl | rfl | rfl | rfl | rfl | rfl | rfl | rfl | rfl | rfl | rfl | rfl | rfl | rfl | rfl | rfl | rfl | hp
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact hW' p hp
  isplitl [FG0]
  · iapply ((gather_canon m d L 0 hb0 hpre (10 * k.val + 10) hn10 (k0_off6 k) (k0_off6_inb k h2) (k0_off6_eq k) (RF m d L ⟨10 * k.val + 0, hn0⟩) (trip_mid.sl.gather1_1 m d L k h2 hin) (hin _ _ _) rfl (xtok L (0 : Fin 10)) (SemLoc.dma ⟨0, hd0⟩ : SemLoc sig) 262144).trans (FG0_of m d L (10 * k.val + 10) (10 * (k.val + 1) + 0) (by omega) hn10 _)) $$ FG0
  isplitl [FG1]
  · iapply ((gather_canon m d L 1 hb1 hpre (10 * k.val + 11) hn11 (k0_off8 k) (k0_off8_inb k h3) (k0_off8_eq k) (RF m d L ⟨10 * k.val + 1, hn1⟩) (trip_mid.sl.gather1_2 m d L k h3 hin) (hin _ _ _) rfl (xtok L (1 : Fin 10)) (SemLoc.dma ⟨1, hd1⟩ : SemLoc sig) 262144).trans (FG1_of m d L (10 * k.val + 11) (10 * (k.val + 1) + 1) (by omega) hn11 _)) $$ FG1
  isplitl [FG2]
  · iapply ((gather_canon m d L 2 hb2 hpre (10 * k.val + 12) hn12 (k0_off10 k) (k0_off10_inb k h4) (k0_off10_eq k) (RF m d L ⟨10 * k.val + 2, hn2⟩) (trip_mid.sl.gather1_3 m d L k h4 hin) (hin _ _ _) rfl (xtok L (2 : Fin 10)) (SemLoc.dma ⟨2, hd2⟩ : SemLoc sig) 262144).trans (FG2_of m d L (10 * k.val + 12) (10 * (k.val + 1) + 2) (by omega) hn12 _)) $$ FG2
  isplitl [FG3]
  · iapply ((gather_canon m d L 3 hb3 hpre (10 * k.val + 13) hn13 (k0_off12 k) (k0_off12_inb k h5) (k0_off12_eq k) (RF m d L ⟨10 * k.val + 3, hn3⟩) (trip_mid.sl.gather1_4 m d L k h5 hin) (hin _ _ _) rfl (xtok L (3 : Fin 10)) (SemLoc.dma ⟨3, hd3⟩ : SemLoc sig) 262144).trans (FG3_of m d L (10 * k.val + 13) (10 * (k.val + 1) + 3) (by omega) hn13 _)) $$ FG3
  isplitl [FG4]
  · iapply ((gather_canon m d L 4 hb4 hpre (10 * k.val + 14) hn14 (k0_off14 k) (k0_off14_inb k h6) (k0_off14_eq k) (RF m d L ⟨10 * k.val + 4, hn4⟩) (trip_mid.sl.gather1_5 m d L k h6 hin) (hin _ _ _) rfl (xtok L (4 : Fin 10)) (SemLoc.dma ⟨4, hd4⟩ : SemLoc sig) 262144).trans (FG4_of m d L (10 * k.val + 14) (10 * (k.val + 1) + 4) (by omega) hn14 _)) $$ FG4
  isplitl [FG5]
  · iapply ((gather_canon m d L 5 hb5 hpre (10 * k.val + 15) hn15 (k0_off16 k) (k0_off16_inb k h7) (k0_off16_eq k) (RF m d L ⟨10 * k.val + 5, hn5⟩) (trip_mid.sl.gather1_6 m d L k h7 hin) (hin _ _ _) rfl (xtok L (5 : Fin 10)) (SemLoc.dma ⟨5, hd5⟩ : SemLoc sig) 262144).trans (FG5_of m d L (10 * k.val + 15) (10 * (k.val + 1) + 5) (by omega) hn15 _)) $$ FG5
  isplitl [FG6]
  · iapply ((gather_canon m d L 6 hb6 hpre (10 * k.val + 16) hn16 (k0_off18 k) (k0_off18_inb k h8) (k0_off18_eq k) (RF m d L ⟨10 * k.val + 6, hn6⟩) (trip_mid.sl.gather1_7 m d L k h8 hin) (hin _ _ _) rfl (xtok L (6 : Fin 10)) (SemLoc.dma ⟨6, hd6⟩ : SemLoc sig) 262144).trans (FG6_of m d L (10 * k.val + 16) (10 * (k.val + 1) + 6) (by omega) hn16 _)) $$ FG6
  isplitl [FG7]
  · iapply ((gather_canon m d L 7 hb7 hpre (10 * k.val + 17) hn17 (k0_off20 k) (k0_off20_inb k h9) (k0_off20_eq k) (RF m d L ⟨10 * k.val + 7, hn7⟩) (trip_mid.sl.gather1_8 m d L k h9 hin) (hin _ _ _) rfl (xtok L (7 : Fin 10)) (SemLoc.dma ⟨7, hd7⟩ : SemLoc sig) 262144).trans (FG7_of m d L (10 * k.val + 17) (10 * (k.val + 1) + 7) (by omega) hn17 _)) $$ FG7
  isplitl [FG8]
  · iapply ((gather_canon m d L 8 hb8 hpre (10 * k.val + 18) hn18 (k0_off22 k) (k0_off22_inb k h10) (k0_off22_eq k) (RF m d L ⟨10 * k.val + 8, hn8⟩) (trip_mid.sl.gather3 m d L k h10 hin) (hin _ _ _) rfl (xtok L (8 : Fin 10)) (SemLoc.dma ⟨8, hd8⟩ : SemLoc sig) 262144).trans (FG8_of m d L (10 * k.val + 18) (10 * (k.val + 1) + 8) (by omega) hn18 _)) $$ FG8
  isplitl [FS9]
  · iapply ((store_canon m d L 9 hb9 (10 * k.val + 9) hn9 (k0_off2 L k 9#32) (k0_off2_inb L k 9) (k0_off2_eq L k 9) f0 _
        (slot_after m d L 9 hb9 hpre (10 * k.val + 9) hn9 (k0_off4 k) (k0_off4_inb k h1) (k0_off4_eq k) (RF m d L ⟨10 * k.val - 1, hnm⟩) (trip_mid.sl.gather1 m d L k h1 hin) (hin _ _ _) rfl) (trip_mid.sl.dma0_9 m d L k hk1 hk8 h1 hin) rfl (SemLoc.dma ⟨19, hd19⟩ : SemLoc sig) 262144).trans
      (FS9_of m d L (10 * k.val + 9) (10 * (k.val + 1) - 1) (by omega) hn9 _)) $$ FS9
  isplitl [Hs0]
  · iexact Hs0
  isplitl [Hs1]
  · iexact Hs1
  isplitl [Hs2]
  · iexact Hs2
  isplitl [Hs3]
  · iexact Hs3
  isplitl [Hs4]
  · iexact Hs4
  isplitl [Hs5]
  · iexact Hs5
  isplitl [Hs6]
  · iexact Hs6
  isplitl [Hs7]
  · iexact Hs7
  isplitl [Hs8]
  · iexact Hs8
  isplitl [Hg9]
  · iexact Hg9
  unfold tokx
  iexact Hx9

end Cert.Proof.KernelRun

end
-- ==== Proof.KTripLast.lean ====
/-
  Trip 9, the last, of the worker's loop. Before it slots 0 to 8 carry the gathers of chunks 90 to 98 and slot 9 the
  copy-out of chunk 89. Step 0 waits the gather of chunk 90, copies slot 0 out, waits the copy-out of chunk 89 and
  issues the last gather, of chunk 99 into slot 9 by row 99 of the index scratch; steps 1 to 9 each wait their
  slot's gather and copy the slot out, and issue nothing more. After it chunks 0 to 89 hold the lookup's value, the
  copies-out of chunks 90 to 99 are in flight, every row of the index scratch and every token of the table is back:
  the state after the loop.
-/
import proofs.«206297_g77653008712327_cont_9to1c4b_438_14_alg».proof.Proof.KTripPieces

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x100x64 EltTy.i32)
local notation "xV" => (Memref.whole Cert.Kernel.main_arg1_scv : Memref Cert.Kernel.sig Kind.scVector Space.hbm Cert.Kernel.S100000x128 EltTy.f32)
local notation "oV" => (Memref.whole Cert.Kernel.main_v1_scv : Memref Cert.Kernel.sig Kind.scVector Space.hbm Cert.Kernel.S32x100x64x128 EltTy.f32)
local notation "sV" => (Memref.whole Cert.Kernel.cc0_scratch0 : Memref Cert.Kernel.sig Kind.scVector Space.vmem Cert.Kernel.S100x64 EltTy.i32)
local notation "rV" => (Memref.whole Cert.Kernel.cc0_scratch1 : Memref Cert.Kernel.sig Kind.scVector Space.vmem Cert.Kernel.S10x64x128 EltTy.f32)

variable (m : (ℓ : Loc nD τ sig) → Buf (Elt F) ℓ) [FloatOps F]
variable (d : Dev nD) (L : grid0.Coords)
variable (O : CellTallies nD τ sig (HIx 1)) (W : Waits sig (HIx 1)) (f0 : Buf (Elt F) (oLoc d))

set_option maxHeartbeats 16000000 in
theorem trip_last (hpre : Lookup.InRange (idx3 m d)) (k : Fin k0_t1_loop.trips) (acc : BitVec 32) (hk9 : k.val = 9) :
    inv m d L O W f0 k.val acc ⊢ wp frame (wpE (defs₀ (F := F)) 𝒱₀ (thr d L) none) Set.univ
      (k0_t1_body L iV (Memref.isWhole_whole _) xV (Memref.isWhole_whole _) oV (Memref.isWhole_whole _) sV (Memref.isWhole_whole _) rV (Memref.isWhole_whole _) cc0_scratch2 cc0_scratch3 cc0_scoped0 k acc) (inv m d L O W f0 (k.val + 1)) := by
  have h1 : k0_cond1 k = 1#1 := (cond1_iff k).2 (by omega)
  have h2 : ¬ k0_cond2 k = 1#1 := fun h => by have := (cond2_iff k).1 h; omega
  have h3 : ¬ k0_cond3 k = 1#1 := fun h => by have := (cond3_iff k).1 h; omega
  have h4 : ¬ k0_cond4 k = 1#1 := fun h => by have := (cond4_iff k).1 h; omega
  have h5 : ¬ k0_cond5 k = 1#1 := fun h => by have := (cond5_iff k).1 h; omega
  have h6 : ¬ k0_cond6 k = 1#1 := fun h => by have := (cond6_iff k).1 h; omega
  have h7 : ¬ k0_cond7 k = 1#1 := fun h => by have := (cond7_iff k).1 h; omega
  have h8 : ¬ k0_cond8 k = 1#1 := fun h => by have := (cond8_iff k).1 h; omega
  have h9 : ¬ k0_cond9 k = 1#1 := fun h => by have := (cond9_iff k).1 h; omega
  have h10 : ¬ k0_cond10 k = 1#1 := fun h => by have := (cond10_iff k).1 h; omega
  have hin := hin_all m d L hpre
  generalize hQ : inv m d L O W f0 (k.val + 1) = Qpost
  rw [show inv m d L O W f0 k.val acc = invM m d L O W f0 9 (by omega) (by omega) from by rw [hk9]; exact inv_mid m d L O W f0 9 (by omega) (by omega) acc]
  unfold invM common FG0 FG1 FG2 FG3 FG4 FG5 FG6 FG7 FG8 FS9 GD0 GD1 GD2 GD3 GD4 GD5 GD6 GD7 GD8 SD9 tokx
  rw [bigSep_Ico_pop10 (chP d L (widL L) f0) (10 * 9) 100 (by omega),
    bigSep_Ico_pop (lstP d L fullShare (IDXV m d L)) (10 * 9 + 9) 100 (by omega),
    kp_chP_K0 d L f0 k (10 * 9) (by omega) (by omega),
    kp_chP_K1 d L f0 k (10 * 9 + 1) (by omega) (by omega),
    kp_chP_K2 d L f0 k (10 * 9 + 2) (by omega) (by omega),
    kp_chP_K3 d L f0 k (10 * 9 + 3) (by omega) (by omega),
    kp_chP_K4 d L f0 k (10 * 9 + 4) (by omega) (by omega),
    kp_chP_K5 d L f0 k (10 * 9 + 5) (by omega) (by omega),
    kp_chP_K6 d L f0 k (10 * 9 + 6) (by omega) (by omega),
    kp_chP_K7 d L f0 k (10 * 9 + 7) (by omega) (by omega),
    kp_chP_K8 d L f0 k (10 * 9 + 8) (by omega) (by omega),
    kp_chP_K9 d L f0 k (10 * 9 + 9) (by omega) (by omega),
    kp_lstP_K0 d L fullShare (IDXV m d L) k h1 (10 * 9 + 9) (by omega) (by omega)]
  iintro ⟨⟨#Hmw, Hdone, ⟨Hc0, Hc1, Hc2, Hc3, Hc4, Hc5, Hc6, Hc7, Hc8, Hc9, Hrest⟩, Hlret, ⟨Hl0, Hlrest⟩, %W', %hW', HO⟩, FG0, FG1, FG2, FG3, FG4, FG5, FG6, FG7, FG8, FS9, Hs0, Hs1, Hs2, Hs3, Hs4, Hs5, Hs6, Hs7, Hs8, Hg9, Hx9⟩
  unfold k0_t1_body
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  sl_exec
  icases FG0_dst with ⟨HR0, HLr0⟩
  sl_exec
  icases FG1_dst with ⟨HR1, HLr1⟩
  sl_exec
  icases FG2_dst with ⟨HR2, HLr2⟩
  sl_exec
  icases FG3_dst with ⟨HR3, HLr3⟩
  sl_exec
  icases FG4_dst with ⟨HR4, HLr4⟩
  sl_exec
  icases FG5_dst with ⟨HR5, HLr5⟩
  sl_exec
  icases FG6_dst with ⟨HR6, HLr6⟩
  sl_exec
  icases FG7_dst with ⟨HR7, HLr7⟩
  sl_exec
  icases FG8_dst with ⟨HR8, HLr8⟩
  sl_exec
  sl_step
  subst hQ
  rw [inv_fin m d L O W f0 (k.val + 1) (by omega)]
  unfold invF common
  have hb0 : (0 : ℕ) < 10 := by omega
  have hb1 : (1 : ℕ) < 10 := by omega
  have hb2 : (2 : ℕ) < 10 := by omega
  have hb3 : (3 : ℕ) < 10 := by omega
  have hb4 : (4 : ℕ) < 10 := by omega
  have hb5 : (5 : ℕ) < 10 := by omega
  have hb6 : (6 : ℕ) < 10 := by omega
  have hb7 : (7 : ℕ) < 10 := by omega
  have hb8 : (8 : ℕ) < 10 := by omega
  have hb9 : (9 : ℕ) < 10 := by omega
  have hq0 : 10 * 9 + 0 < 100 := by omega
  have hq1 : 10 * 9 + 1 < 100 := by omega
  have hq2 : 10 * 9 + 2 < 100 := by omega
  have hq3 : 10 * 9 + 3 < 100 := by omega
  have hq4 : 10 * 9 + 4 < 100 := by omega
  have hq5 : 10 * 9 + 5 < 100 := by omega
  have hq6 : 10 * 9 + 6 < 100 := by omega
  have hq7 : 10 * 9 + 7 < 100 := by omega
  have hq8 : 10 * 9 + 8 < 100 := by omega
  have hq9 : 10 * 9 + 9 < 100 := by omega
  have hc0 : 10 * k.val + 0 < 100 := by omega
  have hc1 : 10 * k.val + 1 < 100 := by omega
  have hc2 : 10 * k.val + 2 < 100 := by omega
  have hc3 : 10 * k.val + 3 < 100 := by omega
  have hc4 : 10 * k.val + 4 < 100 := by omega
  have hc5 : 10 * k.val + 5 < 100 := by omega
  have hc6 : 10 * k.val + 6 < 100 := by omega
  have hc7 : 10 * k.val + 7 < 100 := by omega
  have hc8 : 10 * k.val + 8 < 100 := by omega
  have hc9 : 10 * k.val + 9 < 100 := by omega
  have hf0 : (90 : ℕ) < 100 := by omega
  have hf1 : (91 : ℕ) < 100 := by omega
  have hf2 : (92 : ℕ) < 100 := by omega
  have hf3 : (93 : ℕ) < 100 := by omega
  have hf4 : (94 : ℕ) < 100 := by omega
  have hf5 : (95 : ℕ) < 100 := by omega
  have hf6 : (96 : ℕ) < 100 := by omega
  have hf7 : (97 : ℕ) < 100 := by omega
  have hf8 : (98 : ℕ) < 100 := by omega
  have hf9 : (99 : ℕ) < 100 := by omega
  have h89 : 10 * 9 - 1 < 100 := by omega
  have hd10 : (10 : ℕ) < sig.nDmaSem := by show 10 < 21; omega
  have hd11 : (11 : ℕ) < sig.nDmaSem := by show 11 < 21; omega
  have hd12 : (12 : ℕ) < sig.nDmaSem := by show 12 < 21; omega
  have hd13 : (13 : ℕ) < sig.nDmaSem := by show 13 < 21; omega
  have hd14 : (14 : ℕ) < sig.nDmaSem := by show 14 < 21; omega
  have hd15 : (15 : ℕ) < sig.nDmaSem := by show 15 < 21; omega
  have hd16 : (16 : ℕ) < sig.nDmaSem := by show 16 < 21; omega
  have hd17 : (17 : ℕ) < sig.nDmaSem := by show 17 < 21; omega
  have hd18 : (18 : ℕ) < sig.nDmaSem := by show 18 < 21; omega
  have hd19 : (19 : ℕ) < sig.nDmaSem := by show 19 < 21; omega
  isplitl [Hdone FS9_dst Hrest Hlret HLr0 HLr1 HLr2 HLr3 HLr4 HLr5 HLr6 HLr7 HLr8 Hl0 Hlrest HO]
  · isplitr
    · iexact Hmw
    isplitl [Hdone FS9_dst]
    · rw [bigSep_range_succ_of_eq (chP d L (widL L) (OUT m d)) (10 * 9 - 1) 90 (by omega)]
      isplitl [Hdone]
      · iexact Hdone
      iapply (chP_of d L (widL L) (OUT m d) (10 * 9 - 1) (10 * 9 - 1) rfl h89) $$ FS9_dst
    isplitl [Hrest]
    · rw [show (10 * 10 : ℕ) = 10 * 9 + 10 from rfl]; iexact Hrest
    isplitl [Hlret HLr0 HLr1 HLr2 HLr3 HLr4 HLr5 HLr6 HLr7 HLr8 Hl0]
    · rw [show (10 * 10 : ℕ) = 10 * 9 + 10 from rfl, bigSep_range_push10 (lstP d L fullShare (IDXV m d L)) (10 * 9)]
      isplitl [Hlret]
      · iexact Hlret
      isplitl [HLr0]
      · iapply (lstP_of d L fullShare (IDXV m d L) (10 * 9 + 0) (10 * 9) (by omega) hq0) $$ HLr0
      isplitl [HLr1]
      · iapply (lstP_of d L fullShare (IDXV m d L) (10 * 9 + 1) (10 * 9 + 1) (by omega) hq1) $$ HLr1
      isplitl [HLr2]
      · iapply (lstP_of d L fullShare (IDXV m d L) (10 * 9 + 2) (10 * 9 + 2) (by omega) hq2) $$ HLr2
      isplitl [HLr3]
      · iapply (lstP_of d L fullShare (IDXV m d L) (10 * 9 + 3) (10 * 9 + 3) (by omega) hq3) $$ HLr3
      isplitl [HLr4]
      · iapply (lstP_of d L fullShare (IDXV m d L) (10 * 9 + 4) (10 * 9 + 4) (by omega) hq4) $$ HLr4
      isplitl [HLr5]
      · iapply (lstP_of d L fullShare (IDXV m d L) (10 * 9 + 5) (10 * 9 + 5) (by omega) hq5) $$ HLr5
      isplitl [HLr6]
      · iapply (lstP_of d L fullShare (IDXV m d L) (10 * 9 + 6) (10 * 9 + 6) (by omega) hq6) $$ HLr6
      isplitl [HLr7]
      · iapply (lstP_of d L fullShare (IDXV m d L) (10 * 9 + 7) (10 * 9 + 7) (by omega) hq7) $$ HLr7
      isplitl [HLr8]
      · iapply (lstP_of d L fullShare (IDXV m d L) (10 * 9 + 8) (10 * 9 + 8) (by omega) hq8) $$ HLr8
      iapply (Entails.of_eq (kp_lstP_K0 d L fullShare (IDXV m d L) k h1 (10 * 9 + 9) hq9 (by omega)).symm) $$ Hl0
    isplitl [Hlrest]
    · iapply (Entails.of_eq (congrArg (fun a => bigSep (Finset.Ico a 100) (lstP d L fullShare (IDXV m d L))) (show 10 * 9 + 9 + 1 = 100 from rfl))) $$ Hlrest
    iexists _; isplitr
    swap
    · iexact HO
    ipureintro
    repeat (first | exact hW' | refine kp_ins_ok ?_)
  isplitl [Hs0]
  · iapply ((store_canon m d L 0 hb0 (10 * k.val + 0) hc0 (k0_off2 L k 0#32) (k0_off2_inb L k 0) (k0_off2_eq L k 0) f0 (RF m d L ⟨10 * 9 + 0, hq0⟩)
        (fun i _ => congrFun (kp_RF_of m d L (10 * 9 + 0) (10 * k.val + 0) (by omega) hq0 hc0) i) (trip_last.sl.dma0 m d L k) rfl (SemLoc.dma ⟨10, hd10⟩ : SemLoc sig) 262144).trans
      (FS0_of m d L (10 * k.val + 0) 90 (by omega) hc0 hf0)) $$ Hs0
  isplitl [Hs1]
  · iapply ((store_canon m d L 1 hb1 (10 * k.val + 1) hc1 (k0_off2 L k 1#32) (k0_off2_inb L k 1) (k0_off2_eq L k 1) f0 (RF m d L ⟨10 * 9 + 1, hq1⟩)
        (fun i _ => congrFun (kp_RF_of m d L (10 * 9 + 1) (10 * k.val + 1) (by omega) hq1 hc1) i) (trip_last.sl.dma0_1 m d L k) rfl (SemLoc.dma ⟨11, hd11⟩ : SemLoc sig) 262144).trans
      (FS1_of m d L (10 * k.val + 1) 91 (by omega) hc1 hf1)) $$ Hs1
  isplitl [Hs2]
  · iapply ((store_canon m d L 2 hb2 (10 * k.val + 2) hc2 (k0_off2 L k 2#32) (k0_off2_inb L k 2) (k0_off2_eq L k 2) f0 (RF m d L ⟨10 * 9 + 2, hq2⟩)
        (fun i _ => congrFun (kp_RF_of m d L (10 * 9 + 2) (10 * k.val + 2) (by omega) hq2 hc2) i) (trip_last.sl.dma0_2 m d L k) rfl (SemLoc.dma ⟨12, hd12⟩ : SemLoc sig) 262144).trans
      (FS2_of m d L (10 * k.val + 2) 92 (by omega) hc2 hf2)) $$ Hs2
  isplitl [Hs3]
  · iapply ((store_canon m d L 3 hb3 (10 * k.val + 3) hc3 (k0_off2 L k 3#32) (k0_off2_inb L k 3) (k0_off2_eq L k 3) f0 (RF m d L ⟨10 * 9 + 3, hq3⟩)
        (fun i _ => congrFun (kp_RF_of m d L (10 * 9 + 3) (10 * k.val + 3) (by omega) hq3 hc3) i) (trip_last.sl.dma0_3 m d L k) rfl (SemLoc.dma ⟨13, hd13⟩ : SemLoc sig) 262144).trans
      (FS3_of m d L (10 * k.val + 3) 93 (by omega) hc3 hf3)) $$ Hs3
  isplitl [Hs4]
  · iapply ((store_canon m d L 4 hb4 (10 * k.val + 4) hc4 (k0_off2 L k 4#32) (k0_off2_inb L k 4) (k0_off2_eq L k 4) f0 (RF m d L ⟨10 * 9 + 4, hq4⟩)
        (fun i _ => congrFun (kp_RF_of m d L (10 * 9 + 4) (10 * k.val + 4) (by omega) hq4 hc4) i) (trip_last.sl.dma0_4 m d L k) rfl (SemLoc.dma ⟨14, hd14⟩ : SemLoc sig) 262144).trans
      (FS4_of m d L (10 * k.val + 4) 94 (by omega) hc4 hf4)) $$ Hs4
  isplitl [Hs5]
  · iapply ((store_canon m d L 5 hb5 (10 * k.val + 5) hc5 (k0_off2 L k 5#32) (k0_off2_inb L k 5) (k0_off2_eq L k 5) f0 (RF m d L ⟨10 * 9 + 5, hq5⟩)
        (fun i _ => congrFun (kp_RF_of m d L (10 * 9 + 5) (10 * k.val + 5) (by omega) hq5 hc5) i) (trip_last.sl.dma0_5 m d L k) rfl (SemLoc.dma ⟨15, hd15⟩ : SemLoc sig) 262144).trans
      (FS5_of m d L (10 * k.val + 5) 95 (by omega) hc5 hf5)) $$ Hs5
  isplitl [Hs6]
  · iapply ((store_canon m d L 6 hb6 (10 * k.val + 6) hc6 (k0_off2 L k 6#32) (k0_off2_inb L k 6) (k0_off2_eq L k 6) f0 (RF m d L ⟨10 * 9 + 6, hq6⟩)
        (fun i _ => congrFun (kp_RF_of m d L (10 * 9 + 6) (10 * k.val + 6) (by omega) hq6 hc6) i) (trip_last.sl.dma0_6 m d L k) rfl (SemLoc.dma ⟨16, hd16⟩ : SemLoc sig) 262144).trans
      (FS6_of m d L (10 * k.val + 6) 96 (by omega) hc6 hf6)) $$ Hs6
  isplitl [Hs7]
  · iapply ((store_canon m d L 7 hb7 (10 * k.val + 7) hc7 (k0_off2 L k 7#32) (k0_off2_inb L k 7) (k0_off2_eq L k 7) f0 (RF m d L ⟨10 * 9 + 7, hq7⟩)
        (fun i _ => congrFun (kp_RF_of m d L (10 * 9 + 7) (10 * k.val + 7) (by omega) hq7 hc7) i) (trip_last.sl.dma0_7 m d L k) rfl (SemLoc.dma ⟨17, hd17⟩ : SemLoc sig) 262144).trans
      (FS7_of m d L (10 * k.val + 7) 97 (by omega) hc7 hf7)) $$ Hs7
  isplitl [Hs8]
  · iapply ((store_canon m d L 8 hb8 (10 * k.val + 8) hc8 (k0_off2 L k 8#32) (k0_off2_inb L k 8) (k0_off2_eq L k 8) f0 (RF m d L ⟨10 * 9 + 8, hq8⟩)
        (fun i _ => congrFun (kp_RF_of m d L (10 * 9 + 8) (10 * k.val + 8) (by omega) hq8 hc8) i) (trip_last.sl.dma0_8 m d L k) rfl (SemLoc.dma ⟨18, hd18⟩ : SemLoc sig) 262144).trans
      (FS8_of m d L (10 * k.val + 8) 98 (by omega) hc8 hf8)) $$ Hs8
  isplitl [FS9]
  · iapply ((store_canon m d L 9 hb9 (10 * k.val + 9) hc9 (k0_off2 L k 9#32) (k0_off2_inb L k 9) (k0_off2_eq L k 9) f0
        ((slotC 9 hb9).view.writes (Elt F) (RF m d L ⟨10 * 9 - 1, h89⟩) [⟨Rect.whole S64x128, trip_last.sl.gather1 m d L k h1 hin⟩])
        (slot_after m d L 9 hb9 hpre (10 * k.val + 9) hc9 (k0_off4 k) (k0_off4_inb k h1) (k0_off4_eq k) (RF m d L ⟨10 * 9 - 1, h89⟩)
          (trip_last.sl.gather1 m d L k h1 hin) (hin _ _ _) rfl)
        (trip_last.sl.dma0_9 m d L k h1 hin) rfl (SemLoc.dma ⟨19, hd19⟩ : SemLoc sig) 262144).trans
      (FS9_of m d L (10 * k.val + 9) 99 (by omega) hc9 hf9)) $$ FS9
  isplitl [FG0]
  · iexact FG0
  isplitl [FG1]
  · iexact FG1
  isplitl [FG2]
  · iexact FG2
  isplitl [FG3]
  · iexact FG3
  isplitl [FG4]
  · iexact FG4
  isplitl [FG5]
  · iexact FG5
  isplitl [FG6]
  · iexact FG6
  isplitl [FG7]
  · iexact FG7
  isplitl [FG8]
  · iexact FG8
  isplitl [Hg9]
  · iexact Hg9
  unfold tokx
  isplitl [FG0_src]
  · iexact FG0_src
  isplitl [FG1_src]
  · iexact FG1_src
  isplitl [FG2_src]
  · iexact FG2_src
  isplitl [FG3_src]
  · iexact FG3_src
  isplitl [FG4_src]
  · iexact FG4_src
  isplitl [FG5_src]
  · iexact FG5_src
  isplitl [FG6_src]
  · iexact FG6_src
  isplitl [FG7_src]
  · iexact FG7_src
  isplitl [FG8_src]
  · iexact FG8_src
  iexact Hx9

end Cert.Proof.KernelRun

end
-- ==== Proof.KBody.lean ====
/-
  One worker's task, from what it is handed to what it hands back.

  The worker's row of row numbers is copied into its index scratch; ten gathers fill the ten slots; the loop's ten trips
  keep every slot busy (the invariant of the ring is `inv`); ten last waits drain the copies-out. What comes back is the
  worker's block of the output at the one function `OUT`, the row numbers and the table's share as they were, and the
  scratch buffers and cells as they must be returned.
-/
import proofs.«206297_g77653008712327_cont_9to1c4b_438_14_alg».proof.Proof.KTripLemmas
import proofs.«206297_g77653008712327_cont_9to1c4b_438_14_alg».proof.Proof.KConv
import proofs.«206297_g77653008712327_cont_9to1c4b_438_14_alg».proof.Proof.KOpen
import proofs.«206297_g77653008712327_cont_9to1c4b_438_14_alg».proof.Proof.KLaunch
import proofs.«206297_g77653008712327_cont_9to1c4b_438_14_alg».proof.Proof.Reshape
import proofs.«206297_g77653008712327_cont_9to1c4b_438_14_alg».proof.Proof.KTripZero
import proofs.«206297_g77653008712327_cont_9to1c4b_438_14_alg».proof.Proof.KTripMid
import proofs.«206297_g77653008712327_cont_9to1c4b_438_14_alg».proof.Proof.KTripLast

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32x100x64 EltTy.i32)
local notation "xV" => (Memref.whole Cert.Kernel.main_arg1_scv : Memref Cert.Kernel.sig Kind.scVector Space.hbm Cert.Kernel.S100000x128 EltTy.f32)
local notation "oV" => (Memref.whole Cert.Kernel.main_v1_scv : Memref Cert.Kernel.sig Kind.scVector Space.hbm Cert.Kernel.S32x100x64x128 EltTy.f32)
local notation "sV" => (Memref.whole Cert.Kernel.cc0_scratch0 : Memref Cert.Kernel.sig Kind.scVector Space.vmem Cert.Kernel.S100x64 EltTy.i32)
local notation "rV" => (Memref.whole Cert.Kernel.cc0_scratch1 : Memref Cert.Kernel.sig Kind.scVector Space.vmem Cert.Kernel.S10x64x128 EltTy.f32)

variable (m : (ℓ : Loc nD τ sig) → Buf (Elt F) ℓ) [FloatOps F]
variable (d : Dev nD) (L : grid0.Coords)

set_option maxHeartbeats 16000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goW m d (widL L) ∗ scopedBufs (thr d L) ∗ scopedSems0 (thr d L) ∗ owes (thr d L) O W)
      ⊢ wp frame (wpE (defs₀ (F := F)) 𝒱₀ (thr d L) none) Set.univ
          (cc0_gather_kernel L iV (Memref.isWhole_whole _) xV (Memref.isWhole_whole _) oV (Memref.isWhole_whole _) sV (Memref.isWhole_whole _) rV (Memref.isWhole_whole _) cc0_scratch2 cc0_scratch3 cc0_scoped0)
          fun _ => iprop(tdW m d (widL L) ∗ scopedBufs (thr d L) ∗ scopedSems0 (thr d L) ∗ ∃ W', ⌜∀ p ∈ W', p ∈ W ∨ p.2 = none⌝ ∗ owes (thr d L) O W') := by
  have hpre' : Lookup.InRange (idx3 m d) := Lookup.inRange_shapeCast _ (hpre d) _
  rw [cc0_gather_kernel_eq_skeleton]; unfold cc0_gather_kernel_skel
  rw [k0_part10_eq_skeleton, k0_part11_eq_skeleton, k0_part12_eq_skeleton, k0_part13_eq_skeleton, k0_part14_eq_skeleton, k0_part15_eq_skeleton]
  unfold k0_part10_skel k0_part11_skel k0_part12_skel k0_part13_skel k0_part14_skel k0_part15_skel
  rw [(K (F := F)).scopedBufs_V hF d (cV L) (jV L), SparseCore.Cfg.scopedSems0_V (Val := Elt F) d (cV L) (jV L), ownSems0_V, ownBufs_V]
  iintro ⟨#Hlv, -, Hgo, ⟨⟨%fs, HS⟩, ⟨%fr, HR⟩, Hbufs⟩, ⟨Hg, Hss, Hc⟩, HO⟩
  ihave Hmw := (show levAts (K (F := F)).L (K (F := F)).lev ⊢ Transfers.MayWaits (thr d L) (default : HIx 1) O from
    (K (F := F)).mayWaits_none (thr := thr d L) hO) $$ Hlv
  have eo := open_res m d L fs fr
  unfold tokx at eo
  ihave Hop := eo $$ [Hgo HS HR]
  · isplitl [Hgo]
    · iexact Hgo
    isplitl [HS]
    · iexact HS
    iexact HR
  icases Hop with ⟨Hi, Hxr, Hx0, Hx1, Hx2, Hx3, Hx4, Hx5, Hx6, Hx7, Hx8, Hx9, Hch, HS, HR0, HR1, HR2, HR3, HR4, HR5, HR6, HR7, HR8, HR9⟩
  ihave Hg' := (Entails.of_eq (bigSep_fin10 (fun b : Fin 10 => (semVal (thr d L, gcell b) 0 : sProp 𝕄)))) $$ Hg
  icases Hg' with ⟨Hg0, Hg1, Hg2, Hg3, Hg4, Hg5, Hg6, Hg7, Hg8, Hg9⟩
  ihave Hss' := (Entails.of_eq (bigSep_fin10 (fun b : Fin 10 => (semVal (thr d L, scell b) 0 : sProp 𝕄)))) $$ Hss
  icases Hss' with ⟨Hs0, Hs1, Hs2, Hs3, Hs4, Hs5, Hs6, Hs7, Hs8, Hs9⟩
  sl_exec
  ihave HS1 := (Entails.of_eq (congrArg (fun f => ((sV).view.loc (thr d L) ↦{fullShare} f : sProp 𝕄)) (idxv_of_copy m d L fs (tile_body.sl.dma0 m d L) rfl))) $$ HS
  ihave HS2 := (Entails.of_eq ((sPts_rows d L fullShare (IDXV m d L)).trans ((bigSep_range_eq_Ico _ 100).trans (bigSep_Ico_pop10 _ 0 100 (by omega))))) $$ HS1
  icases HS2 with ⟨Hl0, Hl1, Hl2, Hl3, Hl4, Hl5, Hl6, Hl7, Hl8, Hl9, Hlrest⟩
  ihave Hl0' := (lstP_to d L fullShare (IDXV m d L) 0 0 (by omega) (by omega)) $$ Hl0
  ihave Hl1' := (lstP_to d L fullShare (IDXV m d L) (0 + 1) 1 (by omega) (by omega)) $$ Hl1
  ihave Hl2' := (lstP_to d L fullShare (IDXV m d L) (0 + 2) 2 (by omega) (by omega)) $$ Hl2
  ihave Hl3' := (lstP_to d L fullShare (IDXV m d L) (0 + 3) 3 (by omega) (by omega)) $$ Hl3
  ihave Hl4' := (lstP_to d L fullShare (IDXV m d L) (0 + 4) 4 (by omega) (by omega)) $$ Hl4
  ihave Hl5' := (lstP_to d L fullShare (IDXV m d L) (0 + 5) 5 (by omega) (by omega)) $$ Hl5
  ihave Hl6' := (lstP_to d L fullShare (IDXV m d L) (0 + 6) 6 (by omega) (by omega)) $$ Hl6
  ihave Hl7' := (lstP_to d L fullShare (IDXV m d L) (0 + 7) 7 (by omega) (by omega)) $$ Hl7
  ihave Hl8' := (lstP_to d L fullShare (IDXV m d L) (0 + 8) 8 (by omega) (by omega)) $$ Hl8
  ihave Hl9' := (lstP_to d L fullShare (IDXV m d L) (0 + 9) 9 (by omega) (by omega)) $$ Hl9
  have hin := hin_all m d L hpre'
  have hd0 : (0 : ℕ) < sig.nDmaSem := by show 0 < 21; omega
  have hd1 : (1 : ℕ) < sig.nDmaSem := by show 1 < 21; omega
  have hd2 : (2 : ℕ) < sig.nDmaSem := by show 2 < 21; omega
  have hd3 : (3 : ℕ) < sig.nDmaSem := by show 3 < 21; omega
  have hd4 : (4 : ℕ) < sig.nDmaSem := by show 4 < 21; omega
  have hd5 : (5 : ℕ) < sig.nDmaSem := by show 5 < 21; omega
  have hd6 : (6 : ℕ) < sig.nDmaSem := by show 6 < 21; omega
  have hd7 : (7 : ℕ) < sig.nDmaSem := by show 7 < 21; omega
  have hd8 : (8 : ℕ) < sig.nDmaSem := by show 8 < 21; omega
  have hd9 : (9 : ℕ) < sig.nDmaSem := by show 9 < 21; omega
  have hd10 : (10 : ℕ) < sig.nDmaSem := by show 10 < 21; omega
  have hd11 : (11 : ℕ) < sig.nDmaSem := by show 11 < 21; omega
  have hd12 : (12 : ℕ) < sig.nDmaSem := by show 12 < 21; omega
  have hd13 : (13 : ℕ) < sig.nDmaSem := by show 13 < 21; omega
  have hd14 : (14 : ℕ) < sig.nDmaSem := by show 14 < 21; omega
  have hd15 : (15 : ℕ) < sig.nDmaSem := by show 15 < 21; omega
  have hd16 : (16 : ℕ) < sig.nDmaSem := by show 16 < 21; omega
  have hd17 : (17 : ℕ) < sig.nDmaSem := by show 17 < 21; omega
  have hd18 : (18 : ℕ) < sig.nDmaSem := by show 18 < 21; omega
  have hd19 : (19 : ℕ) < sig.nDmaSem := by show 19 < 21; omega
  have hb0 : (0 : ℕ) < 10 := by omega
  have hl0 : (0 : ℕ) < 100 := by omega
  have hb1 : (1 : ℕ) < 10 := by omega
  have hl1 : (1 : ℕ) < 100 := by omega
  have hb2 : (2 : ℕ) < 10 := by omega
  have hl2 : (2 : ℕ) < 100 := by omega
  have hb3 : (3 : ℕ) < 10 := by omega
  have hl3 : (3 : ℕ) < 100 := by omega
  have hb4 : (4 : ℕ) < 10 := by omega
  have hl4 : (4 : ℕ) < 100 := by omega
  have hb5 : (5 : ℕ) < 10 := by omega
  have hl5 : (5 : ℕ) < 100 := by omega
  have hb6 : (6 : ℕ) < 10 := by omega
  have hl6 : (6 : ℕ) < 100 := by omega
  have hb7 : (7 : ℕ) < 10 := by omega
  have hl7 : (7 : ℕ) < 100 := by omega
  have hb8 : (8 : ℕ) < 10 := by omega
  have hl8 : (8 : ℕ) < 100 := by omega
  have hb9 : (9 : ℕ) < 10 := by omega
  have hl9 : (9 : ℕ) < 100 := by omega
  sl_exec

  ihave FG0c := (gather_canon m d L 0 hb0 hpre' 0 hl0 ![0, 0] (lst_inb 0 hl0) rfl fr (tile_body.sl.gather0 m d L hin) (hin _ _ _) rfl (xtok L (0 : Fin 10)) (SemLoc.dma ⟨0, hd0⟩ : SemLoc sig) 262144) $$ Hg0
  ihave FG1c := (gather_canon m d L 1 hb1 hpre' 1 hl1 ![1, 0] (lst_inb 1 hl1) rfl fr (tile_body.sl.gather1 m d L hin) (hin _ _ _) rfl (xtok L (1 : Fin 10)) (SemLoc.dma ⟨1, hd1⟩ : SemLoc sig) 262144) $$ Hg1
  ihave FG2c := (gather_canon m d L 2 hb2 hpre' 2 hl2 ![2, 0] (lst_inb 2 hl2) rfl fr (tile_body.sl.gather2 m d L hin) (hin _ _ _) rfl (xtok L (2 : Fin 10)) (SemLoc.dma ⟨2, hd2⟩ : SemLoc sig) 262144) $$ Hg2
  ihave FG3c := (gather_canon m d L 3 hb3 hpre' 3 hl3 ![3, 0] (lst_inb 3 hl3) rfl fr (tile_body.sl.gather3 m d L hin) (hin _ _ _) rfl (xtok L (3 : Fin 10)) (SemLoc.dma ⟨3, hd3⟩ : SemLoc sig) 262144) $$ Hg3
  ihave FG4c := (gather_canon m d L 4 hb4 hpre' 4 hl4 ![4, 0] (lst_inb 4 hl4) rfl fr (tile_body.sl.gather4 m d L hin) (hin _ _ _) rfl (xtok L (4 : Fin 10)) (SemLoc.dma ⟨4, hd4⟩ : SemLoc sig) 262144) $$ Hg4
  ihave FG5c := (gather_canon m d L 5 hb5 hpre' 5 hl5 ![5, 0] (lst_inb 5 hl5) rfl fr (tile_body.sl.gather5 m d L hin) (hin _ _ _) rfl (xtok L (5 : Fin 10)) (SemLoc.dma ⟨5, hd5⟩ : SemLoc sig) 262144) $$ Hg5
  ihave FG6c := (gather_canon m d L 6 hb6 hpre' 6 hl6 ![6, 0] (lst_inb 6 hl6) rfl fr (tile_body.sl.gather6 m d L hin) (hin _ _ _) rfl (xtok L (6 : Fin 10)) (SemLoc.dma ⟨6, hd6⟩ : SemLoc sig) 262144) $$ Hg6
  ihave FG7c := (gather_canon m d L 7 hb7 hpre' 7 hl7 ![7, 0] (lst_inb 7 hl7) rfl fr (tile_body.sl.gather7 m d L hin) (hin _ _ _) rfl (xtok L (7 : Fin 10)) (SemLoc.dma ⟨7, hd7⟩ : SemLoc sig) 262144) $$ Hg7
  ihave FG8c := (gather_canon m d L 8 hb8 hpre' 8 hl8 ![8, 0] (lst_inb 8 hl8) rfl fr (tile_body.sl.gather8 m d L hin) (hin _ _ _) rfl (xtok L (8 : Fin 10)) (SemLoc.dma ⟨8, hd8⟩ : SemLoc sig) 262144) $$ Hg8
  ihave FG9c := (gather_canon m d L 9 hb9 hpre' 9 hl9 ![9, 0] (lst_inb 9 hl9) rfl fr (tile_body.sl.gather9 m d L hin) (hin _ _ _) rfl (xtok L (9 : Fin 10)) (SemLoc.dma ⟨9, hd9⟩ : SemLoc sig) 262144) $$ Hg9
  rw [Prog.bind_assoc]
  sl_for (inv m d L O W (m (oLoc d))) $$ [Hmw Hch Hlrest HO FG0c FG1c FG2c FG3c FG4c FG5c FG6c FG7c FG8c FG9c Hs0 Hs1 Hs2 Hs3 Hs4 Hs5 Hs6 Hs7 Hs8 Hs9]
  case region =>
    intro k acc
    have hk10 : k.val < 10 := lt_of_lt_of_le k.isLt k0_t1_abs.2.1
    by_cases hk0 : k.val = 0
    · exact trip_zero m d L O W (m (oLoc d)) hpre' k acc hk0
    by_cases hk9 : k.val = 9
    · exact trip_last m d L O W (m (oLoc d)) hpre' k acc hk9
    · exact trip_mid m d L O W (m (oLoc d)) hpre' k acc (by omega) (by omega)
  · rw [inv_zero]
    unfold inv0 common FG0 FG1 FG2 FG3 FG4 FG5 FG6 FG7 FG8 FG9 GD0 GD1 GD2 GD3 GD4 GD5 GD6 GD7 GD8 GD9
    rw [show (10 * 0 : ℕ) = 0 from rfl, Finset.range_zero, bigSep_empty]
    isplitl [Hch Hlrest HO]
    · isplitr
      · iexact Hmw
      isplitr
      · iempintro
      isplitl [Hch]
      · iexact Hch
      isplitr
      · iempintro
      isplitl [Hlrest]
      · iexact Hlrest
      iexists _; isplitr
      swap
      · iexact HO
      ipureintro
      intro p hp
      rcases Finset.mem_insert.mp hp with rfl | hp
      · exact .inr rfl
      · exact .inl hp
    isplitl [FG0c]
    · iexact FG0c
    isplitl [FG1c]
    · iexact FG1c
    isplitl [FG2c]
    · iexact FG2c
    isplitl [FG3c]
    · iexact FG3c
    isplitl [FG4c]
    · iexact FG4c
    isplitl [FG5c]
    · iexact FG5c
    isplitl [FG6c]
    · iexact FG6c
    isplitl [FG7c]
    · iexact FG7c
    isplitl [FG8c]
    · iexact FG8c
    isplitl [FG9c]
    · iexact FG9c
    isplitl [Hs0]
    · iexact Hs0
    isplitl [Hs1]
    · iexact Hs1
    isplitl [Hs2]
    · iexact Hs2
    isplitl [Hs3]
    · iexact Hs3
    isplitl [Hs4]
    · iexact Hs4
    isplitl [Hs5]
    · iexact Hs5
    isplitl [Hs6]
    · iexact Hs6
    isplitl [Hs7]
    · iexact Hs7
    isplitl [Hs8]
    · iexact Hs8
    iexact Hs9

  iintro %acc
  rw [inv_fin m d L O W (m (oLoc d)) (Scf.trips k0_t1_loop.lb k0_t1_loop.ub k0_t1_loop.st) (by decide +kernel) acc]
  unfold invF common FS0 FS1 FS2 FS3 FS4 FS5 FS6 FS7 FS8 FS9 SD0 SD1 SD2 SD3 SD4 SD5 SD6 SD7 SD8 SD9 tokx
  rw [show (10 * 10 : ℕ) = 100 from rfl]
  iintro ⟨⟨-, Hdone, -, Hlret, -, %W', %hW', HO'⟩, FS0, FS1, FS2, FS3, FS4, FS5, FS6, FS7, FS8, FS9, HG0, HG1, HG2, HG3, HG4, HG5, HG6, HG7, HG8, HG9, HX0, HX1, HX2, HX3, HX4, HX5, HX6, HX7, HX8, HX9⟩
  sl_exec
  sl_step
  have hl90 : (90 : ℕ) < 100 := by omega
  have hl91 : (91 : ℕ) < 100 := by omega
  have hl92 : (92 : ℕ) < 100 := by omega
  have hl93 : (93 : ℕ) < 100 := by omega
  have hl94 : (94 : ℕ) < 100 := by omega
  have hl95 : (95 : ℕ) < 100 := by omega
  have hl96 : (96 : ℕ) < 100 := by omega
  have hl97 : (97 : ℕ) < 100 := by omega
  have hl98 : (98 : ℕ) < 100 := by omega
  have hl99 : (99 : ℕ) < 100 := by omega
  isplitl [Hi Hxr HX0 HX1 HX2 HX3 HX4 HX5 HX6 HX7 HX8 HX9 Hdone FS0_dst FS1_dst FS2_dst FS3_dst FS4_dst FS5_dst FS6_dst FS7_dst FS8_dst FS9_dst]
  · iapply (close_res m d L)
    unfold tokx
    isplitl [Hi]
    · iexact Hi
    isplitl [Hxr]
    · iexact Hxr
    isplitl [HX0]
    · iexact HX0
    isplitl [HX1]
    · iexact HX1
    isplitl [HX2]
    · iexact HX2
    isplitl [HX3]
    · iexact HX3
    isplitl [HX4]
    · iexact HX4
    isplitl [HX5]
    · iexact HX5
    isplitl [HX6]
    · iexact HX6
    isplitl [HX7]
    · iexact HX7
    isplitl [HX8]
    · iexact HX8
    isplitl [HX9]
    · iexact HX9
    rw [(bigSep_range_push10 (chP d L (widL L) (OUT m d)) 90 : bigSep (Finset.range 100) _ = _)]
    isplitl [Hdone]
    · iexact Hdone
    isplitl [FS0_dst]
    · iapply (chP_of d L (widL L) (OUT m d) 90 (90) rfl hl90) $$ FS0_dst
    isplitl [FS1_dst]
    · iapply (chP_of d L (widL L) (OUT m d) 91 (90 + 1) rfl hl91) $$ FS1_dst
    isplitl [FS2_dst]
    · iapply (chP_of d L (widL L) (OUT m d) 92 (90 + 2) rfl hl92) $$ FS2_dst
    isplitl [FS3_dst]
    · iapply (chP_of d L (widL L) (OUT m d) 93 (90 + 3) rfl hl93) $$ FS3_dst
    isplitl [FS4_dst]
    · iapply (chP_of d L (widL L) (OUT m d) 94 (90 + 4) rfl hl94) $$ FS4_dst
    isplitl [FS5_dst]
    · iapply (chP_of d L (widL L) (OUT m d) 95 (90 + 5) rfl hl95) $$ FS5_dst
    isplitl [FS6_dst]
    · iapply (chP_of d L (widL L) (OUT m d) 96 (90 + 6) rfl hl96) $$ FS6_dst
    isplitl [FS7_dst]
    · iapply (chP_of d L (widL L) (OUT m d) 97 (90 + 7) rfl hl97) $$ FS7_dst
    isplitl [FS8_dst]
    · iapply (chP_of d L (widL L) (OUT m d) 98 (90 + 8) rfl hl98) $$ FS8_dst
    iapply (chP_of d L (widL L) (OUT m d) 99 (90 + 9) rfl hl99) $$ FS9_dst
  isplitl [Hlret FS0_src FS1_src FS2_src FS3_src FS4_src FS5_src FS6_src FS7_src FS8_src FS9_src Hbufs]
  · ihave Hsc := (close_scratch' d L (RF m d L ⟨90, hl90⟩) (RF m d L ⟨91, hl91⟩) (RF m d L ⟨92, hl92⟩) (RF m d L ⟨93, hl93⟩) (RF m d L ⟨94, hl94⟩) (RF m d L ⟨95, hl95⟩) (RF m d L ⟨96, hl96⟩) (RF m d L ⟨97, hl97⟩) (RF m d L ⟨98, hl98⟩) (RF m d L ⟨99, hl99⟩) (IDXV m d L)) $$ [Hlret FS0_src FS1_src FS2_src FS3_src FS4_src FS5_src FS6_src FS7_src FS8_src FS9_src]
    · isplitl [Hlret]
      · iexact Hlret
      isplitl [FS0_src]
      · iexact FS0_src
      isplitl [FS1_src]
      · iexact FS1_src
      isplitl [FS2_src]
      · iexact FS2_src
      isplitl [FS3_src]
      · iexact FS3_src
      isplitl [FS4_src]
      · iexact FS4_src
      isplitl [FS5_src]
      · iexact FS5_src
      isplitl [FS6_src]
      · iexact FS6_src
      isplitl [FS7_src]
      · iexact FS7_src
      isplitl [FS8_src]
      · iexact FS8_src
      iexact FS9_src
    icases Hsc with ⟨HA, HB⟩
    isplitl [HA]
    · iexact HA
    isplitl [HB]
    · iexact HB
    iexact Hbufs
  isplitl [HG0 HG1 HG2 HG3 HG4 HG5 HG6 HG7 HG8 HG9 FS0 FS1 FS2 FS3 FS4 FS5 FS6 FS7 FS8 FS9 Hc]
  · isplitl [HG0 HG1 HG2 HG3 HG4 HG5 HG6 HG7 HG8 HG9]
    · rw [bigSep_fin10]
      isplitl [HG0]
      · iexact HG0
      isplitl [HG1]
      · iexact HG1
      isplitl [HG2]
      · iexact HG2
      isplitl [HG3]
      · iexact HG3
      isplitl [HG4]
      · iexact HG4
      isplitl [HG5]
      · iexact HG5
      isplitl [HG6]
      · iexact HG6
      isplitl [HG7]
      · iexact HG7
      isplitl [HG8]
      · iexact HG8
      iexact HG9
    isplitl [FS0 FS1 FS2 FS3 FS4 FS5 FS6 FS7 FS8 FS9]
    · rw [bigSep_fin10]
      isplitl [FS0]
      · iexact FS0
      isplitl [FS1]
      · iexact FS1
      isplitl [FS2]
      · iexact FS2
      isplitl [FS3]
      · iexact FS3
      isplitl [FS4]
      · iexact FS4
      isplitl [FS5]
      · iexact FS5
      isplitl [FS6]
      · iexact FS6
      isplitl [FS7]
      · iexact FS7
      isplitl [FS8]
      · iexact FS8
      iexact FS9
    iexact Hc
  iexists _; isplitr
  swap
  · iexact HO'
  ipureintro
  intro p hp
  simp only [Finset.mem_insert] at hp
  rcases hp with rfl | rfl | rfl | rfl | rfl | rfl | rfl | rfl | rfl | rfl | hp
  · exact .inr rfl
  · exact .inr rfl
  · exact .inr rfl
  · exact .inr rfl
  · exact .inr rfl
  · exact .inr rfl
  · exact .inr rfl
  · exact .inr rfl
  · exact .inr rfl
  · exact .inr rfl
  · exact hW' p hp

end Cert.Proof.KernelRun

end
-- ==== Proof.KISetup.lean ====
/-
  The launch of the lookup kernel, as the launch theorem sees it: the program's configuration, the ghost state (the
  handshakes' rounds beside the transfers' counters), the arrays and how they are dealt to the 2 x 16 workers.

  Worker (c, s) has number w = 2 s + c. It is handed row w of the reshaped row numbers (100 x 64 words), a share of the
  whole table (every worker reads all of it), and block w of the output (100 x 64 x 128 entries); it hands them back
  with its block holding, entry by entry, the rows its words name: the block is the restriction of ONE function of the
  arguments, `Lookup.tiled`, so that the blocks join to the whole array at that function.
-/
import proofs.«206297_g77653008712327_cont_9to1c4b_438_14_alg».proof.Defs
import proofs.«206297_g77653008712327_cont_9to1c4b_438_14_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206297_g77653008712327_cont_9to1c4b_438_14_alg».proof.Proof.Gen.KernelIdeal
import proofs.«206297_g77653008712327_cont_9to1c4b_438_14_alg».proof.Proof.Gen.KernelIdeal.Skeleton

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

abbrev aLoc (d : Dev nD) : Loc nD τ sig := (SparseCore.T d).loc main_arg0   -- the row numbers, 1024 x 200
abbrev xLoc (d : Dev nD) : Loc nD τ sig := (SparseCore.T d).loc main_arg1   -- the table
abbrev iLoc (d : Dev nD) : Loc nD τ sig := (SparseCore.T d).loc main_v0     -- the row numbers, 32 x 100 x 64
abbrev oLoc (d : Dev nD) : Loc nD τ sig := (SparseCore.T d).loc main_v1     -- the rows, 32 x 100 x 64 x 128
abbrev eLoc (d : Dev nD) : Loc nD τ sig := (SparseCore.T d).loc main_v2     -- the rows, 1024 x 200 x 128
abbrev cLoc (d : Dev nD) : Loc nD τ sig := (SparseCore.T d).loc main_c
abbrev lLoc (d : Dev nD) : Loc nD τ sig := (SparseCore.T d).loc main_v3     -- the lengths

local notation "iV" => (Memref.whole Cert.KernelIdeal.main_v0_scv : Memref Cert.KernelIdeal.sig Kind.scVector Space.hbm Cert.KernelIdeal.S32x100x64 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S32x100x64x128 EltTy.f32)

/-- The reshaped row numbers, as the host's reshape leaves them before the call. -/
def idx3 (d : Dev nD) : Buf (Elt F) (iLoc d) := shapeCast S32x100x64 (m (aLoc d)) shapeCasts_S1024x200_S32x100x64
/-- What the call leaves in the output: the rows the words name, in the workers' arrangement. -/
def OUT (d : Dev nD) : Buf (Elt F) (oLoc d) := Lookup.tiled (idx3 m d) (m (xLoc d))

theorem idiv : 32 ∣ S32x100x64.size 0 := ⟨1, rfl⟩
theorem odiv : 32 ∣ S32x100x64x128.size 0 := ⟨1, rfl⟩
abbrev irow (w : Fin 32) : Rect S32x100x64 := Rect.part (s := S32x100x64) (a₀ := 0) idiv w
abbrev orow (w : Fin 32) : Rect S32x100x64x128 := Rect.part (s := S32x100x64x128) (a₀ := 0) odiv w
abbrev iRowSet (w : Fin 32) : Finset S32x100x64.Idx := ((iV).view.slice (irow w)).set
abbrev oRowSet (w : Fin 32) : Finset S32x100x64x128.Idx := ((oV).view.slice (orow w)).set

/-- The number of worker (c, s). -/
def wid (c : Fin 2) (s : Fin 16) : Fin 32 := ⟨2 * s.val + c.val, by omega⟩

/-! ## Shares of the table: the full share halved five times -/

def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

def sumEquiv (n : ℕ) : Fin (2 ^ n) ⊕ Fin (2 ^ n) ≃ Fin (2 ^ (n + 1)) := finSumFinEquiv.trans (finCongr (by omega))

omit m ρ in
theorem sumEquiv_inl (n : ℕ) (i : Fin (2 ^ n)) : (sumEquiv n (Sum.inl i)).val = i.val := by simp [sumEquiv]
omit m ρ in
theorem sumEquiv_inr (n : ℕ) (i : Fin (2 ^ n)) : (sumEquiv n (Sum.inr i)).val = 2 ^ n + i.val := by simp [sumEquiv]; omega

omit m ρ in
theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
omit m ρ in
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

omit m ρ in
/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- Worker w's share of the table. -/
abbrev xq (w : Fin 32) : PosShare TreeShare := leaf 5 fullShare w

variable [FloatOps F]

/-! ## What the handshakes carry -/

abbrev iRowPts (d : Dev nD) (w : Fin 32) : sProp 𝕄 := iLoc d ↦[iRowSet w]{fullShare} idx3 m d
abbrev xShPts (d : Dev nD) (w : Fin 32) : sProp 𝕄 := xLoc d ↦{xq w} m (xLoc d)
abbrev oRowPts (d : Dev nD) (w : Fin 32) (f : Buf (Elt F) (oLoc d)) : sProp 𝕄 := oLoc d ↦[oRowSet w]{fullShare} f

/-- What worker w takes, and what it brings back. -/
def goW (d : Dev nD) (w : Fin 32) : sProp 𝕄 := iprop(iRowPts m d w ∗ xShPts m d w ∗ oRowPts d w (m (oLoc d)))
def tdW (d : Dev nD) (w : Fin 32) : sProp 𝕄 := iprop(iRowPts m d w ∗ xShPts m d w ∗ oRowPts d w (OUT m d))

instance goW_storable (d : Dev nD) (w : Fin 32) : BI.Storable (upEmb : UEmb _ 𝕄) (goW m d w) := by unfold goW; infer_instance
instance tdW_storable (d : Dev nD) (w : Fin 32) : BI.Storable (upEmb : UEmb _ 𝕄) (tdW m d w) := by unfold tdW; infer_instance

/-- The one call: each SparseCore takes its sixteen workers' parts and brings them back. -/
def P : (K (F := F)).Pay (nD := nD) (Val := Elt F) (Name := ℕ) (U := UU) where
  st := fun q d c => match q with | 0 => bigSep Finset.univ fun s : Fin 16 => goW m d (wid (Fin.cast nCore_zero c) s)
  dn := fun q d c => match q with | 0 => bigSep Finset.univ fun s : Fin 16 => tdW m d (wid (Fin.cast nCore_zero c) s)
  go := fun q d c i => match q with | 0 => goW m d (wid (Fin.cast nCore_zero c) (Fin.cast nSub_zero i))
  td := fun q d c i => match q with | 0 => tdW m d (wid (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun s : Fin 16 => goW m d (wid (Fin.cast nCore_zero c) s)))
  dn q d c := match q with
    | 0 => (inferInstance : BI.Storable (upEmb : UEmb _ 𝕄) (bigSep Finset.univ fun s : Fin 16 => tdW m d (wid (Fin.cast nCore_zero c) s)))
  go q d c i := match q with
    | 0 => (inferInstance : BI.Storable (upEmb : UEmb _ 𝕄) (goW m d (wid (Fin.cast nCore_zero c) (Fin.cast nSub_zero i))))
  td q d c i := match q with
    | 0 => (inferInstance : BI.Storable (upEmb : UEmb _ 𝕄) (tdW m d (wid (Fin.cast nCore_zero c) (Fin.cast nSub_zero i))))

/-- What the proof asks of the launch memory: every row number names a row of the table. -/
def PreOK : Prop := ∀ d : Dev nD, Lookup.InRange (m (aLoc d))

end Cert.Proof.KernelIdealRun

end
-- ==== Proof.KICells.lean ====
/-
  A vector subcore's scoped semaphores and buffers, in explicit form.

  A processor of this program has 4 regular semaphores, none scoped, and 21 DMA semaphores, all of them scoped on a
  vector subcore. The lookup uses them as three arrays laid side by side: cells 0..9 count the ten gathers in flight,
  cells 10..19 the ten stores, cell 20 the opening copy of the row numbers. So the scoped cells a thread (d, c, i)
  owns are exactly these 21, and "each of them at zero" is the product of three groups: ten, ten and one. Likewise the
  buffers the thread owns contain its two scratch buffers (the row numbers' and the rows'), which are split off the
  product of all of them.
-/
import proofs.«206297_g77653008712327_cont_9to1c4b_438_14_alg».proof.Proof.KISetup

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

abbrev gcell (b : Fin 10) : SemLoc sig := .dma ⟨b.val, by have := b.isLt; show b.val < 21; omega⟩
abbrev scell (b : Fin 10) : SemLoc sig := .dma ⟨10 + b.val, by have := b.isLt; show 10 + b.val < 21; omega⟩
abbrev ccell : SemLoc sig := .dma ⟨20, by show 20 < 21; omega⟩

/-- On a vector subcore every DMA semaphore is scoped, -/
theorem dma_scoped (k : DmaSem sig) : (SemLoc.dma k : SemLoc sig).isScoped .scVector = true :=
  sig.sc_scopedDmaSem .scVector k (by decide)
/-- and no regular semaphore is. -/
theorem reg_unscoped (s : Sem sig) : (SemLoc.reg s : SemLoc sig).isScoped .scVector = false := by
  revert s; decide

/-- The gathers' ten cells of a thread, -/
def gcellEmb (thr : Thread nD τ) : Fin 10 ↪ GSem nD τ sig :=
  ⟨fun b => (thr, gcell b), fun a b h => Fin.ext (by
    have h2 : gcell a = gcell b := congrArg Prod.snd h
    have h3 := Fin.val_eq_of_eq (SemLoc.dma.inj h2)
    exact h3)⟩
/-- and the stores' ten. -/
def scellEmb (thr : Thread nD τ) : Fin 10 ↪ GSem nD τ sig :=
  ⟨fun b => (thr, scell b), fun a b h => Fin.ext (by
    have h2 : scell a = scell b := congrArg Prod.snd h
    have h3 := Fin.val_eq_of_eq (SemLoc.dma.inj h2)
    have h4 : 10 + a.val = 10 + b.val := h3
    omega)⟩

/-- A vector subcore's own scoped cells are its 21 DMA semaphores: ten, ten and one. -/
theorem ownCells_V (d : Dev nD) (c : Fin τ.nSC) (i : Fin τ.nSub) :
    ownCells (V d c i) = Finset.univ.map (gcellEmb (V d c i)) ∪ (Finset.univ.map (scellEmb (V d c i)) ∪ {(V d c i, ccell)}) := by
  ext ⟨t, l⟩
  rw [mem_ownCells, Finset.mem_union, Finset.mem_union, Finset.mem_map, Finset.mem_map, Finset.mem_singleton]
  constructor
  · rintro ⟨ht, hs⟩
    have ht' : t = V d c i := ht
    subst ht'
    cases l with
    | reg s => exact absurd hs (by show ¬((SemLoc.reg s : SemLoc sig).isScoped .scVector = true); rw [reg_unscoped]; decide)
    | dma k =>
      obtain ⟨k, hk⟩ := k
      have hk' : k < 21 := hk
      by_cases h1 : k < 10
      · exact Or.inl ⟨⟨k, h1⟩, Finset.mem_univ _, rfl⟩
      · by_cases h2 : k < 20
        · refine Or.inr (Or.inl ⟨⟨k - 10, by omega⟩, Finset.mem_univ _, ?_⟩)
          have e : (⟨10 + (k - 10), by show _ < 21; omega⟩ : DmaSem sig) = ⟨k, hk⟩ :=
            Fin.ext (by show 10 + (k - 10) = k; omega)
          exact congrArg (fun x => ((V d c i, SemLoc.dma x) : GSem nD τ sig)) e
        · refine Or.inr (Or.inr ?_)
          have : k = 20 := by omega
          subst this
          rfl
  · rintro (⟨b, -, e⟩ | ⟨b, -, e⟩ | e)
    · have e' : (V d c i, gcell b) = (t, l) := e
      obtain ⟨rfl, rfl⟩ := Prod.mk.inj e'
      exact ⟨rfl, dma_scoped _⟩
    · have e' : (V d c i, scell b) = (t, l) := e
      obtain ⟨rfl, rfl⟩ := Prod.mk.inj e'
      exact ⟨rfl, dma_scoped _⟩
    · obtain ⟨rfl, rfl⟩ := Prod.mk.inj e
      exact ⟨rfl, dma_scoped _⟩

theorem disjoint_gcells (thr : Thread nD τ) :
    Disjoint (Finset.univ.map (gcellEmb thr)) (Finset.univ.map (scellEmb thr) ∪ {(thr, ccell)}) := by
  rw [Finset.disjoint_left]
  intro g hg hg'
  obtain ⟨a, -, rfl⟩ := Finset.mem_map.mp hg
  have ha := a.isLt
  rcases Finset.mem_union.mp hg' with h | h
  · obtain ⟨b, -, e⟩ := Finset.mem_map.mp h
    have e2 : scell b = gcell a := congrArg Prod.snd e
    have e3 := Fin.val_eq_of_eq (SemLoc.dma.inj e2)
    have e4 : 10 + b.val = a.val := e3
    omega
  · have e : (thr, gcell a) = (thr, ccell) := Finset.mem_singleton.mp h
    have e2 : gcell a = ccell := congrArg Prod.snd e
    have e3 := Fin.val_eq_of_eq (SemLoc.dma.inj e2)
    have e4 : a.val = 20 := e3
    omega

theorem disjoint_scells (thr : Thread nD τ) : Disjoint (Finset.univ.map (scellEmb thr)) {(thr, ccell)} := by
  rw [Finset.disjoint_singleton_right]
  intro h
  obtain ⟨b, -, e⟩ := Finset.mem_map.mp h
  have hb := b.isLt
  have e2 : scell b = ccell := congrArg Prod.snd e
  have e3 := Fin.val_eq_of_eq (SemLoc.dma.inj e2)
  have e4 : 10 + b.val = 20 := e3
  omega

/-- A vector subcore's scoped semaphores at zero: the gathers' ten, the stores' ten, the opening copy's one. -/
theorem ownSems0_V (d : Dev nD) (c : Fin τ.nSC) (i : Fin τ.nSub) :
    (ownSems0 (V d c i) : sProp 𝕄)
      = iprop((bigSep Finset.univ fun b : Fin 10 => semVal (V d c i, gcell b) 0)
          ∗ (bigSep Finset.univ fun b : Fin 10 => semVal (V d c i, scell b) 0) ∗ semVal (V d c i, ccell) 0) := by
  unfold SparseCore.Cfg.ownSems0
  rw [ownCells_V, SparseCore.bigSep_union' (disjoint_gcells _), SparseCore.bigSep_union' (disjoint_scells _), bigSep_map, bigSep_map,
    bigSep_singleton]
  rfl

/-- The two scratch buffers are among the subcore's own: they are them, at some contents, and the rest. -/
theorem ownBufs_V (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ bigSep (((ownRefs (τ := τ) (.scVector c i)).erase ((Proc.scVector c i).devRef cc0_scratch0)).erase
              ((Proc.scVector c i).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c i) (b := (Proc.scVector c i).devRef cc0_scratch1) rfl⟩)]

end Cert.Proof.KernelIdealRun

end
-- ==== Proof.KIBodyDefs.lean ====
/-
  One worker's task, its vocabulary. The worker copies its 100 x 64 row numbers into its index scratch, then keeps a
  ring of ten slots of its row scratch busy: chunk n (64 row numbers) is gathered from the table into slot n mod 10
  and copied out to chunk n of the worker's output block. Each slot has its own two cells, so per cell one transfer
  is in flight at a time.

  Here: the memrefs as the program slices them (slots, list rows, output chunks, at a symbolic trip), the same
  pieces under canonical names (row n of the index scratch, chunk n of the block), what the buffers hold
  (`IDXV`: the index scratch after the copy; `RF n`: a slot after chunk n's gather; `OUT`: the block), and what
  a gather and a copy-out in flight deliver.
-/
import proofs.«206297_g77653008712327_cont_9to1c4b_438_14_alg».proof.Proof.KISetup
import proofs.«206297_g77653008712327_cont_9to1c4b_438_14_alg».proof.Proof.KICells

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x100x64 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S32x100x64x128 EltTy.f32)
local notation "sV" => (Memref.whole Cert.KernelIdeal.cc0_scratch0 : Memref Cert.KernelIdeal.sig Kind.scVector Space.vmem Cert.KernelIdeal.S100x64 EltTy.i32)
local notation "rV" => (Memref.whole Cert.KernelIdeal.cc0_scratch1 : Memref Cert.KernelIdeal.sig Kind.scVector Space.vmem Cert.KernelIdeal.S10x64x128 EltTy.f32)

variable (m : (ℓ : Loc nD τ sig) → Buf (Elt F) ℓ)
variable (d : Dev nD) (L : grid0.Coords)

abbrev cV (L : grid0.Coords) : Fin τ.nSC := (L 0).castLE hcore0
abbrev jV (L : grid0.Coords) : Fin τ.nSub := (L 1).castLE hsub0
/-- The worker's thread. -/
abbrev thr : Thread nD τ := V d (cV L) (jV L)

theorem widL_lt (L : grid0.Coords) : 2 * (L 1).val + (L 0).val < 32 := by
  have h0 : (L 0).val < 2 := (L 0).isLt
  have h1 : (L 1).val < 16 := (L 1).isLt
  omega
/-- The worker's number. -/
def widL (L : grid0.Coords) : Fin 32 := ⟨2 * (L 1).val + (L 0).val, widL_lt L⟩

/-! ## The memrefs as the program slices them -/

abbrev irowK (L : grid0.Coords) : Rect S32x100x64 := Rect.unit (s := S32x100x64) (k0_off1 L) S1x100x64.size (k0_off1_inb L)
/-- The worker's row of the reshaped row numbers. -/
abbrev iRowK (L : grid0.Coords) : Memref sig .scVector .hbm S100x64 .i32 := ((iV).slice (irowK L) (fun _ => rfl)).squeeze S100x64 squeezes_S1x100x64_S100x64
/-- The whole table, as each gather names it. -/
abbrev xAllM : Memref sig .scVector .hbm S100000x128 .f32 := (xV).slice (Rect.unit (s := S100000x128) ![0, 0] S100000x128.size inb_S100000x128_S100000x128_0_0) (fun _ => rfl)
/-- Slot 0 of the row scratch. -/
abbrev slotM0 : Memref sig .scVector .vmem S64x128 .f32 := ((rV).slice (Rect.unit (s := S10x64x128) ![0, 0, 0] S1x64x128.size inb_S10x64x128_S1x64x128_0_0_0) (fun _ => rfl)).squeeze S64x128 squeezes_S1x64x128_S64x128
/-- Slot 1 of the row scratch. -/
abbrev slotM1 : Memref sig .scVector .vmem S64x128 .f32 := ((rV).slice (Rect.unit (s := S10x64x128) ![1, 0, 0] S1x64x128.size inb_S10x64x128_S1x64x128_1_0_0) (fun _ => rfl)).squeeze S64x128 squeezes_S1x64x128_S64x128
/-- Slot 2 of the row scratch. -/
abbrev slotM2 : Memref sig .scVector .vmem S64x128 .f32 := ((rV).slice (Rect.unit (s := S10x64x128) ![2, 0, 0] S1x64x128.size inb_S10x64x128_S1x64x128_2_0_0) (fun _ => rfl)).squeeze S64x128 squeezes_S1x64x128_S64x128
/-- Slot 3 of the row scratch. -/
abbrev slotM3 : Memref sig .scVector .vmem S64x128 .f32 := ((rV).slice (Rect.unit (s := S10x64x128) ![3, 0, 0] S1x64x128.size inb_S10x64x128_S1x64x128_3_0_0) (fun _ => rfl)).squeeze S64x128 squeezes_S1x64x128_S64x128
/-- Slot 4 of the row scratch. -/
abbrev slotM4 : Memref sig .scVector .vmem S64x128 .f32 := ((rV).slice (Rect.unit (s := S10x64x128) ![4, 0, 0] S1x64x128.size inb_S10x64x128_S1x64x128_4_0_0) (fun _ => rfl)).squeeze S64x128 squeezes_S1x64x128_S64x128
/-- Slot 5 of the row scratch. -/
abbrev slotM5 : Memref sig .scVector .vmem S64x128 .f32 := ((rV).slice (Rect.unit (s := S10x64x128) ![5, 0, 0] S1x64x128.size inb_S10x64x128_S1x64x128_5_0_0) (fun _ => rfl)).squeeze S64x128 squeezes_S1x64x128_S64x128
/-- Slot 6 of the row scratch. -/
abbrev slotM6 : Memref sig .scVector .vmem S64x128 .f32 := ((rV).slice (Rect.unit (s := S10x64x128) ![6, 0, 0] S1x64x128.size inb_S10x64x128_S1x64x128_6_0_0) (fun _ => rfl)).squeeze S64x128 squeezes_S1x64x128_S64x128
/-- Slot 7 of the row scratch. -/
abbrev slotM7 : Memref sig .scVector .vmem S64x128 .f32 := ((rV).slice (Rect.unit (s := S10x64x128) ![7, 0, 0] S1x64x128.size inb_S10x64x128_S1x64x128_7_0_0) (fun _ => rfl)).squeeze S64x128 squeezes_S1x64x128_S64x128
/-- Slot 8 of the row scratch. -/
abbrev slotM8 : Memref sig .scVector .vmem S64x128 .f32 := ((rV).slice (Rect.unit (s := S10x64x128) ![8, 0, 0] S1x64x128.size inb_S10x64x128_S1x64x128_8_0_0) (fun _ => rfl)).squeeze S64x128 squeezes_S1x64x128_S64x128
/-- Slot 9 of the row scratch. -/
abbrev slotM9 : Memref sig .scVector .vmem S64x128 .f32 := ((rV).slice (Rect.unit (s := S10x64x128) ![9, 0, 0] S1x64x128.size inb_S10x64x128_S1x64x128_9_0_0) (fun _ => rfl)).squeeze S64x128 squeezes_S1x64x128_S64x128
/-- Row 0 of the index scratch, as the opening gathers name it. -/
abbrev lstLit0 : Memref sig .scVector .vmem S64 .i32 := ((sV).slice (Rect.unit (s := S100x64) ![0, 0] S1x64.size inb_S100x64_S1x64_0_0) (fun _ => rfl)).squeeze S64 squeezes_S1x64_S64
/-- Row 1 of the index scratch, as the opening gathers name it. -/
abbrev lstLit1 : Memref sig .scVector .vmem S64 .i32 := ((sV).slice (Rect.unit (s := S100x64) ![1, 0] S1x64.size inb_S100x64_S1x64_1_0) (fun _ => rfl)).squeeze S64 squeezes_S1x64_S64
/-- Row 2 of the index scratch, as the opening gathers name it. -/
abbrev lstLit2 : Memref sig .scVector .vmem S64 .i32 := ((sV).slice (Rect.unit (s := S100x64) ![2, 0] S1x64.size inb_S100x64_S1x64_2_0) (fun _ => rfl)).squeeze S64 squeezes_S1x64_S64
/-- Row 3 of the index scratch, as the opening gathers name it. -/
abbrev lstLit3 : Memref sig .scVector .vmem S64 .i32 := ((sV).slice (Rect.unit (s := S100x64) ![3, 0] S1x64.size inb_S100x64_S1x64_3_0) (fun _ => rfl)).squeeze S64 squeezes_S1x64_S64
/-- Row 4 of the index scratch, as the opening gathers name it. -/
abbrev lstLit4 : Memref sig .scVector .vmem S64 .i32 := ((sV).slice (Rect.unit (s := S100x64) ![4, 0] S1x64.size inb_S100x64_S1x64_4_0) (fun _ => rfl)).squeeze S64 squeezes_S1x64_S64
/-- Row 5 of the index scratch, as the opening gathers name it. -/
abbrev lstLit5 : Memref sig .scVector .vmem S64 .i32 := ((sV).slice (Rect.unit (s := S100x64) ![5, 0] S1x64.size inb_S100x64_S1x64_5_0) (fun _ => rfl)).squeeze S64 squeezes_S1x64_S64
/-- Row 6 of the index scratch, as the opening gathers name it. -/
abbrev lstLit6 : Memref sig .scVector .vmem S64 .i32 := ((sV).slice (Rect.unit (s := S100x64) ![6, 0] S1x64.size inb_S100x64_S1x64_6_0) (fun _ => rfl)).squeeze S64 squeezes_S1x64_S64
/-- Row 7 of the index scratch, as the opening gathers name it. -/
abbrev lstLit7 : Memref sig .scVector .vmem S64 .i32 := ((sV).slice (Rect.unit (s := S100x64) ![7, 0] S1x64.size inb_S100x64_S1x64_7_0) (fun _ => rfl)).squeeze S64 squeezes_S1x64_S64
/-- Row 8 of the index scratch, as the opening gathers name it. -/
abbrev lstLit8 : Memref sig .scVector .vmem S64 .i32 := ((sV).slice (Rect.unit (s := S100x64) ![8, 0] S1x64.size inb_S100x64_S1x64_8_0) (fun _ => rfl)).squeeze S64 squeezes_S1x64_S64
/-- Row 9 of the index scratch, as the opening gathers name it. -/
abbrev lstLit9 : Memref sig .scVector .vmem S64 .i32 := ((sV).slice (Rect.unit (s := S100x64) ![9, 0] S1x64.size inb_S100x64_S1x64_9_0) (fun _ => rfl)).squeeze S64 squeezes_S1x64_S64
/-- The index-scratch row step 0 of trip k gathers by (row 10 k + 9). -/
abbrev lstK0 (k : Fin k0_t1_loop.trips) (h : k0_cond1 k = 1#1) : Memref sig .scVector .vmem S64 .i32 := ((sV).slice (Rect.unit (s := S100x64) (k0_off4 k) S1x64.size (k0_off4_inb k h)) (fun _ => rfl)).squeeze S64 squeezes_S1x64_S64
/-- The index-scratch row step 1 of trip k gathers by (row 10 k + 10). -/
abbrev lstK1 (k : Fin k0_t1_loop.trips) (h : k0_cond2 k = 1#1) : Memref sig .scVector .vmem S64 .i32 := ((sV).slice (Rect.unit (s := S100x64) (k0_off6 k) S1x64.size (k0_off6_inb k h)) (fun _ => rfl)).squeeze S64 squeezes_S1x64_S64
/-- The index-scratch row step 2 of trip k gathers by (row 10 k + 11). -/
abbrev lstK2 (k : Fin k0_t1_loop.trips) (h : k0_cond3 k = 1#1) : Memref sig .scVector .vmem S64 .i32 := ((sV).slice (Rect.unit (s := S100x64) (k0_off8 k) S1x64.size (k0_off8_inb k h)) (fun _ => rfl)).squeeze S64 squeezes_S1x64_S64
/-- The index-scratch row step 3 of trip k gathers by (row 10 k + 12). -/
abbrev lstK3 (k : Fin k0_t1_loop.trips) (h : k0_cond4 k = 1#1) : Memref sig .scVector .vmem S64 .i32 := ((sV).slice (Rect.unit (s := S100x64) (k0_off10 k) S1x64.size (k0_off10_inb k h)) (fun _ => rfl)).squeeze S64 squeezes_S1x64_S64
/-- The index-scratch row step 4 of trip k gathers by (row 10 k + 13). -/
abbrev lstK4 (k : Fin k0_t1_loop.trips) (h : k0_cond5 k = 1#1) : Memref sig .scVector .vmem S64 .i32 := ((sV).slice (Rect.unit (s := S100x64) (k0_off12 k) S1x64.size (k0_off12_inb k h)) (fun _ => rfl)).squeeze S64 squeezes_S1x64_S64
/-- The index-scratch row step 5 of trip k gathers by (row 10 k + 14). -/
abbrev lstK5 (k : Fin k0_t1_loop.trips) (h : k0_cond6 k = 1#1) : Memref sig .scVector .vmem S64 .i32 := ((sV).slice (Rect.unit (s := S100x64) (k0_off14 k) S1x64.size (k0_off14_inb k h)) (fun _ => rfl)).squeeze S64 squeezes_S1x64_S64
/-- The index-scratch row step 6 of trip k gathers by (row 10 k + 15). -/
abbrev lstK6 (k : Fin k0_t1_loop.trips) (h : k0_cond7 k = 1#1) : Memref sig .scVector .vmem S64 .i32 := ((sV).slice (Rect.unit (s := S100x64) (k0_off16 k) S1x64.size (k0_off16_inb k h)) (fun _ => rfl)).squeeze S64 squeezes_S1x64_S64
/-- The index-scratch row step 7 of trip k gathers by (row 10 k + 16). -/
abbrev lstK7 (k : Fin k0_t1_loop.trips) (h : k0_cond8 k = 1#1) : Memref sig .scVector .vmem S64 .i32 := ((sV).slice (Rect.unit (s := S100x64) (k0_off18 k) S1x64.size (k0_off18_inb k h)) (fun _ => rfl)).squeeze S64 squeezes_S1x64_S64
/-- The index-scratch row step 8 of trip k gathers by (row 10 k + 17). -/
abbrev lstK8 (k : Fin k0_t1_loop.trips) (h : k0_cond9 k = 1#1) : Memref sig .scVector .vmem S64 .i32 := ((sV).slice (Rect.unit (s := S100x64) (k0_off20 k) S1x64.size (k0_off20_inb k h)) (fun _ => rfl)).squeeze S64 squeezes_S1x64_S64
/-- The index-scratch row step 9 of trip k gathers by (row 10 k + 18). -/
abbrev lstK9 (k : Fin k0_t1_loop.trips) (h : k0_cond10 k = 1#1) : Memref sig .scVector .vmem S64 .i32 := ((sV).slice (Rect.unit (s := S100x64) (k0_off22 k) S1x64.size (k0_off22_inb k h)) (fun _ => rfl)).squeeze S64 squeezes_S1x64_S64
/-- The output chunk step 0 of trip k copies out to (chunk 10 k + 0). -/
abbrev oChK0 (L : grid0.Coords) (k : Fin k0_t1_loop.trips) : Memref sig .scVector .hbm S64x128 .f32 := ((oV).slice (Rect.unit (s := S32x100x64x128) (k0_off2 L k 0#32) S1x1x64x128.size (k0_off2_inb L k 0)) (fun _ => rfl)).squeeze S64x128 squeezes_S1x1x64x128_S64x128
/-- The output chunk step 1 of trip k copies out to (chunk 10 k + 1). -/
abbrev oChK1 (L : grid0.Coords) (k : Fin k0_t1_loop.trips) : Memref sig .scVector .hbm S64x128 .f32 := ((oV).slice (Rect.unit (s := S32x100x64x128) (k0_off2 L k 1#32) S1x1x64x128.size (k0_off2_inb L k 1)) (fun _ => rfl)).squeeze S64x128 squeezes_S1x1x64x128_S64x128
/-- The output chunk step 2 of trip k copies out to (chunk 10 k + 2). -/
abbrev oChK2 (L : grid0.Coords) (k : Fin k0_t1_loop.trips) : Memref sig .scVector .hbm S64x128 .f32 := ((oV).slice (Rect.unit (s := S32x100x64x128) (k0_off2 L k 2#32) S1x1x64x128.size (k0_off2_inb L k 2)) (fun _ => rfl)).squeeze S64x128 squeezes_S1x1x64x128_S64x128
/-- The output chunk step 3 of trip k copies out to (chunk 10 k + 3). -/
abbrev oChK3 (L : grid0.Coords) (k : Fin k0_t1_loop.trips) : Memref sig .scVector .hbm S64x128 .f32 := ((oV).slice (Rect.unit (s := S32x100x64x128) (k0_off2 L k 3#32) S1x1x64x128.size (k0_off2_inb L k 3)) (fun _ => rfl)).squeeze S64x128 squeezes_S1x1x64x128_S64x128
/-- The output chunk step 4 of trip k copies out to (chunk 10 k + 4). -/
abbrev oChK4 (L : grid0.Coords) (k : Fin k0_t1_loop.trips) : Memref sig .scVector .hbm S64x128 .f32 := ((oV).slice (Rect.unit (s := S32x100x64x128) (k0_off2 L k 4#32) S1x1x64x128.size (k0_off2_inb L k 4)) (fun _ => rfl)).squeeze S64x128 squeezes_S1x1x64x128_S64x128
/-- The output chunk step 5 of trip k copies out to (chunk 10 k + 5). -/
abbrev oChK5 (L : grid0.Coords) (k : Fin k0_t1_loop.trips) : Memref sig .scVector .hbm S64x128 .f32 := ((oV).slice (Rect.unit (s := S32x100x64x128) (k0_off2 L k 5#32) S1x1x64x128.size (k0_off2_inb L k 5)) (fun _ => rfl)).squeeze S64x128 squeezes_S1x1x64x128_S64x128
/-- The output chunk step 6 of trip k copies out to (chunk 10 k + 6). -/
abbrev oChK6 (L : grid0.Coords) (k : Fin k0_t1_loop.trips) : Memref sig .scVector .hbm S64x128 .f32 := ((oV).slice (Rect.unit (s := S32x100x64x128) (k0_off2 L k 6#32) S1x1x64x128.size (k0_off2_inb L k 6)) (fun _ => rfl)).squeeze S64x128 squeezes_S1x1x64x128_S64x128
/-- The output chunk step 7 of trip k copies out to (chunk 10 k + 7). -/
abbrev oChK7 (L : grid0.Coords) (k : Fin k0_t1_loop.trips) : Memref sig .scVector .hbm S64x128 .f32 := ((oV).slice (Rect.unit (s := S32x100x64x128) (k0_off2 L k 7#32) S1x1x64x128.size (k0_off2_inb L k 7)) (fun _ => rfl)).squeeze S64x128 squeezes_S1x1x64x128_S64x128
/-- The output chunk step 8 of trip k copies out to (chunk 10 k + 8). -/
abbrev oChK8 (L : grid0.Coords) (k : Fin k0_t1_loop.trips) : Memref sig .scVector .hbm S64x128 .f32 := ((oV).slice (Rect.unit (s := S32x100x64x128) (k0_off2 L k 8#32) S1x1x64x128.size (k0_off2_inb L k 8)) (fun _ => rfl)).squeeze S64x128 squeezes_S1x1x64x128_S64x128
/-- The output chunk step 9 of trip k copies out to (chunk 10 k + 9). -/
abbrev oChK9 (L : grid0.Coords) (k : Fin k0_t1_loop.trips) : Memref sig .scVector .hbm S64x128 .f32 := ((oV).slice (Rect.unit (s := S32x100x64x128) (k0_off2 L k 9#32) S1x1x64x128.size (k0_off2_inb L k 9)) (fun _ => rfl)).squeeze S64x128 squeezes_S1x1x64x128_S64x128

/-! ## The same pieces under canonical names -/

theorem lst_inb (n : ℕ) (h : n < 100) : ∀ a, (![n, 0] : Fin 2 → Nat) a + S1x64.size a ≤ S100x64.size a := by
  intro a; match a with
  | ⟨0, _⟩ => show n + 1 ≤ 100; omega
  | ⟨1, _⟩ => show 0 + 64 ≤ 64; omega
/-- Row n of the index scratch. -/
abbrev lstC (n : ℕ) (h : n < 100) : Memref sig .scVector .vmem S64 .i32 := ((sV).slice (Rect.unit (s := S100x64) ![n, 0] S1x64.size (lst_inb n h)) (fun _ => rfl)).squeeze S64 squeezes_S1x64_S64

theorem och_inb (w : Fin 32) (n : ℕ) (h : n < 100) : ∀ a, (![w.val, n, 0, 0] : Fin 4 → Nat) a + S1x1x64x128.size a ≤ S32x100x64x128.size a := by
  intro a; have := w.isLt; match a with
  | ⟨0, _⟩ => show w.val + 1 ≤ 32; omega
  | ⟨1, _⟩ => show n + 1 ≤ 100; omega
  | ⟨2, _⟩ => show 0 + 64 ≤ 64; omega
  | ⟨3, _⟩ => show 0 + 128 ≤ 128; omega
/-- Chunk n of worker w's output block. -/
abbrev oChC (w : Fin 32) (n : ℕ) (h : n < 100) : Memref sig .scVector .hbm S64x128 .f32 := ((oV).slice (Rect.unit (s := S32x100x64x128) ![w.val, n, 0, 0] S1x1x64x128.size (och_inb w n h)) (fun _ => rfl)).squeeze S64x128 squeezes_S1x1x64x128_S64x128

/-! ## What the buffers hold -/

/-- The index scratch after the opening copy: word (k, r) is word (w, k, r) of the reshaped row numbers. -/
def IDXV : Buf (Elt F) ((thr d L).loc cc0_scratch0) := fun j => idx3 m d (ValueIdx.ix3 (widL L) (j 0) (j 1))
/-- A slot after chunk n's gather: entry (·, r, e) is entry e of the table row that word (w, n, r) names. -/
def RF (n : Fin 100) : Buf (Elt F) ((thr d L).loc cc0_scratch1) :=
  fun i => m (xLoc d) (ValueIdx.ix2 (Lookup.rowOf (idx3 m d (ValueIdx.ix3 (widL L) n (i 1)))) (i 2))

end Cert.Proof.KernelIdealRun

end
-- ==== Proof.KIGeom.lean ====
/-
  The geometry of one subcore's pieces.

  The index scratch is 100 rows of 64 words, the row scratch ten slots of 64 x 128 entries, and the subcore's block of
  the output 100 chunks of 64 x 128 entries. The program names a row, a slot or a chunk by an offset it computes from
  the trip counter; in closed form the offsets are (10 k + 9 + r, 0) for the row step r of trip k gathers by and
  (w, 10 k + r, 0, 0) for the chunk it copies out to, so each spelling is one of the canonical pieces "row n" and
  "chunk n of block w". The rows partition the index scratch, the slots the row scratch, and the chunks the block:
  a points-to for the whole is the product of the points-tos for the pieces.
-/
import proofs.«206297_g77653008712327_cont_9to1c4b_438_14_alg».proof.Proof.KIBodyDefs

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x100x64 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S32x100x64x128 EltTy.f32)
local notation "sV" => (Memref.whole Cert.KernelIdeal.cc0_scratch0 : Memref Cert.KernelIdeal.sig Kind.scVector Space.vmem Cert.KernelIdeal.S100x64 EltTy.i32)
local notation "rV" => (Memref.whole Cert.KernelIdeal.cc0_scratch1 : Memref Cert.KernelIdeal.sig Kind.scVector Space.vmem Cert.KernelIdeal.S10x64x128 EltTy.f32)

/-! ## The program's spellings are the canonical pieces -/

/-- A row of the index scratch depends on its offsets only. -/
theorem lst_congr {off off' : Fin 2 → Nat} (e : off = off') (p : ∀ a, off a + S1x64.size a ≤ S100x64.size a)
    (p' : ∀ a, off' a + S1x64.size a ≤ S100x64.size a) :
    (((sV).slice (Rect.unit (s := S100x64) off S1x64.size p) (fun _ => rfl)).squeeze S64 squeezes_S1x64_S64
        : Memref sig .scVector .vmem S64 .i32)
      = ((sV).slice (Rect.unit (s := S100x64) off' S1x64.size p') (fun _ => rfl)).squeeze S64 squeezes_S1x64_S64 := by
  subst e; rfl

/-- A chunk of the output depends on its offsets only. -/
theorem och_congr {off off' : Fin 4 → Nat} (e : off = off') (p : ∀ a, off a + S1x1x64x128.size a ≤ S32x100x64x128.size a)
    (p' : ∀ a, off' a + S1x1x64x128.size a ≤ S32x100x64x128.size a) :
    (((oV).slice (Rect.unit (s := S32x100x64x128) off S1x1x64x128.size p) (fun _ => rfl)).squeeze S64x128 squeezes_S1x1x64x128_S64x128
        : Memref sig .scVector .hbm S64x128 .f32)
      = ((oV).slice (Rect.unit (s := S32x100x64x128) off' S1x1x64x128.size p') (fun _ => rfl)).squeeze S64x128 squeezes_S1x1x64x128_S64x128 := by
  subst e; rfl

theorem lstK0_eq (k : Fin k0_t1_loop.trips) (h : k0_cond1 k = 1#1) (hn : 10 * k.val + 9 < 100) :
    lstK0 k h = lstC (10 * k.val + 9) hn := lst_congr (k0_off4_eq k) _ _
theorem lstK1_eq (k : Fin k0_t1_loop.trips) (h : k0_cond2 k = 1#1) (hn : 10 * k.val + 10 < 100) :
    lstK1 k h = lstC (10 * k.val + 10) hn := lst_congr (k0_off6_eq k) _ _
theorem lstK2_eq (k : Fin k0_t1_loop.trips) (h : k0_cond3 k = 1#1) (hn : 10 * k.val + 11 < 100) :
    lstK2 k h = lstC (10 * k.val + 11) hn := lst_congr (k0_off8_eq k) _ _
theorem lstK3_eq (k : Fin k0_t1_loop.trips) (h : k0_cond4 k = 1#1) (hn : 10 * k.val + 12 < 100) :
    lstK3 k h = lstC (10 * k.val + 12) hn := lst_congr (k0_off10_eq k) _ _
theorem lstK4_eq (k : Fin k0_t1_loop.trips) (h : k0_cond5 k = 1#1) (hn : 10 * k.val + 13 < 100) :
    lstK4 k h = lstC (10 * k.val + 13) hn := lst_congr (k0_off12_eq k) _ _
theorem lstK5_eq (k : Fin k0_t1_loop.trips) (h : k0_cond6 k = 1#1) (hn : 10 * k.val + 14 < 100) :
    lstK5 k h = lstC (10 * k.val + 14) hn := lst_congr (k0_off14_eq k) _ _
theorem lstK6_eq (k : Fin k0_t1_loop.trips) (h : k0_cond7 k = 1#1) (hn : 10 * k.val + 15 < 100) :
    lstK6 k h = lstC (10 * k.val + 15) hn := lst_congr (k0_off16_eq k) _ _
theorem lstK7_eq (k : Fin k0_t1_loop.trips) (h : k0_cond8 k = 1#1) (hn : 10 * k.val + 16 < 100) :
    lstK7 k h = lstC (10 * k.val + 16) hn := lst_congr (k0_off18_eq k) _ _
theorem lstK8_eq (k : Fin k0_t1_loop.trips) (h : k0_cond9 k = 1#1) (hn : 10 * k.val + 17 < 100) :
    lstK8 k h = lstC (10 * k.val + 17) hn := lst_congr (k0_off20_eq k) _ _
theorem lstK9_eq (k : Fin k0_t1_loop.trips) (h : k0_cond10 k = 1#1) (hn : 10 * k.val + 18 < 100) :
    lstK9 k h = lstC (10 * k.val + 18) hn := lst_congr (k0_off22_eq k) _ _

theorem oChK0_eq (L : grid0.Coords) (k : Fin k0_t1_loop.trips) (hn : 10 * k.val + 0 < 100) :
    oChK0 L k = oChC (widL L) (10 * k.val + 0) hn := och_congr (k0_off2_eq L k ⟨0, by decide⟩) _ _
theorem oChK1_eq (L : grid0.Coords) (k : Fin k0_t1_loop.trips) (hn : 10 * k.val + 1 < 100) :
    oChK1 L k = oChC (widL L) (10 * k.val + 1) hn := och_congr (k0_off2_eq L k ⟨1, by decide⟩) _ _
theorem oChK2_eq (L : grid0.Coords) (k : Fin k0_t1_loop.trips) (hn : 10 * k.val + 2 < 100) :
    oChK2 L k = oChC (widL L) (10 * k.val + 2) hn := och_congr (k0_off2_eq L k ⟨2, by decide⟩) _ _
theorem oChK3_eq (L : grid0.Coords) (k : Fin k0_t1_loop.trips) (hn : 10 * k.val + 3 < 100) :
    oChK3 L k = oChC (widL L) (10 * k.val + 3) hn := och_congr (k0_off2_eq L k ⟨3, by decide⟩) _ _
theorem oChK4_eq (L : grid0.Coords) (k : Fin k0_t1_loop.trips) (hn : 10 * k.val + 4 < 100) :
    oChK4 L k = oChC (widL L) (10 * k.val + 4) hn := och_congr (k0_off2_eq L k ⟨4, by decide⟩) _ _
theorem oChK5_eq (L : grid0.Coords) (k : Fin k0_t1_loop.trips) (hn : 10 * k.val + 5 < 100) :
    oChK5 L k = oChC (widL L) (10 * k.val + 5) hn := och_congr (k0_off2_eq L k ⟨5, by decide⟩) _ _
theorem oChK6_eq (L : grid0.Coords) (k : Fin k0_t1_loop.trips) (hn : 10 * k.val + 6 < 100) :
    oChK6 L k = oChC (widL L) (10 * k.val + 6) hn := och_congr (k0_off2_eq L k ⟨6, by decide⟩) _ _
theorem oChK7_eq (L : grid0.Coords) (k : Fin k0_t1_loop.trips) (hn : 10 * k.val + 7 < 100) :
    oChK7 L k = oChC (widL L) (10 * k.val + 7) hn := och_congr (k0_off2_eq L k ⟨7, by decide⟩) _ _
theorem oChK8_eq (L : grid0.Coords) (k : Fin k0_t1_loop.trips) (hn : 10 * k.val + 8 < 100) :
    oChK8 L k = oChC (widL L) (10 * k.val + 8) hn := och_congr (k0_off2_eq L k ⟨8, by decide⟩) _ _
theorem oChK9_eq (L : grid0.Coords) (k : Fin k0_t1_loop.trips) (hn : 10 * k.val + 9 < 100) :
    oChK9 L k = oChC (widL L) (10 * k.val + 9) hn := och_congr (k0_off2_eq L k ⟨9, by decide⟩) _ _

theorem lstLit0_eq : lstLit0 = lstC 0 (by omega) := rfl
theorem lstLit1_eq : lstLit1 = lstC 1 (by omega) := rfl
theorem lstLit2_eq : lstLit2 = lstC 2 (by omega) := rfl
theorem lstLit3_eq : lstLit3 = lstC 3 (by omega) := rfl
theorem lstLit4_eq : lstLit4 = lstC 4 (by omega) := rfl
theorem lstLit5_eq : lstLit5 = lstC 5 (by omega) := rfl
theorem lstLit6_eq : lstLit6 = lstC 6 (by omega) := rfl
theorem lstLit7_eq : lstLit7 = lstC 7 (by omega) := rfl
theorem lstLit8_eq : lstLit8 = lstC 8 (by omega) := rfl
theorem lstLit9_eq : lstLit9 = lstC 9 (by omega) := rfl

/-! ## When a step of a trip runs -/

theorem cond1_iff (k : Fin k0_t1_loop.trips) : k0_cond1 k = 1#1 ↔ 1 ≤ k.val := by revert k; decide +kernel
theorem cond2_iff (k : Fin k0_t1_loop.trips) : k0_cond2 k = 1#1 ↔ k.val ≤ 8 := by revert k; decide +kernel
theorem cond3_iff (k : Fin k0_t1_loop.trips) : k0_cond3 k = 1#1 ↔ k.val ≤ 8 := by revert k; decide +kernel
theorem cond4_iff (k : Fin k0_t1_loop.trips) : k0_cond4 k = 1#1 ↔ k.val ≤ 8 := by revert k; decide +kernel
theorem cond5_iff (k : Fin k0_t1_loop.trips) : k0_cond5 k = 1#1 ↔ k.val ≤ 8 := by revert k; decide +kernel
theorem cond6_iff (k : Fin k0_t1_loop.trips) : k0_cond6 k = 1#1 ↔ k.val ≤ 8 := by revert k; decide +kernel
theorem cond7_iff (k : Fin k0_t1_loop.trips) : k0_cond7 k = 1#1 ↔ k.val ≤ 8 := by revert k; decide +kernel
theorem cond8_iff (k : Fin k0_t1_loop.trips) : k0_cond8 k = 1#1 ↔ k.val ≤ 8 := by revert k; decide +kernel
theorem cond9_iff (k : Fin k0_t1_loop.trips) : k0_cond9 k = 1#1 ↔ k.val ≤ 8 := by revert k; decide +kernel
theorem cond10_iff (k : Fin k0_t1_loop.trips) : k0_cond10 k = 1#1 ↔ k.val ≤ 8 := by revert k; decide +kernel

variable (d : Dev nD) (L : grid0.Coords)

/-! ## The whole table -/

omit d L in
/-- The table as a gather names it is all of it. -/
theorem set_xAll : (xAllM).view.set = Finset.univ := by
  show ((View.whole (main_arg1_scv : Ref sig .scVector)).slice _).set = Finset.univ
  rw [View.set_slice_whole]
  refine Finset.eq_univ_iff_forall.mpr fun y => Rect.mem_set_unit.mpr fun a => ?_
  have h0 : (y 0).val < 100000 := (y 0).isLt
  have h1 : (y 1).val < 128 := (y 1).isLt
  match a with
  | ⟨0, _⟩ => show 0 ≤ (y 0).val ∧ (y 0).val < 0 + 100000; omega
  | ⟨1, _⟩ => show 0 ≤ (y 1).val ∧ (y 1).val < 0 + 128; omega

/-! ## The ten slots partition the row scratch -/

omit d L in
theorem bigSep_fin10 {M : Type} [URA M] (Φ : Fin 10 → sProp M) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} from by decide,
    bigSep_insert (by decide), bigSep_insert (by decide), bigSep_insert (by decide), bigSep_insert (by decide),
    bigSep_insert (by decide), bigSep_insert (by decide), bigSep_insert (by decide), bigSep_insert (by decide),
    bigSep_insert (by decide), bigSep_singleton]
  rfl

omit d L in
theorem slot_inb (b : Fin 10) : ∀ a, (![b.val, 0, 0] : Fin 3 → Nat) a + S1x64x128.size a ≤ S10x64x128.size a := by
  intro a; have := b.isLt; match a with
  | ⟨0, _⟩ => show b.val + 1 ≤ 10; omega
  | ⟨1, _⟩ => show 0 + 64 ≤ 64; omega
  | ⟨2, _⟩ => show 0 + 128 ≤ 128; omega
/-- Slot b of the row scratch, as a rectangle. -/
abbrev slotR (b : Fin 10) : Rect S10x64x128 := Rect.unit (s := S10x64x128) ![b.val, 0, 0] S1x64x128.size (slot_inb b)

omit d L in
/-- An entry lies in slot b when its first coordinate is b. -/
theorem mem_slotR (b : Fin 10) (y : S10x64x128.Idx) : y ∈ (slotR b).set ↔ (y 0).val = b.val := by
  rw [Rect.mem_set_unit]
  have h1 : (y 1).val < 64 := (y 1).isLt
  have h2 : (y 2).val < 128 := (y 2).isLt
  constructor
  · intro h
    have h0 : b.val ≤ (y 0).val ∧ (y 0).val < b.val + 1 := h 0
    omega
  · intro h a
    match a with
    | ⟨0, _⟩ => show b.val ≤ (y 0).val ∧ (y 0).val < b.val + 1; omega
    | ⟨1, _⟩ => show 0 ≤ (y 1).val ∧ (y 1).val < 0 + 64; omega
    | ⟨2, _⟩ => show 0 ≤ (y 2).val ∧ (y 2).val < 0 + 128; omega

omit d L in
theorem slots_disjoint {b b' : Fin 10} (h : b ≠ b') : Disjoint (slotR b).set (slotR b').set := by
  rw [Finset.disjoint_left]
  intro y hy hy'
  exact h (Fin.ext (((mem_slotR b y).mp hy).symm.trans ((mem_slotR b' y).mp hy')))

omit d L in
theorem slots_cover : (Finset.univ : Finset (Fin 10)).biUnion (fun b => (slotR b).set) = Finset.univ := by
  ext y
  simp only [Finset.mem_biUnion, Finset.mem_univ, true_and, iff_true]
  exact ⟨⟨(y 0).val, (y 0).isLt⟩, (mem_slotR _ y).mpr rfl⟩

omit d L in
/-- A slot's elements are its rectangle's. -/
theorem set_slot {off : Fin 3 → Nat} (p : ∀ a, off a + S1x64x128.size a ≤ S10x64x128.size a) :
    (((rV).slice (Rect.unit (s := S10x64x128) off S1x64x128.size p) (fun _ => rfl)).squeeze S64x128 squeezes_S1x64x128_S64x128).view.set
      = (Rect.unit (s := S10x64x128) off S1x64x128.size p).set := by
  show (((View.whole (cc0_scratch1 : Ref sig .scVector)).slice _).reshape _ _).set = _
  rw [View.set_reshape, View.set_slice_whole]

/-- The row scratch is its ten slots. -/
theorem rPts_slots (f : Buf (Elt F) ((thr d L).loc cc0_scratch1)) :
    ((rV).view.loc (thr d L) ↦{fullShare} f : sProp 𝕄)
      = iprop(((slotM0).view.loc (thr d L) ↦[(slotM0).view.set]{fullShare} f)
          ∗ ((slotM1).view.loc (thr d L) ↦[(slotM1).view.set]{fullShare} f)
          ∗ ((slotM2).view.loc (thr d L) ↦[(slotM2).view.set]{fullShare} f)
          ∗ ((slotM3).view.loc (thr d L) ↦[(slotM3).view.set]{fullShare} f)
          ∗ ((slotM4).view.loc (thr d L) ↦[(slotM4).view.set]{fullShare} f)
          ∗ ((slotM5).view.loc (thr d L) ↦[(slotM5).view.set]{fullShare} f)
          ∗ ((slotM6).view.loc (thr d L) ↦[(slotM6).view.set]{fullShare} f)
          ∗ ((slotM7).view.loc (thr d L) ↦[(slotM7).view.set]{fullShare} f)
          ∗ ((slotM8).view.loc (thr d L) ↦[(slotM8).view.set]{fullShare} f)
          ∗ ((slotM9).view.loc (thr d L) ↦[(slotM9).view.set]{fullShare} f)) := by
  have h : ((thr d L).loc cc0_scratch1 ↦[(Finset.univ : Finset (Fin 10)).biUnion fun b => (slotR b).set]{fullShare} f : sProp 𝕄)
      = bigSep Finset.univ fun b : Fin 10 => ((thr d L).loc cc0_scratch1 ↦[(slotR b).set]{fullShare} f : sProp 𝕄) :=
    pointsTo_biUnion Finset.univ _ (fun _ _ _ _ hbb => slots_disjoint hbb)
  rw [slots_cover, bigSep_fin10] at h
  rw [set_slot, set_slot, set_slot, set_slot, set_slot, set_slot, set_slot, set_slot, set_slot, set_slot]
  exact h

/-! ## The hundred rows partition the index scratch -/

/-- Row n of the index scratch, as a rectangle. -/
abbrev lstR (n : ℕ) (h : n < 100) : Rect S100x64 := Rect.unit (s := S100x64) ![n, 0] S1x64.size (lst_inb n h)

omit d L in
/-- A word lies in row n when its first coordinate is n. -/
theorem mem_lstR (n : ℕ) (h : n < 100) (y : S100x64.Idx) : y ∈ (lstR n h).set ↔ (y 0).val = n := by
  rw [Rect.mem_set_unit]
  have h1 : (y 1).val < 64 := (y 1).isLt
  constructor
  · intro hy
    have h0 : n ≤ (y 0).val ∧ (y 0).val < n + 1 := hy 0
    omega
  · intro hy a
    match a with
    | ⟨0, _⟩ => show n ≤ (y 0).val ∧ (y 0).val < n + 1; omega
    | ⟨1, _⟩ => show 0 ≤ (y 1).val ∧ (y 1).val < 0 + 64; omega

omit d L in
/-- A row's elements are its rectangle's. -/
theorem set_lstC (n : ℕ) (h : n < 100) : (lstC n h).view.set = (lstR n h).set := by
  show (((View.whole (cc0_scratch0 : Ref sig .scVector)).slice _).reshape _ _).set = _
  rw [View.set_reshape, View.set_slice_whole]

/-- The elements of row n, none beyond the last row. -/
def lstSet (n : ℕ) : Finset S100x64.Idx := if h : n < 100 then (lstR n h).set else ∅

omit d L in
theorem lstSet_disjoint : ∀ n ∈ Finset.range 100, ∀ n' ∈ Finset.range 100, n ≠ n' → Disjoint (lstSet n) (lstSet n') := by
  intro n hn n' hn' hne
  have h : n < 100 := Finset.mem_range.mp hn
  have h' : n' < 100 := Finset.mem_range.mp hn'
  unfold lstSet
  rw [dif_pos h, dif_pos h', Finset.disjoint_left]
  intro y hy hy'
  exact hne (((mem_lstR n h y).mp hy).symm.trans ((mem_lstR n' h' y).mp hy'))

omit d L in
theorem lstSet_cover : (Finset.range 100).biUnion lstSet = Finset.univ := by
  ext y
  simp only [Finset.mem_biUnion, Finset.mem_range, Finset.mem_univ, iff_true]
  have h0 : (y 0).val < 100 := (y 0).isLt
  refine ⟨(y 0).val, h0, ?_⟩
  unfold lstSet
  rw [dif_pos h0]
  exact (mem_lstR _ h0 y).mpr rfl

/-- Row n of the index scratch at contents f, nothing beyond the last row. -/
def lstP (q : PosShare TreeShare) (f : Buf (Elt F) ((thr d L).loc cc0_scratch0)) (n : ℕ) : sProp 𝕄 :=
  if h : n < 100 then ((lstC n h).view.loc (thr d L) ↦[(lstC n h).view.set]{q} f) else iprop(emp)

/-- The index scratch is its hundred rows. -/
theorem sPts_rows (q : PosShare TreeShare) (f : Buf (Elt F) ((thr d L).loc cc0_scratch0)) :
    ((sV).view.loc (thr d L) ↦{q} f : sProp 𝕄) = bigSep (Finset.range 100) (lstP d L q f) := by
  have h : ((thr d L).loc cc0_scratch0 ↦[(Finset.range 100).biUnion lstSet]{q} f : sProp 𝕄)
      = bigSep (Finset.range 100) fun n => ((thr d L).loc cc0_scratch0 ↦[lstSet n]{q} f : sProp 𝕄) :=
    pointsTo_biUnion (Finset.range 100) _ lstSet_disjoint
  rw [lstSet_cover] at h
  refine h.trans (bigSep_congr fun n hn => ?_)
  have hn' : n < 100 := Finset.mem_range.mp hn
  unfold lstP lstSet
  rw [dif_pos hn', dif_pos hn', set_lstC]

/-! ## The hundred chunks partition a block of the output -/

/-- Chunk n of block w, as a rectangle. -/
abbrev ochR (w : Fin 32) (n : ℕ) (h : n < 100) : Rect S32x100x64x128 :=
  Rect.unit (s := S32x100x64x128) ![w.val, n, 0, 0] S1x1x64x128.size (och_inb w n h)

omit d L in
/-- An entry lies in chunk n of block w when its first two coordinates are (w, n). -/
theorem mem_ochR (w : Fin 32) (n : ℕ) (h : n < 100) (y : S32x100x64x128.Idx) :
    y ∈ (ochR w n h).set ↔ (y 0).val = w.val ∧ (y 1).val = n := by
  rw [Rect.mem_set_unit]
  have h2 : (y 2).val < 64 := (y 2).isLt
  have h3 : (y 3).val < 128 := (y 3).isLt
  constructor
  · intro hy
    have h0 : w.val ≤ (y 0).val ∧ (y 0).val < w.val + 1 := hy 0
    have h1 : n ≤ (y 1).val ∧ (y 1).val < n + 1 := hy 1
    omega
  · intro hy a
    match a with
    | ⟨0, _⟩ => show w.val ≤ (y 0).val ∧ (y 0).val < w.val + 1; omega
    | ⟨1, _⟩ => show n ≤ (y 1).val ∧ (y 1).val < n + 1; omega
    | ⟨2, _⟩ => show 0 ≤ (y 2).val ∧ (y 2).val < 0 + 64; omega
    | ⟨3, _⟩ => show 0 ≤ (y 3).val ∧ (y 3).val < 0 + 128; omega

omit d L in
/-- An entry lies in block w when its first coordinate is w. -/
theorem mem_orow (w : Fin 32) (y : S32x100x64x128.Idx) : y ∈ (orow w).set ↔ (y 0).val = w.val := by
  rw [Rect.mem_set_unit]
  have h1 : (y 1).val < 100 := (y 1).isLt
  have h2 : (y 2).val < 64 := (y 2).isLt
  have h3 : (y 3).val < 128 := (y 3).isLt
  constructor
  · intro hy
    have h0 : w.val * (32 / 32) ≤ (y 0).val ∧ (y 0).val < w.val * (32 / 32) + 32 / 32 := hy 0
    omega
  · intro hy a
    match a with
    | ⟨0, _⟩ => show w.val * (32 / 32) ≤ (y 0).val ∧ (y 0).val < w.val * (32 / 32) + 32 / 32; omega
    | ⟨1, _⟩ => show 0 * 100 ≤ (y 1).val ∧ (y 1).val < 0 * 100 + 100; omega
    | ⟨2, _⟩ => show 0 * 64 ≤ (y 2).val ∧ (y 2).val < 0 * 64 + 64; omega
    | ⟨3, _⟩ => show 0 * 128 ≤ (y 3).val ∧ (y 3).val < 0 * 128 + 128; omega

omit d L in
/-- A chunk's elements are its rectangle's. -/
theorem set_oChC (w : Fin 32) (n : ℕ) (h : n < 100) : (oChC w n h).view.set = (ochR w n h).set := by
  show (((View.whole (main_v1_scv : Ref sig .scVector)).slice _).reshape _ _).set = _
  rw [View.set_reshape, View.set_slice_whole]

omit d L in
/-- A block's elements are its rectangle's. -/
theorem oRowSet_eq_set (w : Fin 32) : oRowSet w = (orow w).set := by
  show ((View.whole (main_v1_scv : Ref sig .scVector)).slice (orow w)).set = _
  rw [View.set_slice_whole]

/-- The elements of chunk n of block w, none beyond the last chunk. -/
def ochSet (w : Fin 32) (n : ℕ) : Finset S32x100x64x128.Idx := if h : n < 100 then (ochR w n h).set else ∅

omit d L in
theorem ochSet_disjoint (w : Fin 32) :
    ∀ n ∈ Finset.range 100, ∀ n' ∈ Finset.range 100, n ≠ n' → Disjoint (ochSet w n) (ochSet w n') := by
  intro n hn n' hn' hne
  have h : n < 100 := Finset.mem_range.mp hn
  have h' : n' < 100 := Finset.mem_range.mp hn'
  unfold ochSet
  rw [dif_pos h, dif_pos h', Finset.disjoint_left]
  intro y hy hy'
  exact hne (((mem_ochR w n h y).mp hy).2.symm.trans ((mem_ochR w n' h' y).mp hy').2)

omit d L in
theorem ochSet_cover (w : Fin 32) : (Finset.range 100).biUnion (ochSet w) = oRowSet w := by
  rw [oRowSet_eq_set]
  ext y
  rw [mem_orow]
  simp only [Finset.mem_biUnion, Finset.mem_range]
  have h1 : (y 1).val < 100 := (y 1).isLt
  constructor
  · rintro ⟨n, hn, hy⟩
    unfold ochSet at hy
    rw [dif_pos hn] at hy
    exact ((mem_ochR w n hn y).mp hy).1
  · intro hy
    refine ⟨(y 1).val, h1, ?_⟩
    unfold ochSet
    rw [dif_pos h1]
    exact (mem_ochR w _ h1 y).mpr ⟨hy, rfl⟩

/-- Chunk n of block w at contents f, nothing beyond the last chunk. -/
def chP (w : Fin 32) (f : Buf (Elt F) (oLoc d)) (n : ℕ) : sProp 𝕄 :=
  if h : n < 100 then ((oChC w n h).view.loc (thr d L) ↦[(oChC w n h).view.set]{fullShare} f) else iprop(emp)

/-- A block of the output is its hundred chunks. -/
theorem oPts_chunks (w : Fin 32) (f : Buf (Elt F) (oLoc d)) :
    (oLoc d ↦[oRowSet w]{fullShare} f : sProp 𝕄) = bigSep (Finset.range 100) (chP d L w f) := by
  have h : (oLoc d ↦[(Finset.range 100).biUnion (ochSet w)]{fullShare} f : sProp 𝕄)
      = bigSep (Finset.range 100) fun n => (oLoc d ↦[ochSet w n]{fullShare} f : sProp 𝕄) :=
    pointsTo_biUnion (Finset.range 100) _ (ochSet_disjoint w)
  rw [ochSet_cover] at h
  refine h.trans (bigSep_congr fun n hn => ?_)
  have hn' : n < 100 := Finset.mem_range.mp hn
  unfold chP ochSet
  rw [dif_pos hn', dif_pos hn', set_oChC]

end Cert.Proof.KernelIdealRun

end
-- ==== Proof.KIBig.lean ====
/-
  Iterated separating conjunction over an initial segment or an interval of the naturals, taken apart one term at a time
  and ten at a time: an interval gives up its least element, an initial segment its greatest, and ten steps of either are
  one equation. Also the conjunction over ten indices written out. All are equations between propositions, for any
  resource algebra.
-/
import proofs.«206297_g77653008712327_cont_9to1c4b_438_14_alg».proof.Proof.KISetup

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

section BigSepNat

variable {M : Type} [URA M]

/-- Separating conjunction commutes, as an equation. -/
theorem sep_comm_eq (P Q : sProp M) : iprop(P ∗ Q) = iprop(Q ∗ P) :=
  Std.Commutative.comm (op := (fun a b : sProp M => BI.sep a b)) P Q

/-- Separating conjunction associates, as an equation. -/
theorem sep_assoc_eq (P Q R : sProp M) : iprop((P ∗ Q) ∗ R) = iprop(P ∗ Q ∗ R) :=
  Std.Associative.assoc (op := (fun a b : sProp M => BI.sep a b)) P Q R

/-- An initial segment gives up its greatest element: the conjunction below `k = n + 1` is the one below `n` and the term at `n`. -/
theorem bigSep_range_succ_of_eq (Φ : ℕ → sProp M) (n k : ℕ) (hk : k = n + 1) :
    bigSep (Finset.range k) Φ = iprop(bigSep (Finset.range n) Φ ∗ Φ n) := by
  subst hk
  rw [Finset.range_add_one, SparseCore.bigSep_insert' Finset.notMem_range_self, sep_comm_eq]

theorem bigSep_range_succ (Φ : ℕ → sProp M) (n : ℕ) :
    bigSep (Finset.range (n + 1)) Φ = iprop(bigSep (Finset.range n) Φ ∗ Φ n) :=
  bigSep_range_succ_of_eq Φ n (n + 1) rfl

/-- A nonempty interval gives up its least element: the conjunction over [a, b) is the term at `a` and the one over [c, b), `c = a + 1`. -/
theorem bigSep_Ico_pop_of_eq (Φ : ℕ → sProp M) (a b c : ℕ) (h : a < b) (hc : c = a + 1) :
    bigSep (Finset.Ico a b) Φ = iprop(Φ a ∗ bigSep (Finset.Ico c b) Φ) := by
  subst hc
  have hs : Finset.Ico a b = insert a (Finset.Ico (a + 1) b) := by
    ext x; simp only [Finset.mem_Ico, Finset.mem_insert]; omega
  have hn : a ∉ Finset.Ico (a + 1) b := by simp only [Finset.mem_Ico]; omega
  rw [hs, SparseCore.bigSep_insert' hn]

theorem bigSep_Ico_pop (Φ : ℕ → sProp M) (a b : ℕ) (h : a < b) :
    bigSep (Finset.Ico a b) Φ = iprop(Φ a ∗ bigSep (Finset.Ico (a + 1) b) Φ) :=
  bigSep_Ico_pop_of_eq Φ a b (a + 1) h rfl

/-- The conjunction over an empty interval is `emp`. -/
theorem bigSep_Ico_self (Φ : ℕ → sProp M) (a : ℕ) : bigSep (Finset.Ico a a) Φ = iprop(emp) := by
  rw [Finset.Ico_self]; rfl

/-- An initial segment is the interval from 0. -/
theorem bigSep_range_eq_Ico (Φ : ℕ → sProp M) (n : ℕ) : bigSep (Finset.range n) Φ = bigSep (Finset.Ico 0 n) Φ := by
  have hs : Finset.range n = Finset.Ico 0 n := by
    ext x; simp only [Finset.mem_range, Finset.mem_Ico]; omega
  rw [hs]

/-- Ten steps of `bigSep_Ico_pop` at once. -/
theorem bigSep_Ico_pop10 (Φ : ℕ → sProp M) (a b : ℕ) (h : a + 10 ≤ b) :
    bigSep (Finset.Ico a b) Φ = iprop(Φ a ∗ Φ (a+1) ∗ Φ (a+2) ∗ Φ (a+3) ∗ Φ (a+4) ∗ Φ (a+5) ∗ Φ (a+6) ∗ Φ (a+7) ∗ Φ (a+8)
      ∗ Φ (a+9) ∗ bigSep (Finset.Ico (a + 10) b) Φ) := by
  rw [bigSep_Ico_pop_of_eq Φ a b (a+1) (by omega) rfl, bigSep_Ico_pop_of_eq Φ (a+1) b (a+2) (by omega) rfl,
    bigSep_Ico_pop_of_eq Φ (a+2) b (a+3) (by omega) rfl, bigSep_Ico_pop_of_eq Φ (a+3) b (a+4) (by omega) rfl,
    bigSep_Ico_pop_of_eq Φ (a+4) b (a+5) (by omega) rfl, bigSep_Ico_pop_of_eq Φ (a+5) b (a+6) (by omega) rfl,
    bigSep_Ico_pop_of_eq Φ (a+6) b (a+7) (by omega) rfl, bigSep_Ico_pop_of_eq Φ (a+7) b (a+8) (by omega) rfl,
    bigSep_Ico_pop_of_eq Φ (a+8) b (a+9) (by omega) rfl, bigSep_Ico_pop_of_eq Φ (a+9) b (a+10) (by omega) rfl]

/-- Ten steps of `bigSep_range_succ` at once, reassociated to the right. -/
theorem bigSep_range_push10 (Φ : ℕ → sProp M) (n : ℕ) :
    bigSep (Finset.range (n + 10)) Φ = iprop(bigSep (Finset.range n) Φ ∗ Φ n ∗ Φ (n+1) ∗ Φ (n+2) ∗ Φ (n+3) ∗ Φ (n+4) ∗ Φ (n+5)
      ∗ Φ (n+6) ∗ Φ (n+7) ∗ Φ (n+8) ∗ Φ (n+9)) := by
  rw [bigSep_range_succ_of_eq Φ (n+9) (n+10) rfl, bigSep_range_succ_of_eq Φ (n+8) (n+9) rfl,
    bigSep_range_succ_of_eq Φ (n+7) (n+8) rfl, bigSep_range_succ_of_eq Φ (n+6) (n+7) rfl,
    bigSep_range_succ_of_eq Φ (n+5) (n+6) rfl, bigSep_range_succ_of_eq Φ (n+4) (n+5) rfl,
    bigSep_range_succ_of_eq Φ (n+3) (n+4) rfl, bigSep_range_succ_of_eq Φ (n+2) (n+3) rfl,
    bigSep_range_succ_of_eq Φ (n+1) (n+2) rfl, bigSep_range_succ_of_eq Φ n (n+1) rfl]
  simp only [sep_assoc_eq]

end BigSepNat

end Cert.Proof.KernelIdealRun

end
-- ==== Proof.KIInv.lean ====
/-
  The state of one worker's ring between trips of its loop.

  Before trip k (ten chunks per trip) the copies-out of chunks below 10 k have all been issued. Slots 0 to 8 each
  carry the gather of their next chunk, 10 k + b; slot 9's gather of chunk 10 k + 9 is issued only in trip k, so
  between trips slot 9 carries the copy-out of chunk 10 k - 1 (except before trip 0, when the opening gathers fill
  all ten slots, and after trip 9, when all ten slots carry the last ten copies-out). The output block is its chunks:
  those whose copy-out has been waited for hold the function `OUT`, those not yet issued hold what the block held at
  the start; the index scratch is its rows, lent one by one to the gathers and handed back by their waits.
-/
import proofs.«206297_g77653008712327_cont_9to1c4b_438_14_alg».proof.Proof.KIGeom
import proofs.«206297_g77653008712327_cont_9to1c4b_438_14_alg».proof.Proof.KIBig

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x100x64 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S32x100x64x128 EltTy.f32)
local notation "sV" => (Memref.whole Cert.KernelIdeal.cc0_scratch0 : Memref Cert.KernelIdeal.sig Kind.scVector Space.vmem Cert.KernelIdeal.S100x64 EltTy.i32)
local notation "rV" => (Memref.whole Cert.KernelIdeal.cc0_scratch1 : Memref Cert.KernelIdeal.sig Kind.scVector Space.vmem Cert.KernelIdeal.S10x64x128 EltTy.f32)

variable (m : (ℓ : Loc nD τ sig) → Buf (Elt F) ℓ) [FloatOps F]
variable (d : Dev nD) (L : grid0.Coords)

/-- The read token of the table that the transfers on gather cell b use. -/
abbrev xtok (b : Fin 10) : PosShare TreeShare := Transfers.shareTok (xq (widL L)) 10 b
/-- The table as a gather on cell b names it, at that cell's token. -/
def tokx (b : Fin 10) : sProp 𝕄 := (xAllM).view.loc (thr d L) ↦[(xAllM).view.set]{xtok L b} m (xLoc d)

/-- What the gather of chunk n into slot 0 delivers: the slot at that chunk's rows, the list row and the table's token back. -/
def GD0 (n : ℕ) (h : n < 100) : sProp 𝕄 :=
  iprop((((slotM0).view.loc (thr d L) ↦[(slotM0).view.set]{fullShare} RF m d L ⟨n, h⟩)
      ∗ ((lstC n h).view.loc (thr d L) ↦[(lstC n h).view.set]{fullShare} IDXV m d L))
    ∗ ((xAllM).view.loc (thr d L) ↦[(xAllM).view.set]{xtok L (0 : Fin 10)} m (xLoc d)))
/-- What the copy-out of chunk n from slot 0 delivers: the chunk at the specified rows, the slot back. -/
def SD0 (n : ℕ) (h : n < 100) : sProp 𝕄 :=
  iprop(((oChC (widL L) n h).view.loc (thr d L) ↦[(oChC (widL L) n h).view.set]{fullShare} OUT m d)
    ∗ ((slotM0).view.loc (thr d L) ↦[(slotM0).view.set]{fullShare} RF m d L ⟨n, h⟩))
def FG0 (n : ℕ) (h : n < 100) : sProp 𝕄 := Transfers.Flight countersEmb (thr d L) (gcell (0 : Fin 10)) (default : HIx 1) 262144 (GD0 m d L n h)
def FS0 (n : ℕ) (h : n < 100) : sProp 𝕄 := Transfers.Flight countersEmb (thr d L) (scell (0 : Fin 10)) (default : HIx 1) 262144 (SD0 m d L n h)
/-- What the gather of chunk n into slot 1 delivers: the slot at that chunk's rows, the list row and the table's token back. -/
def GD1 (n : ℕ) (h : n < 100) : sProp 𝕄 :=
  iprop((((slotM1).view.loc (thr d L) ↦[(slotM1).view.set]{fullShare} RF m d L ⟨n, h⟩)
      ∗ ((lstC n h).view.loc (thr d L) ↦[(lstC n h).view.set]{fullShare} IDXV m d L))
    ∗ ((xAllM).view.loc (thr d L) ↦[(xAllM).view.set]{xtok L (1 : Fin 10)} m (xLoc d)))
/-- What the copy-out of chunk n from slot 1 delivers: the chunk at the specified rows, the slot back. -/
def SD1 (n : ℕ) (h : n < 100) : sProp 𝕄 :=
  iprop(((oChC (widL L) n h).view.loc (thr d L) ↦[(oChC (widL L) n h).view.set]{fullShare} OUT m d)
    ∗ ((slotM1).view.loc (thr d L) ↦[(slotM1).view.set]{fullShare} RF m d L ⟨n, h⟩))
def FG1 (n : ℕ) (h : n < 100) : sProp 𝕄 := Transfers.Flight countersEmb (thr d L) (gcell (1 : Fin 10)) (default : HIx 1) 262144 (GD1 m d L n h)
def FS1 (n : ℕ) (h : n < 100) : sProp 𝕄 := Transfers.Flight countersEmb (thr d L) (scell (1 : Fin 10)) (default : HIx 1) 262144 (SD1 m d L n h)
/-- What the gather of chunk n into slot 2 delivers: the slot at that chunk's rows, the list row and the table's token back. -/
def GD2 (n : ℕ) (h : n < 100) : sProp 𝕄 :=
  iprop((((slotM2).view.loc (thr d L) ↦[(slotM2).view.set]{fullShare} RF m d L ⟨n, h⟩)
      ∗ ((lstC n h).view.loc (thr d L) ↦[(lstC n h).view.set]{fullShare} IDXV m d L))
    ∗ ((xAllM).view.loc (thr d L) ↦[(xAllM).view.set]{xtok L (2 : Fin 10)} m (xLoc d)))
/-- What the copy-out of chunk n from slot 2 delivers: the chunk at the specified rows, the slot back. -/
def SD2 (n : ℕ) (h : n < 100) : sProp 𝕄 :=
  iprop(((oChC (widL L) n h).view.loc (thr d L) ↦[(oChC (widL L) n h).view.set]{fullShare} OUT m d)
    ∗ ((slotM2).view.loc (thr d L) ↦[(slotM2).view.set]{fullShare} RF m d L ⟨n, h⟩))
def FG2 (n : ℕ) (h : n < 100) : sProp 𝕄 := Transfers.Flight countersEmb (thr d L) (gcell (2 : Fin 10)) (default : HIx 1) 262144 (GD2 m d L n h)
def FS2 (n : ℕ) (h : n < 100) : sProp 𝕄 := Transfers.Flight countersEmb (thr d L) (scell (2 : Fin 10)) (default : HIx 1) 262144 (SD2 m d L n h)
/-- What the gather of chunk n into slot 3 delivers: the slot at that chunk's rows, the list row and the table's token back. -/
def GD3 (n : ℕ) (h : n < 100) : sProp 𝕄 :=
  iprop((((slotM3).view.loc (thr d L) ↦[(slotM3).view.set]{fullShare} RF m d L ⟨n, h⟩)
      ∗ ((lstC n h).view.loc (thr d L) ↦[(lstC n h).view.set]{fullShare} IDXV m d L))
    ∗ ((xAllM).view.loc (thr d L) ↦[(xAllM).view.set]{xtok L (3 : Fin 10)} m (xLoc d)))
/-- What the copy-out of chunk n from slot 3 delivers: the chunk at the specified rows, the slot back. -/
def SD3 (n : ℕ) (h : n < 100) : sProp 𝕄 :=
  iprop(((oChC (widL L) n h).view.loc (thr d L) ↦[(oChC (widL L) n h).view.set]{fullShare} OUT m d)
    ∗ ((slotM3).view.loc (thr d L) ↦[(slotM3).view.set]{fullShare} RF m d L ⟨n, h⟩))
def FG3 (n : ℕ) (h : n < 100) : sProp 𝕄 := Transfers.Flight countersEmb (thr d L) (gcell (3 : Fin 10)) (default : HIx 1) 262144 (GD3 m d L n h)
def FS3 (n : ℕ) (h : n < 100) : sProp 𝕄 := Transfers.Flight countersEmb (thr d L) (scell (3 : Fin 10)) (default : HIx 1) 262144 (SD3 m d L n h)
/-- What the gather of chunk n into slot 4 delivers: the slot at that chunk's rows, the list row and the table's token back. -/
def GD4 (n : ℕ) (h : n < 100) : sProp 𝕄 :=
  iprop((((slotM4).view.loc (thr d L) ↦[(slotM4).view.set]{fullShare} RF m d L ⟨n, h⟩)
      ∗ ((lstC n h).view.loc (thr d L) ↦[(lstC n h).view.set]{fullShare} IDXV m d L))
    ∗ ((xAllM).view.loc (thr d L) ↦[(xAllM).view.set]{xtok L (4 : Fin 10)} m (xLoc d)))
/-- What the copy-out of chunk n from slot 4 delivers: the chunk at the specified rows, the slot back. -/
def SD4 (n : ℕ) (h : n < 100) : sProp 𝕄 :=
  iprop(((oChC (widL L) n h).view.loc (thr d L) ↦[(oChC (widL L) n h).view.set]{fullShare} OUT m d)
    ∗ ((slotM4).view.loc (thr d L) ↦[(slotM4).view.set]{fullShare} RF m d L ⟨n, h⟩))
def FG4 (n : ℕ) (h : n < 100) : sProp 𝕄 := Transfers.Flight countersEmb (thr d L) (gcell (4 : Fin 10)) (default : HIx 1) 262144 (GD4 m d L n h)
def FS4 (n : ℕ) (h : n < 100) : sProp 𝕄 := Transfers.Flight countersEmb (thr d L) (scell (4 : Fin 10)) (default : HIx 1) 262144 (SD4 m d L n h)
/-- What the gather of chunk n into slot 5 delivers: the slot at that chunk's rows, the list row and the table's token back. -/
def GD5 (n : ℕ) (h : n < 100) : sProp 𝕄 :=
  iprop((((slotM5).view.loc (thr d L) ↦[(slotM5).view.set]{fullShare} RF m d L ⟨n, h⟩)
      ∗ ((lstC n h).view.loc (thr d L) ↦[(lstC n h).view.set]{fullShare} IDXV m d L))
    ∗ ((xAllM).view.loc (thr d L) ↦[(xAllM).view.set]{xtok L (5 : Fin 10)} m (xLoc d)))
/-- What the copy-out of chunk n from slot 5 delivers: the chunk at the specified rows, the slot back. -/
def SD5 (n : ℕ) (h : n < 100) : sProp 𝕄 :=
  iprop(((oChC (widL L) n h).view.loc (thr d L) ↦[(oChC (widL L) n h).view.set]{fullShare} OUT m d)
    ∗ ((slotM5).view.loc (thr d L) ↦[(slotM5).view.set]{fullShare} RF m d L ⟨n, h⟩))
def FG5 (n : ℕ) (h : n < 100) : sProp 𝕄 := Transfers.Flight countersEmb (thr d L) (gcell (5 : Fin 10)) (default : HIx 1) 262144 (GD5 m d L n h)
def FS5 (n : ℕ) (h : n < 100) : sProp 𝕄 := Transfers.Flight countersEmb (thr d L) (scell (5 : Fin 10)) (default : HIx 1) 262144 (SD5 m d L n h)
/-- What the gather of chunk n into slot 6 delivers: the slot at that chunk's rows, the list row and the table's token back. -/
def GD6 (n : ℕ) (h : n < 100) : sProp 𝕄 :=
  iprop((((slotM6).view.loc (thr d L) ↦[(slotM6).view.set]{fullShare} RF m d L ⟨n, h⟩)
      ∗ ((lstC n h).view.loc (thr d L) ↦[(lstC n h).view.set]{fullShare} IDXV m d L))
    ∗ ((xAllM).view.loc (thr d L) ↦[(xAllM).view.set]{xtok L (6 : Fin 10)} m (xLoc d)))
/-- What the copy-out of chunk n from slot 6 delivers: the chunk at the specified rows, the slot back. -/
def SD6 (n : ℕ) (h : n < 100) : sProp 𝕄 :=
  iprop(((oChC (widL L) n h).view.loc (thr d L) ↦[(oChC (widL L) n h).view.set]{fullShare} OUT m d)
    ∗ ((slotM6).view.loc (thr d L) ↦[(slotM6).view.set]{fullShare} RF m d L ⟨n, h⟩))
def FG6 (n : ℕ) (h : n < 100) : sProp 𝕄 := Transfers.Flight countersEmb (thr d L) (gcell (6 : Fin 10)) (default : HIx 1) 262144 (GD6 m d L n h)
def FS6 (n : ℕ) (h : n < 100) : sProp 𝕄 := Transfers.Flight countersEmb (thr d L) (scell (6 : Fin 10)) (default : HIx 1) 262144 (SD6 m d L n h)
/-- What the gather of chunk n into slot 7 delivers: the slot at that chunk's rows, the list row and the table's token back. -/
def GD7 (n : ℕ) (h : n < 100) : sProp 𝕄 :=
  iprop((((slotM7).view.loc (thr d L) ↦[(slotM7).view.set]{fullShare} RF m d L ⟨n, h⟩)
      ∗ ((lstC n h).view.loc (thr d L) ↦[(lstC n h).view.set]{fullShare} IDXV m d L))
    ∗ ((xAllM).view.loc (thr d L) ↦[(xAllM).view.set]{xtok L (7 : Fin 10)} m (xLoc d)))
/-- What the copy-out of chunk n from slot 7 delivers: the chunk at the specified rows, the slot back. -/
def SD7 (n : ℕ) (h : n < 100) : sProp 𝕄 :=
  iprop(((oChC (widL L) n h).view.loc (thr d L) ↦[(oChC (widL L) n h).view.set]{fullShare} OUT m d)
    ∗ ((slotM7).view.loc (thr d L) ↦[(slotM7).view.set]{fullShare} RF m d L ⟨n, h⟩))
def FG7 (n : ℕ) (h : n < 100) : sProp 𝕄 := Transfers.Flight countersEmb (thr d L) (gcell (7 : Fin 10)) (default : HIx 1) 262144 (GD7 m d L n h)
def FS7 (n : ℕ) (h : n < 100) : sProp 𝕄 := Transfers.Flight countersEmb (thr d L) (scell (7 : Fin 10)) (default : HIx 1) 262144 (SD7 m d L n h)
/-- What the gather of chunk n into slot 8 delivers: the slot at that chunk's rows, the list row and the table's token back. -/
def GD8 (n : ℕ) (h : n < 100) : sProp 𝕄 :=
  iprop((((slotM8).view.loc (thr d L) ↦[(slotM8).view.set]{fullShare} RF m d L ⟨n, h⟩)
      ∗ ((lstC n h).view.loc (thr d L) ↦[(lstC n h).view.set]{fullShare} IDXV m d L))
    ∗ ((xAllM).view.loc (thr d L) ↦[(xAllM).view.set]{xtok L (8 : Fin 10)} m (xLoc d)))
/-- What the copy-out of chunk n from slot 8 delivers: the chunk at the specified rows, the slot back. -/
def SD8 (n : ℕ) (h : n < 100) : sProp 𝕄 :=
  iprop(((oChC (widL L) n h).view.loc (thr d L) ↦[(oChC (widL L) n h).view.set]{fullShare} OUT m d)
    ∗ ((slotM8).view.loc (thr d L) ↦[(slotM8).view.set]{fullShare} RF m d L ⟨n, h⟩))
def FG8 (n : ℕ) (h : n < 100) : sProp 𝕄 := Transfers.Flight countersEmb (thr d L) (gcell (8 : Fin 10)) (default : HIx 1) 262144 (GD8 m d L n h)
def FS8 (n : ℕ) (h : n < 100) : sProp 𝕄 := Transfers.Flight countersEmb (thr d L) (scell (8 : Fin 10)) (default : HIx 1) 262144 (SD8 m d L n h)
/-- What the gather of chunk n into slot 9 delivers: the slot at that chunk's rows, the list row and the table's token back. -/
def GD9 (n : ℕ) (h : n < 100) : sProp 𝕄 :=
  iprop((((slotM9).view.loc (thr d L) ↦[(slotM9).view.set]{fullShare} RF m d L ⟨n, h⟩)
      ∗ ((lstC n h).view.loc (thr d L) ↦[(lstC n h).view.set]{fullShare} IDXV m d L))
    ∗ ((xAllM).view.loc (thr d L) ↦[(xAllM).view.set]{xtok L (9 : Fin 10)} m (xLoc d)))
/-- What the copy-out of chunk n from slot 9 delivers: the chunk at the specified rows, the slot back. -/
def SD9 (n : ℕ) (h : n < 100) : sProp 𝕄 :=
  iprop(((oChC (widL L) n h).view.loc (thr d L) ↦[(oChC (widL L) n h).view.set]{fullShare} OUT m d)
    ∗ ((slotM9).view.loc (thr d L) ↦[(slotM9).view.set]{fullShare} RF m d L ⟨n, h⟩))
def FG9 (n : ℕ) (h : n < 100) : sProp 𝕄 := Transfers.Flight countersEmb (thr d L) (gcell (9 : Fin 10)) (default : HIx 1) 262144 (GD9 m d L n h)
def FS9 (n : ℕ) (h : n < 100) : sProp 𝕄 := Transfers.Flight countersEmb (thr d L) (scell (9 : Fin 10)) (default : HIx 1) 262144 (SD9 m d L n h)

variable (O : CellTallies nD τ sig (HIx 1)) (W : Waits sig (HIx 1)) (f0 : Buf (Elt F) (oLoc d))

/-- What every shape shares: the wait evidence, the chunks done (below nd) and untouched (from 10 k on), the list rows
    handed back (below 10 k) and not yet lent (from li on), and what the worker owes with its waits recorded. -/
def common (k nd li : ℕ) : sProp 𝕄 :=
  iprop((Transfers.MayWaits (thr d L) (default : HIx 1) O : sProp 𝕄)
    ∗ bigSep (Finset.range nd) (chP d L (widL L) (OUT m d))
    ∗ bigSep (Finset.Ico (10 * k) 100) (chP d L (widL L) f0)
    ∗ bigSep (Finset.range (10 * k)) (lstP d L fullShare (IDXV m d L))
    ∗ bigSep (Finset.Ico li 100) (lstP d L fullShare (IDXV m d L))
    ∗ ∃ W', ⌜∀ p ∈ W', p ∈ W ∨ p.2 = none⌝ ∗ owes (thr d L) O W')

/-- Before trip 0: the ten opening gathers in flight. -/
def inv0 : sProp 𝕄 :=
  iprop(common m d L O W f0 0 0 10
    ∗ FG0 m d L 0 (by omega) ∗ FG1 m d L 1 (by omega) ∗ FG2 m d L 2 (by omega) ∗ FG3 m d L 3 (by omega) ∗ FG4 m d L 4 (by omega) ∗ FG5 m d L 5 (by omega) ∗ FG6 m d L 6 (by omega) ∗ FG7 m d L 7 (by omega) ∗ FG8 m d L 8 (by omega) ∗ FG9 m d L 9 (by omega)
    ∗ semVal (thr d L, scell (0 : Fin 10)) 0 ∗ semVal (thr d L, scell (1 : Fin 10)) 0 ∗ semVal (thr d L, scell (2 : Fin 10)) 0 ∗ semVal (thr d L, scell (3 : Fin 10)) 0 ∗ semVal (thr d L, scell (4 : Fin 10)) 0 ∗ semVal (thr d L, scell (5 : Fin 10)) 0 ∗ semVal (thr d L, scell (6 : Fin 10)) 0 ∗ semVal (thr d L, scell (7 : Fin 10)) 0 ∗ semVal (thr d L, scell (8 : Fin 10)) 0 ∗ semVal (thr d L, scell (9 : Fin 10)) 0)

/-- Before trip k, 1 ≤ k ≤ 9. -/
def invM (k : ℕ) (h1 : 1 ≤ k) (h9 : k ≤ 9) : sProp 𝕄 :=
  iprop(common m d L O W f0 k (10 * k - 1) (10 * k + 9)
    ∗ FG0 m d L (10 * k + 0) (by omega) ∗ FG1 m d L (10 * k + 1) (by omega) ∗ FG2 m d L (10 * k + 2) (by omega) ∗ FG3 m d L (10 * k + 3) (by omega) ∗ FG4 m d L (10 * k + 4) (by omega) ∗ FG5 m d L (10 * k + 5) (by omega) ∗ FG6 m d L (10 * k + 6) (by omega) ∗ FG7 m d L (10 * k + 7) (by omega) ∗ FG8 m d L (10 * k + 8) (by omega)
    ∗ FS9 m d L (10 * k - 1) (by omega)
    ∗ semVal (thr d L, scell (0 : Fin 10)) 0 ∗ semVal (thr d L, scell (1 : Fin 10)) 0 ∗ semVal (thr d L, scell (2 : Fin 10)) 0 ∗ semVal (thr d L, scell (3 : Fin 10)) 0 ∗ semVal (thr d L, scell (4 : Fin 10)) 0 ∗ semVal (thr d L, scell (5 : Fin 10)) 0 ∗ semVal (thr d L, scell (6 : Fin 10)) 0 ∗ semVal (thr d L, scell (7 : Fin 10)) 0 ∗ semVal (thr d L, scell (8 : Fin 10)) 0
    ∗ semVal (thr d L, gcell (9 : Fin 10)) 0 ∗ tokx m d L 9)

/-- After trip 9: the last ten copies-out in flight. -/
def invF : sProp 𝕄 :=
  iprop(common m d L O W f0 10 90 100
    ∗ FS0 m d L 90 (by omega) ∗ FS1 m d L 91 (by omega) ∗ FS2 m d L 92 (by omega) ∗ FS3 m d L 93 (by omega) ∗ FS4 m d L 94 (by omega) ∗ FS5 m d L 95 (by omega) ∗ FS6 m d L 96 (by omega) ∗ FS7 m d L 97 (by omega) ∗ FS8 m d L 98 (by omega) ∗ FS9 m d L 99 (by omega)
    ∗ semVal (thr d L, gcell (0 : Fin 10)) 0 ∗ semVal (thr d L, gcell (1 : Fin 10)) 0 ∗ semVal (thr d L, gcell (2 : Fin 10)) 0 ∗ semVal (thr d L, gcell (3 : Fin 10)) 0 ∗ semVal (thr d L, gcell (4 : Fin 10)) 0 ∗ semVal (thr d L, gcell (5 : Fin 10)) 0 ∗ semVal (thr d L, gcell (6 : Fin 10)) 0 ∗ semVal (thr d L, gcell (7 : Fin 10)) 0 ∗ semVal (thr d L, gcell (8 : Fin 10)) 0 ∗ semVal (thr d L, gcell (9 : Fin 10)) 0
    ∗ tokx m d L 0 ∗ tokx m d L 1 ∗ tokx m d L 2 ∗ tokx m d L 3 ∗ tokx m d L 4 ∗ tokx m d L 5 ∗ tokx m d L 6 ∗ tokx m d L 7 ∗ tokx m d L 8 ∗ tokx m d L 9)

/-- The loop's invariant. -/
def inv (k : ℕ) (_ : BitVec 32) : sProp 𝕄 :=
  if h0 : k = 0 then inv0 m d L O W f0 else if h9 : k ≤ 9 then invM m d L O W f0 k (by omega) h9 else invF m d L O W f0

theorem inv_zero (a : BitVec 32) : inv m d L O W f0 0 a = inv0 m d L O W f0 := dif_pos rfl
theorem inv_mid (k : ℕ) (h1 : 1 ≤ k) (h9 : k ≤ 9) (a : BitVec 32) : inv m d L O W f0 k a = invM m d L O W f0 k h1 h9 := by
  unfold inv; rw [dif_neg (by omega), dif_pos h9]
theorem inv_fin (k : ℕ) (h : 10 ≤ k) (a : BitVec 32) : inv m d L O W f0 k a = invF m d L O W f0 := by
  unfold inv; rw [dif_neg (by omega), dif_neg (by omega)]

/-! ## The piece families at the program's names -/

theorem chP_lt (w : Fin 32) (f : Buf (Elt F) (oLoc d)) (n : ℕ) (h : n < 100) :
    chP d L w f n = ((oChC w n h).view.loc (thr d L) ↦[(oChC w n h).view.set]{fullShare} f : sProp 𝕄) := dif_pos h
theorem lstP_lt (q : PosShare TreeShare) (f : Buf (Elt F) ((thr d L).loc cc0_scratch0)) (n : ℕ) (h : n < 100) :
    lstP d L q f n = ((lstC n h).view.loc (thr d L) ↦[(lstC n h).view.set]{q} f : sProp 𝕄) := dif_pos h

end Cert.Proof.KernelIdealRun

end
-- ==== Proof.KILaunch.lean ====
/-
  The launch of the lookup kernel: how the call's three arrays are dealt to the 2 x 16 workers and gathered again, the
  ghost state's launch element, the host program around the call, and the run of the whole program.

  The host program reshapes the 1024 x 200 row numbers to 32 x 100 x 64 before the call, so that worker w = 2 s + c is
  handed row w; the call returns the 32 x 100 x 64 x 128 output with every block at the one function Lookup.tiled of the
  arguments, so the 32 blocks join to the whole array at that function; the host then reshapes it to 1024 x 200 x 128
  and writes the constant lengths. The pair (c, s) ↦ 2 s + c is a bijection of Fin 2 x Fin 16 with Fin 32, along which
  the 32 parts regroup as two families of sixteen.
-/
import proofs.«206297_g77653008712327_cont_9to1c4b_438_14_alg».proof.Proof.KISetup

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The rows of the two dealt arrays split and join; the shares of the table -/

omit m ρ in
theorem iRowSet_eq (w : Fin 32) : iRowSet w = (irow w).set := by
  show ((View.whole (main_v0_scv : Ref sig .scVector)).slice (irow w)).set = _
  rw [View.set_slice]; exact Finset.map_refl
omit m ρ in
theorem oRowSet_eq (w : Fin 32) : oRowSet w = (orow w).set := by
  show ((View.whole (main_v1_scv : Ref sig .scVector)).slice (orow w)).set = _
  rw [View.set_slice]; exact Finset.map_refl
omit m ρ in
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
omit m ρ in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit m ρ in
theorem irows_cover : (Finset.univ : Finset (Fin 32)).biUnion iRowSet = Finset.univ :=
  (Finset.biUnion_congr rfl fun i _ => iRowSet_eq i).trans (Rect.biUnion_part idiv)
omit m ρ in
theorem orows_cover : (Finset.univ : Finset (Fin 32)).biUnion oRowSet = Finset.univ :=
  (Finset.biUnion_congr rfl fun i _ => oRowSet_eq i).trans (Rect.biUnion_part odiv)

omit m ρ in
theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
omit m ρ in
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl
omit m ρ in
theorem xPts_shares (d : Dev nD) (f : Buf (Elt F) (xLoc d)) :
    (xLoc d ↦{fullShare} f : sProp 𝕄) = bigSep Finset.univ fun w : Fin 32 => xLoc d ↦{xq w} f :=
  pointsTo_leaves Finset.univ f 5 fullShare

/-! ## The 32 workers as two families of sixteen -/

/-- (c, s) ↦ 2 s + c is a bijection of the pairs with the 32 numbers: c is the number's parity, s its half. -/
def widEquiv : Fin 2 × Fin 16 ≃ Fin 32 where
  toFun p := wid p.1 p.2
  invFun w := (⟨w.val % 2, by omega⟩, ⟨w.val / 2, by omega⟩)
  left_inv p := by
    rcases p with ⟨c, s⟩
    refine Prod.ext (Fin.ext ?_) (Fin.ext ?_)
    · show (2 * s.val + c.val) % 2 = c.val
      omega
    · show (2 * s.val + c.val) / 2 = s.val
      omega
  right_inv w := by
    apply Fin.ext
    show 2 * (w.val / 2) + w.val % 2 = w.val
    omega

omit m ρ in
theorem bigSep_wid (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]; rfl

omit m ρ in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit m ρ in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable [FloatOps F]

/-! ## What the handshakes carry, field by field -/

theorem P_st (d : Dev nD) (c : Fin ((K (F := F)).nCore 0)) :
    (P m).st 0 d c = bigSep Finset.univ fun s : Fin 16 => goW m d (wid (Fin.cast nCore_zero c) s) := rfl
theorem P_dn (d : Dev nD) (c : Fin ((K (F := F)).nCore 0)) :
    (P m).dn 0 d c = bigSep Finset.univ fun s : Fin 16 => tdW m d (wid (Fin.cast nCore_zero c) s) := rfl
theorem P_go (d : Dev nD) (c : Fin ((K (F := F)).nCore 0)) (i : Fin ((K (F := F)).nSub 0)) :
    (P m).go 0 d c i = goW m d (wid (Fin.cast nCore_zero c) (Fin.cast nSub_zero i)) := rfl
theorem P_td (d : Dev nD) (c : Fin ((K (F := F)).nCore 0)) (i : Fin ((K (F := F)).nSub 0)) :
    (P m).td 0 d c i = tdW m d (wid (Fin.cast nCore_zero c) (Fin.cast nSub_zero i)) := rfl

/-- A SparseCore's operands ARE its sixteen workers' parts, and its results theirs. -/
theorem vecSplit : (K (F := F)).VecSplit' (P m) 0 := by
  intro d c
  rw [P_st, P_dn]
  simp only [P_go, P_td]
  rw [bigSep_tasks (F := F) (fun s => goW m d (wid (Fin.cast nCore_zero c) s)),
    bigSep_tasks (F := F) (fun s => tdW m d (wid (Fin.cast nCore_zero c) s))]
  iintro H; imodintro
  isplitl [H]; · iexact H
  iintro H; iexact H

/-! ## The launch element of the ghost state -/

def u₀ : UU := (initOf (K (F := F)).hsCells (K (F := F)).hsToks, 1)

omit [FloatOps F] m ρ in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The call's operands and results, whole -/

/-- All 32 workers' parts together are the three arrays whole: the reshaped row numbers, the table, the output. -/
theorem goW_all (d : Dev nD) :
    (bigSep Finset.univ fun w : Fin 32 => goW m d w)
      = (iprop((iLoc d ↦{fullShare} idx3 m d) ∗ (xLoc d ↦{fullShare} m (xLoc d)) ∗ oLoc d ↦{fullShare} m (oLoc d)) : sProp 𝕄) := by
  unfold goW
  rw [bigSep_sep', bigSep_sep', ← iPts_rows, ← xPts_shares, ← oPts_rows]
/-- and what they bring back: every block of the output at the one function, so the output whole at it. -/
theorem tdW_all (d : Dev nD) :
    (bigSep Finset.univ fun w : Fin 32 => tdW m d w)
      = (iprop((iLoc d ↦{fullShare} idx3 m d) ∗ (xLoc d ↦{fullShare} m (xLoc d)) ∗ oLoc d ↦{fullShare} OUT m d) : sProp 𝕄) := by
  unfold tdW
  rw [bigSep_sep', bigSep_sep', ← iPts_rows, ← xPts_shares, ← oPts_rows]

theorem st0_eq (d : Dev nD) :
    (bigSep Finset.univ fun c : Fin ((K (F := F)).nCore 0) => (P m).st 0 d c)
      = (iprop((iLoc d ↦{fullShare} idx3 m d) ∗ (xLoc d ↦{fullShare} m (xLoc d)) ∗ oLoc d ↦{fullShare} m (oLoc d)) : sProp 𝕄) := by
  simp only [P_st]
  rw [bigSep_cores (F := F) (fun c => bigSep Finset.univ fun s : Fin 16 => goW m d (wid c s)), ← bigSep_wid (fun w => goW m d w), goW_all]
theorem dn0_eq (d : Dev nD) :
    (bigSep Finset.univ fun c : Fin ((K (F := F)).nCore 0) => (P m).dn 0 d c)
      = (iprop((iLoc d ↦{fullShare} idx3 m d) ∗ (xLoc d ↦{fullShare} m (xLoc d)) ∗ oLoc d ↦{fullShare} OUT m d) : sProp 𝕄) := by
  simp only [P_dn]
  rw [bigSep_cores (F := F) (fun c => bigSep Finset.univ fun s : Fin 16 => tdW m d (wid c s)), ← bigSep_wid (fun w => tdW m d w), tdW_all]

/-! ## The host program's arrays and operations -/

abbrev a' : DevRef τ sig := Proc.devRef .tc (main_arg0 : Ref sig .tc)
abbrev x' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev e' : DevRef τ sig := Proc.devRef .tc (main_v2 : Ref sig .tc)
abbrev c' : DevRef τ sig := Proc.devRef .tc (main_c : Ref sig .tc)
abbrev l' : DevRef τ sig := Proc.devRef .tc (main_v3 : Ref sig .tc)

/-- The host program's seven arrays. -/
abbrev S7 : Finset (DevRef τ sig) := {a', x', i', o', e', c', l'}

/-- The reshape of the row numbers, the reshape of the output, the constant 200 and its broadcast. -/
abbrev opIdx : HloOp τ sig (Elt F) := StableHlo.reshape main_arg0 main_v0 rfl shapeCasts_S1024x200_S32x100x64
abbrev opEmb : HloOp τ sig (Elt F) := StableHlo.reshape main_v1 main_v2 rfl shapeCasts_S32x100x64x128_S1024x200x128
abbrev opCst : HloOp τ sig (Elt F) := StableHlo.nullary main_c (constantI S_ 32 200#32)
abbrev opLen : HloOp τ sig (Elt F) :=
  StableHlo.unary main_c main_v3 (broadcastInDim S1024 ![] bcast_S_S1024 : (⟨S_, .i32⟩ : BufTy).Contents (Elt F) → (⟨S1024, .i32⟩ : BufTy).Contents (Elt F))

/-- The output in the reference's arrangement, and the lengths. -/
abbrev EMB (d : Dev nD) : Buf (Elt F) (eLoc d) := shapeCast S1024x200x128 (OUT m d) shapeCasts_S32x100x64x128_S1024x200x128
abbrev LEN (d : Dev nD) : Buf (Elt F) (lLoc d) := broadcastInDim S1024 ![] bcast_S_S1024 (constantI S_ 32 200#32)

omit [FloatOps F] m ρ in
theorem held_S7 (d : Dev nD) (W : Valuation τ sig (Elt F)) :
    (held (T d) S7 W : sProp 𝕄) = iprop((aLoc d ↦{fullShare} W a') ∗ (xLoc d ↦{fullShare} W x') ∗ (iLoc d ↦{fullShare} W i') ∗ (oLoc d ↦{fullShare} W o')
      ∗ (eLoc d ↦{fullShare} W e') ∗ (cLoc d ↦{fullShare} W c') ∗ lLoc d ↦{fullShare} W l') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] m ρ in
theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_arg1) ∗ (iLoc d ↦{fullShare} W main_v0)
      ∗ (oLoc d ↦{fullShare} W main_v1) ∗ (eLoc d ↦{fullShare} W main_v2) ∗ (cLoc d ↦{fullShare} W main_c) ∗ lLoc d ↦{fullShare} W main_v3) := by
  unfold unscopedBufs
  rw [show (Finset.univ.filter fun b : Ref sig .tc => ¬ b.isScoped) = {main_arg0, main_arg1, main_v0, main_v1, main_v2, main_c, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch contents; after the first reshape; after the call. -/
def V0 (d : Dev nD) : Valuation τ sig (Elt F) := fun b => m (d, b)
abbrev V1 (d : Dev nD) : Valuation τ sig (Elt F) := (opIdx (F := F)).result (V0 m d)
def V2 (d : Dev nD) : Valuation τ sig (Elt F) := Function.update (V1 m d) o' (OUT m d)
/-- after the second reshape, the constant, the broadcast. -/
abbrev V3 (d : Dev nD) : Valuation τ sig (Elt F) := (opEmb (F := F)).result (V2 m d)
abbrev V4 (d : Dev nD) : Valuation τ sig (Elt F) := (opCst (F := F)).result (V3 m d)
abbrev V5 (d : Dev nD) : Valuation τ sig (Elt F) := (opLen (F := F)).result (V4 m d)

theorem unscoped_held (d : Dev nD) : (unscopedBufs d (fun b => m ((SparseCore.T d).loc b)) : sProp 𝕄) = held (T d) S7 (V0 m d) := by
  rw [unscopedBufs_eq, held_S7]; rfl

theorem V1_a (d : Dev nD) : V1 m d a' = m (aLoc d) := StableHlo.reshape_result_ne' _ _ _ _ _ (show (main_arg0 : Ref sig .tc) ≠ main_v0 by decide)
theorem V1_x (d : Dev nD) : V1 m d x' = m (xLoc d) := StableHlo.reshape_result_ne' _ _ _ _ _ (show (main_arg1 : Ref sig .tc) ≠ main_v0 by decide)
theorem V1_i (d : Dev nD) : V1 m d i' = idx3 m d := StableHlo.reshape_result' _ _ _ _ _
theorem V1_o (d : Dev nD) : V1 m d o' = m (oLoc d) := StableHlo.reshape_result_ne' _ _ _ _ _ (show (main_v1 : Ref sig .tc) ≠ main_v0 by decide)

theorem V2_a (d : Dev nD) : V2 m d a' = m (aLoc d) := (Function.update_of_ne (show a' ≠ o' by decide) _ _).trans (V1_a m d)
theorem V2_x (d : Dev nD) : V2 m d x' = m (xLoc d) := (Function.update_of_ne (show x' ≠ o' by decide) _ _).trans (V1_x m d)
theorem V2_i (d : Dev nD) : V2 m d i' = idx3 m d := (Function.update_of_ne (show i' ≠ o' by decide) _ _).trans (V1_i m d)
theorem V2_o (d : Dev nD) : V2 m d o' = OUT m d := Function.update_self _ _ _
theorem V2_rest (d : Dev nD) {b : DevRef τ sig} (h : b ≠ o') : V2 m d b = V1 m d b := Function.update_of_ne h _ _

theorem V5_a (d : Dev nD) : V5 m d a' = m (aLoc d) :=
  (StableHlo.unary_result_ne' _ _ _ _ (show (main_arg0 : Ref sig .tc) ≠ main_v3 by decide)).trans
    ((StableHlo.nullary_result_ne' _ _ _ (show (main_arg0 : Ref sig .tc) ≠ main_c by decide)).trans
      ((StableHlo.reshape_result_ne' _ _ _ _ _ (show (main_arg0 : Ref sig .tc) ≠ main_v2 by decide)).trans (V2_a m d)))
theorem V5_x (d : Dev nD) : V5 m d x' = m (xLoc d) :=
  (StableHlo.unary_result_ne' _ _ _ _ (show (main_arg1 : Ref sig .tc) ≠ main_v3 by decide)).trans
    ((StableHlo.nullary_result_ne' _ _ _ (show (main_arg1 : Ref sig .tc) ≠ main_c by decide)).trans
      ((StableHlo.reshape_result_ne' _ _ _ _ _ (show (main_arg1 : Ref sig .tc) ≠ main_v2 by decide)).trans (V2_x m d)))
theorem V5_e (d : Dev nD) : V5 m d e' = EMB m d :=
  (StableHlo.unary_result_ne' _ _ _ _ (show (main_v2 : Ref sig .tc) ≠ main_v3 by decide)).trans
    ((StableHlo.nullary_result_ne' _ _ _ (show (main_v2 : Ref sig .tc) ≠ main_c by decide)).trans
      ((StableHlo.reshape_result' _ _ _ _ _).trans (by rw [V2_o]; rfl)))
theorem V5_l (d : Dev nD) : V5 m d l' = LEN (F := F) d :=
  (StableHlo.unary_result' _ _ _ _).trans (congrArg _ (StableHlo.nullary_result' _ _ _))

theorem hIdx : (opIdx (F := F)).bufs ⊆ S7 := show ({a', i'} : Finset (DevRef τ sig)) ⊆ S7 by decide
theorem hEmb : (opEmb (F := F)).bufs ⊆ S7 := show ({o', e'} : Finset (DevRef τ sig)) ⊆ S7 by decide
theorem hCst : (opCst (F := F)).bufs ⊆ S7 := show ({c'} : Finset (DevRef τ sig)) ⊆ S7 by decide
theorem hLen : (opLen (F := F)).bufs ⊆ S7 := show ({c', l'} : Finset (DevRef τ sig)) ⊆ S7 by decide

/-! ## @main on the TensorCore -/

/-- What @main leaves the claim: the two arguments as launched, the output in the reference's arrangement, the lengths. -/
abbrev FIN (d : Dev nD) : sProp 𝕄 :=
  iprop((aLoc d ↦{fullShare} m (aLoc d)) ∗ (xLoc d ↦{fullShare} m (xLoc d)) ∗ (eLoc d ↦{fullShare} EMB m d) ∗ lLoc d ↦{fullShare} LEN (F := F) d)

/-- @main on device d's TensorCore: the reshape of the row numbers, the call on the reshaped row numbers, the table and
    the output, the reshape of what came back, the constant and its broadcast. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the reshape of the row numbers
  iapply (wp_hlo_within 𝒱 (SparseCore.T d) none Set.univ (op := opIdx) (S := S7) hIdx (V := V0 m d)) $$ [Hb Hheld]
  · isplitl [Hb]; · iexact Hb
    iexact Hheld
  iintro ⟨Hb, Hheld⟩
  rw [wp_ret]; imodintro
  ihave Hh := (Entails.of_eq (held_S7 (F := F) d (V1 m d))) $$ Hheld
  icases Hh with ⟨Ha, Hx, Hi, Ho, He, Hc, Hl⟩
  rw [V1_x, V1_i, V1_o]
  -- the call: the three arrays to the workers and back
  iapply ((K (F := F)).wp_run (D (F := F)) 𝒱 (EH := EH) (P := P m) κ d 0) $$ [Hst Hi Hx Ho Hb Ha He Hc Hl]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨Hi, Hx, Ho⟩
  -- the reshape of the output
  iapply (wp_hlo_within 𝒱 (SparseCore.T d) none Set.univ (op := opEmb) (S := S7) hEmb (V := V2 m d)) $$ [Hb Ha Hx Hi Ho He Hc Hl]
  · isplitl [Hb]; · iexact Hb
    rw [held_S7, V2_x, V2_i, V2_o, V2_rest m d (show a' ≠ o' by decide), V2_rest m d (show e' ≠ o' by decide),
      V2_rest m d (show c' ≠ o' by decide), V2_rest m d (show l' ≠ o' by decide)]
    isplitl [Ha]; · iexact Ha
    isplitl [Hx]; · iexact Hx
    isplitl [Hi]; · iexact Hi
    isplitl [Ho]; · iexact Ho
    isplitl [He]; · iexact He
    isplitl [Hc]; · iexact Hc
    iexact Hl
  iintro ⟨Hb, Hheld⟩
  rw [wp_ret]; imodintro
  -- the constant
  iapply (wp_hlo_within 𝒱 (SparseCore.T d) none Set.univ (op := opCst) (S := S7) hCst (V := V3 m d)) $$ [Hb Hheld]
  · isplitl [Hb]; · iexact Hb
    iexact Hheld
  iintro ⟨Hb, Hheld⟩
  rw [wp_ret]; imodintro
  -- its broadcast
  iapply (wp_hlo_within 𝒱 (SparseCore.T d) none Set.univ (op := opLen) (S := S7) hLen (V := V4 m d)) $$ [Hb Hheld]
  · isplitl [Hb]; · iexact Hb
    iexact Hheld
  iintro ⟨Hb, Hheld⟩
  rw [wp_ret]; imodintro; imodintro
  ihave Hh := (Entails.of_eq (held_S7 (F := F) d (V5 m d))) $$ Hheld
  icases Hh with ⟨Ha, Hx, -, -, He, -, Hl⟩
  rw [V5_a, V5_x, V5_e, V5_l]
  isplitl [Hst]; · iexact Hst
  isplitl [Ha]; · iexact Ha
  isplitl [Hx]; · iexact Hx
  isplitl [He]; · iexact He
  iexact Hl

/-! ## The final memory -/

def fq (d : Dev nD) (s' : Phys nD τ sig (Elt F)) : Prop :=
  s'.mem.mem (aLoc d) = m (aLoc d) ∧ s'.mem.mem (xLoc d) = m (xLoc d) ∧ s'.mem.mem (eLoc d) = EMB m d ∧ s'.mem.mem (lLoc d) = LEN (F := F) d

set_option maxRecDepth 16384 in
theorem hfin (d : Dev nD) (s' : Phys nD τ sig (Elt F)) : iprop(FIN m d ∗ SI s') ⊢ (⌜fq m d s'⌝ : sProp 𝕄) := by
  iintro ⟨⟨Ha, Hx, He, Hl⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (persistent_entails_right (SI_pointsTo_agree (st := s') (ℓ := eLoc d) (I := Finset.univ) (q := fullShare) (f := EMB m d))) $$ [HSI He]
  · isplitl [HSI] <;> iassumption
  icases H with ⟨%h3, HSI, -⟩
  ihave H := (SI_pointsTo_agree (st := s') (ℓ := lLoc d) (I := Finset.univ) (q := fullShare) (f := LEN (F := F) d)) $$ [HSI Hl]
  · isplitl [HSI] <;> iassumption
  icases H with %h4
  ipureintro
  exact ⟨funext fun i => h1 i (Finset.mem_univ i), funext fun i => h2 i (Finset.mem_univ i),
    funext fun i => h3 i (Finset.mem_univ i), funext fun i => h4 i (Finset.mem_univ i)⟩

/-! ## The program's run -/

/-- Every device ends with the output the lookup of its arguments, rearranged, the lengths all 200, the arguments as
    launched. -/
def QC : PUnit × MemSt nD τ sig (Elt F) → Prop := fun r => ∀ c : Dev nD,
  r.2.mem (eLoc c) = shapeCast S1024x200x128 (OUT m c) shapeCasts_S32x100x64x128_S1024x200x128
  ∧ r.2.mem (lLoc c) = broadcastInDim S1024 ![] bcast_S_S1024 (constantI S_ 32 200#32)
  ∧ r.2.mem (aLoc c) = m (aLoc c) ∧ r.2.mem (xLoc c) = m (xLoc c)

theorem run_main [∀ e, Nonempty (Elt F e)] (hT : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun s' h c => ⟨(h c).2.2.1, (h c).2.2.2, (h c).1, (h c).2.1⟩)

end Cert.Proof.KernelIdealRun

end
-- ==== Proof.KIObl.lean ====
/-
  The launch's obligation for a vector subcore, from the task at a grid point.

  The call runs, on vector subcore (c, i) of the grid, the lookup at the grid point (c, i) on the whole arrays and the
  subcore's own scratch. What the launch hands the subcore and takes back are the parts of the subcore numbered
  2 i + c, which is the number of the grid point; so a proof of the task at every grid point, from the subcore's
  parts to its parts with the block filled in, is the obligation for every subcore.
-/
import proofs.«206297_g77653008712327_cont_9to1c4b_438_14_alg».proof.Proof.KIInv
import proofs.«206297_g77653008712327_cont_9to1c4b_438_14_alg».proof.Proof.KILaunch

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x100x64 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S32x100x64x128 EltTy.f32)
local notation "sV" => (Memref.whole Cert.KernelIdeal.cc0_scratch0 : Memref Cert.KernelIdeal.sig Kind.scVector Space.vmem Cert.KernelIdeal.S100x64 EltTy.i32)
local notation "rV" => (Memref.whole Cert.KernelIdeal.cc0_scratch1 : Memref Cert.KernelIdeal.sig Kind.scVector Space.vmem Cert.KernelIdeal.S10x64x128 EltTy.f32)

variable (m : (ℓ : Loc nD τ sig) → Buf (Elt F) ℓ) [FloatOps F]

/-! ## The obligation -/

/-- The grid point of vector subcore (c, s). -/
def coordsV (c : Fin (grid0.bound 0)) (s : Fin (grid0.bound 1)) : grid0.Coords :=
  fun | 0 => c | 1 => s | ⟨_ + 2, h⟩ => absurd h (Nat.not_lt.2 (Nat.le_add_left _ _))

omit m in
/-- What a vector subcore runs for the call: the lookup at its grid point, on the whole arrays and its scratch. -/
theorem defs₀_vector (c : Fin τ.nSC) (s : Fin τ.nSub) :
    defs₀ (F := F) (.scVector c s) 0 ()
      = SparseCore.onTile hcore0 hsub0 (fun c s => cc0_gather_kernel (coordsV c s)
          iV (Memref.isWhole_whole _) xV (Memref.isWhole_whole _) oV (Memref.isWhole_whole _)
          sV (Memref.isWhole_whole _) rV (Memref.isWhole_whole _) cc0_scratch2 cc0_scratch3 cc0_scoped0) ⟨⟩ c s := rfl

omit m [FloatOps F] in
/-- The waits left may also be the call's own. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The task of every vector subcore of the grid, from the task at a grid point. -/
theorem tileObl
    (hbody : ∀ (d : Dev nD) (L : grid0.Coords) (O : CellTallies nD τ sig (HIx 1)) (W : Waits sig (HIx 1)), (∀ g, O g none = 0) →
      iprop(levAts (K (F := F)).L (K (F := F)).lev ∗ emp ∗ goW m d (widL L) ∗ scopedBufs (thr d L) ∗ scopedSems0 (thr d L) ∗ owes (thr d L) O W)
        ⊢ wp frame (wpE (defs₀ (F := F)) 𝒱₀ (thr d L) none) Set.univ
            (cc0_gather_kernel L iV (Memref.isWhole_whole _) xV (Memref.isWhole_whole _) oV (Memref.isWhole_whole _)
              sV (Memref.isWhole_whole _) rV (Memref.isWhole_whole _) cc0_scratch2 cc0_scratch3 cc0_scoped0)
            fun _ => iprop(tdW m d (widL L) ∗ scopedBufs (thr d L) ∗ scopedSems0 (thr d L)
              ∗ ∃ W', ⌜∀ p ∈ W', p ∈ W ∨ p.2 = none⌝ ∗ owes (thr d L) O W')) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hbody d (coordsV ⟨_, hci.1⟩ ⟨_, hci.2⟩) O W hO).trans (wp_mono frame _ _ fun _ => obl_post)

end Cert.Proof.KernelIdealRun

end
-- ==== Proof.KIValues.lean ====
/-
  What one worker's buffers hold, as pure facts about reading and writing through the slices the program forms.

  A slice of a whole buffer at unit stride, squeezed, places index x at the slice's offset plus x behind the unit
  coordinates the squeeze dropped. So the worker's row of the reshaped row numbers, read whole, is the index scratch's
  contents; row n of the index scratch reads the worker's words (w, n, ·), each a row number of the table under the
  precondition; a gather by those words into a slot lands, at (·, r, e), entry e of the table row word (w, n, r) names;
  and a slot copied out to chunk n of the worker's block lands the lookup's value at (w, n, r, e).
-/
import proofs.«206297_g77653008712327_cont_9to1c4b_438_14_alg».proof.Proof.KIBodyDefs
import Idealize.ShloMosaic.Lib.ValueLayout

noncomputable section

namespace Cert.Proof.KernelIdealRun

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x100x64 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S32x100x64x128 EltTy.f32)
local notation "sV" => (Memref.whole Cert.KernelIdeal.cc0_scratch0 : Memref Cert.KernelIdeal.sig Kind.scVector Space.vmem Cert.KernelIdeal.S100x64 EltTy.i32)
local notation "rV" => (Memref.whole Cert.KernelIdeal.cc0_scratch1 : Memref Cert.KernelIdeal.sig Kind.scVector Space.vmem Cert.KernelIdeal.S10x64x128 EltTy.f32)

variable (m : (ℓ : Loc nD τ sig) → Buf (Elt F) ℓ)
variable (d : Dev nD) (L : grid0.Coords)

/-! ## Where the slices place their indices -/

omit m d in
/-- Index (k, r) of the worker's row of the reshaped row numbers is element (w, k, r) of the array. -/
theorem emb_iRowK (j : S100x64.Idx) : (iRowK L).view.emb j = ix3 (widL L) (j 0) (j 1) := by
  have hj : Shape.reshapeEquiv squeezes_S1x100x64_S100x64.numel_eq j = ix3 (⟨0, Nat.one_pos⟩ : Fin 1) (j 0) (j 1) :=
    (congrArg (Shape.reshapeEquiv squeezes_S1x100x64_S100x64.numel_eq) (eq_ix2 j)).trans
      (reshapeEquiv_ix2_1ab (a := 100) (b := 64) squeezes_S1x100x64_S100x64.numel_eq (j 0) (j 1))
  funext a; apply Fin.ext
  show (k0_off1 L) a + 1 * ((Shape.reshapeEquiv squeezes_S1x100x64_S100x64.numel_eq j) a).val = _
  rw [hj, k0_off1_eq]
  match a with
  | ⟨0, _⟩ => show 2 * (L 1).val + (L 0).val + 1 * 0 = 2 * (L 1).val + (L 0).val; omega
  | ⟨1, _⟩ => show 0 + 1 * (j 0).val = (j 0).val; omega
  | ⟨2, _⟩ => show 0 + 1 * (j 1).val = (j 1).val; omega

omit m d L in
/-- Index r of row n of the index scratch is element (n, r) of the scratch. -/
theorem emb_lstC (n : ℕ) (h : n < 100) (x : S64.Idx) : (lstC n h).view.emb x = ix2 (⟨n, h⟩ : Fin 100) (x 0) := by
  have hx := Shape.reshapeEquiv_cons_one (n := 1) (d := ![64]) squeezes_S1x64_S64.numel_eq x
  funext a; apply Fin.ext
  show (![n, 0] : Fin 2 → ℕ) a + 1 * ((Shape.reshapeEquiv squeezes_S1x64_S64.numel_eq x) a).val = _
  rw [hx]
  match a with
  | ⟨0, _⟩ => show n + 1 * 0 = n; omega
  | ⟨1, _⟩ => show 0 + 1 * (x 0).val = (x 0).val; omega

/-! ## The index scratch -/

/-- The worker's row of the reshaped row numbers, read whole, is what the index scratch is to hold. -/
theorem read_iRowK : (iRowK L).view.read (Elt F) (idx3 m d) = IDXV m d L := by
  funext j
  rw [View.read_apply, emb_iRowK]
  exact cast_eq _ _

/-- The opening copy fills the index scratch with the worker's row. -/
theorem idxv_of_copy (fs : Buf (Elt F) ((thr d L).loc cc0_scratch0)) (pay : S100x64.Idx → Elt F .i32)
    (hpay : pay = (iRowK L).view.read (Elt F) (idx3 m d)) :
    View.write (Elt F) (sV).view fs pay Finset.univ = IDXV m d L := by
  subst hpay
  rw [View.write_whole_univ]
  exact read_iRowK m d L

/-- Row n of the index scratch reads, at r, the scratch's word (n, r). -/
theorem read_lstC (n : ℕ) (h : n < 100) (f : Buf (Elt F) ((thr d L).loc cc0_scratch0)) (x : S64.Idx) :
    (lstC n h).view.read (Elt F) f x = f (ix2 (⟨n, h⟩ : Fin 100) (x 0)) := by
  rw [View.read_apply, emb_lstC]
  exact cast_eq _ _

/-- which, after the opening copy, is the worker's word (w, n, r) of the reshaped row numbers. -/
theorem read_lstC_IDXV (n : ℕ) (h : n < 100) (x : S64.Idx) :
    (lstC n h).view.read (Elt F) (IDXV m d L) x = idx3 m d (ix3 (widL L) (⟨n, h⟩ : Fin 100) (x 0)) :=
  read_lstC d L n h (IDXV m d L) x

/-- Every word of a list row is a row number of the table, under the precondition. -/
theorem list_inb' (hpre : Lookup.InRange (idx3 m d)) (n : ℕ) (h : n < 100) :
    ∀ x, ((lstC n h).view.read (Elt F) (IDXV m d L) x).toNat < 100000 := by
  intro x
  rw [read_lstC_IDXV]
  have := (Lookup.toNat_of_inRange (hpre (ix3 (widL L) (⟨n, h⟩ : Fin 100) (x 0)))).2
  omega
theorem list_inb (hpre : Lookup.InRange (idx3 m d)) (n : ℕ) (h : n < 100) :
    ∀ x, ((lstC n h).view.read (Elt F) (IDXV m d L) x).toNat < S100000x128.size gathers_S100000x128_S64x128.axis :=
  list_inb' m d L hpre n h

/-! ## The slots, the table, the output chunks -/

omit m d L in
theorem slotC_inb (b : ℕ) (hb : b < 10) : ∀ a, (![b, 0, 0] : Fin 3 → Nat) a + S1x64x128.size a ≤ S10x64x128.size a := by
  intro a; match a with
  | ⟨0, _⟩ => show b + 1 ≤ 10; omega
  | ⟨1, _⟩ => show 0 + 64 ≤ 64; omega
  | ⟨2, _⟩ => show 0 + 128 ≤ 128; omega
/-- Slot b of the row scratch. -/
abbrev slotC (b : ℕ) (hb : b < 10) : Memref sig .scVector .vmem S64x128 .f32 :=
  ((rV).slice (Rect.unit (s := S10x64x128) ![b, 0, 0] S1x64x128.size (slotC_inb b hb)) (fun _ => rfl)).squeeze S64x128 squeezes_S1x64x128_S64x128

omit m d L in
/-- Index (r, e) of slot b is element (b, r, e) of the row scratch. -/
theorem emb_slotC (b : ℕ) (hb : b < 10) (y : S64x128.Idx) : (slotC b hb).view.emb y = ix3 (⟨b, hb⟩ : Fin 10) (y 0) (y 1) := by
  have hy : Shape.reshapeEquiv squeezes_S1x64x128_S64x128.numel_eq y = ix3 (⟨0, Nat.one_pos⟩ : Fin 1) (y 0) (y 1) :=
    (congrArg (Shape.reshapeEquiv squeezes_S1x64x128_S64x128.numel_eq) (eq_ix2 y)).trans
      (reshapeEquiv_ix2_1ab (a := 64) (b := 128) squeezes_S1x64x128_S64x128.numel_eq (y 0) (y 1))
  funext a; apply Fin.ext
  show (![b, 0, 0] : Fin 3 → ℕ) a + 1 * ((Shape.reshapeEquiv squeezes_S1x64x128_S64x128.numel_eq y) a).val = _
  rw [hy]
  match a with
  | ⟨0, _⟩ => show b + 1 * 0 = b; omega
  | ⟨1, _⟩ => show 0 + 1 * (y 0).val = (y 0).val; omega
  | ⟨2, _⟩ => show 0 + 1 * (y 1).val = (y 1).val; omega

omit m d L in
/-- The table as a gather names it places every index at itself. -/
theorem emb_xAllM (z : S100000x128.Idx) : (xAllM).view.emb z = z := by
  funext a; apply Fin.ext
  show (![0, 0] : Fin 2 → ℕ) a + 1 * (z a).val = (z a).val
  match a with
  | ⟨0, _⟩ => show 0 + 1 * (z ⟨0, _⟩).val = (z ⟨0, _⟩).val; omega
  | ⟨1, _⟩ => show 0 + 1 * (z ⟨1, _⟩).val = (z ⟨1, _⟩).val; omega

omit m d L in
/-- Index (r, e) of chunk n of worker w's block is element (w, n, r, e) of the output. -/
theorem emb_oChC (w : Fin 32) (n : ℕ) (h : n < 100) (y : S64x128.Idx) :
    (oChC w n h).view.emb y = ix4 w (⟨n, h⟩ : Fin 100) (y 0) (y 1) := by
  have hy : Shape.reshapeEquiv squeezes_S1x1x64x128_S64x128.numel_eq y = ix4 (⟨0, Nat.one_pos⟩ : Fin 1) (⟨0, Nat.one_pos⟩ : Fin 1) (y 0) (y 1) :=
    (congrArg (Shape.reshapeEquiv squeezes_S1x1x64x128_S64x128.numel_eq) (eq_ix2 y)).trans
      (reshapeEquiv_ix2_11ab (a := 64) (b := 128) squeezes_S1x1x64x128_S64x128.numel_eq (y 0) (y 1))
  funext a; apply Fin.ext
  show (![w.val, n, 0, 0] : Fin 4 → ℕ) a + 1 * ((Shape.reshapeEquiv squeezes_S1x1x64x128_S64x128.numel_eq y) a).val = _
  rw [hy]
  match a with
  | ⟨0, _⟩ => show w.val + 1 * 0 = w.val; omega
  | ⟨1, _⟩ => show n + 1 * 0 = n; omega
  | ⟨2, _⟩ => show 0 + 1 * (y 0).val = (y 0).val; omega
  | ⟨3, _⟩ => show 0 + 1 * (y 1).val = (y 1).val; omega

omit m d L in
/-- The k-th index of a list in row-major order is k. -/
theorem rowMajor_symm_S64 (k : Fin S64.numel) : ((S64.rowMajor.symm k) 0).val = k.val := by
  have e := Shape.rowMajor_val_one (d := ![64]) (S64.rowMajor.symm k)
  rw [Equiv.apply_symm_apply] at e
  exact e.symm

/-! ## A gather's landing -/

/-- A gather by row n of the index scratch into slot b lands, at every element of the slot, what the slot is to hold
    after chunk n: entry e of the table row that word (w, n, r) names. -/
theorem gather_lands (b : ℕ) (hb : b < 10) (hpre : Lookup.InRange (idx3 m d)) (n : ℕ) (h : n < 100)
    (fd : Buf (Elt F) ((thr d L).loc cc0_scratch1))
    (hin : ∀ x, ((lstC n h).view.read (Elt F) (IDXV m d L) x).toNat < S100000x128.size gathers_S100000x128_S64x128.axis) :
    ∀ i ∈ (slotC b hb).view.set, (slotC b hb).view.write (Elt F) fd
        (SparseCore.gatherPayload gathers_S100000x128_S64x128 ((xAllM).view.read (Elt F) (m (xLoc d)))
          (SparseCore.rows ((lstC n h).view.read (Elt F) (IDXV m d L)) rfl hin)) Finset.univ i = RF m d L ⟨n, h⟩ i := by
  intro i hi
  obtain ⟨y, -, rfl⟩ := Finset.mem_map.mp hi
  rw [View.write_emb_of_mem _ _ (Finset.mem_univ y), emb_slotC]
  refine (cast_eq _ _).trans ?_
  unfold SparseCore.gatherPayload
  rw [View.read_apply, emb_xAllM]
  refine (cast_eq _ _).trans ?_
  show m (xLoc d) _ = m (xLoc d) (ix2 (Lookup.rowOf (idx3 m d (ix3 (widL L) (⟨n, h⟩ : Fin 100) (y 0)))) (y 1))
  congr 1
  funext a; apply Fin.ext
  match a with
  | ⟨0, _⟩ =>
    show (gathers_S100000x128_S64x128.idx (SparseCore.rows ((lstC n h).view.read (Elt F) (IDXV m d L)) rfl hin) y
        gathers_S100000x128_S64x128.axis).val = (Lookup.rowOf (idx3 m d (ix3 (widL L) (⟨n, h⟩ : Fin 100) (y 0)))).val
    rw [Shape.Gathers.idx_axis, Lookup.rowOf_val_of_le (Lookup.toNat_of_inRange (hpre _)).2]
    show ((lstC n h).view.read (Elt F) (IDXV m d L) (S64.rowMajor.symm ((y 0).cast rfl))).toNat = _
    rw [read_lstC_IDXV, show (S64.rowMajor.symm ((y 0).cast rfl)) 0 = y 0 from Fin.ext (rowMajor_symm_S64 _)]
  | ⟨1, _⟩ =>
    exact Shape.Gathers.idx_of_ne gathers_S100000x128_S64x128 _ y ⟨1, by decide⟩ (by decide)

/-! ## A copy-out's landing -/

/-- A slot holding chunk n's rows, copied out to chunk n of the worker's block, lands the lookup's value at every element
    of the chunk. -/
theorem store_lands (b : ℕ) (hb : b < 10) (n : ℕ) (h : n < 100) (f0 : Buf (Elt F) (oLoc d)) :
    ∀ i ∈ (oChC (widL L) n h).view.set, (oChC (widL L) n h).view.write (Elt F) f0
        ((ReadAs.same : ReadAs (Elt F) S64x128 .f32 S64x128 .f32).apply ((slotC b hb).view.read (Elt F) (RF m d L ⟨n, h⟩))) Finset.univ i
      = OUT m d i := by
  intro i hi
  obtain ⟨y, -, rfl⟩ := Finset.mem_map.mp hi
  rw [View.write_emb_of_mem _ _ (Finset.mem_univ y), emb_oChC]
  refine (cast_eq _ _).trans ?_
  show (slotC b hb).view.read (Elt F) (RF m d L ⟨n, h⟩) y = _
  rw [View.read_apply, emb_slotC]
  exact cast_eq _ _

/-! ## The same at the slots as the program names them -/

theorem gather_lands0 (hpre : Lookup.InRange (idx3 m d)) (n : ℕ) (h : n < 100) (fd : Buf (Elt F) ((thr d L).loc cc0_scratch1))
    (hin : ∀ x, ((lstC n h).view.read (Elt F) (IDXV m d L) x).toNat < S100000x128.size gathers_S100000x128_S64x128.axis) :
    ∀ i ∈ (slotM0).view.set, (slotM0).view.write (Elt F) fd
        (SparseCore.gatherPayload gathers_S100000x128_S64x128 ((xAllM).view.read (Elt F) (m (xLoc d)))
          (SparseCore.rows ((lstC n h).view.read (Elt F) (IDXV m d L)) rfl hin)) Finset.univ i = RF m d L ⟨n, h⟩ i :=
  gather_lands m d L 0 (by omega) hpre n h fd hin
theorem store_lands0 (n : ℕ) (h : n < 100) (f0 : Buf (Elt F) (oLoc d)) :
    ∀ i ∈ (oChC (widL L) n h).view.set, (oChC (widL L) n h).view.write (Elt F) f0
        ((ReadAs.same : ReadAs (Elt F) S64x128 .f32 S64x128 .f32).apply ((slotM0).view.read (Elt F) (RF m d L ⟨n, h⟩))) Finset.univ i
      = OUT m d i :=
  store_lands m d L 0 (by omega) n h f0

theorem gather_lands1 (hpre : Lookup.InRange (idx3 m d)) (n : ℕ) (h : n < 100) (fd : Buf (Elt F) ((thr d L).loc cc0_scratch1))
    (hin : ∀ x, ((lstC n h).view.read (Elt F) (IDXV m d L) x).toNat < S100000x128.size gathers_S100000x128_S64x128.axis) :
    ∀ i ∈ (slotM1).view.set, (slotM1).view.write (Elt F) fd
        (SparseCore.gatherPayload gathers_S100000x128_S64x128 ((xAllM).view.read (Elt F) (m (xLoc d)))
          (SparseCore.rows ((lstC n h).view.read (Elt F) (IDXV m d L)) rfl hin)) Finset.univ i = RF m d L ⟨n, h⟩ i :=
  gather_lands m d L 1 (by omega) hpre n h fd hin
theorem store_lands1 (n : ℕ) (h : n < 100) (f0 : Buf (Elt F) (oLoc d)) :
    ∀ i ∈ (oChC (widL L) n h).view.set, (oChC (widL L) n h).view.write (Elt F) f0
        ((ReadAs.same : ReadAs (Elt F) S64x128 .f32 S64x128 .f32).apply ((slotM1).view.read (Elt F) (RF m d L ⟨n, h⟩))) Finset.univ i
      = OUT m d i :=
  store_lands m d L 1 (by omega) n h f0

theorem gather_lands2 (hpre : Lookup.InRange (idx3 m d)) (n : ℕ) (h : n < 100) (fd : Buf (Elt F) ((thr d L).loc cc0_scratch1))
    (hin : ∀ x, ((lstC n h).view.read (Elt F) (IDXV m d L) x).toNat < S100000x128.size gathers_S100000x128_S64x128.axis) :
    ∀ i ∈ (slotM2).view.set, (slotM2).view.write (Elt F) fd
        (SparseCore.gatherPayload gathers_S100000x128_S64x128 ((xAllM).view.read (Elt F) (m (xLoc d)))
          (SparseCore.rows ((lstC n h).view.read (Elt F) (IDXV m d L)) rfl hin)) Finset.univ i = RF m d L ⟨n, h⟩ i :=
  gather_lands m d L 2 (by omega) hpre n h fd hin
theorem store_lands2 (n : ℕ) (h : n < 100) (f0 : Buf (Elt F) (oLoc d)) :
    ∀ i ∈ (oChC (widL L) n h).view.set, (oChC (widL L) n h).view.write (Elt F) f0
        ((ReadAs.same : ReadAs (Elt F) S64x128 .f32 S64x128 .f32).apply ((slotM2).view.read (Elt F) (RF m d L ⟨n, h⟩))) Finset.univ i
      = OUT m d i :=
  store_lands m d L 2 (by omega) n h f0

theorem gather_lands3 (hpre : Lookup.InRange (idx3 m d)) (n : ℕ) (h : n < 100) (fd : Buf (Elt F) ((thr d L).loc cc0_scratch1))
    (hin : ∀ x, ((lstC n h).view.read (Elt F) (IDXV m d L) x).toNat < S100000x128.size gathers_S100000x128_S64x128.axis) :
    ∀ i ∈ (slotM3).view.set, (slotM3).view.write (Elt F) fd
        (SparseCore.gatherPayload gathers_S100000x128_S64x128 ((xAllM).view.read (Elt F) (m (xLoc d)))
          (SparseCore.rows ((lstC n h).view.read (Elt F) (IDXV m d L)) rfl hin)) Finset.univ i = RF m d L ⟨n, h⟩ i :=
  gather_lands m d L 3 (by omega) hpre n h fd hin
theorem store_lands3 (n : ℕ) (h : n < 100) (f0 : Buf (Elt F) (oLoc d)) :
    ∀ i ∈ (oChC (widL L) n h).view.set, (oChC (widL L) n h).view.write (Elt F) f0
        ((ReadAs.same : ReadAs (Elt F) S64x128 .f32 S64x128 .f32).apply ((slotM3).view.read (Elt F) (RF m d L ⟨n, h⟩))) Finset.univ i
      = OUT m d i :=
  store_lands m d L 3 (by omega) n h f0

theorem gather_lands4 (hpre : Lookup.InRange (idx3 m d)) (n : ℕ) (h : n < 100) (fd : Buf (Elt F) ((thr d L).loc cc0_scratch1))
    (hin : ∀ x, ((lstC n h).view.read (Elt F) (IDXV m d L) x).toNat < S100000x128.size gathers_S100000x128_S64x128.axis) :
    ∀ i ∈ (slotM4).view.set, (slotM4).view.write (Elt F) fd
        (SparseCore.gatherPayload gathers_S100000x128_S64x128 ((xAllM).view.read (Elt F) (m (xLoc d)))
          (SparseCore.rows ((lstC n h).view.read (Elt F) (IDXV m d L)) rfl hin)) Finset.univ i = RF m d L ⟨n, h⟩ i :=
  gather_lands m d L 4 (by omega) hpre n h fd hin
theorem store_lands4 (n : ℕ) (h : n < 100) (f0 : Buf (Elt F) (oLoc d)) :
    ∀ i ∈ (oChC (widL L) n h).view.set, (oChC (widL L) n h).view.write (Elt F) f0
        ((ReadAs.same : ReadAs (Elt F) S64x128 .f32 S64x128 .f32).apply ((slotM4).view.read (Elt F) (RF m d L ⟨n, h⟩))) Finset.univ i
      = OUT m d i :=
  store_lands m d L 4 (by omega) n h f0

theorem gather_lands5 (hpre : Lookup.InRange (idx3 m d)) (n : ℕ) (h : n < 100) (fd : Buf (Elt F) ((thr d L).loc cc0_scratch1))
    (hin : ∀ x, ((lstC n h).view.read (Elt F) (IDXV m d L) x).toNat < S100000x128.size gathers_S100000x128_S64x128.axis) :
    ∀ i ∈ (slotM5).view.set, (slotM5).view.write (Elt F) fd
        (SparseCore.gatherPayload gathers_S100000x128_S64x128 ((xAllM).view.read (Elt F) (m (xLoc d)))
          (SparseCore.rows ((lstC n h).view.read (Elt F) (IDXV m d L)) rfl hin)) Finset.univ i = RF m d L ⟨n, h⟩ i :=
  gather_lands m d L 5 (by omega) hpre n h fd hin
theorem store_lands5 (n : ℕ) (h : n < 100) (f0 : Buf (Elt F) (oLoc d)) :
    ∀ i ∈ (oChC (widL L) n h).view.set, (oChC (widL L) n h).view.write (Elt F) f0
        ((ReadAs.same : ReadAs (Elt F) S64x128 .f32 S64x128 .f32).apply ((slotM5).view.read (Elt F) (RF m d L ⟨n, h⟩))) Finset.univ i
      = OUT m d i :=
  store_lands m d L 5 (by omega) n h f0

theorem gather_lands6 (hpre : Lookup.InRange (idx3 m d)) (n : ℕ) (h : n < 100) (fd : Buf (Elt F) ((thr d L).loc cc0_scratch1))
    (hin : ∀ x, ((lstC n h).view.read (Elt F) (IDXV m d L) x).toNat < S100000x128.size gathers_S100000x128_S64x128.axis) :
    ∀ i ∈ (slotM6).view.set, (slotM6).view.write (Elt F) fd
        (SparseCore.gatherPayload gathers_S100000x128_S64x128 ((xAllM).view.read (Elt F) (m (xLoc d)))
          (SparseCore.rows ((lstC n h).view.read (Elt F) (IDXV m d L)) rfl hin)) Finset.univ i = RF m d L ⟨n, h⟩ i :=
  gather_lands m d L 6 (by omega) hpre n h fd hin
theorem store_lands6 (n : ℕ) (h : n < 100) (f0 : Buf (Elt F) (oLoc d)) :
    ∀ i ∈ (oChC (widL L) n h).view.set, (oChC (widL L) n h).view.write (Elt F) f0
        ((ReadAs.same : ReadAs (Elt F) S64x128 .f32 S64x128 .f32).apply ((slotM6).view.read (Elt F) (RF m d L ⟨n, h⟩))) Finset.univ i
      = OUT m d i :=
  store_lands m d L 6 (by omega) n h f0

theorem gather_lands7 (hpre : Lookup.InRange (idx3 m d)) (n : ℕ) (h : n < 100) (fd : Buf (Elt F) ((thr d L).loc cc0_scratch1))
    (hin : ∀ x, ((lstC n h).view.read (Elt F) (IDXV m d L) x).toNat < S100000x128.size gathers_S100000x128_S64x128.axis) :
    ∀ i ∈ (slotM7).view.set, (slotM7).view.write (Elt F) fd
        (SparseCore.gatherPayload gathers_S100000x128_S64x128 ((xAllM).view.read (Elt F) (m (xLoc d)))
          (SparseCore.rows ((lstC n h).view.read (Elt F) (IDXV m d L)) rfl hin)) Finset.univ i = RF m d L ⟨n, h⟩ i :=
  gather_lands m d L 7 (by omega) hpre n h fd hin
theorem store_lands7 (n : ℕ) (h : n < 100) (f0 : Buf (Elt F) (oLoc d)) :
    ∀ i ∈ (oChC (widL L) n h).view.set, (oChC (widL L) n h).view.write (Elt F) f0
        ((ReadAs.same : ReadAs (Elt F) S64x128 .f32 S64x128 .f32).apply ((slotM7).view.read (Elt F) (RF m d L ⟨n, h⟩))) Finset.univ i
      = OUT m d i :=
  store_lands m d L 7 (by omega) n h f0

theorem gather_lands8 (hpre : Lookup.InRange (idx3 m d)) (n : ℕ) (h : n < 100) (fd : Buf (Elt F) ((thr d L).loc cc0_scratch1))
    (hin : ∀ x, ((lstC n h).view.read (Elt F) (IDXV m d L) x).toNat < S100000x128.size gathers_S100000x128_S64x128.axis) :
    ∀ i ∈ (slotM8).view.set, (slotM8).view.write (Elt F) fd
        (SparseCore.gatherPayload gathers_S100000x128_S64x128 ((xAllM).view.read (Elt F) (m (xLoc d)))
          (SparseCore.rows ((lstC n h).view.read (Elt F) (IDXV m d L)) rfl hin)) Finset.univ i = RF m d L ⟨n, h⟩ i :=
  gather_lands m d L 8 (by omega) hpre n h fd hin
theorem store_lands8 (n : ℕ) (h : n < 100) (f0 : Buf (Elt F) (oLoc d)) :
    ∀ i ∈ (oChC (widL L) n h).view.set, (oChC (widL L) n h).view.write (Elt F) f0
        ((ReadAs.same : ReadAs (Elt F) S64x128 .f32 S64x128 .f32).apply ((slotM8).view.read (Elt F) (RF m d L ⟨n, h⟩))) Finset.univ i
      = OUT m d i :=
  store_lands m d L 8 (by omega) n h f0

theorem gather_lands9 (hpre : Lookup.InRange (idx3 m d)) (n : ℕ) (h : n < 100) (fd : Buf (Elt F) ((thr d L).loc cc0_scratch1))
    (hin : ∀ x, ((lstC n h).view.read (Elt F) (IDXV m d L) x).toNat < S100000x128.size gathers_S100000x128_S64x128.axis) :
    ∀ i ∈ (slotM9).view.set, (slotM9).view.write (Elt F) fd
        (SparseCore.gatherPayload gathers_S100000x128_S64x128 ((xAllM).view.read (Elt F) (m (xLoc d)))
          (SparseCore.rows ((lstC n h).view.read (Elt F) (IDXV m d L)) rfl hin)) Finset.univ i = RF m d L ⟨n, h⟩ i :=
  gather_lands m d L 9 (by omega) hpre n h fd hin
theorem store_lands9 (n : ℕ) (h : n < 100) (f0 : Buf (Elt F) (oLoc d)) :
    ∀ i ∈ (oChC (widL L) n h).view.set, (oChC (widL L) n h).view.write (Elt F) f0
        ((ReadAs.same : ReadAs (Elt F) S64x128 .f32 S64x128 .f32).apply ((slotM9).view.read (Elt F) (RF m d L ⟨n, h⟩))) Finset.univ i
      = OUT m d i :=
  store_lands m d L 9 (by omega) n h f0

end Cert.Proof.KernelIdealRun

end
-- ==== Proof.KITripLemmas.lean ====
/-
  Small transports used by every trip: a piece or a flight stated at one spelling of a chunk number serves at any
  equal one, and every row of the index scratch holds row numbers of the table.
-/
import proofs.«206297_g77653008712327_cont_9to1c4b_438_14_alg».proof.Proof.KIInv
import proofs.«206297_g77653008712327_cont_9to1c4b_438_14_alg».proof.Proof.KIValues

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x100x64 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S32x100x64x128 EltTy.f32)
local notation "sV" => (Memref.whole Cert.KernelIdeal.cc0_scratch0 : Memref Cert.KernelIdeal.sig Kind.scVector Space.vmem Cert.KernelIdeal.S100x64 EltTy.i32)
local notation "rV" => (Memref.whole Cert.KernelIdeal.cc0_scratch1 : Memref Cert.KernelIdeal.sig Kind.scVector Space.vmem Cert.KernelIdeal.S10x64x128 EltTy.f32)

variable (m : (ℓ : Loc nD τ sig) → Buf (Elt F) ℓ) [FloatOps F]
variable (d : Dev nD) (L : grid0.Coords)

theorem FG0_of (N N' : ℕ) (e : N = N') (h : N < 100) (h' : N' < 100) : FG0 m d L N h ⊢ FG0 m d L N' h' := by subst e; exact BI.Entails.refl _
theorem FS0_of (N N' : ℕ) (e : N = N') (h : N < 100) (h' : N' < 100) : FS0 m d L N h ⊢ FS0 m d L N' h' := by subst e; exact BI.Entails.refl _
theorem FG1_of (N N' : ℕ) (e : N = N') (h : N < 100) (h' : N' < 100) : FG1 m d L N h ⊢ FG1 m d L N' h' := by subst e; exact BI.Entails.refl _
theorem FS1_of (N N' : ℕ) (e : N = N') (h : N < 100) (h' : N' < 100) : FS1 m d L N h ⊢ FS1 m d L N' h' := by subst e; exact BI.Entails.refl _
theorem FG2_of (N N' : ℕ) (e : N = N') (h : N < 100) (h' : N' < 100) : FG2 m d L N h ⊢ FG2 m d L N' h' := by subst e; exact BI.Entails.refl _
theorem FS2_of (N N' : ℕ) (e : N = N') (h : N < 100) (h' : N' < 100) : FS2 m d L N h ⊢ FS2 m d L N' h' := by subst e; exact BI.Entails.refl _
theorem FG3_of (N N' : ℕ) (e : N = N') (h : N < 100) (h' : N' < 100) : FG3 m d L N h ⊢ FG3 m d L N' h' := by subst e; exact BI.Entails.refl _
theorem FS3_of (N N' : ℕ) (e : N = N') (h : N < 100) (h' : N' < 100) : FS3 m d L N h ⊢ FS3 m d L N' h' := by subst e; exact BI.Entails.refl _
theorem FG4_of (N N' : ℕ) (e : N = N') (h : N < 100) (h' : N' < 100) : FG4 m d L N h ⊢ FG4 m d L N' h' := by subst e; exact BI.Entails.refl _
theorem FS4_of (N N' : ℕ) (e : N = N') (h : N < 100) (h' : N' < 100) : FS4 m d L N h ⊢ FS4 m d L N' h' := by subst e; exact BI.Entails.refl _
theorem FG5_of (N N' : ℕ) (e : N = N') (h : N < 100) (h' : N' < 100) : FG5 m d L N h ⊢ FG5 m d L N' h' := by subst e; exact BI.Entails.refl _
theorem FS5_of (N N' : ℕ) (e : N = N') (h : N < 100) (h' : N' < 100) : FS5 m d L N h ⊢ FS5 m d L N' h' := by subst e; exact BI.Entails.refl _
theorem FG6_of (N N' : ℕ) (e : N = N') (h : N < 100) (h' : N' < 100) : FG6 m d L N h ⊢ FG6 m d L N' h' := by subst e; exact BI.Entails.refl _
theorem FS6_of (N N' : ℕ) (e : N = N') (h : N < 100) (h' : N' < 100) : FS6 m d L N h ⊢ FS6 m d L N' h' := by subst e; exact BI.Entails.refl _
theorem FG7_of (N N' : ℕ) (e : N = N') (h : N < 100) (h' : N' < 100) : FG7 m d L N h ⊢ FG7 m d L N' h' := by subst e; exact BI.Entails.refl _
theorem FS7_of (N N' : ℕ) (e : N = N') (h : N < 100) (h' : N' < 100) : FS7 m d L N h ⊢ FS7 m d L N' h' := by subst e; exact BI.Entails.refl _
theorem FG8_of (N N' : ℕ) (e : N = N') (h : N < 100) (h' : N' < 100) : FG8 m d L N h ⊢ FG8 m d L N' h' := by subst e; exact BI.Entails.refl _
theorem FS8_of (N N' : ℕ) (e : N = N') (h : N < 100) (h' : N' < 100) : FS8 m d L N h ⊢ FS8 m d L N' h' := by subst e; exact BI.Entails.refl _
theorem FG9_of (N N' : ℕ) (e : N = N') (h : N < 100) (h' : N' < 100) : FG9 m d L N h ⊢ FG9 m d L N' h' := by subst e; exact BI.Entails.refl _
theorem FS9_of (N N' : ℕ) (e : N = N') (h : N < 100) (h' : N' < 100) : FS9 m d L N h ⊢ FS9 m d L N' h' := by subst e; exact BI.Entails.refl _

theorem chP_of (w : Fin 32) (f : Buf (Elt F) (oLoc d)) (N N' : ℕ) (e : N = N') (h : N < 100) :
    ((oChC w N h).view.loc (thr d L) ↦[(oChC w N h).view.set]{fullShare} f : sProp 𝕄) ⊢ chP d L w f N' := by
  subst e; rw [chP_lt d L w f N h]
theorem lstP_of (q : PosShare TreeShare) (f : Buf (Elt F) ((thr d L).loc cc0_scratch0)) (N N' : ℕ) (e : N = N') (h : N < 100) :
    ((lstC N h).view.loc (thr d L) ↦[(lstC N h).view.set]{q} f : sProp 𝕄) ⊢ lstP d L q f N' := by
  subst e; rw [lstP_lt d L q f N h]
theorem chP_to (w : Fin 32) (f : Buf (Elt F) (oLoc d)) (N N' : ℕ) (e : N = N') (h' : N' < 100) :
    chP d L w f N ⊢ ((oChC w N' h').view.loc (thr d L) ↦[(oChC w N' h').view.set]{fullShare} f : sProp 𝕄) := by
  subst e; rw [chP_lt d L w f N h']
theorem lstP_to (q : PosShare TreeShare) (f : Buf (Elt F) ((thr d L).loc cc0_scratch0)) (N N' : ℕ) (e : N = N') (h' : N' < 100) :
    lstP d L q f N ⊢ ((lstC N' h').view.loc (thr d L) ↦[(lstC N' h').view.set]{q} f : sProp 𝕄) := by
  subst e; rw [lstP_lt d L q f N h']

/-- Every row of the index scratch, however the program names it, holds row numbers of the table. -/
theorem hin_all (hpre : Lookup.InRange (idx3 m d)) :
    ∀ (off : Fin 2 → Nat) (hoff : ∀ a, off a + S1x64.size a ≤ S100x64.size a) (hst) (x : S64.Idx),
      ((((sV).slice (Rect.unit (s := S100x64) off S1x64.size hoff) hst).squeeze S64 squeezes_S1x64_S64).view.read (Elt F) (IDXV m d L) x).toNat
        < S100000x128.size gathers_S100000x128_S64x128.axis := by
  intro off hoff hst x
  have h0 : off 0 + 1 ≤ 100 := hoff 0
  have h1 : off 1 + 64 ≤ 64 := hoff 1
  have e : off = ![off 0, 0] := by
    funext a; match a with
    | ⟨0, _⟩ => rfl
    | ⟨1, _⟩ => show off 1 = 0; omega
  obtain ⟨n, hn, rfl⟩ : ∃ n, n < 100 ∧ off = ![n, 0] := ⟨off 0, by omega, e⟩
  exact list_inb m d L hpre n hn x

omit [FloatOps F] in
theorem ins_ok {W : Waits sig (HIx 1)} {x : SemLoc sig × HIx 1} {S : Waits sig (HIx 1)}
    (h : ∀ p ∈ S, p ∈ W ∨ p.2 = none) (hx : x.2 = none := by rfl) : ∀ p ∈ insert x S, p ∈ W ∨ p.2 = none := by
  intro p hp
  rcases Finset.mem_insert.mp hp with hp | hp
  · exact .inr (hp ▸ hx)
  · exact h p hp

/-- A chunk piece named by any offsets equal to (w, n, 0, 0) is the canonical chunk piece. -/
theorem och_piece (w : Fin 32) (off : Fin 4 → Nat) (p : ∀ a, off a + S1x1x64x128.size a ≤ S32x100x64x128.size a) (n : ℕ) (hn : n < 100)
    (e : off = ![w.val, n, 0, 0]) (f : Buf (Elt F) (oLoc d)) :
    (((((oV).slice (Rect.unit (s := S32x100x64x128) off S1x1x64x128.size p) (fun _ => rfl)).squeeze S64x128 squeezes_S1x1x64x128_S64x128).view.loc (thr d L)
        ↦[(((oV).slice (Rect.unit (s := S32x100x64x128) off S1x1x64x128.size p) (fun _ => rfl)).squeeze S64x128 squeezes_S1x1x64x128_S64x128).view.set]{fullShare} f : sProp 𝕄)
      = ((oChC w n hn).view.loc (thr d L) ↦[(oChC w n hn).view.set]{fullShare} f)) := by
  subst e; rfl
/-- An index-scratch row named by any offsets equal to (n, 0) is the canonical row piece. -/
theorem lst_piece (off : Fin 2 → Nat) (p : ∀ a, off a + S1x64.size a ≤ S100x64.size a) (n : ℕ) (hn : n < 100)
    (e : off = ![n, 0]) (q : PosShare TreeShare) (f : Buf (Elt F) ((thr d L).loc cc0_scratch0)) :
    (((((sV).slice (Rect.unit (s := S100x64) off S1x64.size p) (fun _ => rfl)).squeeze S64 squeezes_S1x64_S64).view.loc (thr d L)
        ↦[(((sV).slice (Rect.unit (s := S100x64) off S1x64.size p) (fun _ => rfl)).squeeze S64 squeezes_S1x64_S64).view.set]{q} f : sProp 𝕄)
      = ((lstC n hn).view.loc (thr d L) ↦[(lstC n hn).view.set]{q} f)) := by
  subst e; rfl

theorem chP_K0 (f : Buf (Elt F) (oLoc d)) (k : Fin k0_t1_loop.trips) (hn : 10 * k.val + 0 < 100) :
    chP d L (widL L) f (10 * k.val) = ((oChK0 L k).view.loc (thr d L) ↦[(oChK0 L k).view.set]{fullShare} f : sProp 𝕄) :=
  (chP_lt d L (widL L) f (10 * k.val + 0) hn).trans (och_piece d L (widL L) (k0_off2 L k 0#32) (k0_off2_inb L k 0) (10 * k.val + 0) hn (k0_off2_eq L k 0) f).symm
theorem lstP_K0 (q : PosShare TreeShare) (f : Buf (Elt F) ((thr d L).loc cc0_scratch0)) (k : Fin k0_t1_loop.trips) (h : k0_cond1 k = 1#1) (hn : 10 * k.val + 9 < 100) :
    lstP d L q f (10 * k.val + 9) = ((lstK0 k h).view.loc (thr d L) ↦[(lstK0 k h).view.set]{q} f : sProp 𝕄) :=
  (lstP_lt d L q f (10 * k.val + 9) hn).trans (lst_piece d L (k0_off4 k) (k0_off4_inb k h) (10 * k.val + 9) hn (k0_off4_eq k) q f).symm
theorem chP_K1 (f : Buf (Elt F) (oLoc d)) (k : Fin k0_t1_loop.trips) (hn : 10 * k.val + 1 < 100) :
    chP d L (widL L) f (10 * k.val + 1) = ((oChK1 L k).view.loc (thr d L) ↦[(oChK1 L k).view.set]{fullShare} f : sProp 𝕄) :=
  (chP_lt d L (widL L) f (10 * k.val + 1) hn).trans (och_piece d L (widL L) (k0_off2 L k 1#32) (k0_off2_inb L k 1) (10 * k.val + 1) hn (k0_off2_eq L k 1) f).symm
theorem lstP_K1 (q : PosShare TreeShare) (f : Buf (Elt F) ((thr d L).loc cc0_scratch0)) (k : Fin k0_t1_loop.trips) (h : k0_cond2 k = 1#1) (hn : 10 * k.val + 10 < 100) :
    lstP d L q f (10 * k.val + 9 + 1) = ((lstK1 k h).view.loc (thr d L) ↦[(lstK1 k h).view.set]{q} f : sProp 𝕄) :=
  (lstP_lt d L q f (10 * k.val + 10) hn).trans (lst_piece d L (k0_off6 k) (k0_off6_inb k h) (10 * k.val + 10) hn (k0_off6_eq k) q f).symm
theorem chP_K2 (f : Buf (Elt F) (oLoc d)) (k : Fin k0_t1_loop.trips) (hn : 10 * k.val + 2 < 100) :
    chP d L (widL L) f (10 * k.val + 2) = ((oChK2 L k).view.loc (thr d L) ↦[(oChK2 L k).view.set]{fullShare} f : sProp 𝕄) :=
  (chP_lt d L (widL L) f (10 * k.val + 2) hn).trans (och_piece d L (widL L) (k0_off2 L k 2#32) (k0_off2_inb L k 2) (10 * k.val + 2) hn (k0_off2_eq L k 2) f).symm
theorem lstP_K2 (q : PosShare TreeShare) (f : Buf (Elt F) ((thr d L).loc cc0_scratch0)) (k : Fin k0_t1_loop.trips) (h : k0_cond3 k = 1#1) (hn : 10 * k.val + 11 < 100) :
    lstP d L q f (10 * k.val + 9 + 2) = ((lstK2 k h).view.loc (thr d L) ↦[(lstK2 k h).view.set]{q} f : sProp 𝕄) :=
  (lstP_lt d L q f (10 * k.val + 11) hn).trans (lst_piece d L (k0_off8 k) (k0_off8_inb k h) (10 * k.val + 11) hn (k0_off8_eq k) q f).symm
theorem chP_K3 (f : Buf (Elt F) (oLoc d)) (k : Fin k0_t1_loop.trips) (hn : 10 * k.val + 3 < 100) :
    chP d L (widL L) f (10 * k.val + 3) = ((oChK3 L k).view.loc (thr d L) ↦[(oChK3 L k).view.set]{fullShare} f : sProp 𝕄) :=
  (chP_lt d L (widL L) f (10 * k.val + 3) hn).trans (och_piece d L (widL L) (k0_off2 L k 3#32) (k0_off2_inb L k 3) (10 * k.val + 3) hn (k0_off2_eq L k 3) f).symm
theorem lstP_K3 (q : PosShare TreeShare) (f : Buf (Elt F) ((thr d L).loc cc0_scratch0)) (k : Fin k0_t1_loop.trips) (h : k0_cond4 k = 1#1) (hn : 10 * k.val + 12 < 100) :
    lstP d L q f (10 * k.val + 9 + 3) = ((lstK3 k h).view.loc (thr d L) ↦[(lstK3 k h).view.set]{q} f : sProp 𝕄) :=
  (lstP_lt d L q f (10 * k.val + 12) hn).trans (lst_piece d L (k0_off10 k) (k0_off10_inb k h) (10 * k.val + 12) hn (k0_off10_eq k) q f).symm
theorem chP_K4 (f : Buf (Elt F) (oLoc d)) (k : Fin k0_t1_loop.trips) (hn : 10 * k.val + 4 < 100) :
    chP d L (widL L) f (10 * k.val + 4) = ((oChK4 L k).view.loc (thr d L) ↦[(oChK4 L k).view.set]{fullShare} f : sProp 𝕄) :=
  (chP_lt d L (widL L) f (10 * k.val + 4) hn).trans (och_piece d L (widL L) (k0_off2 L k 4#32) (k0_off2_inb L k 4) (10 * k.val + 4) hn (k0_off2_eq L k 4) f).symm
theorem lstP_K4 (q : PosShare TreeShare) (f : Buf (Elt F) ((thr d L).loc cc0_scratch0)) (k : Fin k0_t1_loop.trips) (h : k0_cond5 k = 1#1) (hn : 10 * k.val + 13 < 100) :
    lstP d L q f (10 * k.val + 9 + 4) = ((lstK4 k h).view.loc (thr d L) ↦[(lstK4 k h).view.set]{q} f : sProp 𝕄) :=
  (lstP_lt d L q f (10 * k.val + 13) hn).trans (lst_piece d L (k0_off12 k) (k0_off12_inb k h) (10 * k.val + 13) hn (k0_off12_eq k) q f).symm
theorem chP_K5 (f : Buf (Elt F) (oLoc d)) (k : Fin k0_t1_loop.trips) (hn : 10 * k.val + 5 < 100) :
    chP d L (widL L) f (10 * k.val + 5) = ((oChK5 L k).view.loc (thr d L) ↦[(oChK5 L k).view.set]{fullShare} f : sProp 𝕄) :=
  (chP_lt d L (widL L) f (10 * k.val + 5) hn).trans (och_piece d L (widL L) (k0_off2 L k 5#32) (k0_off2_inb L k 5) (10 * k.val + 5) hn (k0_off2_eq L k 5) f).symm
theorem lstP_K5 (q : PosShare TreeShare) (f : Buf (Elt F) ((thr d L).loc cc0_scratch0)) (k : Fin k0_t1_loop.trips) (h : k0_cond6 k = 1#1) (hn : 10 * k.val + 14 < 100) :
    lstP d L q f (10 * k.val + 9 + 5) = ((lstK5 k h).view.loc (thr d L) ↦[(lstK5 k h).view.set]{q} f : sProp 𝕄) :=
  (lstP_lt d L q f (10 * k.val + 14) hn).trans (lst_piece d L (k0_off14 k) (k0_off14_inb k h) (10 * k.val + 14) hn (k0_off14_eq k) q f).symm
theorem chP_K6 (f : Buf (Elt F) (oLoc d)) (k : Fin k0_t1_loop.trips) (hn : 10 * k.val + 6 < 100) :
    chP d L (widL L) f (10 * k.val + 6) = ((oChK6 L k).view.loc (thr d L) ↦[(oChK6 L k).view.set]{fullShare} f : sProp 𝕄) :=
  (chP_lt d L (widL L) f (10 * k.val + 6) hn).trans (och_piece d L (widL L) (k0_off2 L k 6#32) (k0_off2_inb L k 6) (10 * k.val + 6) hn (k0_off2_eq L k 6) f).symm
theorem lstP_K6 (q : PosShare TreeShare) (f : Buf (Elt F) ((thr d L).loc cc0_scratch0)) (k : Fin k0_t1_loop.trips) (h : k0_cond7 k = 1#1) (hn : 10 * k.val + 15 < 100) :
    lstP d L q f (10 * k.val + 9 + 6) = ((lstK6 k h).view.loc (thr d L) ↦[(lstK6 k h).view.set]{q} f : sProp 𝕄) :=
  (lstP_lt d L q f (10 * k.val + 15) hn).trans (lst_piece d L (k0_off16 k) (k0_off16_inb k h) (10 * k.val + 15) hn (k0_off16_eq k) q f).symm
theorem chP_K7 (f : Buf (Elt F) (oLoc d)) (k : Fin k0_t1_loop.trips) (hn : 10 * k.val + 7 < 100) :
    chP d L (widL L) f (10 * k.val + 7) = ((oChK7 L k).view.loc (thr d L) ↦[(oChK7 L k).view.set]{fullShare} f : sProp 𝕄) :=
  (chP_lt d L (widL L) f (10 * k.val + 7) hn).trans (och_piece d L (widL L) (k0_off2 L k 7#32) (k0_off2_inb L k 7) (10 * k.val + 7) hn (k0_off2_eq L k 7) f).symm
theorem lstP_K7 (q : PosShare TreeShare) (f : Buf (Elt F) ((thr d L).loc cc0_scratch0)) (k : Fin k0_t1_loop.trips) (h : k0_cond8 k = 1#1) (hn : 10 * k.val + 16 < 100) :
    lstP d L q f (10 * k.val + 9 + 7) = ((lstK7 k h).view.loc (thr d L) ↦[(lstK7 k h).view.set]{q} f : sProp 𝕄) :=
  (lstP_lt d L q f (10 * k.val + 16) hn).trans (lst_piece d L (k0_off18 k) (k0_off18_inb k h) (10 * k.val + 16) hn (k0_off18_eq k) q f).symm
theorem chP_K8 (f : Buf (Elt F) (oLoc d)) (k : Fin k0_t1_loop.trips) (hn : 10 * k.val + 8 < 100) :
    chP d L (widL L) f (10 * k.val + 8) = ((oChK8 L k).view.loc (thr d L) ↦[(oChK8 L k).view.set]{fullShare} f : sProp 𝕄) :=
  (chP_lt d L (widL L) f (10 * k.val + 8) hn).trans (och_piece d L (widL L) (k0_off2 L k 8#32) (k0_off2_inb L k 8) (10 * k.val + 8) hn (k0_off2_eq L k 8) f).symm
theorem lstP_K8 (q : PosShare TreeShare) (f : Buf (Elt F) ((thr d L).loc cc0_scratch0)) (k : Fin k0_t1_loop.trips) (h : k0_cond9 k = 1#1) (hn : 10 * k.val + 17 < 100) :
    lstP d L q f (10 * k.val + 9 + 8) = ((lstK8 k h).view.loc (thr d L) ↦[(lstK8 k h).view.set]{q} f : sProp 𝕄) :=
  (lstP_lt d L q f (10 * k.val + 17) hn).trans (lst_piece d L (k0_off20 k) (k0_off20_inb k h) (10 * k.val + 17) hn (k0_off20_eq k) q f).symm
theorem chP_K9 (f : Buf (Elt F) (oLoc d)) (k : Fin k0_t1_loop.trips) (hn : 10 * k.val + 9 < 100) :
    chP d L (widL L) f (10 * k.val + 9) = ((oChK9 L k).view.loc (thr d L) ↦[(oChK9 L k).view.set]{fullShare} f : sProp 𝕄) :=
  (chP_lt d L (widL L) f (10 * k.val + 9) hn).trans (och_piece d L (widL L) (k0_off2 L k 9#32) (k0_off2_inb L k 9) (10 * k.val + 9) hn (k0_off2_eq L k 9) f).symm
theorem lstP_K9 (q : PosShare TreeShare) (f : Buf (Elt F) ((thr d L).loc cc0_scratch0)) (k : Fin k0_t1_loop.trips) (h : k0_cond10 k = 1#1) (hn : 10 * k.val + 18 < 100) :
    lstP d L q f (10 * k.val + 9 + 9) = ((lstK9 k h).view.loc (thr d L) ↦[(lstK9 k h).view.set]{q} f : sProp 𝕄) :=
  (lstP_lt d L q f (10 * k.val + 18) hn).trans (lst_piece d L (k0_off22 k) (k0_off22_inb k h) (10 * k.val + 18) hn (k0_off22_eq k) q f).symm

end Cert.Proof.KernelIdealRun

end
-- ==== Proof.KIConv.lean ====
/-
  From what a run of the worker's transfers leaves to the form the loop's invariant states.

  A transfer's landing is recorded as one listed write through the destination at its whole rectangle, which is the
  plain write of the payload on every index. So a gather's landing in a slot is, on the slot's elements, the rows
  its list names; a copy-out's landing in a chunk of the worker's block is, on the chunk's elements, the lookup's
  value, whatever the slot held elsewhere. A transfer in flight that delivers the one delivers the other.
-/
import proofs.«206297_g77653008712327_cont_9to1c4b_438_14_alg».proof.Proof.KIValues
import Idealize.ShloMosaic.Lib.Writes
import Idealize.ShloMosaic.Lib.WordExact
import Idealize.ShloMosaic.Lib.Transfers

noncomputable section

namespace Cert.Proof.KernelIdealRun

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x100x64 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S32x100x64x128 EltTy.f32)
local notation "sV" => (Memref.whole Cert.KernelIdeal.cc0_scratch0 : Memref Cert.KernelIdeal.sig Kind.scVector Space.vmem Cert.KernelIdeal.S100x64 EltTy.i32)
local notation "rV" => (Memref.whole Cert.KernelIdeal.cc0_scratch1 : Memref Cert.KernelIdeal.sig Kind.scVector Space.vmem Cert.KernelIdeal.S10x64x128 EltTy.f32)

/-! ## One listed write at the whole rectangle is the plain write -/

section Whole

variable {sig₀ : RefSig} {κ : Kind} {sp : Space} {s : Shape} {e : EltTy} {Val : EltTy → Type}

/-- Writing a payload through a view at its whole rectangle writes it on every index of the view. -/
theorem kc_writes_whole_eq_write (v : View sig₀ κ sp s e) (f : v.ty.Contents Val) (pay : s.Idx → Val e) :
    v.writes Val f [⟨Rect.whole s, pay⟩] = v.write Val f pay Finset.univ := by
  rw [View.writes_singleton]
  funext i
  by_cases hi : i ∈ v.setOn Finset.univ
  · obtain ⟨y, -, rfl⟩ := Finset.mem_map.mp hi
    have e1 : v.emb y = (v.slice (Rect.whole s)).emb y := by
      show v.emb y = v.emb ((Rect.whole s).emb y)
      rw [Rect.emb_whole_apply]
    rw [View.write_emb_of_mem _ _ (Finset.mem_univ y)]
    conv_lhs => rw [e1]
    rw [View.write_emb_of_mem _ _ (Finset.mem_univ y)]
  · have hi' : i ∉ (v.slice (Rect.whole s)).setOn Finset.univ := by
      rw [View.setOn_univ, View.set_slice_rectWhole, ← View.setOn_univ]; exact hi
    rw [View.write_of_not_mem _ _ _ hi, View.write_of_not_mem _ _ _ hi']

end Whole

variable (m : (ℓ : Loc nD τ sig) → Buf (Elt F) ℓ)
variable (d : Dev nD) (L : grid0.Coords)

/-! ## A row of the index scratch and a chunk of the output, by their offsets -/

/-- The row of the index scratch at offsets off. -/
abbrev lstAt (off : Fin 2 → ℕ) (inb : ∀ a, off a + S1x64.size a ≤ S100x64.size a) : Memref sig .scVector .vmem S64 .i32 :=
  ((sV).slice (Rect.unit (s := S100x64) off S1x64.size inb) (fun _ => rfl)).squeeze S64 squeezes_S1x64_S64
/-- The chunk of the output at offsets off. -/
abbrev oChAt (off : Fin 4 → ℕ) (inb : ∀ a, off a + S1x1x64x128.size a ≤ S32x100x64x128.size a) : Memref sig .scVector .hbm S64x128 .f32 :=
  ((oV).slice (Rect.unit (s := S32x100x64x128) off S1x1x64x128.size inb) (fun _ => rfl)).squeeze S64x128 squeezes_S1x1x64x128_S64x128

/-! ## A gather's landing in a slot -/

/-- What a gather by row n of the index scratch leaves in slot b, on the slot's elements: the rows its words name. -/
theorem slot_after (b : ℕ) (hb : b < 10) (hpre : Lookup.InRange (idx3 m d)) (n : ℕ) (h : n < 100)
    (off : Fin 2 → ℕ) (inb : ∀ a, off a + S1x64.size a ≤ S100x64.size a) (hoff : off = ![n, 0])
    (fd : Buf (Elt F) ((thr d L).loc cc0_scratch1)) (pay : S64x128.Idx → Elt F .f32)
    (hin : ∀ x, ((lstAt off inb).view.read (Elt F) (IDXV m d L) x).toNat < S100000x128.size gathers_S100000x128_S64x128.axis)
    (hpay : pay = SparseCore.gatherPayload gathers_S100000x128_S64x128 ((xAllM).view.read (Elt F) (m (xLoc d)))
      (SparseCore.rows ((lstAt off inb).view.read (Elt F) (IDXV m d L)) rfl hin)) :
    ∀ i ∈ (slotC b hb).view.set, (slotC b hb).view.writes (Elt F) fd [⟨Rect.whole S64x128, pay⟩] i = RF m d L ⟨n, h⟩ i := by
  subst hoff; subst hpay
  intro i hi
  rw [kc_writes_whole_eq_write]
  exact gather_lands m d L b hb hpre n h fd hin i hi

/-- The slot, held at what the gather left, is held at the rows of chunk n. -/
theorem slot_canon (b : ℕ) (hb : b < 10) (hpre : Lookup.InRange (idx3 m d)) (n : ℕ) (h : n < 100)
    (off : Fin 2 → ℕ) (inb : ∀ a, off a + S1x64.size a ≤ S100x64.size a) (hoff : off = ![n, 0])
    (fd : Buf (Elt F) ((thr d L).loc cc0_scratch1)) (pay : S64x128.Idx → Elt F .f32)
    (hin : ∀ x, ((lstAt off inb).view.read (Elt F) (IDXV m d L) x).toNat < S100000x128.size gathers_S100000x128_S64x128.axis)
    (hpay : pay = SparseCore.gatherPayload gathers_S100000x128_S64x128 ((xAllM).view.read (Elt F) (m (xLoc d)))
      (SparseCore.rows ((lstAt off inb).view.read (Elt F) (IDXV m d L)) rfl hin)) :
    (((slotC b hb).view.loc (thr d L) ↦[(slotC b hb).view.set]{fullShare} (slotC b hb).view.writes (Elt F) fd [⟨Rect.whole S64x128, pay⟩]) : sProp 𝕄)
      = ((slotC b hb).view.loc (thr d L) ↦[(slotC b hb).view.set]{fullShare} RF m d L ⟨n, h⟩) :=
  pointsTo_congr (slot_after m d L b hb hpre n h off inb hoff fd pay hin hpay)

/-- A gather in flight that delivers its landing delivers the slot at the rows of chunk n, the list's row and the share of
    the table back. -/
theorem gather_canon (b : ℕ) (hb : b < 10) (hpre : Lookup.InRange (idx3 m d)) (n : ℕ) (h : n < 100)
    (off : Fin 2 → ℕ) (inb : ∀ a, off a + S1x64.size a ≤ S100x64.size a) (hoff : off = ![n, 0])
    (fd : Buf (Elt F) ((thr d L).loc cc0_scratch1)) (pay : S64x128.Idx → Elt F .f32)
    (hin : ∀ x, ((lstAt off inb).view.read (Elt F) (IDXV m d L) x).toNat < S100000x128.size gathers_S100000x128_S64x128.axis)
    (hpay : pay = SparseCore.gatherPayload gathers_S100000x128_S64x128 ((xAllM).view.read (Elt F) (m (xLoc d)))
      (SparseCore.rows ((lstAt off inb).view.read (Elt F) (IDXV m d L)) rfl hin))
    (q : PosShare TreeShare) (sm : SemLoc sig) (N : ℕ) :
    (Transfers.Flight countersEmb (thr d L) sm (default : HIx 1) N
        iprop((((slotC b hb).view.loc (thr d L) ↦[(slotC b hb).view.set]{fullShare} (slotC b hb).view.writes (Elt F) fd [⟨Rect.whole S64x128, pay⟩])
            ∗ ((lstAt off inb).view.loc (thr d L) ↦[(lstAt off inb).view.set]{fullShare} IDXV m d L))
          ∗ ((xAllM).view.loc (thr d L) ↦[(xAllM).view.set]{q} m (xLoc d))) : sProp 𝕄)
      ⊢ Transfers.Flight countersEmb (thr d L) sm (default : HIx 1) N
        iprop((((slotC b hb).view.loc (thr d L) ↦[(slotC b hb).view.set]{fullShare} RF m d L ⟨n, h⟩)
            ∗ ((lstC n h).view.loc (thr d L) ↦[(lstC n h).view.set]{fullShare} IDXV m d L))
          ∗ ((xAllM).view.loc (thr d L) ↦[(xAllM).view.set]{q} m (xLoc d))) := by
  refine Transfers.Flight_mono countersEmb (thr d L) ?_
  rw [slot_canon m d L b hb hpre n h off inb hoff fd pay hin hpay]
  subst hoff
  exact BI.Entails.refl _

/-! ## A copy-out's landing in a chunk of the block -/

/-- The chunk, held at what the copy-out of a slot left, is held at the lookup's value: the slot need only hold the rows
    of chunk n on its own elements. -/
theorem chunk_canon (b : ℕ) (hb : b < 10) (n : ℕ) (h : n < 100)
    (off : Fin 4 → ℕ) (inb : ∀ a, off a + S1x1x64x128.size a ≤ S32x100x64x128.size a) (hoff : off = ![(widL L).val, n, 0, 0])
    (f0 : Buf (Elt F) (oLoc d)) (fsl : Buf (Elt F) ((thr d L).loc cc0_scratch1))
    (hsl : ∀ i ∈ (slotC b hb).view.set, fsl i = RF m d L ⟨n, h⟩ i) (pay : S64x128.Idx → Elt F .f32)
    (hpay : pay = (ReadAs.same : ReadAs (Elt F) S64x128 .f32 S64x128 .f32).apply ((slotC b hb).view.read (Elt F) fsl)) :
    (((oChAt off inb).view.loc (thr d L) ↦[(oChAt off inb).view.set]{fullShare} (oChAt off inb).view.writes (Elt F) f0 [⟨Rect.whole S64x128, pay⟩]) : sProp 𝕄)
      = ((oChC (widL L) n h).view.loc (thr d L) ↦[(oChC (widL L) n h).view.set]{fullShare} OUT m d) := by
  subst hoff; subst hpay
  refine pointsTo_congr fun i hi => ?_
  rw [kc_writes_whole_eq_write, View.read_congr hsl]
  exact store_lands m d L b hb n h f0 i hi

/-- A copy-out in flight that delivers its landing delivers the chunk at the lookup's value and the slot back at the rows
    of chunk n. -/
theorem store_canon (b : ℕ) (hb : b < 10) (n : ℕ) (h : n < 100)
    (off : Fin 4 → ℕ) (inb : ∀ a, off a + S1x1x64x128.size a ≤ S32x100x64x128.size a) (hoff : off = ![(widL L).val, n, 0, 0])
    (f0 : Buf (Elt F) (oLoc d)) (fsl : Buf (Elt F) ((thr d L).loc cc0_scratch1))
    (hsl : ∀ i ∈ (slotC b hb).view.set, fsl i = RF m d L ⟨n, h⟩ i) (pay : S64x128.Idx → Elt F .f32)
    (hpay : pay = (ReadAs.same : ReadAs (Elt F) S64x128 .f32 S64x128 .f32).apply ((slotC b hb).view.read (Elt F) fsl))
    (sm : SemLoc sig) (N : ℕ) :
    (Transfers.Flight countersEmb (thr d L) sm (default : HIx 1) N
        iprop(((oChAt off inb).view.loc (thr d L) ↦[(oChAt off inb).view.set]{fullShare} (oChAt off inb).view.writes (Elt F) f0 [⟨Rect.whole S64x128, pay⟩])
          ∗ ((slotC b hb).view.loc (thr d L) ↦[(slotC b hb).view.set]{fullShare} fsl)) : sProp 𝕄)
      ⊢ Transfers.Flight countersEmb (thr d L) sm (default : HIx 1) N
        iprop(((oChC (widL L) n h).view.loc (thr d L) ↦[(oChC (widL L) n h).view.set]{fullShare} OUT m d)
          ∗ ((slotC b hb).view.loc (thr d L) ↦[(slotC b hb).view.set]{fullShare} RF m d L ⟨n, h⟩)) := by
  refine Transfers.Flight_mono countersEmb (thr d L) ?_
  rw [chunk_canon m d L b hb n h off inb hoff f0 fsl hsl pay hpay,
    pointsTo_congr (ℓ := (slotC b hb).view.loc (thr d L)) (q := fullShare) hsl]

end Cert.Proof.KernelIdealRun

end
-- ==== Proof.KIOpen.lean ====
/-
  A subcore's resources, opened into the pieces its task runs on, and closed again.

  The launch hands subcore w its row of the reshaped row numbers, a share of the whole table, and block w of the
  output; the subcore also owns its two scratch buffers. The task works on finer pieces: the table's share as what
  remains after ten read tokens are split off, one per gather cell; the block as its hundred chunks; the row scratch
  as its ten slots. Each of these is an equation (or a two-way entailment) between points-tos, so the resources open
  into the pieces and, at the end, the pieces close back: the row and the table's share as they were, the block with
  every chunk filled in, and the two scratch buffers at whatever they then hold.
-/
import proofs.«206297_g77653008712327_cont_9to1c4b_438_14_alg».proof.Proof.KIInv

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x100x64 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S32x100x64x128 EltTy.f32)
local notation "sV" => (Memref.whole Cert.KernelIdeal.cc0_scratch0 : Memref Cert.KernelIdeal.sig Kind.scVector Space.vmem Cert.KernelIdeal.S100x64 EltTy.i32)
local notation "rV" => (Memref.whole Cert.KernelIdeal.cc0_scratch1 : Memref Cert.KernelIdeal.sig Kind.scVector Space.vmem Cert.KernelIdeal.S10x64x128 EltTy.f32)

variable (m : (ℓ : Loc nD τ sig) → Buf (Elt F) ℓ) [FloatOps F]

variable (d : Dev nD) (L : grid0.Coords)

/-! ## The subcore's row of the row numbers -/

omit m [FloatOps F] d in
/-- The row the program slices at its computed offset is part widL L of the 32 parts. -/
theorem irowK_eq : irowK L = irow (widL L) := by
  unfold irowK irow Rect.part Rect.block
  congr 1 <;> funext a
  · rw [k0_off1_eq]
    match a with
    | 0 => simp [Shape.partIx, Shape.partSize, widL]
    | 1 => simp [Shape.partIx, Shape.partSize]
    | 2 => simp [Shape.partIx, Shape.partSize]
  · match a with
    | 0 => simp [Shape.partSize]
    | 1 => simp [Shape.partSize]
    | 2 => simp [Shape.partSize]

omit m [FloatOps F] d in
theorem set_iRowK : (iRowK L).view.set = iRowSet (widL L) := by
  show (((iV).view.slice (irowK L)).reshape S100x64 squeezes_S1x100x64_S100x64.numel_eq).set = ((iV).view.slice (irow (widL L))).set
  rw [View.set_reshape]
  exact irowK_eq L ▸ rfl

omit m [FloatOps F] in
theorem pts_iRowK (f : Buf (Elt F) (iLoc d)) :
    ((iRowK L).view.loc (thr d L) ↦[(iRowK L).view.set]{fullShare} f : sProp 𝕄) = iLoc d ↦[iRowSet (widL L)]{fullShare} f := by
  rw [set_iRowK]

/-! ## The table's share: what remains and ten read tokens -/

omit [FloatOps F] in
/-- The table as a gather on cell b names it is the whole table at that cell's token. -/
theorem tokx_eq (b : Fin 10) :
    tokx m d L b = (xLoc d ↦{Transfers.shareTok (xq (widL L)) 10 b} m (xLoc d) : sProp 𝕄) := by
  unfold tokx; rw [set_xAll]

omit [FloatOps F] in
theorem x_open :
    xShPts m d (widL L) ⊢ iprop((xLoc d ↦{Transfers.shareDrop (xq (widL L)) 10} m (xLoc d)) ∗ tokx m d L 0 ∗ tokx m d L 1 ∗ tokx m d L 2 ∗ tokx m d L 3 ∗ tokx m d L 4 ∗ tokx m d L 5 ∗ tokx m d L 6 ∗ tokx m d L 7 ∗ tokx m d L 8 ∗ tokx m d L 9) := by
  simp only [tokx_eq]
  have h : (xLoc d ↦{xq (widL L)} m (xLoc d) : sProp 𝕄)
      ⊢ iprop((xLoc d ↦{Transfers.shareDrop (xq (widL L)) 10} m (xLoc d))
          ∗ bigSep Finset.univ (fun i : Fin 10 => (xLoc d ↦{Transfers.shareTok (xq (widL L)) 10 i} m (xLoc d) : sProp 𝕄))) :=
    Transfers.pointsTo_toks_split (xq (widL L)) 10
  rw [bigSep_fin10] at h
  exact h

omit [FloatOps F] in
theorem x_close :
    iprop((xLoc d ↦{Transfers.shareDrop (xq (widL L)) 10} m (xLoc d)) ∗ tokx m d L 0 ∗ tokx m d L 1 ∗ tokx m d L 2 ∗ tokx m d L 3 ∗ tokx m d L 4 ∗ tokx m d L 5 ∗ tokx m d L 6 ∗ tokx m d L 7 ∗ tokx m d L 8 ∗ tokx m d L 9) ⊢ xShPts m d (widL L) := by
  simp only [tokx_eq]
  have h : iprop((xLoc d ↦{Transfers.shareDrop (xq (widL L)) 10} m (xLoc d))
          ∗ bigSep Finset.univ (fun i : Fin 10 => (xLoc d ↦{Transfers.shareTok (xq (widL L)) 10 i} m (xLoc d) : sProp 𝕄)))
      ⊢ (xLoc d ↦{xq (widL L)} m (xLoc d) : sProp 𝕄) :=
    Transfers.pointsTo_toks_join (xq (widL L)) 10
  rw [bigSep_fin10] at h
  exact h

/-! ## The subcore's resources, opened into the pieces the task runs on, and closed again -/

/-- What the subcore is handed, with its two scratch buffers, is: its row of the row numbers; the table's share as
    what remains and ten read tokens; its block as a hundred chunks; the index scratch; the row scratch as ten slots. -/
theorem open_res (fs : Buf (Elt F) ((thr d L).loc cc0_scratch0)) (fr : Buf (Elt F) ((thr d L).loc cc0_scratch1)) :
    iprop(goW m d (widL L) ∗ ((thr d L).loc cc0_scratch0 ↦{fullShare} fs) ∗ ((thr d L).loc cc0_scratch1 ↦{fullShare} fr))
      ⊢ iprop(((iRowK L).view.loc (thr d L) ↦[(iRowK L).view.set]{fullShare} idx3 m d)
          ∗ (xLoc d ↦{Transfers.shareDrop (xq (widL L)) 10} m (xLoc d))
          ∗ tokx m d L 0 ∗ tokx m d L 1 ∗ tokx m d L 2 ∗ tokx m d L 3 ∗ tokx m d L 4 ∗ tokx m d L 5 ∗ tokx m d L 6 ∗ tokx m d L 7 ∗ tokx m d L 8 ∗ tokx m d L 9
          ∗ bigSep (Finset.Ico 0 100) (chP d L (widL L) (m (oLoc d)))
          ∗ ((sV).view.loc (thr d L) ↦{fullShare} fs)
          ∗ ((slotM0).view.loc (thr d L) ↦[(slotM0).view.set]{fullShare} fr)
          ∗ ((slotM1).view.loc (thr d L) ↦[(slotM1).view.set]{fullShare} fr)
          ∗ ((slotM2).view.loc (thr d L) ↦[(slotM2).view.set]{fullShare} fr)
          ∗ ((slotM3).view.loc (thr d L) ↦[(slotM3).view.set]{fullShare} fr)
          ∗ ((slotM4).view.loc (thr d L) ↦[(slotM4).view.set]{fullShare} fr)
          ∗ ((slotM5).view.loc (thr d L) ↦[(slotM5).view.set]{fullShare} fr)
          ∗ ((slotM6).view.loc (thr d L) ↦[(slotM6).view.set]{fullShare} fr)
          ∗ ((slotM7).view.loc (thr d L) ↦[(slotM7).view.set]{fullShare} fr)
          ∗ ((slotM8).view.loc (thr d L) ↦[(slotM8).view.set]{fullShare} fr)
          ∗ ((slotM9).view.loc (thr d L) ↦[(slotM9).view.set]{fullShare} fr)) := by
  unfold goW
  iintro ⟨⟨Hi, Hx, Ho⟩, Hs, Hr⟩
  ihave Hi' := (Entails.of_eq (pts_iRowK d L (idx3 m d)).symm) $$ Hi
  ihave Hx' := (x_open m d L) $$ Hx
  ihave Ho' := (Entails.of_eq ((oPts_chunks d L (widL L) (m (oLoc d))).trans (bigSep_range_eq_Ico _ _))) $$ Ho
  ihave Hr' := (Entails.of_eq (rPts_slots d L fr)) $$ Hr
  icases Hx' with ⟨Hd, T0, T1, T2, T3, T4, T5, T6, T7, T8, T9⟩
  icases Hr' with ⟨R0, R1, R2, R3, R4, R5, R6, R7, R8, R9⟩
  isplitl [Hi']; · iexact Hi'
  isplitl [Hd]; · iexact Hd
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [T9]; · iexact T9
  isplitl [Ho']; · iexact Ho'
  isplitl [Hs]; · iexact Hs
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact R9

/-- The way back for what the launch handed over: the row, the table's share rejoined, the block's chunks filled in. -/
theorem close_res :
    iprop(((iRowK L).view.loc (thr d L) ↦[(iRowK L).view.set]{fullShare} idx3 m d)
        ∗ (xLoc d ↦{Transfers.shareDrop (xq (widL L)) 10} m (xLoc d))
        ∗ tokx m d L 0 ∗ tokx m d L 1 ∗ tokx m d L 2 ∗ tokx m d L 3 ∗ tokx m d L 4 ∗ tokx m d L 5 ∗ tokx m d L 6 ∗ tokx m d L 7 ∗ tokx m d L 8 ∗ tokx m d L 9
        ∗ bigSep (Finset.range 100) (chP d L (widL L) (OUT m d)))
      ⊢ tdW m d (widL L) := by
  unfold tdW
  iintro ⟨Hi, Hd, T0, T1, T2, T3, T4, T5, T6, T7, T8, T9, Ho⟩
  isplitl [Hi]
  · iapply (Entails.of_eq (pts_iRowK d L (idx3 m d))); iexact Hi
  isplitr [Ho]
  · iapply (x_close m d L)
    isplitl [Hd]; · iexact Hd
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    iexact T9
  · iapply (Entails.of_eq (oPts_chunks d L (widL L) (OUT m d)).symm); iexact Ho

/-- The ten slots, whatever each holds, are the row scratch at some contents. -/
theorem slots_join (g : Fin 10 → Buf (Elt F) ((thr d L).loc cc0_scratch1)) :
    iprop(((slotM0).view.loc (thr d L) ↦[(slotM0).view.set]{fullShare} g 0)
          ∗ ((slotM1).view.loc (thr d L) ↦[(slotM1).view.set]{fullShare} g 1)
          ∗ ((slotM2).view.loc (thr d L) ↦[(slotM2).view.set]{fullShare} g 2)
          ∗ ((slotM3).view.loc (thr d L) ↦[(slotM3).view.set]{fullShare} g 3)
          ∗ ((slotM4).view.loc (thr d L) ↦[(slotM4).view.set]{fullShare} g 4)
          ∗ ((slotM5).view.loc (thr d L) ↦[(slotM5).view.set]{fullShare} g 5)
          ∗ ((slotM6).view.loc (thr d L) ↦[(slotM6).view.set]{fullShare} g 6)
          ∗ ((slotM7).view.loc (thr d L) ↦[(slotM7).view.set]{fullShare} g 7)
          ∗ ((slotM8).view.loc (thr d L) ↦[(slotM8).view.set]{fullShare} g 8)
          ∗ ((slotM9).view.loc (thr d L) ↦[(slotM9).view.set]{fullShare} g 9))
      ⊢ (iprop(∃ f, (thr d L).loc cc0_scratch1 ↦{fullShare} f) : sProp 𝕄) := by
  have hj : (bigSep Finset.univ fun b : Fin 10 => ((thr d L).loc cc0_scratch1 ↦[(slotR b).set]{fullShare} g b : sProp 𝕄)) ⊢ _ :=
    pointsTo_biUnion_join (ℓ := (thr d L).loc cc0_scratch1) Finset.univ _ g (g 0) (fun _ _ _ _ hbb => slots_disjoint hbb)
  rw [slots_cover, bigSep_fin10] at hj
  rw [set_slot, set_slot, set_slot, set_slot, set_slot, set_slot, set_slot, set_slot, set_slot, set_slot]
  refine BIBase.Entails.trans hj ?_
  iintro ⟨%g', -, Hg⟩
  iexists g'; iexact Hg

/-- The way back for the scratch: the index scratch from its rows, the row scratch from its slots at whatever they hold. -/
theorem close_scratch (g : Fin 10 → Buf (Elt F) ((thr d L).loc cc0_scratch1)) (fi : Buf (Elt F) ((thr d L).loc cc0_scratch0)) :
    iprop(bigSep (Finset.range 100) (lstP d L fullShare fi)
        ∗ ((slotM0).view.loc (thr d L) ↦[(slotM0).view.set]{fullShare} g 0)
          ∗ ((slotM1).view.loc (thr d L) ↦[(slotM1).view.set]{fullShare} g 1)
          ∗ ((slotM2).view.loc (thr d L) ↦[(slotM2).view.set]{fullShare} g 2)
          ∗ ((slotM3).view.loc (thr d L) ↦[(slotM3).view.set]{fullShare} g 3)
          ∗ ((slotM4).view.loc (thr d L) ↦[(slotM4).view.set]{fullShare} g 4)
          ∗ ((slotM5).view.loc (thr d L) ↦[(slotM5).view.set]{fullShare} g 5)
          ∗ ((slotM6).view.loc (thr d L) ↦[(slotM6).view.set]{fullShare} g 6)
          ∗ ((slotM7).view.loc (thr d L) ↦[(slotM7).view.set]{fullShare} g 7)
          ∗ ((slotM8).view.loc (thr d L) ↦[(slotM8).view.set]{fullShare} g 8)
          ∗ ((slotM9).view.loc (thr d L) ↦[(slotM9).view.set]{fullShare} g 9))
      ⊢ iprop((∃ f, (thr d L).loc cc0_scratch0 ↦{fullShare} f) ∗ (∃ f, (thr d L).loc cc0_scratch1 ↦{fullShare} f)) := by
  iintro ⟨Hrows, Hslots⟩
  isplitl [Hrows]
  · iexists fi
    iapply (Entails.of_eq (sPts_rows d L fullShare fi).symm); iexact Hrows
  · iapply (slots_join d L g); iexact Hslots

/-- The same with the ten slots' contents given one by one. -/
theorem close_scratch' (g0 g1 g2 g3 g4 g5 g6 g7 g8 g9 : Buf (Elt F) ((thr d L).loc cc0_scratch1))
    (fi : Buf (Elt F) ((thr d L).loc cc0_scratch0)) :
    iprop(bigSep (Finset.range 100) (lstP d L fullShare fi)
        ∗ ((slotM0).view.loc (thr d L) ↦[(slotM0).view.set]{fullShare} g0)
          ∗ ((slotM1).view.loc (thr d L) ↦[(slotM1).view.set]{fullShare} g1)
          ∗ ((slotM2).view.loc (thr d L) ↦[(slotM2).view.set]{fullShare} g2)
          ∗ ((slotM3).view.loc (thr d L) ↦[(slotM3).view.set]{fullShare} g3)
          ∗ ((slotM4).view.loc (thr d L) ↦[(slotM4).view.set]{fullShare} g4)
          ∗ ((slotM5).view.loc (thr d L) ↦[(slotM5).view.set]{fullShare} g5)
          ∗ ((slotM6).view.loc (thr d L) ↦[(slotM6).view.set]{fullShare} g6)
          ∗ ((slotM7).view.loc (thr d L) ↦[(slotM7).view.set]{fullShare} g7)
          ∗ ((slotM8).view.loc (thr d L) ↦[(slotM8).view.set]{fullShare} g8)
          ∗ ((slotM9).view.loc (thr d L) ↦[(slotM9).view.set]{fullShare} g9))
      ⊢ iprop((∃ f, (thr d L).loc cc0_scratch0 ↦{fullShare} f) ∗ (∃ f, (thr d L).loc cc0_scratch1 ↦{fullShare} f)) :=
  close_scratch d L ![g0, g1, g2, g3, g4, g5, g6, g7, g8, g9] fi

end Cert.Proof.KernelIdealRun

end
-- ==== Proof.KITripPieces.lean ====
/-
  The pieces of the index scratch and of the output block that one trip of the worker's loop names, at the program's
  own spelling of them: the chunk step r of trip k copies out to is chunk 10 k + r of the worker's block, and the row
  step r of trip k gathers by is row 10 k + 9 + r of the index scratch. Also: a set of recorded waits stays within
  bounds when a wait of no later call is added.
-/
import proofs.«206297_g77653008712327_cont_9to1c4b_438_14_alg».proof.Proof.KITripLemmas
import proofs.«206297_g77653008712327_cont_9to1c4b_438_14_alg».proof.Proof.KIConv

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x100x64 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S32x100x64x128 EltTy.f32)
local notation "sV" => (Memref.whole Cert.KernelIdeal.cc0_scratch0 : Memref Cert.KernelIdeal.sig Kind.scVector Space.vmem Cert.KernelIdeal.S100x64 EltTy.i32)
local notation "rV" => (Memref.whole Cert.KernelIdeal.cc0_scratch1 : Memref Cert.KernelIdeal.sig Kind.scVector Space.vmem Cert.KernelIdeal.S10x64x128 EltTy.f32)

variable (m : (ℓ : Loc nD τ sig) → Buf (Elt F) ℓ) [FloatOps F]
variable (d : Dev nD) (L : grid0.Coords)

omit [FloatOps F] in
theorem kp_ins_ok {W : Waits sig (HIx 1)} {x : SemLoc sig × HIx 1} {S : Waits sig (HIx 1)}
    (h : ∀ p ∈ S, p ∈ W ∨ p.2 = none) (hx : x.2 = none := by rfl) : ∀ p ∈ insert x S, p ∈ W ∨ p.2 = none := by
  intro p hp
  rcases Finset.mem_insert.mp hp with hp | hp
  · exact .inr (hp ▸ hx)
  · exact h p hp

/-- A chunk piece named by any offsets equal to (w, n, 0, 0) is the canonical chunk piece. -/
theorem kp_och_piece (w : Fin 32) (off : Fin 4 → Nat) (p : ∀ a, off a + S1x1x64x128.size a ≤ S32x100x64x128.size a) (n : ℕ) (hn : n < 100)
    (e : off = ![w.val, n, 0, 0]) (f : Buf (Elt F) (oLoc d)) :
    (((oChAt off p).view.loc (thr d L) ↦[(oChAt off p).view.set]{fullShare} f : sProp 𝕄)
      = ((oChC w n hn).view.loc (thr d L) ↦[(oChC w n hn).view.set]{fullShare} f)) := by
  subst e; rfl
/-- An index-scratch row named by any offsets equal to (n, 0) is the canonical row piece. -/
theorem kp_lst_piece (off : Fin 2 → Nat) (p : ∀ a, off a + S1x64.size a ≤ S100x64.size a) (n : ℕ) (hn : n < 100)
    (e : off = ![n, 0]) (q : PosShare TreeShare) (f : Buf (Elt F) ((thr d L).loc cc0_scratch0)) :
    (((lstAt off p).view.loc (thr d L) ↦[(lstAt off p).view.set]{q} f : sProp 𝕄)
      = ((lstC n hn).view.loc (thr d L) ↦[(lstC n hn).view.set]{q} f)) := by
  subst e; rfl

/-- Chunk n of the block, n = 10 k + 0, is the chunk step 0 of trip k copies out to. -/
theorem kp_chP_K0 (f : Buf (Elt F) (oLoc d)) (k : Fin k0_t1_loop.trips) (n : ℕ) (hn : n < 100) (e : n = 10 * k.val + 0) :
    chP d L (widL L) f n = ((oChK0 L k).view.loc (thr d L) ↦[(oChK0 L k).view.set]{fullShare} f : sProp 𝕄) := by
  subst e
  exact (chP_lt d L (widL L) f (10 * k.val + 0) hn).trans
    (kp_och_piece d L (widL L) (k0_off2 L k 0#32) (k0_off2_inb L k 0) (10 * k.val + 0) hn (k0_off2_eq L k 0) f).symm
/-- Row n of the index scratch, n = 10 k + 9, is the row step 0 of trip k gathers by. -/
theorem kp_lstP_K0 (q : PosShare TreeShare) (f : Buf (Elt F) ((thr d L).loc cc0_scratch0)) (k : Fin k0_t1_loop.trips) (h : k0_cond1 k = 1#1)
    (n : ℕ) (hn : n < 100) (e : n = 10 * k.val + 9) :
    lstP d L q f n = ((lstK0 k h).view.loc (thr d L) ↦[(lstK0 k h).view.set]{q} f : sProp 𝕄) := by
  subst e
  exact (lstP_lt d L q f (10 * k.val + 9) hn).trans
    (kp_lst_piece d L (k0_off4 k) (k0_off4_inb k h) (10 * k.val + 9) hn (k0_off4_eq k) q f).symm

/-- Chunk n of the block, n = 10 k + 1, is the chunk step 1 of trip k copies out to. -/
theorem kp_chP_K1 (f : Buf (Elt F) (oLoc d)) (k : Fin k0_t1_loop.trips) (n : ℕ) (hn : n < 100) (e : n = 10 * k.val + 1) :
    chP d L (widL L) f n = ((oChK1 L k).view.loc (thr d L) ↦[(oChK1 L k).view.set]{fullShare} f : sProp 𝕄) := by
  subst e
  exact (chP_lt d L (widL L) f (10 * k.val + 1) hn).trans
    (kp_och_piece d L (widL L) (k0_off2 L k 1#32) (k0_off2_inb L k 1) (10 * k.val + 1) hn (k0_off2_eq L k 1) f).symm
/-- Row n of the index scratch, n = 10 k + 10, is the row step 1 of trip k gathers by. -/
theorem kp_lstP_K1 (q : PosShare TreeShare) (f : Buf (Elt F) ((thr d L).loc cc0_scratch0)) (k : Fin k0_t1_loop.trips) (h : k0_cond2 k = 1#1)
    (n : ℕ) (hn : n < 100) (e : n = 10 * k.val + 10) :
    lstP d L q f n = ((lstK1 k h).view.loc (thr d L) ↦[(lstK1 k h).view.set]{q} f : sProp 𝕄) := by
  subst e
  exact (lstP_lt d L q f (10 * k.val + 10) hn).trans
    (kp_lst_piece d L (k0_off6 k) (k0_off6_inb k h) (10 * k.val + 10) hn (k0_off6_eq k) q f).symm

/-- Chunk n of the block, n = 10 k + 2, is the chunk step 2 of trip k copies out to. -/
theorem kp_chP_K2 (f : Buf (Elt F) (oLoc d)) (k : Fin k0_t1_loop.trips) (n : ℕ) (hn : n < 100) (e : n = 10 * k.val + 2) :
    chP d L (widL L) f n = ((oChK2 L k).view.loc (thr d L) ↦[(oChK2 L k).view.set]{fullShare} f : sProp 𝕄) := by
  subst e
  exact (chP_lt d L (widL L) f (10 * k.val + 2) hn).trans
    (kp_och_piece d L (widL L) (k0_off2 L k 2#32) (k0_off2_inb L k 2) (10 * k.val + 2) hn (k0_off2_eq L k 2) f).symm
/-- Row n of the index scratch, n = 10 k + 11, is the row step 2 of trip k gathers by. -/
theorem kp_lstP_K2 (q : PosShare TreeShare) (f : Buf (Elt F) ((thr d L).loc cc0_scratch0)) (k : Fin k0_t1_loop.trips) (h : k0_cond3 k = 1#1)
    (n : ℕ) (hn : n < 100) (e : n = 10 * k.val + 11) :
    lstP d L q f n = ((lstK2 k h).view.loc (thr d L) ↦[(lstK2 k h).view.set]{q} f : sProp 𝕄) := by
  subst e
  exact (lstP_lt d L q f (10 * k.val + 11) hn).trans
    (kp_lst_piece d L (k0_off8 k) (k0_off8_inb k h) (10 * k.val + 11) hn (k0_off8_eq k) q f).symm

/-- Chunk n of the block, n = 10 k + 3, is the chunk step 3 of trip k copies out to. -/
theorem kp_chP_K3 (f : Buf (Elt F) (oLoc d)) (k : Fin k0_t1_loop.trips) (n : ℕ) (hn : n < 100) (e : n = 10 * k.val + 3) :
    chP d L (widL L) f n = ((oChK3 L k).view.loc (thr d L) ↦[(oChK3 L k).view.set]{fullShare} f : sProp 𝕄) := by
  subst e
  exact (chP_lt d L (widL L) f (10 * k.val + 3) hn).trans
    (kp_och_piece d L (widL L) (k0_off2 L k 3#32) (k0_off2_inb L k 3) (10 * k.val + 3) hn (k0_off2_eq L k 3) f).symm
/-- Row n of the index scratch, n = 10 k + 12, is the row step 3 of trip k gathers by. -/
theorem kp_lstP_K3 (q : PosShare TreeShare) (f : Buf (Elt F) ((thr d L).loc cc0_scratch0)) (k : Fin k0_t1_loop.trips) (h : k0_cond4 k = 1#1)
    (n : ℕ) (hn : n < 100) (e : n = 10 * k.val + 12) :
    lstP d L q f n = ((lstK3 k h).view.loc (thr d L) ↦[(lstK3 k h).view.set]{q} f : sProp 𝕄) := by
  subst e
  exact (lstP_lt d L q f (10 * k.val + 12) hn).trans
    (kp_lst_piece d L (k0_off10 k) (k0_off10_inb k h) (10 * k.val + 12) hn (k0_off10_eq k) q f).symm

/-- Chunk n of the block, n = 10 k + 4, is the chunk step 4 of trip k copies out to. -/
theorem kp_chP_K4 (f : Buf (Elt F) (oLoc d)) (k : Fin k0_t1_loop.trips) (n : ℕ) (hn : n < 100) (e : n = 10 * k.val + 4) :
    chP d L (widL L) f n = ((oChK4 L k).view.loc (thr d L) ↦[(oChK4 L k).view.set]{fullShare} f : sProp 𝕄) := by
  subst e
  exact (chP_lt d L (widL L) f (10 * k.val + 4) hn).trans
    (kp_och_piece d L (widL L) (k0_off2 L k 4#32) (k0_off2_inb L k 4) (10 * k.val + 4) hn (k0_off2_eq L k 4) f).symm
/-- Row n of the index scratch, n = 10 k + 13, is the row step 4 of trip k gathers by. -/
theorem kp_lstP_K4 (q : PosShare TreeShare) (f : Buf (Elt F) ((thr d L).loc cc0_scratch0)) (k : Fin k0_t1_loop.trips) (h : k0_cond5 k = 1#1)
    (n : ℕ) (hn : n < 100) (e : n = 10 * k.val + 13) :
    lstP d L q f n = ((lstK4 k h).view.loc (thr d L) ↦[(lstK4 k h).view.set]{q} f : sProp 𝕄) := by
  subst e
  exact (lstP_lt d L q f (10 * k.val + 13) hn).trans
    (kp_lst_piece d L (k0_off12 k) (k0_off12_inb k h) (10 * k.val + 13) hn (k0_off12_eq k) q f).symm

/-- Chunk n of the block, n = 10 k + 5, is the chunk step 5 of trip k copies out to. -/
theorem kp_chP_K5 (f : Buf (Elt F) (oLoc d)) (k : Fin k0_t1_loop.trips) (n : ℕ) (hn : n < 100) (e : n = 10 * k.val + 5) :
    chP d L (widL L) f n = ((oChK5 L k).view.loc (thr d L) ↦[(oChK5 L k).view.set]{fullShare} f : sProp 𝕄) := by
  subst e
  exact (chP_lt d L (widL L) f (10 * k.val + 5) hn).trans
    (kp_och_piece d L (widL L) (k0_off2 L k 5#32) (k0_off2_inb L k 5) (10 * k.val + 5) hn (k0_off2_eq L k 5) f).symm
/-- Row n of the index scratch, n = 10 k + 14, is the row step 5 of trip k gathers by. -/
theorem kp_lstP_K5 (q : PosShare TreeShare) (f : Buf (Elt F) ((thr d L).loc cc0_scratch0)) (k : Fin k0_t1_loop.trips) (h : k0_cond6 k = 1#1)
    (n : ℕ) (hn : n < 100) (e : n = 10 * k.val + 14) :
    lstP d L q f n = ((lstK5 k h).view.loc (thr d L) ↦[(lstK5 k h).view.set]{q} f : sProp 𝕄) := by
  subst e
  exact (lstP_lt d L q f (10 * k.val + 14) hn).trans
    (kp_lst_piece d L (k0_off14 k) (k0_off14_inb k h) (10 * k.val + 14) hn (k0_off14_eq k) q f).symm

/-- Chunk n of the block, n = 10 k + 6, is the chunk step 6 of trip k copies out to. -/
theorem kp_chP_K6 (f : Buf (Elt F) (oLoc d)) (k : Fin k0_t1_loop.trips) (n : ℕ) (hn : n < 100) (e : n = 10 * k.val + 6) :
    chP d L (widL L) f n = ((oChK6 L k).view.loc (thr d L) ↦[(oChK6 L k).view.set]{fullShare} f : sProp 𝕄) := by
  subst e
  exact (chP_lt d L (widL L) f (10 * k.val + 6) hn).trans
    (kp_och_piece d L (widL L) (k0_off2 L k 6#32) (k0_off2_inb L k 6) (10 * k.val + 6) hn (k0_off2_eq L k 6) f).symm
/-- Row n of the index scratch, n = 10 k + 15, is the row step 6 of trip k gathers by. -/
theorem kp_lstP_K6 (q : PosShare TreeShare) (f : Buf (Elt F) ((thr d L).loc cc0_scratch0)) (k : Fin k0_t1_loop.trips) (h : k0_cond7 k = 1#1)
    (n : ℕ) (hn : n < 100) (e : n = 10 * k.val + 15) :
    lstP d L q f n = ((lstK6 k h).view.loc (thr d L) ↦[(lstK6 k h).view.set]{q} f : sProp 𝕄) := by
  subst e
  exact (lstP_lt d L q f (10 * k.val + 15) hn).trans
    (kp_lst_piece d L (k0_off16 k) (k0_off16_inb k h) (10 * k.val + 15) hn (k0_off16_eq k) q f).symm

/-- Chunk n of the block, n = 10 k + 7, is the chunk step 7 of trip k copies out to. -/
theorem kp_chP_K7 (f : Buf (Elt F) (oLoc d)) (k : Fin k0_t1_loop.trips) (n : ℕ) (hn : n < 100) (e : n = 10 * k.val + 7) :
    chP d L (widL L) f n = ((oChK7 L k).view.loc (thr d L) ↦[(oChK7 L k).view.set]{fullShare} f : sProp 𝕄) := by
  subst e
  exact (chP_lt d L (widL L) f (10 * k.val + 7) hn).trans
    (kp_och_piece d L (widL L) (k0_off2 L k 7#32) (k0_off2_inb L k 7) (10 * k.val + 7) hn (k0_off2_eq L k 7) f).symm
/-- Row n of the index scratch, n = 10 k + 16, is the row step 7 of trip k gathers by. -/
theorem kp_lstP_K7 (q : PosShare TreeShare) (f : Buf (Elt F) ((thr d L).loc cc0_scratch0)) (k : Fin k0_t1_loop.trips) (h : k0_cond8 k = 1#1)
    (n : ℕ) (hn : n < 100) (e : n = 10 * k.val + 16) :
    lstP d L q f n = ((lstK7 k h).view.loc (thr d L) ↦[(lstK7 k h).view.set]{q} f : sProp 𝕄) := by
  subst e
  exact (lstP_lt d L q f (10 * k.val + 16) hn).trans
    (kp_lst_piece d L (k0_off18 k) (k0_off18_inb k h) (10 * k.val + 16) hn (k0_off18_eq k) q f).symm

/-- Chunk n of the block, n = 10 k + 8, is the chunk step 8 of trip k copies out to. -/
theorem kp_chP_K8 (f : Buf (Elt F) (oLoc d)) (k : Fin k0_t1_loop.trips) (n : ℕ) (hn : n < 100) (e : n = 10 * k.val + 8) :
    chP d L (widL L) f n = ((oChK8 L k).view.loc (thr d L) ↦[(oChK8 L k).view.set]{fullShare} f : sProp 𝕄) := by
  subst e
  exact (chP_lt d L (widL L) f (10 * k.val + 8) hn).trans
    (kp_och_piece d L (widL L) (k0_off2 L k 8#32) (k0_off2_inb L k 8) (10 * k.val + 8) hn (k0_off2_eq L k 8) f).symm
/-- Row n of the index scratch, n = 10 k + 17, is the row step 8 of trip k gathers by. -/
theorem kp_lstP_K8 (q : PosShare TreeShare) (f : Buf (Elt F) ((thr d L).loc cc0_scratch0)) (k : Fin k0_t1_loop.trips) (h : k0_cond9 k = 1#1)
    (n : ℕ) (hn : n < 100) (e : n = 10 * k.val + 17) :
    lstP d L q f n = ((lstK8 k h).view.loc (thr d L) ↦[(lstK8 k h).view.set]{q} f : sProp 𝕄) := by
  subst e
  exact (lstP_lt d L q f (10 * k.val + 17) hn).trans
    (kp_lst_piece d L (k0_off20 k) (k0_off20_inb k h) (10 * k.val + 17) hn (k0_off20_eq k) q f).symm

/-- Chunk n of the block, n = 10 k + 9, is the chunk step 9 of trip k copies out to. -/
theorem kp_chP_K9 (f : Buf (Elt F) (oLoc d)) (k : Fin k0_t1_loop.trips) (n : ℕ) (hn : n < 100) (e : n = 10 * k.val + 9) :
    chP d L (widL L) f n = ((oChK9 L k).view.loc (thr d L) ↦[(oChK9 L k).view.set]{fullShare} f : sProp 𝕄) := by
  subst e
  exact (chP_lt d L (widL L) f (10 * k.val + 9) hn).trans
    (kp_och_piece d L (widL L) (k0_off2 L k 9#32) (k0_off2_inb L k 9) (10 * k.val + 9) hn (k0_off2_eq L k 9) f).symm
/-- Row n of the index scratch, n = 10 k + 18, is the row step 9 of trip k gathers by. -/
theorem kp_lstP_K9 (q : PosShare TreeShare) (f : Buf (Elt F) ((thr d L).loc cc0_scratch0)) (k : Fin k0_t1_loop.trips) (h : k0_cond10 k = 1#1)
    (n : ℕ) (hn : n < 100) (e : n = 10 * k.val + 18) :
    lstP d L q f n = ((lstK9 k h).view.loc (thr d L) ↦[(lstK9 k h).view.set]{q} f : sProp 𝕄) := by
  subst e
  exact (lstP_lt d L q f (10 * k.val + 18) hn).trans
    (kp_lst_piece d L (k0_off22 k) (k0_off22_inb k h) (10 * k.val + 18) hn (k0_off22_eq k) q f).symm

/-- A slot's contents after chunk n's gather depend on n only. -/
theorem kp_RF_of (n n' : ℕ) (e : n = n') (h : n < 100) (h' : n' < 100) : RF m d L ⟨n, h⟩ = RF m d L ⟨n', h'⟩ := by
  subst e; rfl

section Nine
variable {M : Type} [URA M]
/-- Nine steps of an initial segment giving up its greatest element, reassociated to the right. -/
theorem kp_range_push9 (Φ : ℕ → sProp M) (n : ℕ) :
    bigSep (Finset.range (n + 9)) Φ = iprop(bigSep (Finset.range n) Φ ∗ Φ n ∗ Φ (n+1) ∗ Φ (n+2) ∗ Φ (n+3) ∗ Φ (n+4) ∗ Φ (n+5)
      ∗ Φ (n+6) ∗ Φ (n+7) ∗ Φ (n+8)) := by
  rw [bigSep_range_succ_of_eq Φ (n+8) (n+9) rfl,
    bigSep_range_succ_of_eq Φ (n+7) (n+8) rfl, bigSep_range_succ_of_eq Φ (n+6) (n+7) rfl,
    bigSep_range_succ_of_eq Φ (n+5) (n+6) rfl, bigSep_range_succ_of_eq Φ (n+4) (n+5) rfl,
    bigSep_range_succ_of_eq Φ (n+3) (n+4) rfl, bigSep_range_succ_of_eq Φ (n+2) (n+3) rfl,
    bigSep_range_succ_of_eq Φ (n+1) (n+2) rfl, bigSep_range_succ_of_eq Φ n (n+1) rfl]
  simp only [sep_assoc_eq]
end Nine

end Cert.Proof.KernelIdealRun

end
-- ==== Proof.KITripZero.lean ====
/-
  Trip 0 of the worker's loop. Before it the ten opening gathers are in flight, one per slot, and nothing has been
  copied out. Step r waits the gather of chunk r into slot r and copies the slot out to chunk r of the block; from
  step 1 on it then waits the copy-out of slot r - 1 and issues the gather of chunk 9 + r into that slot, by row 9 + r
  of the index scratch. After it chunks 0 to 8 hold the lookup's value, the copy-out of chunk 9 is in flight, slots
  0 to 8 carry the gathers of chunks 10 to 18, rows 0 to 9 of the index scratch are back and rows 10 to 18 are lent:
  the state before trip 1.
-/
import proofs.«206297_g77653008712327_cont_9to1c4b_438_14_alg».proof.Proof.KITripPieces

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x100x64 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S32x100x64x128 EltTy.f32)
local notation "sV" => (Memref.whole Cert.KernelIdeal.cc0_scratch0 : Memref Cert.KernelIdeal.sig Kind.scVector Space.vmem Cert.KernelIdeal.S100x64 EltTy.i32)
local notation "rV" => (Memref.whole Cert.KernelIdeal.cc0_scratch1 : Memref Cert.KernelIdeal.sig Kind.scVector Space.vmem Cert.KernelIdeal.S10x64x128 EltTy.f32)

variable (m : (ℓ : Loc nD τ sig) → Buf (Elt F) ℓ) [FloatOps F]
variable (d : Dev nD) (L : grid0.Coords)
variable (O : CellTallies nD τ sig (HIx 1)) (W : Waits sig (HIx 1)) (f0 : Buf (Elt F) (oLoc d))

set_option maxHeartbeats 16000000 in
theorem trip_zero (hpre : Lookup.InRange (idx3 m d)) (k : Fin k0_t1_loop.trips) (acc : BitVec 32) (hk0 : k.val = 0) :
    inv m d L O W f0 k.val acc ⊢ wp frame (wpE (defs₀ (F := F)) 𝒱₀ (thr d L) none) Set.univ
      (k0_t1_body L iV (Memref.isWhole_whole _) xV (Memref.isWhole_whole _) oV (Memref.isWhole_whole _) sV (Memref.isWhole_whole _) rV (Memref.isWhole_whole _) cc0_scratch2 cc0_scratch3 cc0_scoped0 k acc) (inv m d L O W f0 (k.val + 1)) := by
  have h1 : ¬ k0_cond1 k = 1#1 := fun h => by have := (cond1_iff k).1 h; omega
  have h2 : k0_cond2 k = 1#1 := (cond2_iff k).2 (by omega)
  have h3 : k0_cond3 k = 1#1 := (cond3_iff k).2 (by omega)
  have h4 : k0_cond4 k = 1#1 := (cond4_iff k).2 (by omega)
  have h5 : k0_cond5 k = 1#1 := (cond5_iff k).2 (by omega)
  have h6 : k0_cond6 k = 1#1 := (cond6_iff k).2 (by omega)
  have h7 : k0_cond7 k = 1#1 := (cond7_iff k).2 (by omega)
  have h8 : k0_cond8 k = 1#1 := (cond8_iff k).2 (by omega)
  have h9 : k0_cond9 k = 1#1 := (cond9_iff k).2 (by omega)
  have h10 : k0_cond10 k = 1#1 := (cond10_iff k).2 (by omega)
  have hin := hin_all m d L hpre
  generalize hQ : inv m d L O W f0 (k.val + 1) = Qpost
  rw [show inv m d L O W f0 k.val acc = inv0 m d L O W f0 from by rw [hk0]; exact inv_zero m d L O W f0 acc]
  unfold inv0 common FG0 FG1 FG2 FG3 FG4 FG5 FG6 FG7 FG8 FG9 GD0 GD1 GD2 GD3 GD4 GD5 GD6 GD7 GD8 GD9
  rw [bigSep_Ico_pop10 (chP d L (widL L) f0) (10 * 0) 100 (by omega),
    bigSep_Ico_pop10 (lstP d L fullShare (IDXV m d L)) 10 100 (by omega),
    kp_chP_K0 d L f0 k (10 * 0) (by omega) (by omega),
    kp_chP_K1 d L f0 k (10 * 0 + 1) (by omega) (by omega),
    kp_chP_K2 d L f0 k (10 * 0 + 2) (by omega) (by omega),
    kp_chP_K3 d L f0 k (10 * 0 + 3) (by omega) (by omega),
    kp_chP_K4 d L f0 k (10 * 0 + 4) (by omega) (by omega),
    kp_chP_K5 d L f0 k (10 * 0 + 5) (by omega) (by omega),
    kp_chP_K6 d L f0 k (10 * 0 + 6) (by omega) (by omega),
    kp_chP_K7 d L f0 k (10 * 0 + 7) (by omega) (by omega),
    kp_chP_K8 d L f0 k (10 * 0 + 8) (by omega) (by omega),
    kp_chP_K9 d L f0 k (10 * 0 + 9) (by omega) (by omega),
    kp_lstP_K1 d L fullShare (IDXV m d L) k h2 10 (by omega) (by omega),
    kp_lstP_K2 d L fullShare (IDXV m d L) k h3 (10 + 1) (by omega) (by omega),
    kp_lstP_K3 d L fullShare (IDXV m d L) k h4 (10 + 2) (by omega) (by omega),
    kp_lstP_K4 d L fullShare (IDXV m d L) k h5 (10 + 3) (by omega) (by omega),
    kp_lstP_K5 d L fullShare (IDXV m d L) k h6 (10 + 4) (by omega) (by omega),
    kp_lstP_K6 d L fullShare (IDXV m d L) k h7 (10 + 5) (by omega) (by omega),
    kp_lstP_K7 d L fullShare (IDXV m d L) k h8 (10 + 6) (by omega) (by omega),
    kp_lstP_K8 d L fullShare (IDXV m d L) k h9 (10 + 7) (by omega) (by omega),
    kp_lstP_K9 d L fullShare (IDXV m d L) k h10 (10 + 8) (by omega) (by omega)]
  iintro ⟨⟨#Hmw, Hdone, ⟨Hc0, Hc1, Hc2, Hc3, Hc4, Hc5, Hc6, Hc7, Hc8, Hc9, Hrest⟩, Hlret, ⟨Hl1, Hl2, Hl3, Hl4, Hl5, Hl6, Hl7, Hl8, Hl9, Hl19, Hlrest⟩, %W', %hW', HO⟩, FG0, FG1, FG2, FG3, FG4, FG5, FG6, FG7, FG8, FG9, Hs0, Hs1, Hs2, Hs3, Hs4, Hs5, Hs6, Hs7, Hs8, Hs9⟩
  unfold k0_t1_body
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  sl_exec
  icases FG0_dst with ⟨HR0, HLr0⟩
  sl_exec
  icases FG1_dst with ⟨HR1, HLr1⟩
  sl_exec
  icases FG2_dst with ⟨HR2, HLr2⟩
  sl_exec
  icases FG3_dst with ⟨HR3, HLr3⟩
  sl_exec
  icases FG4_dst with ⟨HR4, HLr4⟩
  sl_exec
  icases FG5_dst with ⟨HR5, HLr5⟩
  sl_exec
  icases FG6_dst with ⟨HR6, HLr6⟩
  sl_exec
  icases FG7_dst with ⟨HR7, HLr7⟩
  sl_exec
  icases FG8_dst with ⟨HR8, HLr8⟩
  sl_exec
  icases FG9_dst with ⟨HR9, HLr9⟩
  sl_exec
  sl_step
  subst hQ
  rw [inv_mid m d L O W f0 (k.val + 1) (by omega) (by omega)]
  unfold invM common
  have hb0 : (0 : ℕ) < 10 := by omega
  have hb1 : (1 : ℕ) < 10 := by omega
  have hb2 : (2 : ℕ) < 10 := by omega
  have hb3 : (3 : ℕ) < 10 := by omega
  have hb4 : (4 : ℕ) < 10 := by omega
  have hb5 : (5 : ℕ) < 10 := by omega
  have hb6 : (6 : ℕ) < 10 := by omega
  have hb7 : (7 : ℕ) < 10 := by omega
  have hb8 : (8 : ℕ) < 10 := by omega
  have hb9 : (9 : ℕ) < 10 := by omega
  have hl0 : (0 : ℕ) < 100 := by omega
  have hl1 : (1 : ℕ) < 100 := by omega
  have hl2 : (2 : ℕ) < 100 := by omega
  have hl3 : (3 : ℕ) < 100 := by omega
  have hl4 : (4 : ℕ) < 100 := by omega
  have hl5 : (5 : ℕ) < 100 := by omega
  have hl6 : (6 : ℕ) < 100 := by omega
  have hl7 : (7 : ℕ) < 100 := by omega
  have hl8 : (8 : ℕ) < 100 := by omega
  have hl9 : (9 : ℕ) < 100 := by omega
  have hc0 : 10 * k.val + 0 < 100 := by omega
  have hc1 : 10 * k.val + 1 < 100 := by omega
  have hc2 : 10 * k.val + 2 < 100 := by omega
  have hc3 : 10 * k.val + 3 < 100 := by omega
  have hc4 : 10 * k.val + 4 < 100 := by omega
  have hc5 : 10 * k.val + 5 < 100 := by omega
  have hc6 : 10 * k.val + 6 < 100 := by omega
  have hc7 : 10 * k.val + 7 < 100 := by omega
  have hc8 : 10 * k.val + 8 < 100 := by omega
  have hc9 : 10 * k.val + 9 < 100 := by omega
  have hg0 : 10 * k.val + 10 < 100 := by omega
  have hg1 : 10 * k.val + 11 < 100 := by omega
  have hg2 : 10 * k.val + 12 < 100 := by omega
  have hg3 : 10 * k.val + 13 < 100 := by omega
  have hg4 : 10 * k.val + 14 < 100 := by omega
  have hg5 : 10 * k.val + 15 < 100 := by omega
  have hg6 : 10 * k.val + 16 < 100 := by omega
  have hg7 : 10 * k.val + 17 < 100 := by omega
  have hg8 : 10 * k.val + 18 < 100 := by omega
  have hp0 : 10 * (k.val + 1) + 0 < 100 := by omega
  have hp1 : 10 * (k.val + 1) + 1 < 100 := by omega
  have hp2 : 10 * (k.val + 1) + 2 < 100 := by omega
  have hp3 : 10 * (k.val + 1) + 3 < 100 := by omega
  have hp4 : 10 * (k.val + 1) + 4 < 100 := by omega
  have hp5 : 10 * (k.val + 1) + 5 < 100 := by omega
  have hp6 : 10 * (k.val + 1) + 6 < 100 := by omega
  have hp7 : 10 * (k.val + 1) + 7 < 100 := by omega
  have hp8 : 10 * (k.val + 1) + 8 < 100 := by omega
  have hp9 : 10 * (k.val + 1) - 1 < 100 := by omega
  have hd0 : (0 : ℕ) < sig.nDmaSem := by show 0 < 21; omega
  have hd1 : (1 : ℕ) < sig.nDmaSem := by show 1 < 21; omega
  have hd2 : (2 : ℕ) < sig.nDmaSem := by show 2 < 21; omega
  have hd3 : (3 : ℕ) < sig.nDmaSem := by show 3 < 21; omega
  have hd4 : (4 : ℕ) < sig.nDmaSem := by show 4 < 21; omega
  have hd5 : (5 : ℕ) < sig.nDmaSem := by show 5 < 21; omega
  have hd6 : (6 : ℕ) < sig.nDmaSem := by show 6 < 21; omega
  have hd7 : (7 : ℕ) < sig.nDmaSem := by show 7 < 21; omega
  have hd8 : (8 : ℕ) < sig.nDmaSem := by show 8 < 21; omega
  have hd19 : (19 : ℕ) < sig.nDmaSem := by show 19 < 21; omega
  isplitl [Hdone Hc0 Hc1 Hc2 Hc3 Hc4 Hc5 Hc6 Hc7 Hc8 Hrest Hlret HLr0 HLr1 HLr2 HLr3 HLr4 HLr5 HLr6 HLr7 HLr8 HLr9 Hl19 Hlrest HO]
  · isplitr
    · iexact Hmw
    isplitl [Hdone Hc0 Hc1 Hc2 Hc3 Hc4 Hc5 Hc6 Hc7 Hc8]
    · rw [show 10 * (k.val + 1) - 1 = 0 + 9 from by omega, kp_range_push9]
      isplitl [Hdone]
      · iexact Hdone
      isplitl [Hc0]
      · iapply (chP_of d L (widL L) (OUT m d) (10 * k.val + 0) (0) (by omega) hc0)
        iapply (Entails.of_eq (chunk_canon m d L 0 hb0 (10 * k.val + 0) hc0 (k0_off2 L k 0#32) (k0_off2_inb L k 0) (k0_off2_eq L k 0) f0 (RF m d L ⟨0, hl0⟩)
          (fun i _ => congrFun (kp_RF_of m d L 0 (10 * k.val + 0) (by omega) hl0 hc0) i) (trip_zero.sl.dma0 m d L) rfl)) $$ Hc0
      isplitl [Hc1]
      · iapply (chP_of d L (widL L) (OUT m d) (10 * k.val + 1) (0 + 1) (by omega) hc1)
        iapply (Entails.of_eq (chunk_canon m d L 1 hb1 (10 * k.val + 1) hc1 (k0_off2 L k 1#32) (k0_off2_inb L k 1) (k0_off2_eq L k 1) f0 (RF m d L ⟨1, hl1⟩)
          (fun i _ => congrFun (kp_RF_of m d L 1 (10 * k.val + 1) (by omega) hl1 hc1) i) (trip_zero.sl.dma0_1 m d L) rfl)) $$ Hc1
      isplitl [Hc2]
      · iapply (chP_of d L (widL L) (OUT m d) (10 * k.val + 2) (0 + 2) (by omega) hc2)
        iapply (Entails.of_eq (chunk_canon m d L 2 hb2 (10 * k.val + 2) hc2 (k0_off2 L k 2#32) (k0_off2_inb L k 2) (k0_off2_eq L k 2) f0 (RF m d L ⟨2, hl2⟩)
          (fun i _ => congrFun (kp_RF_of m d L 2 (10 * k.val + 2) (by omega) hl2 hc2) i) (trip_zero.sl.dma0_2 m d L) rfl)) $$ Hc2
      isplitl [Hc3]
      · iapply (chP_of d L (widL L) (OUT m d) (10 * k.val + 3) (0 + 3) (by omega) hc3)
        iapply (Entails.of_eq (chunk_canon m d L 3 hb3 (10 * k.val + 3) hc3 (k0_off2 L k 3#32) (k0_off2_inb L k 3) (k0_off2_eq L k 3) f0 (RF m d L ⟨3, hl3⟩)
          (fun i _ => congrFun (kp_RF_of m d L 3 (10 * k.val + 3) (by omega) hl3 hc3) i) (trip_zero.sl.dma0_3 m d L) rfl)) $$ Hc3
      isplitl [Hc4]
      · iapply (chP_of d L (widL L) (OUT m d) (10 * k.val + 4) (0 + 4) (by omega) hc4)
        iapply (Entails.of_eq (chunk_canon m d L 4 hb4 (10 * k.val + 4) hc4 (k0_off2 L k 4#32) (k0_off2_inb L k 4) (k0_off2_eq L k 4) f0 (RF m d L ⟨4, hl4⟩)
          (fun i _ => congrFun (kp_RF_of m d L 4 (10 * k.val + 4) (by omega) hl4 hc4) i) (trip_zero.sl.dma0_4 m d L) rfl)) $$ Hc4
      isplitl [Hc5]
      · iapply (chP_of d L (widL L) (OUT m d) (10 * k.val + 5) (0 + 5) (by omega) hc5)
        iapply (Entails.of_eq (chunk_canon m d L 5 hb5 (10 * k.val + 5) hc5 (k0_off2 L k 5#32) (k0_off2_inb L k 5) (k0_off2_eq L k 5) f0 (RF m d L ⟨5, hl5⟩)
          (fun i _ => congrFun (kp_RF_of m d L 5 (10 * k.val + 5) (by omega) hl5 hc5) i) (trip_zero.sl.dma0_5 m d L) rfl)) $$ Hc5
      isplitl [Hc6]
      · iapply (chP_of d L (widL L) (OUT m d) (10 * k.val + 6) (0 + 6) (by omega) hc6)
        iapply (Entails.of_eq (chunk_canon m d L 6 hb6 (10 * k.val + 6) hc6 (k0_off2 L k 6#32) (k0_off2_inb L k 6) (k0_off2_eq L k 6) f0 (RF m d L ⟨6, hl6⟩)
          (fun i _ => congrFun (kp_RF_of m d L 6 (10 * k.val + 6) (by omega) hl6 hc6) i) (trip_zero.sl.dma0_6 m d L) rfl)) $$ Hc6
      isplitl [Hc7]
      · iapply (chP_of d L (widL L) (OUT m d) (10 * k.val + 7) (0 + 7) (by omega) hc7)
        iapply (Entails.of_eq (chunk_canon m d L 7 hb7 (10 * k.val + 7) hc7 (k0_off2 L k 7#32) (k0_off2_inb L k 7) (k0_off2_eq L k 7) f0 (RF m d L ⟨7, hl7⟩)
          (fun i _ => congrFun (kp_RF_of m d L 7 (10 * k.val + 7) (by omega) hl7 hc7) i) (trip_zero.sl.dma0_7 m d L) rfl)) $$ Hc7
      iapply (chP_of d L (widL L) (OUT m d) (10 * k.val + 8) (0 + 8) (by omega) hc8)
      iapply (Entails.of_eq (chunk_canon m d L 8 hb8 (10 * k.val + 8) hc8 (k0_off2 L k 8#32) (k0_off2_inb L k 8) (k0_off2_eq L k 8) f0 (RF m d L ⟨8, hl8⟩)
        (fun i _ => congrFun (kp_RF_of m d L 8 (10 * k.val + 8) (by omega) hl8 hc8) i) (trip_zero.sl.dma0_8 m d L) rfl)) $$ Hc8
    isplitl [Hrest]
    · rw [show 10 * (k.val + 1) = 10 * 0 + 10 from by omega]; iexact Hrest
    isplitl [Hlret HLr0 HLr1 HLr2 HLr3 HLr4 HLr5 HLr6 HLr7 HLr8 HLr9]
    · rw [show 10 * (k.val + 1) = 10 * 0 + 10 from by omega, bigSep_range_push10]
      isplitl [Hlret]
      · iexact Hlret
      isplitl [HLr0]
      · iapply (lstP_of d L fullShare (IDXV m d L) 0 (10 * 0) (by omega) hl0) $$ HLr0
      isplitl [HLr1]
      · iapply (lstP_of d L fullShare (IDXV m d L) 1 (10 * 0 + 1) (by omega) hl1) $$ HLr1
      isplitl [HLr2]
      · iapply (lstP_of d L fullShare (IDXV m d L) 2 (10 * 0 + 2) (by omega) hl2) $$ HLr2
      isplitl [HLr3]
      · iapply (lstP_of d L fullShare (IDXV m d L) 3 (10 * 0 + 3) (by omega) hl3) $$ HLr3
      isplitl [HLr4]
      · iapply (lstP_of d L fullShare (IDXV m d L) 4 (10 * 0 + 4) (by omega) hl4) $$ HLr4
      isplitl [HLr5]
      · iapply (lstP_of d L fullShare (IDXV m d L) 5 (10 * 0 + 5) (by omega) hl5) $$ HLr5
      isplitl [HLr6]
      · iapply (lstP_of d L fullShare (IDXV m d L) 6 (10 * 0 + 6) (by omega) hl6) $$ HLr6
      isplitl [HLr7]
      · iapply (lstP_of d L fullShare (IDXV m d L) 7 (10 * 0 + 7) (by omega) hl7) $$ HLr7
      isplitl [HLr8]
      · iapply (lstP_of d L fullShare (IDXV m d L) 8 (10 * 0 + 8) (by omega) hl8) $$ HLr8
      iapply (lstP_of d L fullShare (IDXV m d L) 9 (10 * 0 + 9) (by omega) hl9) $$ HLr9
    isplitl [Hl19 Hlrest]
    · rw [show 10 * (k.val + 1) + 9 = 10 + 9 from by omega,
        bigSep_Ico_pop_of_eq (lstP d L fullShare (IDXV m d L)) (10 + 9) 100 (10 + 10) (by omega) (by omega)]
      isplitl [Hl19]
      · iexact Hl19
      iexact Hlrest
    iexists _; isplitr
    swap
    · iexact HO
    ipureintro
    repeat (first | exact hW' | refine kp_ins_ok ?_)
  isplitl [FG0]
  · iapply ((gather_canon m d L 0 hb0 hpre (10 * k.val + 10) hg0 (k0_off6 k) (k0_off6_inb k h2) (k0_off6_eq k) (RF m d L ⟨0, hl0⟩)
        (trip_zero.sl.gather1 m d L k h2 hin) (hin _ _ _) rfl (xtok L (0 : Fin 10)) (SemLoc.dma ⟨0, hd0⟩ : SemLoc sig) 262144).trans
      (FG0_of m d L (10 * k.val + 10) (10 * (k.val + 1) + 0) (by omega) hg0 hp0)) $$ FG0
  isplitl [FG1]
  · iapply ((gather_canon m d L 1 hb1 hpre (10 * k.val + 11) hg1 (k0_off8 k) (k0_off8_inb k h3) (k0_off8_eq k) (RF m d L ⟨1, hl1⟩)
        (trip_zero.sl.gather1_1 m d L k h3 hin) (hin _ _ _) rfl (xtok L (1 : Fin 10)) (SemLoc.dma ⟨1, hd1⟩ : SemLoc sig) 262144).trans
      (FG1_of m d L (10 * k.val + 11) (10 * (k.val + 1) + 1) (by omega) hg1 hp1)) $$ FG1
  isplitl [FG2]
  · iapply ((gather_canon m d L 2 hb2 hpre (10 * k.val + 12) hg2 (k0_off10 k) (k0_off10_inb k h4) (k0_off10_eq k) (RF m d L ⟨2, hl2⟩)
        (trip_zero.sl.gather1_2 m d L k h4 hin) (hin _ _ _) rfl (xtok L (2 : Fin 10)) (SemLoc.dma ⟨2, hd2⟩ : SemLoc sig) 262144).trans
      (FG2_of m d L (10 * k.val + 12) (10 * (k.val + 1) + 2) (by omega) hg2 hp2)) $$ FG2
  isplitl [FG3]
  · iapply ((gather_canon m d L 3 hb3 hpre (10 * k.val + 13) hg3 (k0_off12 k) (k0_off12_inb k h5) (k0_off12_eq k) (RF m d L ⟨3, hl3⟩)
        (trip_zero.sl.gather1_3 m d L k h5 hin) (hin _ _ _) rfl (xtok L (3 : Fin 10)) (SemLoc.dma ⟨3, hd3⟩ : SemLoc sig) 262144).trans
      (FG3_of m d L (10 * k.val + 13) (10 * (k.val + 1) + 3) (by omega) hg3 hp3)) $$ FG3
  isplitl [FG4]
  · iapply ((gather_canon m d L 4 hb4 hpre (10 * k.val + 14) hg4 (k0_off14 k) (k0_off14_inb k h6) (k0_off14_eq k) (RF m d L ⟨4, hl4⟩)
        (trip_zero.sl.gather1_4 m d L k h6 hin) (hin _ _ _) rfl (xtok L (4 : Fin 10)) (SemLoc.dma ⟨4, hd4⟩ : SemLoc sig) 262144).trans
      (FG4_of m d L (10 * k.val + 14) (10 * (k.val + 1) + 4) (by omega) hg4 hp4)) $$ FG4
  isplitl [FG5]
  · iapply ((gather_canon m d L 5 hb5 hpre (10 * k.val + 15) hg5 (k0_off16 k) (k0_off16_inb k h7) (k0_off16_eq k) (RF m d L ⟨5, hl5⟩)
        (trip_zero.sl.gather1_5 m d L k h7 hin) (hin _ _ _) rfl (xtok L (5 : Fin 10)) (SemLoc.dma ⟨5, hd5⟩ : SemLoc sig) 262144).trans
      (FG5_of m d L (10 * k.val + 15) (10 * (k.val + 1) + 5) (by omega) hg5 hp5)) $$ FG5
  isplitl [FG6]
  · iapply ((gather_canon m d L 6 hb6 hpre (10 * k.val + 16) hg6 (k0_off18 k) (k0_off18_inb k h8) (k0_off18_eq k) (RF m d L ⟨6, hl6⟩)
        (trip_zero.sl.gather1_6 m d L k h8 hin) (hin _ _ _) rfl (xtok L (6 : Fin 10)) (SemLoc.dma ⟨6, hd6⟩ : SemLoc sig) 262144).trans
      (FG6_of m d L (10 * k.val + 16) (10 * (k.val + 1) + 6) (by omega) hg6 hp6)) $$ FG6
  isplitl [FG7]
  · iapply ((gather_canon m d L 7 hb7 hpre (10 * k.val + 17) hg7 (k0_off20 k) (k0_off20_inb k h9) (k0_off20_eq k) (RF m d L ⟨7, hl7⟩)
        (trip_zero.sl.gather1_7 m d L k h9 hin) (hin _ _ _) rfl (xtok L (7 : Fin 10)) (SemLoc.dma ⟨7, hd7⟩ : SemLoc sig) 262144).trans
      (FG7_of m d L (10 * k.val + 17) (10 * (k.val + 1) + 7) (by omega) hg7 hp7)) $$ FG7
  isplitl [FG8]
  · iapply ((gather_canon m d L 8 hb8 hpre (10 * k.val + 18) hg8 (k0_off22 k) (k0_off22_inb k h10) (k0_off22_eq k) (RF m d L ⟨8, hl8⟩)
        (trip_zero.sl.gather1_8 m d L k h10 hin) (hin _ _ _) rfl (xtok L (8 : Fin 10)) (SemLoc.dma ⟨8, hd8⟩ : SemLoc sig) 262144).trans
      (FG8_of m d L (10 * k.val + 18) (10 * (k.val + 1) + 8) (by omega) hg8 hp8)) $$ FG8
  isplitl [Hs9]
  · iapply ((store_canon m d L 9 hb9 (10 * k.val + 9) hc9 (k0_off2 L k 9#32) (k0_off2_inb L k 9) (k0_off2_eq L k 9) f0 (RF m d L ⟨9, hl9⟩)
        (fun i _ => congrFun (kp_RF_of m d L 9 (10 * k.val + 9) (by omega) hl9 hc9) i) (trip_zero.sl.dma0_9 m d L) rfl (SemLoc.dma ⟨19, hd19⟩ : SemLoc sig) 262144).trans
      (FS9_of m d L (10 * k.val + 9) (10 * (k.val + 1) - 1) (by omega) hc9 hp9)) $$ Hs9
  isplitl [Hs0]
  · iexact Hs0
  isplitl [Hs1]
  · iexact Hs1
  isplitl [Hs2]
  · iexact Hs2
  isplitl [Hs3]
  · iexact Hs3
  isplitl [Hs4]
  · iexact Hs4
  isplitl [Hs5]
  · iexact Hs5
  isplitl [Hs6]
  · iexact Hs6
  isplitl [Hs7]
  · iexact Hs7
  isplitl [Hs8]
  · iexact Hs8
  isplitl [FG9]
  · iexact FG9
  unfold tokx
  iexact FG9_src

end Cert.Proof.KernelIdealRun

end
-- ==== Proof.KITripMid.lean ====
/-
  One trip of the ring, 1 ≤ k ≤ 8: for each slot b in turn, the gather of chunk 10 k + b is waited for and the slot
  copied out to that chunk; then the copy-out of the previous slot is waited for and that slot is refilled with the
  gather of the chunk ten further on. Slot 9's gather of chunk 10 k + 9 is issued and waited for within the trip; its
  copy-out is what the trip leaves in flight. Every landing is the specified rows: a gather leaves `RF n` in its
  slot, a copy-out leaves `OUT` on its chunk.
-/
import proofs.«206297_g77653008712327_cont_9to1c4b_438_14_alg».proof.Proof.KITripLemmas
import proofs.«206297_g77653008712327_cont_9to1c4b_438_14_alg».proof.Proof.KIConv

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x100x64 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S32x100x64x128 EltTy.f32)
local notation "sV" => (Memref.whole Cert.KernelIdeal.cc0_scratch0 : Memref Cert.KernelIdeal.sig Kind.scVector Space.vmem Cert.KernelIdeal.S100x64 EltTy.i32)
local notation "rV" => (Memref.whole Cert.KernelIdeal.cc0_scratch1 : Memref Cert.KernelIdeal.sig Kind.scVector Space.vmem Cert.KernelIdeal.S10x64x128 EltTy.f32)

variable (m : (ℓ : Loc nD τ sig) → Buf (Elt F) ℓ) [FloatOps F]
variable (d : Dev nD) (L : grid0.Coords)
variable (O : CellTallies nD τ sig (HIx 1)) (W : Waits sig (HIx 1)) (f0 : Buf (Elt F) (oLoc d))

set_option maxHeartbeats 16000000 in
theorem trip_mid (hpre : Lookup.InRange (idx3 m d)) (k : Fin k0_t1_loop.trips) (acc : BitVec 32) (hk1 : 1 ≤ k.val) (hk8 : k.val ≤ 8) :
    inv m d L O W f0 k.val acc ⊢ wp frame (wpE (defs₀ (F := F)) 𝒱₀ (thr d L) none) Set.univ
      (k0_t1_body L iV (Memref.isWhole_whole _) xV (Memref.isWhole_whole _) oV (Memref.isWhole_whole _) sV (Memref.isWhole_whole _) rV (Memref.isWhole_whole _) cc0_scratch2 cc0_scratch3 cc0_scoped0 k acc) (inv m d L O W f0 (k.val + 1)) := by
  have h1 : k0_cond1 k = 1#1 := (cond1_iff k).2 hk1
  have h2 : k0_cond2 k = 1#1 := (cond2_iff k).2 hk8
  have h3 : k0_cond3 k = 1#1 := (cond3_iff k).2 hk8
  have h4 : k0_cond4 k = 1#1 := (cond4_iff k).2 hk8
  have h5 : k0_cond5 k = 1#1 := (cond5_iff k).2 hk8
  have h6 : k0_cond6 k = 1#1 := (cond6_iff k).2 hk8
  have h7 : k0_cond7 k = 1#1 := (cond7_iff k).2 hk8
  have h8 : k0_cond8 k = 1#1 := (cond8_iff k).2 hk8
  have h9 : k0_cond9 k = 1#1 := (cond9_iff k).2 hk8
  have h10 : k0_cond10 k = 1#1 := (cond10_iff k).2 hk8
  have hin := hin_all m d L hpre
  have hb0 : (0 : ℕ) < 10 := by omega
  have hb1 : (1 : ℕ) < 10 := by omega
  have hb2 : (2 : ℕ) < 10 := by omega
  have hb3 : (3 : ℕ) < 10 := by omega
  have hb4 : (4 : ℕ) < 10 := by omega
  have hb5 : (5 : ℕ) < 10 := by omega
  have hb6 : (6 : ℕ) < 10 := by omega
  have hb7 : (7 : ℕ) < 10 := by omega
  have hb8 : (8 : ℕ) < 10 := by omega
  have hb9 : (9 : ℕ) < 10 := by omega
  have hn0 : 10 * k.val + 0 < 100 := by omega
  have hn1 : 10 * k.val + 1 < 100 := by omega
  have hn2 : 10 * k.val + 2 < 100 := by omega
  have hn3 : 10 * k.val + 3 < 100 := by omega
  have hn4 : 10 * k.val + 4 < 100 := by omega
  have hn5 : 10 * k.val + 5 < 100 := by omega
  have hn6 : 10 * k.val + 6 < 100 := by omega
  have hn7 : 10 * k.val + 7 < 100 := by omega
  have hn8 : 10 * k.val + 8 < 100 := by omega
  have hn9 : 10 * k.val + 9 < 100 := by omega
  have hn10 : 10 * k.val + 10 < 100 := by omega
  have hn11 : 10 * k.val + 11 < 100 := by omega
  have hn12 : 10 * k.val + 12 < 100 := by omega
  have hn13 : 10 * k.val + 13 < 100 := by omega
  have hn14 : 10 * k.val + 14 < 100 := by omega
  have hn15 : 10 * k.val + 15 < 100 := by omega
  have hn16 : 10 * k.val + 16 < 100 := by omega
  have hn17 : 10 * k.val + 17 < 100 := by omega
  have hn18 : 10 * k.val + 18 < 100 := by omega
  have hnm : 10 * k.val - 1 < 100 := by omega
  have hd0 : (0 : ℕ) < sig.nDmaSem := by show 0 < 21; omega
  have hd1 : (1 : ℕ) < sig.nDmaSem := by show 1 < 21; omega
  have hd2 : (2 : ℕ) < sig.nDmaSem := by show 2 < 21; omega
  have hd3 : (3 : ℕ) < sig.nDmaSem := by show 3 < 21; omega
  have hd4 : (4 : ℕ) < sig.nDmaSem := by show 4 < 21; omega
  have hd5 : (5 : ℕ) < sig.nDmaSem := by show 5 < 21; omega
  have hd6 : (6 : ℕ) < sig.nDmaSem := by show 6 < 21; omega
  have hd7 : (7 : ℕ) < sig.nDmaSem := by show 7 < 21; omega
  have hd8 : (8 : ℕ) < sig.nDmaSem := by show 8 < 21; omega
  have hd9 : (9 : ℕ) < sig.nDmaSem := by show 9 < 21; omega
  have hd10 : (10 : ℕ) < sig.nDmaSem := by show 10 < 21; omega
  have hd11 : (11 : ℕ) < sig.nDmaSem := by show 11 < 21; omega
  have hd12 : (12 : ℕ) < sig.nDmaSem := by show 12 < 21; omega
  have hd13 : (13 : ℕ) < sig.nDmaSem := by show 13 < 21; omega
  have hd14 : (14 : ℕ) < sig.nDmaSem := by show 14 < 21; omega
  have hd15 : (15 : ℕ) < sig.nDmaSem := by show 15 < 21; omega
  have hd16 : (16 : ℕ) < sig.nDmaSem := by show 16 < 21; omega
  have hd17 : (17 : ℕ) < sig.nDmaSem := by show 17 < 21; omega
  have hd18 : (18 : ℕ) < sig.nDmaSem := by show 18 < 21; omega
  have hd19 : (19 : ℕ) < sig.nDmaSem := by show 19 < 21; omega
  generalize hQ : inv m d L O W f0 (k.val + 1) = Qpost
  rw [inv_mid m d L O W f0 k.val hk1 (by omega)]
  unfold invM common FG0 FG1 FG2 FG3 FG4 FG5 FG6 FG7 FG8 FS9 GD0 GD1 GD2 GD3 GD4 GD5 GD6 GD7 GD8 SD9 tokx
  rw [bigSep_Ico_pop10 (chP d L (widL L) f0) (10 * k.val) 100 (by omega),
    bigSep_Ico_pop10 (lstP d L fullShare (IDXV m d L)) (10 * k.val + 9) 100 (by omega),
    chP_K0 d L f0 k (by omega), chP_K1 d L f0 k (by omega), chP_K2 d L f0 k (by omega), chP_K3 d L f0 k (by omega), chP_K4 d L f0 k (by omega), chP_K5 d L f0 k (by omega), chP_K6 d L f0 k (by omega), chP_K7 d L f0 k (by omega), chP_K8 d L f0 k (by omega), chP_K9 d L f0 k (by omega),
    lstP_K0 d L fullShare (IDXV m d L) k h1 (by omega), lstP_K1 d L fullShare (IDXV m d L) k h2 (by omega), lstP_K2 d L fullShare (IDXV m d L) k h3 (by omega), lstP_K3 d L fullShare (IDXV m d L) k h4 (by omega), lstP_K4 d L fullShare (IDXV m d L) k h5 (by omega), lstP_K5 d L fullShare (IDXV m d L) k h6 (by omega), lstP_K6 d L fullShare (IDXV m d L) k h7 (by omega), lstP_K7 d L fullShare (IDXV m d L) k h8 (by omega), lstP_K8 d L fullShare (IDXV m d L) k h9 (by omega), lstP_K9 d L fullShare (IDXV m d L) k h10 (by omega)]
  iintro ⟨⟨#Hmw, Hdone, ⟨Hc0, Hc1, Hc2, Hc3, Hc4, Hc5, Hc6, Hc7, Hc8, Hc9, Hrest⟩, Hlret, ⟨Hl0, Hl1, Hl2, Hl3, Hl4, Hl5, Hl6, Hl7, Hl8, Hl9, Hlrest⟩, %W', %hW', HO⟩, FG0, FG1, FG2, FG3, FG4, FG5, FG6, FG7, FG8, FS9, Hs0, Hs1, Hs2, Hs3, Hs4, Hs5, Hs6, Hs7, Hs8, Hg9, Hx9⟩
  unfold k0_t1_body
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  sl_exec
  icases FG0_dst with ⟨HR0, HLr0⟩
  sl_exec
  icases FG1_dst with ⟨HR1, HLr1⟩
  sl_exec
  icases FG2_dst with ⟨HR2, HLr2⟩
  sl_exec
  icases FG3_dst with ⟨HR3, HLr3⟩
  sl_exec
  icases FG4_dst with ⟨HR4, HLr4⟩
  sl_exec
  icases FG5_dst with ⟨HR5, HLr5⟩
  sl_exec
  icases FG6_dst with ⟨HR6, HLr6⟩
  sl_exec
  icases FG7_dst with ⟨HR7, HLr7⟩
  sl_exec
  icases FG8_dst with ⟨HR8, HLr8⟩
  sl_exec
  sl_step
  subst hQ
  rw [inv_mid m d L O W f0 (k.val + 1) (by omega) (by omega)]
  unfold invM common

  isplitl [Hdone FS9_dst Hc0 Hc1 Hc2 Hc3 Hc4 Hc5 Hc6 Hc7 Hc8 Hrest Hlret HLr0 HLr1 HLr2 HLr3 HLr4 HLr5 HLr6 HLr7 HLr8 Hl0 Hlrest HO]
  · isplitr
    · iexact Hmw
    isplitl [Hdone FS9_dst Hc0 Hc1 Hc2 Hc3 Hc4 Hc5 Hc6 Hc7 Hc8]
    · rw [show 10 * (k.val + 1) - 1 = (10 * k.val - 1) + 10 from by omega, bigSep_range_push10]
      isplitl [Hdone]
      · iexact Hdone
      isplitl [FS9_dst]
      · iapply (chP_of d L (widL L) (OUT m d) (10 * k.val - 1) (10 * k.val - 1) rfl hnm) $$ FS9_dst
      isplitl [Hc0]
      · iapply (chP_of d L (widL L) (OUT m d) (10 * k.val + 0) (10 * k.val - 1 + 1) (by omega) hn0)
        iapply (Entails.of_eq (chunk_canon m d L 0 hb0 (10 * k.val + 0) hn0 (k0_off2 L k 0#32) (k0_off2_inb L k 0) (k0_off2_eq L k 0) f0 (RF m d L ⟨10 * k.val + 0, hn0⟩) (fun _ _ => rfl) (trip_mid.sl.dma0 m d L k hk1 hk8) rfl)) $$ Hc0
      isplitl [Hc1]
      · iapply (chP_of d L (widL L) (OUT m d) (10 * k.val + 1) (10 * k.val - 1 + 2) (by omega) hn1)
        iapply (Entails.of_eq (chunk_canon m d L 1 hb1 (10 * k.val + 1) hn1 (k0_off2 L k 1#32) (k0_off2_inb L k 1) (k0_off2_eq L k 1) f0 (RF m d L ⟨10 * k.val + 1, hn1⟩) (fun _ _ => rfl) (trip_mid.sl.dma0_1 m d L k hk1 hk8) rfl)) $$ Hc1
      isplitl [Hc2]
      · iapply (chP_of d L (widL L) (OUT m d) (10 * k.val + 2) (10 * k.val - 1 + 3) (by omega) hn2)
        iapply (Entails.of_eq (chunk_canon m d L 2 hb2 (10 * k.val + 2) hn2 (k0_off2 L k 2#32) (k0_off2_inb L k 2) (k0_off2_eq L k 2) f0 (RF m d L ⟨10 * k.val + 2, hn2⟩) (fun _ _ => rfl) (trip_mid.sl.dma0_2 m d L k hk1 hk8) rfl)) $$ Hc2
      isplitl [Hc3]
      · iapply (chP_of d L (widL L) (OUT m d) (10 * k.val + 3) (10 * k.val - 1 + 4) (by omega) hn3)
        iapply (Entails.of_eq (chunk_canon m d L 3 hb3 (10 * k.val + 3) hn3 (k0_off2 L k 3#32) (k0_off2_inb L k 3) (k0_off2_eq L k 3) f0 (RF m d L ⟨10 * k.val + 3, hn3⟩) (fun _ _ => rfl) (trip_mid.sl.dma0_3 m d L k hk1 hk8) rfl)) $$ Hc3
      isplitl [Hc4]
      · iapply (chP_of d L (widL L) (OUT m d) (10 * k.val + 4) (10 * k.val - 1 + 5) (by omega) hn4)
        iapply (Entails.of_eq (chunk_canon m d L 4 hb4 (10 * k.val + 4) hn4 (k0_off2 L k 4#32) (k0_off2_inb L k 4) (k0_off2_eq L k 4) f0 (RF m d L ⟨10 * k.val + 4, hn4⟩) (fun _ _ => rfl) (trip_mid.sl.dma0_4 m d L k hk1 hk8) rfl)) $$ Hc4
      isplitl [Hc5]
      · iapply (chP_of d L (widL L) (OUT m d) (10 * k.val + 5) (10 * k.val - 1 + 6) (by omega) hn5)
        iapply (Entails.of_eq (chunk_canon m d L 5 hb5 (10 * k.val + 5) hn5 (k0_off2 L k 5#32) (k0_off2_inb L k 5) (k0_off2_eq L k 5) f0 (RF m d L ⟨10 * k.val + 5, hn5⟩) (fun _ _ => rfl) (trip_mid.sl.dma0_5 m d L k hk1 hk8) rfl)) $$ Hc5
      isplitl [Hc6]
      · iapply (chP_of d L (widL L) (OUT m d) (10 * k.val + 6) (10 * k.val - 1 + 7) (by omega) hn6)
        iapply (Entails.of_eq (chunk_canon m d L 6 hb6 (10 * k.val + 6) hn6 (k0_off2 L k 6#32) (k0_off2_inb L k 6) (k0_off2_eq L k 6) f0 (RF m d L ⟨10 * k.val + 6, hn6⟩) (fun _ _ => rfl) (trip_mid.sl.dma0_6 m d L k hk1 hk8) rfl)) $$ Hc6
      isplitl [Hc7]
      · iapply (chP_of d L (widL L) (OUT m d) (10 * k.val + 7) (10 * k.val - 1 + 8) (by omega) hn7)
        iapply (Entails.of_eq (chunk_canon m d L 7 hb7 (10 * k.val + 7) hn7 (k0_off2 L k 7#32) (k0_off2_inb L k 7) (k0_off2_eq L k 7) f0 (RF m d L ⟨10 * k.val + 7, hn7⟩) (fun _ _ => rfl) (trip_mid.sl.dma0_7 m d L k hk1 hk8) rfl)) $$ Hc7
      iapply (chP_of d L (widL L) (OUT m d) (10 * k.val + 8) (10 * k.val - 1 + 9) (by omega) hn8)
      iapply (Entails.of_eq (chunk_canon m d L 8 hb8 (10 * k.val + 8) hn8 (k0_off2 L k 8#32) (k0_off2_inb L k 8) (k0_off2_eq L k 8) f0 (RF m d L ⟨10 * k.val + 8, hn8⟩) (fun _ _ => rfl) (trip_mid.sl.dma0_8 m d L k hk1 hk8) rfl)) $$ Hc8
    isplitl [Hrest]
    · rw [show 10 * (k.val + 1) = 10 * k.val + 10 from by omega]; iexact Hrest
    isplitl [Hlret HLr0 HLr1 HLr2 HLr3 HLr4 HLr5 HLr6 HLr7 HLr8 Hl0]
    · rw [show 10 * (k.val + 1) = 10 * k.val + 10 from by omega, bigSep_range_push10]
      isplitl [Hlret]
      · iexact Hlret
      isplitl [HLr0]
      · iapply (lstP_of d L fullShare (IDXV m d L) (10 * k.val + 0) (10 * k.val) (by omega) hn0) $$ HLr0
      isplitl [HLr1]
      · iapply (lstP_of d L fullShare (IDXV m d L) (10 * k.val + 1) (10 * k.val + 1) (by omega) hn1) $$ HLr1
      isplitl [HLr2]
      · iapply (lstP_of d L fullShare (IDXV m d L) (10 * k.val + 2) (10 * k.val + 2) (by omega) hn2) $$ HLr2
      isplitl [HLr3]
      · iapply (lstP_of d L fullShare (IDXV m d L) (10 * k.val + 3) (10 * k.val + 3) (by omega) hn3) $$ HLr3
      isplitl [HLr4]
      · iapply (lstP_of d L fullShare (IDXV m d L) (10 * k.val + 4) (10 * k.val + 4) (by omega) hn4) $$ HLr4
      isplitl [HLr5]
      · iapply (lstP_of d L fullShare (IDXV m d L) (10 * k.val + 5) (10 * k.val + 5) (by omega) hn5) $$ HLr5
      isplitl [HLr6]
      · iapply (lstP_of d L fullShare (IDXV m d L) (10 * k.val + 6) (10 * k.val + 6) (by omega) hn6) $$ HLr6
      isplitl [HLr7]
      · iapply (lstP_of d L fullShare (IDXV m d L) (10 * k.val + 7) (10 * k.val + 7) (by omega) hn7) $$ HLr7
      isplitl [HLr8]
      · iapply (lstP_of d L fullShare (IDXV m d L) (10 * k.val + 8) (10 * k.val + 8) (by omega) hn8) $$ HLr8
      iapply (Entails.of_eq (lstP_K0 d L fullShare (IDXV m d L) k h1 hn9).symm) $$ Hl0
    isplitl [Hlrest]
    · rw [show 10 * (k.val + 1) + 9 = 10 * k.val + 9 + 10 from by omega]; iexact Hlrest
    iexists _; isplitr
    swap
    · iexact HO
    ipureintro
    intro p hp
    simp only [Finset.mem_insert] at hp
    rcases hp with rfl | rfl | rfl | rfl | rfl | rfl | rfl | rfl | rfl | rfl | rfl | rfl | rfl | rfl | rfl | rfl | rfl | rfl | rfl | rfl | hp
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact hW' p hp
  isplitl [FG0]
  · iapply ((gather_canon m d L 0 hb0 hpre (10 * k.val + 10) hn10 (k0_off6 k) (k0_off6_inb k h2) (k0_off6_eq k) (RF m d L ⟨10 * k.val + 0, hn0⟩) (trip_mid.sl.gather1_1 m d L k h2 hin) (hin _ _ _) rfl (xtok L (0 : Fin 10)) (SemLoc.dma ⟨0, hd0⟩ : SemLoc sig) 262144).trans (FG0_of m d L (10 * k.val + 10) (10 * (k.val + 1) + 0) (by omega) hn10 _)) $$ FG0
  isplitl [FG1]
  · iapply ((gather_canon m d L 1 hb1 hpre (10 * k.val + 11) hn11 (k0_off8 k) (k0_off8_inb k h3) (k0_off8_eq k) (RF m d L ⟨10 * k.val + 1, hn1⟩) (trip_mid.sl.gather1_2 m d L k h3 hin) (hin _ _ _) rfl (xtok L (1 : Fin 10)) (SemLoc.dma ⟨1, hd1⟩ : SemLoc sig) 262144).trans (FG1_of m d L (10 * k.val + 11) (10 * (k.val + 1) + 1) (by omega) hn11 _)) $$ FG1
  isplitl [FG2]
  · iapply ((gather_canon m d L 2 hb2 hpre (10 * k.val + 12) hn12 (k0_off10 k) (k0_off10_inb k h4) (k0_off10_eq k) (RF m d L ⟨10 * k.val + 2, hn2⟩) (trip_mid.sl.gather1_3 m d L k h4 hin) (hin _ _ _) rfl (xtok L (2 : Fin 10)) (SemLoc.dma ⟨2, hd2⟩ : SemLoc sig) 262144).trans (FG2_of m d L (10 * k.val + 12) (10 * (k.val + 1) + 2) (by omega) hn12 _)) $$ FG2
  isplitl [FG3]
  · iapply ((gather_canon m d L 3 hb3 hpre (10 * k.val + 13) hn13 (k0_off12 k) (k0_off12_inb k h5) (k0_off12_eq k) (RF m d L ⟨10 * k.val + 3, hn3⟩) (trip_mid.sl.gather1_4 m d L k h5 hin) (hin _ _ _) rfl (xtok L (3 : Fin 10)) (SemLoc.dma ⟨3, hd3⟩ : SemLoc sig) 262144).trans (FG3_of m d L (10 * k.val + 13) (10 * (k.val + 1) + 3) (by omega) hn13 _)) $$ FG3
  isplitl [FG4]
  · iapply ((gather_canon m d L 4 hb4 hpre (10 * k.val + 14) hn14 (k0_off14 k) (k0_off14_inb k h6) (k0_off14_eq k) (RF m d L ⟨10 * k.val + 4, hn4⟩) (trip_mid.sl.gather1_5 m d L k h6 hin) (hin _ _ _) rfl (xtok L (4 : Fin 10)) (SemLoc.dma ⟨4, hd4⟩ : SemLoc sig) 262144).trans (FG4_of m d L (10 * k.val + 14) (10 * (k.val + 1) + 4) (by omega) hn14 _)) $$ FG4
  isplitl [FG5]
  · iapply ((gather_canon m d L 5 hb5 hpre (10 * k.val + 15) hn15 (k0_off16 k) (k0_off16_inb k h7) (k0_off16_eq k) (RF m d L ⟨10 * k.val + 5, hn5⟩) (trip_mid.sl.gather1_6 m d L k h7 hin) (hin _ _ _) rfl (xtok L (5 : Fin 10)) (SemLoc.dma ⟨5, hd5⟩ : SemLoc sig) 262144).trans (FG5_of m d L (10 * k.val + 15) (10 * (k.val + 1) + 5) (by omega) hn15 _)) $$ FG5
  isplitl [FG6]
  · iapply ((gather_canon m d L 6 hb6 hpre (10 * k.val + 16) hn16 (k0_off18 k) (k0_off18_inb k h8) (k0_off18_eq k) (RF m d L ⟨10 * k.val + 6, hn6⟩) (trip_mid.sl.gather1_7 m d L k h8 hin) (hin _ _ _) rfl (xtok L (6 : Fin 10)) (SemLoc.dma ⟨6, hd6⟩ : SemLoc sig) 262144).trans (FG6_of m d L (10 * k.val + 16) (10 * (k.val + 1) + 6) (by omega) hn16 _)) $$ FG6
  isplitl [FG7]
  · iapply ((gather_canon m d L 7 hb7 hpre (10 * k.val + 17) hn17 (k0_off20 k) (k0_off20_inb k h9) (k0_off20_eq k) (RF m d L ⟨10 * k.val + 7, hn7⟩) (trip_mid.sl.gather1_8 m d L k h9 hin) (hin _ _ _) rfl (xtok L (7 : Fin 10)) (SemLoc.dma ⟨7, hd7⟩ : SemLoc sig) 262144).trans (FG7_of m d L (10 * k.val + 17) (10 * (k.val + 1) + 7) (by omega) hn17 _)) $$ FG7
  isplitl [FG8]
  · iapply ((gather_canon m d L 8 hb8 hpre (10 * k.val + 18) hn18 (k0_off22 k) (k0_off22_inb k h10) (k0_off22_eq k) (RF m d L ⟨10 * k.val + 8, hn8⟩) (trip_mid.sl.gather3 m d L k h10 hin) (hin _ _ _) rfl (xtok L (8 : Fin 10)) (SemLoc.dma ⟨8, hd8⟩ : SemLoc sig) 262144).trans (FG8_of m d L (10 * k.val + 18) (10 * (k.val + 1) + 8) (by omega) hn18 _)) $$ FG8
  isplitl [FS9]
  · iapply ((store_canon m d L 9 hb9 (10 * k.val + 9) hn9 (k0_off2 L k 9#32) (k0_off2_inb L k 9) (k0_off2_eq L k 9) f0 _
        (slot_after m d L 9 hb9 hpre (10 * k.val + 9) hn9 (k0_off4 k) (k0_off4_inb k h1) (k0_off4_eq k) (RF m d L ⟨10 * k.val - 1, hnm⟩) (trip_mid.sl.gather1 m d L k h1 hin) (hin _ _ _) rfl) (trip_mid.sl.dma0_9 m d L k hk1 hk8 h1 hin) rfl (SemLoc.dma ⟨19, hd19⟩ : SemLoc sig) 262144).trans
      (FS9_of m d L (10 * k.val + 9) (10 * (k.val + 1) - 1) (by omega) hn9 _)) $$ FS9
  isplitl [Hs0]
  · iexact Hs0
  isplitl [Hs1]
  · iexact Hs1
  isplitl [Hs2]
  · iexact Hs2
  isplitl [Hs3]
  · iexact Hs3
  isplitl [Hs4]
  · iexact Hs4
  isplitl [Hs5]
  · iexact Hs5
  isplitl [Hs6]
  · iexact Hs6
  isplitl [Hs7]
  · iexact Hs7
  isplitl [Hs8]
  · iexact Hs8
  isplitl [Hg9]
  · iexact Hg9
  unfold tokx
  iexact Hx9

end Cert.Proof.KernelIdealRun

end
-- ==== Proof.KITripLast.lean ====
/-
  Trip 9, the last, of the worker's loop. Before it slots 0 to 8 carry the gathers of chunks 90 to 98 and slot 9 the
  copy-out of chunk 89. Step 0 waits the gather of chunk 90, copies slot 0 out, waits the copy-out of chunk 89 and
  issues the last gather, of chunk 99 into slot 9 by row 99 of the index scratch; steps 1 to 9 each wait their
  slot's gather and copy the slot out, and issue nothing more. After it chunks 0 to 89 hold the lookup's value, the
  copies-out of chunks 90 to 99 are in flight, every row of the index scratch and every token of the table is back:
  the state after the loop.
-/
import proofs.«206297_g77653008712327_cont_9to1c4b_438_14_alg».proof.Proof.KITripPieces

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x100x64 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S32x100x64x128 EltTy.f32)
local notation "sV" => (Memref.whole Cert.KernelIdeal.cc0_scratch0 : Memref Cert.KernelIdeal.sig Kind.scVector Space.vmem Cert.KernelIdeal.S100x64 EltTy.i32)
local notation "rV" => (Memref.whole Cert.KernelIdeal.cc0_scratch1 : Memref Cert.KernelIdeal.sig Kind.scVector Space.vmem Cert.KernelIdeal.S10x64x128 EltTy.f32)

variable (m : (ℓ : Loc nD τ sig) → Buf (Elt F) ℓ) [FloatOps F]
variable (d : Dev nD) (L : grid0.Coords)
variable (O : CellTallies nD τ sig (HIx 1)) (W : Waits sig (HIx 1)) (f0 : Buf (Elt F) (oLoc d))

set_option maxHeartbeats 16000000 in
theorem trip_last (hpre : Lookup.InRange (idx3 m d)) (k : Fin k0_t1_loop.trips) (acc : BitVec 32) (hk9 : k.val = 9) :
    inv m d L O W f0 k.val acc ⊢ wp frame (wpE (defs₀ (F := F)) 𝒱₀ (thr d L) none) Set.univ
      (k0_t1_body L iV (Memref.isWhole_whole _) xV (Memref.isWhole_whole _) oV (Memref.isWhole_whole _) sV (Memref.isWhole_whole _) rV (Memref.isWhole_whole _) cc0_scratch2 cc0_scratch3 cc0_scoped0 k acc) (inv m d L O W f0 (k.val + 1)) := by
  have h1 : k0_cond1 k = 1#1 := (cond1_iff k).2 (by omega)
  have h2 : ¬ k0_cond2 k = 1#1 := fun h => by have := (cond2_iff k).1 h; omega
  have h3 : ¬ k0_cond3 k = 1#1 := fun h => by have := (cond3_iff k).1 h; omega
  have h4 : ¬ k0_cond4 k = 1#1 := fun h => by have := (cond4_iff k).1 h; omega
  have h5 : ¬ k0_cond5 k = 1#1 := fun h => by have := (cond5_iff k).1 h; omega
  have h6 : ¬ k0_cond6 k = 1#1 := fun h => by have := (cond6_iff k).1 h; omega
  have h7 : ¬ k0_cond7 k = 1#1 := fun h => by have := (cond7_iff k).1 h; omega
  have h8 : ¬ k0_cond8 k = 1#1 := fun h => by have := (cond8_iff k).1 h; omega
  have h9 : ¬ k0_cond9 k = 1#1 := fun h => by have := (cond9_iff k).1 h; omega
  have h10 : ¬ k0_cond10 k = 1#1 := fun h => by have := (cond10_iff k).1 h; omega
  have hin := hin_all m d L hpre
  generalize hQ : inv m d L O W f0 (k.val + 1) = Qpost
  rw [show inv m d L O W f0 k.val acc = invM m d L O W f0 9 (by omega) (by omega) from by rw [hk9]; exact inv_mid m d L O W f0 9 (by omega) (by omega) acc]
  unfold invM common FG0 FG1 FG2 FG3 FG4 FG5 FG6 FG7 FG8 FS9 GD0 GD1 GD2 GD3 GD4 GD5 GD6 GD7 GD8 SD9 tokx
  rw [bigSep_Ico_pop10 (chP d L (widL L) f0) (10 * 9) 100 (by omega),
    bigSep_Ico_pop (lstP d L fullShare (IDXV m d L)) (10 * 9 + 9) 100 (by omega),
    kp_chP_K0 d L f0 k (10 * 9) (by omega) (by omega),
    kp_chP_K1 d L f0 k (10 * 9 + 1) (by omega) (by omega),
    kp_chP_K2 d L f0 k (10 * 9 + 2) (by omega) (by omega),
    kp_chP_K3 d L f0 k (10 * 9 + 3) (by omega) (by omega),
    kp_chP_K4 d L f0 k (10 * 9 + 4) (by omega) (by omega),
    kp_chP_K5 d L f0 k (10 * 9 + 5) (by omega) (by omega),
    kp_chP_K6 d L f0 k (10 * 9 + 6) (by omega) (by omega),
    kp_chP_K7 d L f0 k (10 * 9 + 7) (by omega) (by omega),
    kp_chP_K8 d L f0 k (10 * 9 + 8) (by omega) (by omega),
    kp_chP_K9 d L f0 k (10 * 9 + 9) (by omega) (by omega),
    kp_lstP_K0 d L fullShare (IDXV m d L) k h1 (10 * 9 + 9) (by omega) (by omega)]
  iintro ⟨⟨#Hmw, Hdone, ⟨Hc0, Hc1, Hc2, Hc3, Hc4, Hc5, Hc6, Hc7, Hc8, Hc9, Hrest⟩, Hlret, ⟨Hl0, Hlrest⟩, %W', %hW', HO⟩, FG0, FG1, FG2, FG3, FG4, FG5, FG6, FG7, FG8, FS9, Hs0, Hs1, Hs2, Hs3, Hs4, Hs5, Hs6, Hs7, Hs8, Hg9, Hx9⟩
  unfold k0_t1_body
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  sl_exec
  icases FG0_dst with ⟨HR0, HLr0⟩
  sl_exec
  icases FG1_dst with ⟨HR1, HLr1⟩
  sl_exec
  icases FG2_dst with ⟨HR2, HLr2⟩
  sl_exec
  icases FG3_dst with ⟨HR3, HLr3⟩
  sl_exec
  icases FG4_dst with ⟨HR4, HLr4⟩
  sl_exec
  icases FG5_dst with ⟨HR5, HLr5⟩
  sl_exec
  icases FG6_dst with ⟨HR6, HLr6⟩
  sl_exec
  icases FG7_dst with ⟨HR7, HLr7⟩
  sl_exec
  icases FG8_dst with ⟨HR8, HLr8⟩
  sl_exec
  sl_step
  subst hQ
  rw [inv_fin m d L O W f0 (k.val + 1) (by omega)]
  unfold invF common
  have hb0 : (0 : ℕ) < 10 := by omega
  have hb1 : (1 : ℕ) < 10 := by omega
  have hb2 : (2 : ℕ) < 10 := by omega
  have hb3 : (3 : ℕ) < 10 := by omega
  have hb4 : (4 : ℕ) < 10 := by omega
  have hb5 : (5 : ℕ) < 10 := by omega
  have hb6 : (6 : ℕ) < 10 := by omega
  have hb7 : (7 : ℕ) < 10 := by omega
  have hb8 : (8 : ℕ) < 10 := by omega
  have hb9 : (9 : ℕ) < 10 := by omega
  have hq0 : 10 * 9 + 0 < 100 := by omega
  have hq1 : 10 * 9 + 1 < 100 := by omega
  have hq2 : 10 * 9 + 2 < 100 := by omega
  have hq3 : 10 * 9 + 3 < 100 := by omega
  have hq4 : 10 * 9 + 4 < 100 := by omega
  have hq5 : 10 * 9 + 5 < 100 := by omega
  have hq6 : 10 * 9 + 6 < 100 := by omega
  have hq7 : 10 * 9 + 7 < 100 := by omega
  have hq8 : 10 * 9 + 8 < 100 := by omega
  have hq9 : 10 * 9 + 9 < 100 := by omega
  have hc0 : 10 * k.val + 0 < 100 := by omega
  have hc1 : 10 * k.val + 1 < 100 := by omega
  have hc2 : 10 * k.val + 2 < 100 := by omega
  have hc3 : 10 * k.val + 3 < 100 := by omega
  have hc4 : 10 * k.val + 4 < 100 := by omega
  have hc5 : 10 * k.val + 5 < 100 := by omega
  have hc6 : 10 * k.val + 6 < 100 := by omega
  have hc7 : 10 * k.val + 7 < 100 := by omega
  have hc8 : 10 * k.val + 8 < 100 := by omega
  have hc9 : 10 * k.val + 9 < 100 := by omega
  have hf0 : (90 : ℕ) < 100 := by omega
  have hf1 : (91 : ℕ) < 100 := by omega
  have hf2 : (92 : ℕ) < 100 := by omega
  have hf3 : (93 : ℕ) < 100 := by omega
  have hf4 : (94 : ℕ) < 100 := by omega
  have hf5 : (95 : ℕ) < 100 := by omega
  have hf6 : (96 : ℕ) < 100 := by omega
  have hf7 : (97 : ℕ) < 100 := by omega
  have hf8 : (98 : ℕ) < 100 := by omega
  have hf9 : (99 : ℕ) < 100 := by omega
  have h89 : 10 * 9 - 1 < 100 := by omega
  have hd10 : (10 : ℕ) < sig.nDmaSem := by show 10 < 21; omega
  have hd11 : (11 : ℕ) < sig.nDmaSem := by show 11 < 21; omega
  have hd12 : (12 : ℕ) < sig.nDmaSem := by show 12 < 21; omega
  have hd13 : (13 : ℕ) < sig.nDmaSem := by show 13 < 21; omega
  have hd14 : (14 : ℕ) < sig.nDmaSem := by show 14 < 21; omega
  have hd15 : (15 : ℕ) < sig.nDmaSem := by show 15 < 21; omega
  have hd16 : (16 : ℕ) < sig.nDmaSem := by show 16 < 21; omega
  have hd17 : (17 : ℕ) < sig.nDmaSem := by show 17 < 21; omega
  have hd18 : (18 : ℕ) < sig.nDmaSem := by show 18 < 21; omega
  have hd19 : (19 : ℕ) < sig.nDmaSem := by show 19 < 21; omega
  isplitl [Hdone FS9_dst Hrest Hlret HLr0 HLr1 HLr2 HLr3 HLr4 HLr5 HLr6 HLr7 HLr8 Hl0 Hlrest HO]
  · isplitr
    · iexact Hmw
    isplitl [Hdone FS9_dst]
    · rw [bigSep_range_succ_of_eq (chP d L (widL L) (OUT m d)) (10 * 9 - 1) 90 (by omega)]
      isplitl [Hdone]
      · iexact Hdone
      iapply (chP_of d L (widL L) (OUT m d) (10 * 9 - 1) (10 * 9 - 1) rfl h89) $$ FS9_dst
    isplitl [Hrest]
    · rw [show (10 * 10 : ℕ) = 10 * 9 + 10 from rfl]; iexact Hrest
    isplitl [Hlret HLr0 HLr1 HLr2 HLr3 HLr4 HLr5 HLr6 HLr7 HLr8 Hl0]
    · rw [show (10 * 10 : ℕ) = 10 * 9 + 10 from rfl, bigSep_range_push10 (lstP d L fullShare (IDXV m d L)) (10 * 9)]
      isplitl [Hlret]
      · iexact Hlret
      isplitl [HLr0]
      · iapply (lstP_of d L fullShare (IDXV m d L) (10 * 9 + 0) (10 * 9) (by omega) hq0) $$ HLr0
      isplitl [HLr1]
      · iapply (lstP_of d L fullShare (IDXV m d L) (10 * 9 + 1) (10 * 9 + 1) (by omega) hq1) $$ HLr1
      isplitl [HLr2]
      · iapply (lstP_of d L fullShare (IDXV m d L) (10 * 9 + 2) (10 * 9 + 2) (by omega) hq2) $$ HLr2
      isplitl [HLr3]
      · iapply (lstP_of d L fullShare (IDXV m d L) (10 * 9 + 3) (10 * 9 + 3) (by omega) hq3) $$ HLr3
      isplitl [HLr4]
      · iapply (lstP_of d L fullShare (IDXV m d L) (10 * 9 + 4) (10 * 9 + 4) (by omega) hq4) $$ HLr4
      isplitl [HLr5]
      · iapply (lstP_of d L fullShare (IDXV m d L) (10 * 9 + 5) (10 * 9 + 5) (by omega) hq5) $$ HLr5
      isplitl [HLr6]
      · iapply (lstP_of d L fullShare (IDXV m d L) (10 * 9 + 6) (10 * 9 + 6) (by omega) hq6) $$ HLr6
      isplitl [HLr7]
      · iapply (lstP_of d L fullShare (IDXV m d L) (10 * 9 + 7) (10 * 9 + 7) (by omega) hq7) $$ HLr7
      isplitl [HLr8]
      · iapply (lstP_of d L fullShare (IDXV m d L) (10 * 9 + 8) (10 * 9 + 8) (by omega) hq8) $$ HLr8
      iapply (Entails.of_eq (kp_lstP_K0 d L fullShare (IDXV m d L) k h1 (10 * 9 + 9) hq9 (by omega)).symm) $$ Hl0
    isplitl [Hlrest]
    · iapply (Entails.of_eq (congrArg (fun a => bigSep (Finset.Ico a 100) (lstP d L fullShare (IDXV m d L))) (show 10 * 9 + 9 + 1 = 100 from rfl))) $$ Hlrest
    iexists _; isplitr
    swap
    · iexact HO
    ipureintro
    repeat (first | exact hW' | refine kp_ins_ok ?_)
  isplitl [Hs0]
  · iapply ((store_canon m d L 0 hb0 (10 * k.val + 0) hc0 (k0_off2 L k 0#32) (k0_off2_inb L k 0) (k0_off2_eq L k 0) f0 (RF m d L ⟨10 * 9 + 0, hq0⟩)
        (fun i _ => congrFun (kp_RF_of m d L (10 * 9 + 0) (10 * k.val + 0) (by omega) hq0 hc0) i) (trip_last.sl.dma0 m d L k) rfl (SemLoc.dma ⟨10, hd10⟩ : SemLoc sig) 262144).trans
      (FS0_of m d L (10 * k.val + 0) 90 (by omega) hc0 hf0)) $$ Hs0
  isplitl [Hs1]
  · iapply ((store_canon m d L 1 hb1 (10 * k.val + 1) hc1 (k0_off2 L k 1#32) (k0_off2_inb L k 1) (k0_off2_eq L k 1) f0 (RF m d L ⟨10 * 9 + 1, hq1⟩)
        (fun i _ => congrFun (kp_RF_of m d L (10 * 9 + 1) (10 * k.val + 1) (by omega) hq1 hc1) i) (trip_last.sl.dma0_1 m d L k) rfl (SemLoc.dma ⟨11, hd11⟩ : SemLoc sig) 262144).trans
      (FS1_of m d L (10 * k.val + 1) 91 (by omega) hc1 hf1)) $$ Hs1
  isplitl [Hs2]
  · iapply ((store_canon m d L 2 hb2 (10 * k.val + 2) hc2 (k0_off2 L k 2#32) (k0_off2_inb L k 2) (k0_off2_eq L k 2) f0 (RF m d L ⟨10 * 9 + 2, hq2⟩)
        (fun i _ => congrFun (kp_RF_of m d L (10 * 9 + 2) (10 * k.val + 2) (by omega) hq2 hc2) i) (trip_last.sl.dma0_2 m d L k) rfl (SemLoc.dma ⟨12, hd12⟩ : SemLoc sig) 262144).trans
      (FS2_of m d L (10 * k.val + 2) 92 (by omega) hc2 hf2)) $$ Hs2
  isplitl [Hs3]
  · iapply ((store_canon m d L 3 hb3 (10 * k.val + 3) hc3 (k0_off2 L k 3#32) (k0_off2_inb L k 3) (k0_off2_eq L k 3) f0 (RF m d L ⟨10 * 9 + 3, hq3⟩)
        (fun i _ => congrFun (kp_RF_of m d L (10 * 9 + 3) (10 * k.val + 3) (by omega) hq3 hc3) i) (trip_last.sl.dma0_3 m d L k) rfl (SemLoc.dma ⟨13, hd13⟩ : SemLoc sig) 262144).trans
      (FS3_of m d L (10 * k.val + 3) 93 (by omega) hc3 hf3)) $$ Hs3
  isplitl [Hs4]
  · iapply ((store_canon m d L 4 hb4 (10 * k.val + 4) hc4 (k0_off2 L k 4#32) (k0_off2_inb L k 4) (k0_off2_eq L k 4) f0 (RF m d L ⟨10 * 9 + 4, hq4⟩)
        (fun i _ => congrFun (kp_RF_of m d L (10 * 9 + 4) (10 * k.val + 4) (by omega) hq4 hc4) i) (trip_last.sl.dma0_4 m d L k) rfl (SemLoc.dma ⟨14, hd14⟩ : SemLoc sig) 262144).trans
      (FS4_of m d L (10 * k.val + 4) 94 (by omega) hc4 hf4)) $$ Hs4
  isplitl [Hs5]
  · iapply ((store_canon m d L 5 hb5 (10 * k.val + 5) hc5 (k0_off2 L k 5#32) (k0_off2_inb L k 5) (k0_off2_eq L k 5) f0 (RF m d L ⟨10 * 9 + 5, hq5⟩)
        (fun i _ => congrFun (kp_RF_of m d L (10 * 9 + 5) (10 * k.val + 5) (by omega) hq5 hc5) i) (trip_last.sl.dma0_5 m d L k) rfl (SemLoc.dma ⟨15, hd15⟩ : SemLoc sig) 262144).trans
      (FS5_of m d L (10 * k.val + 5) 95 (by omega) hc5 hf5)) $$ Hs5
  isplitl [Hs6]
  · iapply ((store_canon m d L 6 hb6 (10 * k.val + 6) hc6 (k0_off2 L k 6#32) (k0_off2_inb L k 6) (k0_off2_eq L k 6) f0 (RF m d L ⟨10 * 9 + 6, hq6⟩)
        (fun i _ => congrFun (kp_RF_of m d L (10 * 9 + 6) (10 * k.val + 6) (by omega) hq6 hc6) i) (trip_last.sl.dma0_6 m d L k) rfl (SemLoc.dma ⟨16, hd16⟩ : SemLoc sig) 262144).trans
      (FS6_of m d L (10 * k.val + 6) 96 (by omega) hc6 hf6)) $$ Hs6
  isplitl [Hs7]
  · iapply ((store_canon m d L 7 hb7 (10 * k.val + 7) hc7 (k0_off2 L k 7#32) (k0_off2_inb L k 7) (k0_off2_eq L k 7) f0 (RF m d L ⟨10 * 9 + 7, hq7⟩)
        (fun i _ => congrFun (kp_RF_of m d L (10 * 9 + 7) (10 * k.val + 7) (by omega) hq7 hc7) i) (trip_last.sl.dma0_7 m d L k) rfl (SemLoc.dma ⟨17, hd17⟩ : SemLoc sig) 262144).trans
      (FS7_of m d L (10 * k.val + 7) 97 (by omega) hc7 hf7)) $$ Hs7
  isplitl [Hs8]
  · iapply ((store_canon m d L 8 hb8 (10 * k.val + 8) hc8 (k0_off2 L k 8#32) (k0_off2_inb L k 8) (k0_off2_eq L k 8) f0 (RF m d L ⟨10 * 9 + 8, hq8⟩)
        (fun i _ => congrFun (kp_RF_of m d L (10 * 9 + 8) (10 * k.val + 8) (by omega) hq8 hc8) i) (trip_last.sl.dma0_8 m d L k) rfl (SemLoc.dma ⟨18, hd18⟩ : SemLoc sig) 262144).trans
      (FS8_of m d L (10 * k.val + 8) 98 (by omega) hc8 hf8)) $$ Hs8
  isplitl [FS9]
  · iapply ((store_canon m d L 9 hb9 (10 * k.val + 9) hc9 (k0_off2 L k 9#32) (k0_off2_inb L k 9) (k0_off2_eq L k 9) f0
        ((slotC 9 hb9).view.writes (Elt F) (RF m d L ⟨10 * 9 - 1, h89⟩) [⟨Rect.whole S64x128, trip_last.sl.gather1 m d L k h1 hin⟩])
        (slot_after m d L 9 hb9 hpre (10 * k.val + 9) hc9 (k0_off4 k) (k0_off4_inb k h1) (k0_off4_eq k) (RF m d L ⟨10 * 9 - 1, h89⟩)
          (trip_last.sl.gather1 m d L k h1 hin) (hin _ _ _) rfl)
        (trip_last.sl.dma0_9 m d L k h1 hin) rfl (SemLoc.dma ⟨19, hd19⟩ : SemLoc sig) 262144).trans
      (FS9_of m d L (10 * k.val + 9) 99 (by omega) hc9 hf9)) $$ FS9
  isplitl [FG0]
  · iexact FG0
  isplitl [FG1]
  · iexact FG1
  isplitl [FG2]
  · iexact FG2
  isplitl [FG3]
  · iexact FG3
  isplitl [FG4]
  · iexact FG4
  isplitl [FG5]
  · iexact FG5
  isplitl [FG6]
  · iexact FG6
  isplitl [FG7]
  · iexact FG7
  isplitl [FG8]
  · iexact FG8
  isplitl [Hg9]
  · iexact Hg9
  unfold tokx
  isplitl [FG0_src]
  · iexact FG0_src
  isplitl [FG1_src]
  · iexact FG1_src
  isplitl [FG2_src]
  · iexact FG2_src
  isplitl [FG3_src]
  · iexact FG3_src
  isplitl [FG4_src]
  · iexact FG4_src
  isplitl [FG5_src]
  · iexact FG5_src
  isplitl [FG6_src]
  · iexact FG6_src
  isplitl [FG7_src]
  · iexact FG7_src
  isplitl [FG8_src]
  · iexact FG8_src
  iexact Hx9

end Cert.Proof.KernelIdealRun

end
-- ==== Proof.KIBody.lean ====
/-
  One worker's task, from what it is handed to what it hands back.

  The worker's row of row numbers is copied into its index scratch; ten gathers fill the ten slots; the loop's ten trips
  keep every slot busy (the invariant of the ring is `inv`); ten last waits drain the copies-out. What comes back is the
  worker's block of the output at the one function `OUT`, the row numbers and the table's share as they were, and the
  scratch buffers and cells as they must be returned.
-/
import proofs.«206297_g77653008712327_cont_9to1c4b_438_14_alg».proof.Proof.KITripLemmas
import proofs.«206297_g77653008712327_cont_9to1c4b_438_14_alg».proof.Proof.KIConv
import proofs.«206297_g77653008712327_cont_9to1c4b_438_14_alg».proof.Proof.KIOpen
import proofs.«206297_g77653008712327_cont_9to1c4b_438_14_alg».proof.Proof.KILaunch
import proofs.«206297_g77653008712327_cont_9to1c4b_438_14_alg».proof.Proof.Reshape
import proofs.«206297_g77653008712327_cont_9to1c4b_438_14_alg».proof.Proof.KITripZero
import proofs.«206297_g77653008712327_cont_9to1c4b_438_14_alg».proof.Proof.KITripMid
import proofs.«206297_g77653008712327_cont_9to1c4b_438_14_alg».proof.Proof.KITripLast

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32x100x64 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S32x100x64x128 EltTy.f32)
local notation "sV" => (Memref.whole Cert.KernelIdeal.cc0_scratch0 : Memref Cert.KernelIdeal.sig Kind.scVector Space.vmem Cert.KernelIdeal.S100x64 EltTy.i32)
local notation "rV" => (Memref.whole Cert.KernelIdeal.cc0_scratch1 : Memref Cert.KernelIdeal.sig Kind.scVector Space.vmem Cert.KernelIdeal.S10x64x128 EltTy.f32)

variable (m : (ℓ : Loc nD τ sig) → Buf (Elt F) ℓ) [FloatOps F]
variable (d : Dev nD) (L : grid0.Coords)

set_option maxHeartbeats 16000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goW m d (widL L) ∗ scopedBufs (thr d L) ∗ scopedSems0 (thr d L) ∗ owes (thr d L) O W)
      ⊢ wp frame (wpE (defs₀ (F := F)) 𝒱₀ (thr d L) none) Set.univ
          (cc0_gather_kernel L iV (Memref.isWhole_whole _) xV (Memref.isWhole_whole _) oV (Memref.isWhole_whole _) sV (Memref.isWhole_whole _) rV (Memref.isWhole_whole _) cc0_scratch2 cc0_scratch3 cc0_scoped0)
          fun _ => iprop(tdW m d (widL L) ∗ scopedBufs (thr d L) ∗ scopedSems0 (thr d L) ∗ ∃ W', ⌜∀ p ∈ W', p ∈ W ∨ p.2 = none⌝ ∗ owes (thr d L) O W') := by
  have hpre' : Lookup.InRange (idx3 m d) := Lookup.inRange_shapeCast _ (hpre d) _
  rw [cc0_gather_kernel_eq_skeleton]; unfold cc0_gather_kernel_skel
  rw [k0_part10_eq_skeleton, k0_part11_eq_skeleton, k0_part12_eq_skeleton, k0_part13_eq_skeleton, k0_part14_eq_skeleton, k0_part15_eq_skeleton]
  unfold k0_part10_skel k0_part11_skel k0_part12_skel k0_part13_skel k0_part14_skel k0_part15_skel
  rw [(K (F := F)).scopedBufs_V hF d (cV L) (jV L), SparseCore.Cfg.scopedSems0_V (Val := Elt F) d (cV L) (jV L), ownSems0_V, ownBufs_V]
  iintro ⟨#Hlv, -, Hgo, ⟨⟨%fs, HS⟩, ⟨%fr, HR⟩, Hbufs⟩, ⟨Hg, Hss, Hc⟩, HO⟩
  ihave Hmw := (show levAts (K (F := F)).L (K (F := F)).lev ⊢ Transfers.MayWaits (thr d L) (default : HIx 1) O from
    (K (F := F)).mayWaits_none (thr := thr d L) hO) $$ Hlv
  have eo := open_res m d L fs fr
  unfold tokx at eo
  ihave Hop := eo $$ [Hgo HS HR]
  · isplitl [Hgo]
    · iexact Hgo
    isplitl [HS]
    · iexact HS
    iexact HR
  icases Hop with ⟨Hi, Hxr, Hx0, Hx1, Hx2, Hx3, Hx4, Hx5, Hx6, Hx7, Hx8, Hx9, Hch, HS, HR0, HR1, HR2, HR3, HR4, HR5, HR6, HR7, HR8, HR9⟩
  ihave Hg' := (Entails.of_eq (bigSep_fin10 (fun b : Fin 10 => (semVal (thr d L, gcell b) 0 : sProp 𝕄)))) $$ Hg
  icases Hg' with ⟨Hg0, Hg1, Hg2, Hg3, Hg4, Hg5, Hg6, Hg7, Hg8, Hg9⟩
  ihave Hss' := (Entails.of_eq (bigSep_fin10 (fun b : Fin 10 => (semVal (thr d L, scell b) 0 : sProp 𝕄)))) $$ Hss
  icases Hss' with ⟨Hs0, Hs1, Hs2, Hs3, Hs4, Hs5, Hs6, Hs7, Hs8, Hs9⟩
  sl_exec
  ihave HS1 := (Entails.of_eq (congrArg (fun f => ((sV).view.loc (thr d L) ↦{fullShare} f : sProp 𝕄)) (idxv_of_copy m d L fs (tile_body.sl.dma0 m d L) rfl))) $$ HS
  ihave HS2 := (Entails.of_eq ((sPts_rows d L fullShare (IDXV m d L)).trans ((bigSep_range_eq_Ico _ 100).trans (bigSep_Ico_pop10 _ 0 100 (by omega))))) $$ HS1
  icases HS2 with ⟨Hl0, Hl1, Hl2, Hl3, Hl4, Hl5, Hl6, Hl7, Hl8, Hl9, Hlrest⟩
  ihave Hl0' := (lstP_to d L fullShare (IDXV m d L) 0 0 (by omega) (by omega)) $$ Hl0
  ihave Hl1' := (lstP_to d L fullShare (IDXV m d L) (0 + 1) 1 (by omega) (by omega)) $$ Hl1
  ihave Hl2' := (lstP_to d L fullShare (IDXV m d L) (0 + 2) 2 (by omega) (by omega)) $$ Hl2
  ihave Hl3' := (lstP_to d L fullShare (IDXV m d L) (0 + 3) 3 (by omega) (by omega)) $$ Hl3
  ihave Hl4' := (lstP_to d L fullShare (IDXV m d L) (0 + 4) 4 (by omega) (by omega)) $$ Hl4
  ihave Hl5' := (lstP_to d L fullShare (IDXV m d L) (0 + 5) 5 (by omega) (by omega)) $$ Hl5
  ihave Hl6' := (lstP_to d L fullShare (IDXV m d L) (0 + 6) 6 (by omega) (by omega)) $$ Hl6
  ihave Hl7' := (lstP_to d L fullShare (IDXV m d L) (0 + 7) 7 (by omega) (by omega)) $$ Hl7
  ihave Hl8' := (lstP_to d L fullShare (IDXV m d L) (0 + 8) 8 (by omega) (by omega)) $$ Hl8
  ihave Hl9' := (lstP_to d L fullShare (IDXV m d L) (0 + 9) 9 (by omega) (by omega)) $$ Hl9
  have hin := hin_all m d L hpre'
  have hd0 : (0 : ℕ) < sig.nDmaSem := by show 0 < 21; omega
  have hd1 : (1 : ℕ) < sig.nDmaSem := by show 1 < 21; omega
  have hd2 : (2 : ℕ) < sig.nDmaSem := by show 2 < 21; omega
  have hd3 : (3 : ℕ) < sig.nDmaSem := by show 3 < 21; omega
  have hd4 : (4 : ℕ) < sig.nDmaSem := by show 4 < 21; omega
  have hd5 : (5 : ℕ) < sig.nDmaSem := by show 5 < 21; omega
  have hd6 : (6 : ℕ) < sig.nDmaSem := by show 6 < 21; omega
  have hd7 : (7 : ℕ) < sig.nDmaSem := by show 7 < 21; omega
  have hd8 : (8 : ℕ) < sig.nDmaSem := by show 8 < 21; omega
  have hd9 : (9 : ℕ) < sig.nDmaSem := by show 9 < 21; omega
  have hd10 : (10 : ℕ) < sig.nDmaSem := by show 10 < 21; omega
  have hd11 : (11 : ℕ) < sig.nDmaSem := by show 11 < 21; omega
  have hd12 : (12 : ℕ) < sig.nDmaSem := by show 12 < 21; omega
  have hd13 : (13 : ℕ) < sig.nDmaSem := by show 13 < 21; omega
  have hd14 : (14 : ℕ) < sig.nDmaSem := by show 14 < 21; omega
  have hd15 : (15 : ℕ) < sig.nDmaSem := by show 15 < 21; omega
  have hd16 : (16 : ℕ) < sig.nDmaSem := by show 16 < 21; omega
  have hd17 : (17 : ℕ) < sig.nDmaSem := by show 17 < 21; omega
  have hd18 : (18 : ℕ) < sig.nDmaSem := by show 18 < 21; omega
  have hd19 : (19 : ℕ) < sig.nDmaSem := by show 19 < 21; omega
  have hb0 : (0 : ℕ) < 10 := by omega
  have hl0 : (0 : ℕ) < 100 := by omega
  have hb1 : (1 : ℕ) < 10 := by omega
  have hl1 : (1 : ℕ) < 100 := by omega
  have hb2 : (2 : ℕ) < 10 := by omega
  have hl2 : (2 : ℕ) < 100 := by omega
  have hb3 : (3 : ℕ) < 10 := by omega
  have hl3 : (3 : ℕ) < 100 := by omega
  have hb4 : (4 : ℕ) < 10 := by omega
  have hl4 : (4 : ℕ) < 100 := by omega
  have hb5 : (5 : ℕ) < 10 := by omega
  have hl5 : (5 : ℕ) < 100 := by omega
  have hb6 : (6 : ℕ) < 10 := by omega
  have hl6 : (6 : ℕ) < 100 := by omega
  have hb7 : (7 : ℕ) < 10 := by omega
  have hl7 : (7 : ℕ) < 100 := by omega
  have hb8 : (8 : ℕ) < 10 := by omega
  have hl8 : (8 : ℕ) < 100 := by omega
  have hb9 : (9 : ℕ) < 10 := by omega
  have hl9 : (9 : ℕ) < 100 := by omega
  sl_exec

  ihave FG0c := (gather_canon m d L 0 hb0 hpre' 0 hl0 ![0, 0] (lst_inb 0 hl0) rfl fr (tile_body.sl.gather0 m d L hin) (hin _ _ _) rfl (xtok L (0 : Fin 10)) (SemLoc.dma ⟨0, hd0⟩ : SemLoc sig) 262144) $$ Hg0
  ihave FG1c := (gather_canon m d L 1 hb1 hpre' 1 hl1 ![1, 0] (lst_inb 1 hl1) rfl fr (tile_body.sl.gather1 m d L hin) (hin _ _ _) rfl (xtok L (1 : Fin 10)) (SemLoc.dma ⟨1, hd1⟩ : SemLoc sig) 262144) $$ Hg1
  ihave FG2c := (gather_canon m d L 2 hb2 hpre' 2 hl2 ![2, 0] (lst_inb 2 hl2) rfl fr (tile_body.sl.gather2 m d L hin) (hin _ _ _) rfl (xtok L (2 : Fin 10)) (SemLoc.dma ⟨2, hd2⟩ : SemLoc sig) 262144) $$ Hg2
  ihave FG3c := (gather_canon m d L 3 hb3 hpre' 3 hl3 ![3, 0] (lst_inb 3 hl3) rfl fr (tile_body.sl.gather3 m d L hin) (hin _ _ _) rfl (xtok L (3 : Fin 10)) (SemLoc.dma ⟨3, hd3⟩ : SemLoc sig) 262144) $$ Hg3
  ihave FG4c := (gather_canon m d L 4 hb4 hpre' 4 hl4 ![4, 0] (lst_inb 4 hl4) rfl fr (tile_body.sl.gather4 m d L hin) (hin _ _ _) rfl (xtok L (4 : Fin 10)) (SemLoc.dma ⟨4, hd4⟩ : SemLoc sig) 262144) $$ Hg4
  ihave FG5c := (gather_canon m d L 5 hb5 hpre' 5 hl5 ![5, 0] (lst_inb 5 hl5) rfl fr (tile_body.sl.gather5 m d L hin) (hin _ _ _) rfl (xtok L (5 : Fin 10)) (SemLoc.dma ⟨5, hd5⟩ : SemLoc sig) 262144) $$ Hg5
  ihave FG6c := (gather_canon m d L 6 hb6 hpre' 6 hl6 ![6, 0] (lst_inb 6 hl6) rfl fr (tile_body.sl.gather6 m d L hin) (hin _ _ _) rfl (xtok L (6 : Fin 10)) (SemLoc.dma ⟨6, hd6⟩ : SemLoc sig) 262144) $$ Hg6
  ihave FG7c := (gather_canon m d L 7 hb7 hpre' 7 hl7 ![7, 0] (lst_inb 7 hl7) rfl fr (tile_body.sl.gather7 m d L hin) (hin _ _ _) rfl (xtok L (7 : Fin 10)) (SemLoc.dma ⟨7, hd7⟩ : SemLoc sig) 262144) $$ Hg7
  ihave FG8c := (gather_canon m d L 8 hb8 hpre' 8 hl8 ![8, 0] (lst_inb 8 hl8) rfl fr (tile_body.sl.gather8 m d L hin) (hin _ _ _) rfl (xtok L (8 : Fin 10)) (SemLoc.dma ⟨8, hd8⟩ : SemLoc sig) 262144) $$ Hg8
  ihave FG9c := (gather_canon m d L 9 hb9 hpre' 9 hl9 ![9, 0] (lst_inb 9 hl9) rfl fr (tile_body.sl.gather9 m d L hin) (hin _ _ _) rfl (xtok L (9 : Fin 10)) (SemLoc.dma ⟨9, hd9⟩ : SemLoc sig) 262144) $$ Hg9
  rw [Prog.bind_assoc]
  sl_for (inv m d L O W (m (oLoc d))) $$ [Hmw Hch Hlrest HO FG0c FG1c FG2c FG3c FG4c FG5c FG6c FG7c FG8c FG9c Hs0 Hs1 Hs2 Hs3 Hs4 Hs5 Hs6 Hs7 Hs8 Hs9]
  case region =>
    intro k acc
    have hk10 : k.val < 10 := lt_of_lt_of_le k.isLt k0_t1_abs.2.1
    by_cases hk0 : k.val = 0
    · exact trip_zero m d L O W (m (oLoc d)) hpre' k acc hk0
    by_cases hk9 : k.val = 9
    · exact trip_last m d L O W (m (oLoc d)) hpre' k acc hk9
    · exact trip_mid m d L O W (m (oLoc d)) hpre' k acc (by omega) (by omega)
  · rw [inv_zero]
    unfold inv0 common FG0 FG1 FG2 FG3 FG4 FG5 FG6 FG7 FG8 FG9 GD0 GD1 GD2 GD3 GD4 GD5 GD6 GD7 GD8 GD9
    rw [show (10 * 0 : ℕ) = 0 from rfl, Finset.range_zero, bigSep_empty]
    isplitl [Hch Hlrest HO]
    · isplitr
      · iexact Hmw
      isplitr
      · iempintro
      isplitl [Hch]
      · iexact Hch
      isplitr
      · iempintro
      isplitl [Hlrest]
      · iexact Hlrest
      iexists _; isplitr
      swap
      · iexact HO
      ipureintro
      intro p hp
      rcases Finset.mem_insert.mp hp with rfl | hp
      · exact .inr rfl
      · exact .inl hp
    isplitl [FG0c]
    · iexact FG0c
    isplitl [FG1c]
    · iexact FG1c
    isplitl [FG2c]
    · iexact FG2c
    isplitl [FG3c]
    · iexact FG3c
    isplitl [FG4c]
    · iexact FG4c
    isplitl [FG5c]
    · iexact FG5c
    isplitl [FG6c]
    · iexact FG6c
    isplitl [FG7c]
    · iexact FG7c
    isplitl [FG8c]
    · iexact FG8c
    isplitl [FG9c]
    · iexact FG9c
    isplitl [Hs0]
    · iexact Hs0
    isplitl [Hs1]
    · iexact Hs1
    isplitl [Hs2]
    · iexact Hs2
    isplitl [Hs3]
    · iexact Hs3
    isplitl [Hs4]
    · iexact Hs4
    isplitl [Hs5]
    · iexact Hs5
    isplitl [Hs6]
    · iexact Hs6
    isplitl [Hs7]
    · iexact Hs7
    isplitl [Hs8]
    · iexact Hs8
    iexact Hs9

  iintro %acc
  rw [inv_fin m d L O W (m (oLoc d)) (Scf.trips k0_t1_loop.lb k0_t1_loop.ub k0_t1_loop.st) (by decide +kernel) acc]
  unfold invF common FS0 FS1 FS2 FS3 FS4 FS5 FS6 FS7 FS8 FS9 SD0 SD1 SD2 SD3 SD4 SD5 SD6 SD7 SD8 SD9 tokx
  rw [show (10 * 10 : ℕ) = 100 from rfl]
  iintro ⟨⟨-, Hdone, -, Hlret, -, %W', %hW', HO'⟩, FS0, FS1, FS2, FS3, FS4, FS5, FS6, FS7, FS8, FS9, HG0, HG1, HG2, HG3, HG4, HG5, HG6, HG7, HG8, HG9, HX0, HX1, HX2, HX3, HX4, HX5, HX6, HX7, HX8, HX9⟩
  sl_exec
  sl_step
  have hl90 : (90 : ℕ) < 100 := by omega
  have hl91 : (91 : ℕ) < 100 := by omega
  have hl92 : (92 : ℕ) < 100 := by omega
  have hl93 : (93 : ℕ) < 100 := by omega
  have hl94 : (94 : ℕ) < 100 := by omega
  have hl95 : (95 : ℕ) < 100 := by omega
  have hl96 : (96 : ℕ) < 100 := by omega
  have hl97 : (97 : ℕ) < 100 := by omega
  have hl98 : (98 : ℕ) < 100 := by omega
  have hl99 : (99 : ℕ) < 100 := by omega
  isplitl [Hi Hxr HX0 HX1 HX2 HX3 HX4 HX5 HX6 HX7 HX8 HX9 Hdone FS0_dst FS1_dst FS2_dst FS3_dst FS4_dst FS5_dst FS6_dst FS7_dst FS8_dst FS9_dst]
  · iapply (close_res m d L)
    unfold tokx
    isplitl [Hi]
    · iexact Hi
    isplitl [Hxr]
    · iexact Hxr
    isplitl [HX0]
    · iexact HX0
    isplitl [HX1]
    · iexact HX1
    isplitl [HX2]
    · iexact HX2
    isplitl [HX3]
    · iexact HX3
    isplitl [HX4]
    · iexact HX4
    isplitl [HX5]
    · iexact HX5
    isplitl [HX6]
    · iexact HX6
    isplitl [HX7]
    · iexact HX7
    isplitl [HX8]
    · iexact HX8
    isplitl [HX9]
    · iexact HX9
    rw [(bigSep_range_push10 (chP d L (widL L) (OUT m d)) 90 : bigSep (Finset.range 100) _ = _)]
    isplitl [Hdone]
    · iexact Hdone
    isplitl [FS0_dst]
    · iapply (chP_of d L (widL L) (OUT m d) 90 (90) rfl hl90) $$ FS0_dst
    isplitl [FS1_dst]
    · iapply (chP_of d L (widL L) (OUT m d) 91 (90 + 1) rfl hl91) $$ FS1_dst
    isplitl [FS2_dst]
    · iapply (chP_of d L (widL L) (OUT m d) 92 (90 + 2) rfl hl92) $$ FS2_dst
    isplitl [FS3_dst]
    · iapply (chP_of d L (widL L) (OUT m d) 93 (90 + 3) rfl hl93) $$ FS3_dst
    isplitl [FS4_dst]
    · iapply (chP_of d L (widL L) (OUT m d) 94 (90 + 4) rfl hl94) $$ FS4_dst
    isplitl [FS5_dst]
    · iapply (chP_of d L (widL L) (OUT m d) 95 (90 + 5) rfl hl95) $$ FS5_dst
    isplitl [FS6_dst]
    · iapply (chP_of d L (widL L) (OUT m d) 96 (90 + 6) rfl hl96) $$ FS6_dst
    isplitl [FS7_dst]
    · iapply (chP_of d L (widL L) (OUT m d) 97 (90 + 7) rfl hl97) $$ FS7_dst
    isplitl [FS8_dst]
    · iapply (chP_of d L (widL L) (OUT m d) 98 (90 + 8) rfl hl98) $$ FS8_dst
    iapply (chP_of d L (widL L) (OUT m d) 99 (90 + 9) rfl hl99) $$ FS9_dst
  isplitl [Hlret FS0_src FS1_src FS2_src FS3_src FS4_src FS5_src FS6_src FS7_src FS8_src FS9_src Hbufs]
  · ihave Hsc := (close_scratch' d L (RF m d L ⟨90, hl90⟩) (RF m d L ⟨91, hl91⟩) (RF m d L ⟨92, hl92⟩) (RF m d L ⟨93, hl93⟩) (RF m d L ⟨94, hl94⟩) (RF m d L ⟨95, hl95⟩) (RF m d L ⟨96, hl96⟩) (RF m d L ⟨97, hl97⟩) (RF m d L ⟨98, hl98⟩) (RF m d L ⟨99, hl99⟩) (IDXV m d L)) $$ [Hlret FS0_src FS1_src FS2_src FS3_src FS4_src FS5_src FS6_src FS7_src FS8_src FS9_src]
    · isplitl [Hlret]
      · iexact Hlret
      isplitl [FS0_src]
      · iexact FS0_src
      isplitl [FS1_src]
      · iexact FS1_src
      isplitl [FS2_src]
      · iexact FS2_src
      isplitl [FS3_src]
      · iexact FS3_src
      isplitl [FS4_src]
      · iexact FS4_src
      isplitl [FS5_src]
      · iexact FS5_src
      isplitl [FS6_src]
      · iexact FS6_src
      isplitl [FS7_src]
      · iexact FS7_src
      isplitl [FS8_src]
      · iexact FS8_src
      iexact FS9_src
    icases Hsc with ⟨HA, HB⟩
    isplitl [HA]
    · iexact HA
    isplitl [HB]
    · iexact HB
    iexact Hbufs
  isplitl [HG0 HG1 HG2 HG3 HG4 HG5 HG6 HG7 HG8 HG9 FS0 FS1 FS2 FS3 FS4 FS5 FS6 FS7 FS8 FS9 Hc]
  · isplitl [HG0 HG1 HG2 HG3 HG4 HG5 HG6 HG7 HG8 HG9]
    · rw [bigSep_fin10]
      isplitl [HG0]
      · iexact HG0
      isplitl [HG1]
      · iexact HG1
      isplitl [HG2]
      · iexact HG2
      isplitl [HG3]
      · iexact HG3
      isplitl [HG4]
      · iexact HG4
      isplitl [HG5]
      · iexact HG5
      isplitl [HG6]
      · iexact HG6
      isplitl [HG7]
      · iexact HG7
      isplitl [HG8]
      · iexact HG8
      iexact HG9
    isplitl [FS0 FS1 FS2 FS3 FS4 FS5 FS6 FS7 FS8 FS9]
    · rw [bigSep_fin10]
      isplitl [FS0]
      · iexact FS0
      isplitl [FS1]
      · iexact FS1
      isplitl [FS2]
      · iexact FS2
      isplitl [FS3]
      · iexact FS3
      isplitl [FS4]
      · iexact FS4
      isplitl [FS5]
      · iexact FS5
      isplitl [FS6]
      · iexact FS6
      isplitl [FS7]
      · iexact FS7
      isplitl [FS8]
      · iexact FS8
      iexact FS9
    iexact Hc
  iexists _; isplitr
  swap
  · iexact HO'
  ipureintro
  intro p hp
  simp only [Finset.mem_insert] at hp
  rcases hp with rfl | rfl | rfl | rfl | rfl | rfl | rfl | rfl | rfl | rfl | hp
  · exact .inr rfl
  · exact .inr rfl
  · exact .inr rfl
  · exact .inr rfl
  · exact .inr rfl
  · exact .inr rfl
  · exact .inr rfl
  · exact .inr rfl
  · exact .inr rfl
  · exact .inr rfl
  · exact hW' p hp

end Cert.Proof.KernelIdealRun

end
-- ==== Proof.lean ====
/-
  Both programs compute the table lookup `Lookup.emb`: entry (b, l, e) of the result is entry e of the table row that row
  number (b, l) names, for row numbers that the precondition puts in [0, 99999]; the second result is the constant length 200.

  The kernel: the host rearranges the 1024 x 200 row numbers as 32 x 100 x 64, one row of 100 chunks of 64 row numbers for
  each of the 2 x 16 workers; a worker moves its 100 chunks of 64 table rows through a ring of ten slots, a gather into a slot
  and a copy of the slot to its block of the output, and hands back its block holding the rows its words name; the 32 blocks
  are the restrictions of one function of the arguments, `Lookup.tiled`, and that function read in the 1024 x 200 x 128
  arrangement is the lookup (the two arrangements hold the same row-major sequence). The reference: a gather of rows after a
  wrap of negative row numbers and under a mask of the row numbers in range, which in range are the identity and all ones.
  The word-level program and the idealized one are the same text, so the kernel's proof is stated once and read at both.
  At the ideal instance the two results agree entry by entry, being both the lookup of the same arguments.
-/
import proofs.«206297_g77653008712327_cont_9to1c4b_438_14_alg».proof.Defs
import proofs.«206297_g77653008712327_cont_9to1c4b_438_14_alg».proof.Proof.Gen.Kernel
import proofs.«206297_g77653008712327_cont_9to1c4b_438_14_alg».proof.Proof.Gen.Kernel.Skeleton
import proofs.«206297_g77653008712327_cont_9to1c4b_438_14_alg».proof.Proof.Gen.KernelIdeal
import proofs.«206297_g77653008712327_cont_9to1c4b_438_14_alg».proof.Proof.Gen.KernelIdeal.Skeleton
import proofs.«206297_g77653008712327_cont_9to1c4b_438_14_alg».proof.Proof.Gen.ReferenceIdeal
import proofs.«206297_g77653008712327_cont_9to1c4b_438_14_alg».proof.Proof.Gen.Pre_input_domain
import proofs.«206297_g77653008712327_cont_9to1c4b_438_14_alg».proof.Proof.PreRange
import proofs.«206297_g77653008712327_cont_9to1c4b_438_14_alg».proof.Proof.Reshape
import proofs.«206297_g77653008712327_cont_9to1c4b_438_14_alg».proof.Proof.RefRun
import proofs.«206297_g77653008712327_cont_9to1c4b_438_14_alg».proof.Proof.KObl
import proofs.«206297_g77653008712327_cont_9to1c4b_438_14_alg».proof.Proof.KBody
import proofs.«206297_g77653008712327_cont_9to1c4b_438_14_alg».proof.Proof.KIObl
import proofs.«206297_g77653008712327_cont_9to1c4b_438_14_alg».proof.Proof.KIBody
import Idealize.ShloMosaic.Adequacy
import Idealize.ShloMosaic.Init

noncomputable section

namespace Cert.Proof

open Idealize.ShloMosaic Idealize.SL.Sem

/-- The word-level kernel runs and leaves its arguments as launched: its run with the two results dropped. The
    precondition at each device puts the row numbers in range, which is what the workers' task asks. -/
theorem frame_Kernel : Cert.frame_Kernel := fun m ρ hpre =>
  (θ_run _ _ _).mono (fun _ h c => ⟨(h c).2.2.1, (h c).2.2.2⟩)
    (KernelRun.run_main (F := Bits) m ρ
      (KernelRun.tileObl m fun d L O W hO =>
        KernelRun.tile_body m d L KernelRun.facts (fun d => Lookup.inRange_of_pre _ _ (hpre d)) O W hO))

/-- The idealized kernel's run: every device ends with the rearranged lookup, the lengths, and its arguments. -/
theorem run_KernelIdeal (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (Cert.KernelIdeal.threads (F := Ideal)) ⟨m, fun _ => 0, ρ⟩ (KernelIdealRun.QC m) :=
  KernelIdealRun.run_main (F := Ideal) m ρ
    (KernelIdealRun.tileObl m fun d L O W hO =>
      KernelIdealRun.tile_body m d L KernelIdealRun.facts (fun d => Lookup.inRange_of_pre _ _ (hpre d)) O W hO)

/-- The idealized kernel runs and leaves its arguments as launched. -/
theorem frame_KernelIdeal : Cert.frame_KernelIdeal := fun m ρ hpre =>
  (θ_run _ _ _).mono (fun _ h c => ⟨(h c).2.2.1, (h c).2.2.2⟩) (run_KernelIdeal m ρ hpre)

/-- The reference runs and leaves its arguments as launched: its run with the two results dropped. -/
theorem frame_ReferenceIdeal : Cert.frame_ReferenceIdeal := fun m ρ hpre =>
  (θ_run _ _ _).mono (fun _ h c => ⟨(h c).2.2.1, (h c).2.2.2⟩)
    (Cert.ReferenceIdeal.RefValue.run m ρ fun c => Lookup.inRange_of_pre _ _ (hpre c))

/-- At the ideal instance both programs end with the lookup of the arguments and the lengths: the kernel's rearranged
    result read in the 1024 x 200 x 128 arrangement is the lookup, and the reference's result is the lookup of its own
    arguments, which are the kernel's. -/
theorem algebraic : Cert.algebraic_KernelIdeal_ReferenceIdeal := fun m ρ m' ρ' hpre hagree =>
  ⟨fun c => Lookup.emb (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun _ => Lookup.lens,
    (θ_run _ _ _).mono (fun _ h c =>
        ⟨(h c).1.trans (Lookup.emb_eq_reshape _ _ _ _), (h c).2.1.trans (Lookup.lens_eq _), (h c).2.2.1, (h c).2.2.2⟩)
      (run_KernelIdeal m ρ hpre),
    (θ_run _ _ _).mono (fun _ h c => ⟨(h c).1.trans (by rw [(hagree c).1, (hagree c).2]), (h c).2.1, (h c).2.2.1, (h c).2.2.2⟩)
      (Cert.ReferenceIdeal.RefValue.run m' ρ' fun c => by
        rw [(hagree c).1]; exact Lookup.inRange_of_pre _ _ (hpre c))⟩

theorem claim : Cert.Claim := ⟨Cert.Kernel.Gen.facts, Cert.KernelIdeal.Gen.facts, Cert.ReferenceIdeal.Gen.facts, Cert.Pre_input_domain.Gen.facts,
  frame_Kernel, frame_KernelIdeal, frame_ReferenceIdeal, trivial, algebraic⟩

end Cert.Proof

end
